-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S1152x512 .f32 .bf16
  ∧ IdealRules.truncf_extf.Statement Cert.KernelIdeal.S1152x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x1 : Shape := ⟨3, ![32, 2048, 1]⟩
abbrev S32x2048x512 : Shape := ⟨3, ![32, 2048, 512]⟩
abbrev S_ : Shape := ⟨0, ![]⟩

class Facts : Prop where
  bcast_S_S32x2048x1 : S_.BroadcastsInDim S32x2048x1 (![] : Fin 0 → Fin S32x2048x1.rank)
  reducesTo_S32x2048x1_S_d0_1_2 : S32x2048x1.ReducesTo [0, 1, 2] S_
  h_S_ : 0 < S_.numel
  bcast_S_S32x2048x512 : S_.BroadcastsInDim S32x2048x512 (![] : Fin 0 → Fin S32x2048x512.rank)
  reducesTo_S32x2048x512_S_d0_1_2 : S32x2048x512.ReducesTo [0, 1, 2] S_

variable [Facts]

def fn {F : FTy → Type} [FloatOps F] (main_arg0 : FVec F S32x2048x1 .f32) (main_arg1 : FVec F S32x2048x512 .f32) : IVec S_ 1 :=
  let main_v0 : FVec F S32x2048x1 .f32 := Host.absf main_arg0
  let main_cst : FVec F S_ .f32 := constant S_ .f32 0x7F800000#32
  let main_v1 : FVec F S32x2048x1 .f32 := broadcastInDim S32x2048x1 ![] bcast_S_S32x2048x1 main_cst
  let main_v2 : IVec S32x2048x1 1 := cmpf .olt main_v0 main_v1
  let main_c : IVec S_ 1 := constantI S_ 1 1#1
  let main_v3 : IVec S_ 1 := (fun x v => Host.reduce IntOp.andi x v reducesTo_S32x2048x1_S_d0_1_2 h_S_) main_v2 main_c
  let main_v4 : FVec F S32x2048x512 .f32 := Host.absf main_arg1
  let main_cst_0 : FVec F S_ .f32 := constant S_ .f32 0x7F800000#32
  let main_v5 : FVec F S32x2048x512 .f32 := broadcastInDim S32x2048x512 ![] bcast_S_S32x2048x512 main_cst_0
  let main_v6 : IVec S32x2048x512 1 := cmpf .olt main_v4 main_v5
  let main_c_1 : IVec S_ 1 := constantI S_ 1 1#1
  let main_v7 : IVec S_ 1 := (fun x v => Host.reduce IntOp.andi x v reducesTo_S32x2048x512_S_d0_1_2 h_S_) main_v6 main_c_1
  let main_v8 : IVec S_ 1 := andi main_v3 main_v7
  main_v8
-- ==== Kernel.lean ====
abbrev S32x2048x1 : Shape := ⟨3, ![32, 2048, 1]⟩
abbrev S32x2048x512 : Shape := ⟨3, ![32, 2048, 512]⟩
abbrev S32x2048 : Shape := ⟨2, ![32, 2048]⟩
abbrev S_ : Shape := ⟨0, ![]⟩
abbrev S32x2047 : Shape := ⟨2, ![32, 2047]⟩
abbrev S32 : Shape := ⟨1, ![32]⟩
abbrev S32x1x2048 : Shape := ⟨3, ![32, 1, 2048]⟩
abbrev S32x1x1 : Shape := ⟨3, ![32, 1, 1]⟩
abbrev S1x2048x512 : Shape := ⟨3, ![1, 2048, 512]⟩
abbrev S1x1x2048 : Shape := ⟨3, ![1, 1, 2048]⟩
abbrev S1x1x1 : Shape := ⟨3, ![1, 1, 1]⟩
abbrev S1152x512 : Shape := ⟨2, ![1152, 512]⟩
abbrev S1152x1 : Shape := ⟨2, ![1152, 1]⟩
abbrev S1x512x512 : Shape := ⟨3, ![1, 512, 512]⟩
abbrev S512x512 : Shape := ⟨2, ![512, 512]⟩
abbrev S1x1x512 : Shape := ⟨3, ![1, 1, 512]⟩
abbrev S512 : Shape := ⟨1, ![512]⟩
abbrev S1x512 : Shape := ⟨2, ![1, 512]⟩
abbrev S1152 : Shape := ⟨1, ![1152]⟩
abbrev S1 : Shape := ⟨1, ![1]⟩
abbrev S1x1 : Shape := ⟨2, ![1, 1]⟩

abbrev nBuf : Space → Nat
  | .hbm => 66
  | .vmem => 20
  | .smem => 0
  | _ => 0

abbrev bufTy : (tb : Table) → Fin (tcTables nBuf tb) → BufTy
  | .hbm, ⟨0, _⟩ => ⟨S32x2048x1, .f32⟩
  | .hbm, ⟨1, _⟩ => ⟨S32x2048x512, .f32⟩
  | .hbm, ⟨2, _⟩ => ⟨S32x2048, .f32⟩
  | .hbm, ⟨3, _⟩ => ⟨S_, .f32⟩
  | .hbm, ⟨4, _⟩ => ⟨S32x2048, .f32⟩
  | .hbm, ⟨5, _⟩ => ⟨S32x2048, .i1⟩
  | .hbm, ⟨6, _⟩ => ⟨S32x2047, .i1⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i1⟩
  | .hbm, ⟨12, _⟩ => ⟨S32x2048, .i1⟩
  | .hbm, ⟨13, _⟩ => ⟨S32x2048, .i1⟩
  | .hbm, ⟨14, _⟩ => ⟨S32x2048, .i1⟩
  | .hbm, ⟨15, _⟩ => ⟨S32x2048, .i32⟩
  | .hbm, ⟨16, _⟩ => ⟨S_, .i32⟩
  | .hbm, ⟨17, _⟩ => ⟨S_, .i32⟩
  | .hbm, ⟨18, _⟩ => ⟨S32x2048, .i32⟩
  | .hbm, ⟨19, _⟩ => ⟨S_, .i32⟩
  | .hbm, ⟨20, _⟩ => ⟨S32x2048, .i32⟩
  | .hbm, ⟨21, _⟩ => ⟨S32x2048, .i32⟩
  | .hbm, ⟨22, _⟩ => ⟨S32x2048, .i32⟩
  | .hbm, ⟨23, _⟩ => ⟨S_, .i32⟩
  | .hbm, ⟨24, _⟩ => ⟨S32, .i32⟩
  | .hbm, ⟨25, _⟩ => ⟨S32, .f32⟩
  | .hbm, ⟨26, _⟩ => ⟨S_, .f32⟩
  | .hbm, ⟨27, _⟩ => ⟨S32x2048, .f32⟩
  | .hbm, ⟨28, _⟩ => ⟨S32x2048, .i1⟩
  | .hbm, ⟨29, _⟩ => ⟨S32x2048, .i1⟩
  | .hbm, ⟨30, _⟩ => ⟨S32x2048, .i1⟩
  | .hbm, ⟨31, _⟩ => ⟨S_, .i32⟩
  | .hbm, ⟨32, _⟩ => ⟨S_, .i32⟩
  | .hbm, ⟨33, _⟩ => ⟨S32x2048, .i32⟩
  | .hbm, ⟨34, _⟩ => ⟨S32x2048, .i32⟩
  | .hbm, ⟨35, _⟩ => ⟨S_, .i32⟩
  | .hbm, ⟨36, _⟩ => ⟨S_, .i32⟩
  | .hbm, ⟨37, _⟩ => ⟨S32x2048, .i32⟩
  | .hbm, ⟨38, _⟩ => ⟨S32x2048, .i32⟩
  | .hbm, ⟨39, _⟩ => ⟨S32x1x2048, .i32⟩
  | .hbm, ⟨40, _⟩ => ⟨S32x1x2048, .i32⟩
  | .hbm, ⟨41, _⟩ => ⟨S32x1x2048, .f32⟩
  | .hbm, ⟨42, _⟩ => ⟨S32x1x1, .f32⟩
  | .hbm, ⟨43, _⟩ => ⟨S32x1x1, .f32⟩
  | .hbm, ⟨44, _⟩ => ⟨S32x1x1, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S32, .f32⟩
  | .hbm, ⟨53, _⟩ => ⟨S_, .f32⟩
  | .hbm, ⟨54, _⟩ => ⟨S32, .f32⟩
  | .hbm, ⟨55, _⟩ => ⟨S32, .f32⟩
  | .hbm, ⟨56, _⟩ => ⟨S32, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .local _ .vmem, ⟨0, _⟩ => ⟨S1x2048x512, .f32⟩
  | .local _ .vmem, ⟨1, _⟩ => ⟨S1x2048x512, .f32⟩
  | .local _ .vmem, ⟨2, _⟩ => ⟨S1x1x2048, .i32⟩
  | .local _ .vmem, ⟨3, _⟩ => ⟨S1x1x2048, .i32⟩
  | .local _ .vmem, ⟨4, _⟩ => ⟨S1x1x2048, .i32⟩
  | .local _ .vmem, ⟨5, _⟩ => ⟨S1x1x2048, .i32⟩
  | .local _ .vmem, ⟨6, _⟩ => ⟨S1x1x2048, .f32⟩
  | .local _ .vmem, ⟨7, _⟩ => ⟨S1x1x2048, .f32⟩
  | .local _ .vmem, ⟨8, _⟩ => ⟨S1x1x1, .f32⟩
  | .local _ .vmem, ⟨9, _⟩ => ⟨S1x1x1, .f32⟩
  | .local _ .vmem, ⟨10, _⟩ => ⟨S1x1x1, .f32⟩
  | .local _ .vmem, ⟨11, _⟩ => ⟨S1x1x1, .f32⟩
  | .local _ .vmem, ⟨12, _⟩ => ⟨S1x1x1, .f32⟩
  | .local _ .vmem, ⟨13, _⟩ => ⟨S1x1x1, .f32⟩
  | .local _ .vmem, ⟨14, _⟩ => ⟨S1152x512, .f32⟩
  | .local _ .vmem, ⟨15, _⟩ => ⟨S1152x512, .f32⟩
  | .local _ .vmem, ⟨16, _⟩ => ⟨S1152x1, .f32⟩
  | .local _ .vmem, ⟨17, _⟩ => ⟨S1152x1, .f32⟩
  | .local _ .vmem, ⟨18, _⟩ => ⟨S1152x1, .f32⟩
  | .local _ .vmem, ⟨19, _⟩ => ⟨S1152x1, .f32⟩
  | _, _ => ⟨S32x2048x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call1_call0_c : Ref sig .tc := ⟨.hbm, 16, rfl⟩
abbrev main_call1_call0_v0 : Ref sig .tc := ⟨.hbm, 17, rfl⟩
abbrev main_v8 : Ref sig .tc := ⟨.hbm, 18, rfl⟩
abbrev main_c_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_call2_v0 : Ref sig .tc := ⟨.hbm, 32, rfl⟩
abbrev main_call2_v1 : Ref sig .tc := ⟨.hbm, 33, rfl⟩
abbrev main_v18 : Ref sig .tc := ⟨.hbm, 34, rfl⟩
abbrev main_c_4 : Ref sig .tc := ⟨.hbm, 35, rfl⟩
abbrev main_call3_v0 : Ref sig .tc := ⟨.hbm, 36, rfl⟩
abbrev main_call3_v1 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23_0 : Ref sig .tc := ⟨.hbm, 42, rfl⟩
abbrev main_v23_1 : Ref sig .tc := ⟨.hbm, 43, rfl⟩
abbrev main_v23_2 : Ref sig .tc := ⟨.hbm, 44, rfl⟩
abbrev main_cst_5 : Ref sig .tc := ⟨.hbm, 45, rfl⟩
abbrev main_v24 : Ref sig .tc := ⟨.hbm, 46, rfl⟩
abbrev main_cst_6 : Ref sig .tc := ⟨.hbm, 47, rfl⟩
abbrev main_v25 : Ref sig .tc := ⟨.hbm, 48, rfl⟩
abbrev main_cst_7 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_8 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_9 : Ref sig .tc := ⟨.hbm, 57, rfl⟩
abbrev main_v32 : Ref sig .tc := ⟨.hbm, 58, rfl⟩
abbrev main_cst_10 : Ref sig .tc := ⟨.hbm, 59, rfl⟩
abbrev main_v33 : Ref sig .tc := ⟨.hbm, 60, rfl⟩
abbrev main_cst_11 : Ref sig .tc := ⟨.hbm, 61, rfl⟩
abbrev main_v34 : Ref sig .tc := ⟨.hbm, 62, rfl⟩
abbrev main_cst_12 : Ref sig .tc := ⟨.hbm, 63, rfl⟩
abbrev main_v35 : Ref sig .tc := ⟨.hbm, 64, rfl⟩
abbrev main_v36 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c4_i32 : BitVec 32 := 4#32
  let v25 : BitVec 32 := Scalar.addi c0_i32 c4_i32
  let c1_i32 : BitVec 32 := 1#32
  ⟨c0_i32, v25, c1_i32⟩
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c512_i32 : BitVec 32 := 512#32
  let v75 : BitVec 32 := Scalar.muli arg14 c512_i32
  v75
def k0_off1 (k0_t1 : Fin k0_t1_loop.trips) : Fin 3 → Nat :=
  let c0_48 : Index := 0#32
  let c0_i32 : BitVec 32 := 0#32
  let c1_i32 : BitVec 32 := 1#32
  let arg14 : BitVec 32 := Scf.iv c0_i32 c1_i32 k0_t1
  let c512_i32 : BitVec 32 := 512#32
  let v75 : BitVec 32 := Scalar.muli arg14 c512_i32
  let v76 : BitVec 32 := v75
  let v77 : Index := Scalar.indexCast v76
  let c0_49 : Index := 0#32
  ![0, v77.toNat, 0]
def k0_off2 (k0_t1 : Fin k0_t1_loop.trips) : Fin 3 → Nat :=
  let c0_50 : Index := 0#32
  let c0_51 : Index := 0#32
  let c0_i32 : BitVec 32 := 0#32
  let c1_i32 : BitVec 32 := 1#32
  let arg14 : BitVec 32 := Scf.iv c0_i32 c1_i32 k0_t1
  let c512_i32 : BitVec 32 := 512#32
  let v75 : BitVec 32 := Scalar.muli arg14 c512_i32
  let v76 : BitVec 32 := v75
  let v80 : Index := Scalar.indexCast v76
  ![0, 0, v80.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S32x2048x1_S32x2048 : S32x2048x1.ShapeCasts S32x2048
  bcast_S_S32x2048 : S_.BroadcastsInDim S32x2048 (![] : Fin 0 → Fin S32x2048.rank)
  slices_S32x2048_S32x2047_0_0 : S32x2048.Slices ![0, 0] S32x2047
  bcast_S_S_ : S_.BroadcastsInDim S_ (![] : Fin 0 → Fin S_.rank)
  pads_S32x2047_S32x2048_000_100 : S32x2047.Pads (![0, 1] : Fin 2 → Nat) ![0, 0] ![0, 0] S32x2048
  h_S_ : 0 < S_.numel
  natLt_1_32 : 1 < 32
  reduceWindows_S32x2048_S32x2048_w1s1p0_0_w2048s1p2047_0 : S32x2048.ReduceWindows (![1, 2048] : Fin 2 → Nat) ![1, 1] ![0, 2047] ![0, 0] S32x2048
  reducesTo_S32x2048_S32_d1 : S32x2048.ReducesTo [1] S32
  shapeCasts_S32x2048_S32x1x2048 : S32x2048.ShapeCasts S32x1x2048
  inb_S1152x512_S1152x512_0_0 : ∀ a, (![0, 0] : Fin 2 → Nat) a + S1152x512.size a ≤ S1152x512.size a
  h_S1152x512 : 0 < S1152x512.numel
  shapeCasts_S1152x512_S1152x512 : S1152x512.ShapeCasts S1152x512
  inb_S1152x1_S1152x1_0_0 : ∀ a, (![0, 0] : Fin 2 → Nat) a + S1152x1.size a ≤ S1152x1.size a
  h_S1152x1 : 0 < S1152x1.numel
  shapeCasts_S1152x1_S1152x1 : S1152x1.ShapeCasts S1152x1
  iota_S1152x512_d0_w32 : S1152x512.Iotas .tc 32 [0]
  h_S1x512x512 : 0 < S1x512x512.numel
  shapeCasts_S1x512x512_S512x512 : S1x512x512.ShapeCasts S512x512
  h_S1x1x512 : 0 < S1x1x512.numel
  shapeCasts_S1x1x512_S512 : S1x1x512.ShapeCasts S512
  shapeCasts_S512_S1x512 : S512.ShapeCasts S1x512
  broadcasts_S1x512_S1152x512 : S1x512.Broadcasts S1152x512
  bitsLt_bf16_f32 : FTy.bits .bf16 < FTy.bits .f32
  reduces_S1152x512_S1152 : S1152x512.Reduces [1] S1152
  shapeCasts_S1152_S1152x1 : S1152.ShapeCasts S1152x1
  broadcasts_S1152x1_S1152x512 : S1152x1.Broadcasts S1152x512
  reduces_S1152x1_S1 : S1152x1.Reduces [0] S1
  shapeCasts_S1_S1x1 : S1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S32x1x1_S_d0_1_2 : S32x1x1.ReducesTo [0, 1, 2] S_
  shapeCasts_S32x1x1_S32 : S32x1x1.ShapeCasts S32
  bcast_S_S32 : S_.BroadcastsInDim S32 (![] : Fin 0 → Fin S32.rank)
  reducesTo_S32_S_d0 : S32.ReducesTo [0] S_
  dot_S1152x512_S512x512_S1152x512_1_0_0_1_n_n_wf : DotDims.WF S1152x512 S512x512 S1152x512 [1] [0] [0] [1] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S1x512x512.size a ≤ S1x2048x512.size a
  k0_off2_inb : ∀ k0_t1 : Fin k0_t1_loop.trips, ∀ a, (k0_off2 k0_t1) a + S1x1x512.size a ≤ S1x1x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S32x2048x512.size a
  hwx0_0 : ∀ i : grid0.Coords, EltTy.bits .f32 = 32 ∨ (Rect.block (s := S32x2048x512) S1x2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048.size a ≤ S32x1x2048.size a
  hwx0_1 : ∀ i : grid0.Coords, EltTy.bits .i32 = 32 ∨ (Rect.block (s := S32x1x2048) S1x1x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048.size a ≤ S32x1x2048.size a
  hwx0_2 : ∀ i : grid0.Coords, EltTy.bits .i32 = 32 ∨ (Rect.block (s := S32x1x2048) S1x1x2048.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S32x1x2048.size a
  hwx0_3 : ∀ i : grid0.Coords, EltTy.bits .f32 = 32 ∨ (Rect.block (s := S32x1x2048) S1x1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S32x1x1.size a
  hwx0_4 : ∀ i : grid0.Coords, EltTy.bits .f32 = 32 ∨ (Rect.block (s := S32x1x1) S1x1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1.size a ≤ S32x1x1.size a
  hwx0_5 : ∀ i : grid0.Coords, EltTy.bits .f32 = 32 ∨ (Rect.block (s := S32x1x1) S1x1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1.size a ≤ S32x1x1.size a
  hwx0_6 : ∀ i : grid0.Coords, EltTy.bits .f32 = 32 ∨ (Rect.block (s := S32x1x1) S1x1x1.size (cc0_transform_6 i) (hinb0_6 i)).WholeWords (EltTy.packing .f32)

variable [Facts₀]

def dot_S1152x512_S512x512_S1152x512_1_0_0_1_n_n : DotDims S1152x512 S512x512 S1152x512 where
  lhsContracting := [1]
  rhsContracting := [0]
  lhsNonContracting := [0]
  rhsNonContracting := [1]
  lhsBatch := []
  rhsBatch := []
  wf := dot_S1152x512_S512x512_S1152x512_1_0_0_1_n_n_wf

abbrev win0_0 : Pipeline.Window sig grid0 :=
  Pipeline.Window.ofSpec (Memref.whole main_arg1) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S1x1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v23_0) S1x1x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v23_1) S1x1x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v23_2) S1x1x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32x2048x1 : Shape := ⟨3, ![32, 2048, 1]⟩
abbrev S32x2048x512 : Shape := ⟨3, ![32, 2048, 512]⟩
abbrev S32x2048 : Shape := ⟨2, ![32, 2048]⟩
abbrev S_ : Shape := ⟨0, ![]⟩
abbrev S32x2047 : Shape := ⟨2, ![32, 2047]⟩
abbrev S32 : Shape := ⟨1, ![32]⟩
abbrev S32x1 : Shape := ⟨2, ![32, 1]⟩
abbrev S65536 : Shape := ⟨1, ![65536]⟩
abbrev S32801 : Shape := ⟨1, ![32801]⟩
abbrev S65536x1 : Shape := ⟨2, ![65536, 1]⟩
abbrev S32800 : Shape := ⟨1, ![32800]⟩
abbrev S1025 : Shape := ⟨1, ![1025]⟩
abbrev S1x1025 : Shape := ⟨2, ![1, 1025]⟩
abbrev S32x1025 : Shape := ⟨2, ![32, 1025]⟩
abbrev S65536x512 : Shape := ⟨2, ![65536, 512]⟩
abbrev S32801x512 : Shape := ⟨2, ![32801, 512]⟩
abbrev S32800x512 : Shape := ⟨2, ![32800, 512]⟩
abbrev S32800x1 : Shape := ⟨2, ![32800, 1]⟩

abbrev nBuf : Space → Nat
  | .hbm => 172
  | .vmem => 0
  | .smem => 0
  | _ => 0

abbrev hbmTy0_0 (i : Nat) : BufTy := match i % 128 with
  | 0 => ⟨S32x2048x1, .f32⟩
  | 1 => ⟨S32x2048x512, .f32⟩
  | 2 => ⟨S32x2048, .f32⟩
  | 3 => ⟨S_, .f32⟩
  | 4 => ⟨S32x2048, .f32⟩
  | 5 => ⟨S32x2048, .i1⟩
  | 6 => ⟨S32x2047, .i1⟩
  | 7 => ⟨S_, .i32⟩
  | 8 => ⟨S_, .i32⟩
  | 9 => ⟨S_, .i32⟩
  | 10 => ⟨S_, .i1⟩
  | 11 => ⟨S_, .i1⟩
  | 12 => ⟨S32x2048, .i1⟩
  | 13 => ⟨S32x2048, .i1⟩
  | 14 => ⟨S32x2048, .i1⟩
  | 15 => ⟨S32x2048, .i32⟩
  | 16 => ⟨S_, .i32⟩
  | 17 => ⟨S_, .i32⟩
  | 18 => ⟨S32x2048, .i32⟩
  | 19 => ⟨S_, .i32⟩
  | 20 => ⟨S32x2048, .i32⟩
  | 21 => ⟨S32x2048, .i32⟩
  | 22 => ⟨S32, .i32⟩
  | 23 => ⟨S32x1, .i32⟩
  | 24 => ⟨S_, .i32⟩
  | 25 => ⟨S32x1, .i32⟩
  | 26 => ⟨S32x1, .i32⟩
  | 27 => ⟨S32x2048, .i32⟩
  | 28 => ⟨S32x2048, .i32⟩
  | 29 => ⟨S_, .i32⟩
  | 30 => ⟨S_, .i32⟩
  | 31 => ⟨S32x2048, .i32⟩
  | 32 => ⟨S32x2048, .i32⟩
  | 33 => ⟨S65536, .i32⟩
  | 34 => ⟨S32x2048, .f32⟩
  | 35 => ⟨S65536, .f32⟩
  | 36 => ⟨S65536, .f32⟩
  | 37 => ⟨S_, .f32⟩
  | 38 => ⟨S32801, .f32⟩
  | 39 => ⟨S65536x1, .i32⟩
  | 40 => ⟨S32801, .f32⟩
  | 41 => ⟨S32800, .f32⟩
  | 42 => ⟨S_, .f32⟩
  | 43 => ⟨S32800, .f32⟩
  | 44 => ⟨S32800, .f32⟩
  | 45 => ⟨S65536, .f32⟩
  | 46 => ⟨S_, .f32⟩
  | 47 => ⟨S32801, .f32⟩
  | 48 => ⟨S65536x1, .i32⟩
  | 49 => ⟨S32801, .f32⟩
  | 50 => ⟨S32800, .f32⟩
  | 51 => ⟨S32800, .f32⟩
  | 52 => ⟨S_, .i32⟩
  | 53 => ⟨S_, .i32⟩
  | 54 => ⟨S_, .i32⟩
  | 55 => ⟨S65536, .i32⟩
  | 56 => ⟨S65536, .i32⟩
  | 57 => ⟨S_, .i32⟩
  | 58 => ⟨S65536, .i32⟩
  | 59 => ⟨S65536, .i32⟩
  | 60 => ⟨S_, .i32⟩
  | 61 => ⟨S65536, .i32⟩
  | 62 => ⟨S65536, .i1⟩
  | 63 => ⟨S_, .i32⟩
  | 64 => ⟨S65536, .i32⟩
  | 65 => ⟨S65536, .i32⟩
  | 66 => ⟨S65536, .i32⟩
  | 67 => ⟨S65536x1, .i32⟩
  | 68 => ⟨S65536, .f32⟩
  | 69 => ⟨S65536, .f32⟩
  | 70 => ⟨S65536, .f32⟩
  | 71 => ⟨S65536, .f32⟩
  | 72 => ⟨S_, .f32⟩
  | 73 => ⟨S32801, .f32⟩
  | 74 => ⟨S65536x1, .i32⟩
  | 75 => ⟨S32801, .f32⟩
  | 76 => ⟨S32800, .f32⟩
  | 77 => ⟨S32800, .f32⟩
  | 78 => ⟨S32x2048, .i32⟩
  | 79 => ⟨S_, .i32⟩
  | 80 => ⟨S32, .i32⟩
  | 81 => ⟨S1025, .i32⟩
  | 82 => ⟨S1x1025, .i32⟩
  | 83 => ⟨S32x1, .i32⟩
  | 84 => ⟨S32x1025, .i32⟩
  | 85 => ⟨S32x1025, .i32⟩
  | 86 => ⟨S32x1025, .i1⟩
  | 87 => ⟨S32x1025, .f32⟩
  | 88 => ⟨S32x1025, .f32⟩
  | 89 => ⟨S32x1025, .f32⟩
  | 90 => ⟨S_, .f32⟩
  | 91 => ⟨S32, .f32⟩
  | 92 => ⟨S_, .i32⟩
  | 93 => ⟨S32, .i32⟩
  | 94 => ⟨S32, .i32⟩
  | 95 => ⟨S32, .f32⟩
  | 96 => ⟨S32, .f32⟩
  | 97 => ⟨S_, .f32⟩
  | 98 => ⟨S_, .f32⟩
  | 99 => ⟨S_, .f32⟩
  | 100 => ⟨S_, .f32⟩
  | 101 => ⟨S_, .f32⟩
  | 102 => ⟨S32x2048, .f32⟩
  | 103 => ⟨S32x2048, .i1⟩
  | 104 => ⟨S32x2048, .i1⟩
  | 105 => ⟨S32x2048, .i1⟩
  | 106 => ⟨S_, .i32⟩
  | 107 => ⟨S_, .i32⟩
  | 108 => ⟨S32x2048, .i32⟩
  | 109 => ⟨S32x2048, .i32⟩
  | 110 => ⟨S65536, .i32⟩
  | 111 => ⟨S32x2048, .f32⟩
  | 112 => ⟨S65536, .f32⟩
  | 113 => ⟨S65536x512, .f32⟩
  | 114 => ⟨S65536x1, .f32⟩
  | 115 => ⟨S65536x512, .f32⟩
  | 116 => ⟨S65536x512, .f32⟩
  | 117 => ⟨S_, .f32⟩
  | 118 => ⟨S32801x512, .f32⟩
  | 119 => ⟨S65536x1, .i32⟩
  | 120 => ⟨S32801x512, .f32⟩
  | 121 => ⟨S32800x512, .f32⟩
  | 122 => ⟨S32800x1, .f32⟩
  | 123 => ⟨S32800x512, .f32⟩
  | 124 => ⟨S32800x512, .f32⟩
  | 125 => ⟨S_, .f32⟩
  | 126 => ⟨S32801, .f32⟩
  | 127 => ⟨S65536x1, .i32⟩
  | _ => ⟨S32x2048x1, .f32⟩

abbrev hbmTy0_1 (i : Nat) : BufTy := match i % 128 with
  | 0 => ⟨S32801, .f32⟩
  | 1 => ⟨S32800, .f32⟩
  | 2 => ⟨S65536x1, .f32⟩
  | 3 => ⟨S65536x512, .f32⟩
  | 4 => ⟨S65536x512, .f32⟩
  | 5 => ⟨S_, .f32⟩
  | 6 => ⟨S32801x512, .f32⟩
  | 7 => ⟨S65536x1, .i32⟩
  | 8 => ⟨S32801x512, .f32⟩
  | 9 => ⟨S32800x512, .f32⟩
  | 10 => ⟨S_, .f32⟩
  | 11 => ⟨S32800, .f32⟩
  | 12 => ⟨S32800, .f32⟩
  | 13 => ⟨S32800x1, .f32⟩
  | 14 => ⟨S32800x512, .f32⟩
  | 15 => ⟨S32800x512, .f32⟩
  | 16 => ⟨S32800, .i1⟩
  | 17 => ⟨S_, .f32⟩
  | 18 => ⟨S32800, .f32⟩
  | 19 => ⟨S32800, .i1⟩
  | 20 => ⟨S32800, .i1⟩
  | 21 => ⟨S32800x512, .f32⟩
  | 22 => ⟨S32800x512, .f32⟩
  | 23 => ⟨S_, .f32⟩
  | 24 => ⟨S32800, .f32⟩
  | 25 => ⟨S_, .f32⟩
  | 26 => ⟨S32800, .f32⟩
  | 27 => ⟨S32800, .f32⟩
  | 28 => ⟨S32800, .i32⟩
  | 29 => ⟨S_, .i32⟩
  | 30 => ⟨S_, .i32⟩
  | 31 => ⟨S32800, .f32⟩
  | 32 => ⟨S32800, .f32⟩
  | 33 => ⟨S_, .f32⟩
  | 34 => ⟨S_, .f32⟩
  | 35 => ⟨S_, .i32⟩
  | 36 => ⟨S_, .i32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | _ => ⟨S32x2048x1, .f32⟩

abbrev hbmTy (i : Nat) : BufTy := match i / 128 with
  | 0 => hbmTy0_0 i
  | 1 => hbmTy0_1 i
  | _ => ⟨S32x2048x1, .f32⟩

abbrev bufTy : (tb : Table) → Fin (tcTables nBuf tb) → BufTy
  | .hbm, ⟨i, _⟩ => hbmTy i
  | _, _ => ⟨S32x2048x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call1_call0_c : Ref sig .tc := ⟨.hbm, 16, rfl⟩
abbrev main_call1_call0_v0 : Ref sig .tc := ⟨.hbm, 17, rfl⟩
abbrev main_v8 : Ref sig .tc := ⟨.hbm, 18, rfl⟩
abbrev main_c_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_call2_v0 : Ref sig .tc := ⟨.hbm, 30, rfl⟩
abbrev main_call2_v1 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_6 : Ref sig .tc := ⟨.hbm, 52, rfl⟩
abbrev main_c_7 : Ref sig .tc := ⟨.hbm, 53, rfl⟩
abbrev main_call3_v0 : Ref sig .tc := ⟨.hbm, 54, rfl⟩
abbrev main_call3_v1 : Ref sig .tc := ⟨.hbm, 55, rfl⟩
abbrev main_call3_v2 : Ref sig .tc := ⟨.hbm, 56, rfl⟩
abbrev main_call3_v3 : Ref sig .tc := ⟨.hbm, 57, rfl⟩
abbrev main_call3_v4 : Ref sig .tc := ⟨.hbm, 58, rfl⟩
abbrev main_v34 : Ref sig .tc := ⟨.hbm, 59, rfl⟩
abbrev main_c_8 : Ref sig .tc := ⟨.hbm, 60, rfl⟩
abbrev main_v35 : Ref sig .tc := ⟨.hbm, 61, rfl⟩
abbrev main_v36 : Ref sig .tc := ⟨.hbm, 62, rfl⟩
abbrev main_c_9 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_10 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_c_11 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_12 : Ref sig .tc := ⟨.hbm, 90, rfl⟩
abbrev main_v61 : Ref sig .tc := ⟨.hbm, 91, rfl⟩
abbrev main_c_13 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_14 : Ref sig .tc := ⟨.hbm, 97, rfl⟩
abbrev main_v66 : Ref sig .tc := ⟨.hbm, 98, rfl⟩
abbrev main_cst_15 : Ref sig .tc := ⟨.hbm, 99, rfl⟩
abbrev main_v67 : Ref sig .tc := ⟨.hbm, 100, rfl⟩
abbrev main_cst_16 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_c_17 : Ref sig .tc := ⟨.hbm, 106, rfl⟩
abbrev main_call4_v0 : Ref sig .tc := ⟨.hbm, 107, rfl⟩
abbrev main_call4_v1 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_cst_18 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_cst_19 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_cst_20 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_cst_21 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_cst_22 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_cst_23 : Ref sig .tc := ⟨.hbm, 151, rfl⟩
abbrev main_v109 : Ref sig .tc := ⟨.hbm, 152, rfl⟩
abbrev main_cst_24 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_c_25 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_cst_26 : Ref sig .tc := ⟨.hbm, 161, rfl⟩
abbrev main_v116 : Ref sig .tc := ⟨.hbm, 162, rfl⟩
abbrev main_c_27 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_cst_28 : Ref sig .tc := ⟨.hbm, 167, rfl⟩
abbrev main_v120 : Ref sig .tc := ⟨.hbm, 168, rfl⟩
abbrev main_cst_29 : Ref sig .tc := ⟨.hbm, 169, rfl⟩
abbrev main_v121 : Ref sig .tc := ⟨.hbm, 170, rfl⟩
abbrev main_v122 : Ref sig .tc := ⟨.hbm, 171, rfl⟩

abbrev nD : Nat := 1
abbrev τ : Topo := Topo.v7x

variable {F : FTy → Type} [FloatOps F]

class Facts₀ : Prop where
  shapeCasts_S32x2048x1_S32x2048 : S32x2048x1.ShapeCasts S32x2048
  bcast_S_S32x2048 : S_.BroadcastsInDim S32x2048 (![] : Fin 0 → Fin S32x2048.rank)
  slices_S32x2048_S32x2047_0_0 : S32x2048.Slices ![0, 0] S32x2047
  bcast_S_S_ : S_.BroadcastsInDim S_ (![] : Fin 0 → Fin S_.rank)
  pads_S32x2047_S32x2048_000_100 : S32x2047.Pads (![0, 1] : Fin 2 → Nat) ![0, 0] ![0, 0] S32x2048
  h_S_ : 0 < S_.numel
  natLt_1_32 : 1 < 32
  reduceWindows_S32x2048_S32x2048_w1s1p0_0_w2048s1p2047_0 : S32x2048.ReduceWindows (![1, 2048] : Fin 2 → Nat) ![1, 1] ![0, 2047] ![0, 0] S32x2048
  bcast_S32_S32x1_0 : S32.BroadcastsInDim S32x1 (![0] : Fin 1 → Fin S32x1.rank)
  bcast_S_S32x1 : S_.BroadcastsInDim S32x1 (![] : Fin 0 → Fin S32x1.rank)
  bcast_S32x1_S32x2048_0_1 : S32x1.BroadcastsInDim S32x2048 (![0, 1] : Fin 2 → Fin S32x2048.rank)
  shapeCasts_S32x2048_S65536 : S32x2048.ShapeCasts S65536
  bcast_S_S32801 : S_.BroadcastsInDim S32801 (![] : Fin 0 → Fin S32801.rank)
  bcast_S65536_S65536x1_0 : S65536.BroadcastsInDim S65536x1 (![0] : Fin 1 → Fin S65536x1.rank)
  slices_S32801_S32800_0 : S32801.Slices ![0] S32800
  bcast_S_S32800 : S_.BroadcastsInDim S32800 (![] : Fin 0 → Fin S32800.rank)
  bcast_S_S65536 : S_.BroadcastsInDim S65536 (![] : Fin 0 → Fin S65536.rank)
  reducesTo_S32x2048_S32_d1 : S32x2048.ReducesTo [1] S32
  bcast_S1025_S1x1025_1 : S1025.BroadcastsInDim S1x1025 (![1] : Fin 1 → Fin S1x1025.rank)
  bcast_S1x1025_S32x1025_0_1 : S1x1025.BroadcastsInDim S32x1025 (![0, 1] : Fin 2 → Fin S32x1025.rank)
  bcast_S32x1_S32x1025_0_1 : S32x1.BroadcastsInDim S32x1025 (![0, 1] : Fin 2 → Fin S32x1025.rank)
  shapeCasts_S32800_S32x1025 : S32800.ShapeCasts S32x1025
  reducesTo_S32x1025_S32_d1 : S32x1025.ReducesTo [1] S32
  bcast_S_S32 : S_.BroadcastsInDim S32 (![] : Fin 0 → Fin S32.rank)
  reducesTo_S32_S_d0 : S32.ReducesTo [0] S_
  shapeCasts_S32x2048x512_S65536x512 : S32x2048x512.ShapeCasts S65536x512
  bcast_S65536x1_S65536x512_0_1 : S65536x1.BroadcastsInDim S65536x512 (![0, 1] : Fin 2 → Fin S65536x512.rank)
  bcast_S_S32801x512 : S_.BroadcastsInDim S32801x512 (![] : Fin 0 → Fin S32801x512.rank)
  slices_S32801x512_S32800x512_0_0 : S32801x512.Slices ![0, 0] S32800x512
  bcast_S32800_S32800x1_0 : S32800.BroadcastsInDim S32800x1 (![0] : Fin 1 → Fin S32800x1.rank)
  bcast_S32800x1_S32800x512_0_1 : S32800x1.BroadcastsInDim S32800x512 (![0, 1] : Fin 2 → Fin S32800x512.rank)
  shapeCasts_S32x1025_S32800 : S32x1025.ShapeCasts S32800
  reducesTo_S32800x512_S32800_d1 : S32800x512.ReducesTo [1] S32800
  reducesTo_S32800_S_d0 : S32800.ReducesTo [0] S_
  scatter_S32801_S65536x1_S65536_n_0_0_1_wf : ScatterDims.WF S32801 S65536x1 S65536 [] [0] [0] 1
  gather_S32800_S65536x1_S65536_n_0_n_n_0_1_1_wf : GatherDims.WF S32800 S65536x1 S65536 [] [0] [] [0] [] 1 ![1]
  scatter_S32801x512_S65536x1_S65536x512_1_0_0_1_wf : ScatterDims.WF S32801x512 S65536x1 S65536x512 [1] [0] [0] 1

variable [Facts₀]

def scatter_S32801_S65536x1_S65536_n_0_0_1 : ScatterDims S32801 S65536x1 S65536 where
  updateWindowDims := []
  insertedWindowDims := [0]
  scatterDimsToOperandDims := [0]
  indexVectorDim := 1
  wf := scatter_S32801_S65536x1_S65536_n_0_0_1_wf
def gather_S32800_S65536x1_S65536_n_0_n_n_0_1_1 : GatherDims S32800 S65536x1 S65536 where
  offsetDims := []
  collapsedSliceDims := [0]
  operandBatchingDims := []
  startIndicesBatchingDims := []
  startIndexMap := [0]
  indexVectorDim := 1
  sliceSizes := ![1]
  wf := gather_S32800_S65536x1_S65536_n_0_n_n_0_1_1_wf
def scatter_S32801x512_S65536x1_S65536x512_1_0_0_1 : ScatterDims S32801x512 S65536x1 S65536x512 where
  updateWindowDims := [1]
  insertedWindowDims := [0]
  scatterDimsToOperandDims := [0]
  indexVectorDim := 1
  wf := scatter_S32801x512_S65536x1_S65536x512_1_0_0_1_wf

class Facts : Prop extends Facts₀ where

variable [Facts]
-- ==== Proof.KBodyIdeal.Loop.lean ====
/-
  The chunk loop of the feature kernel, by its invariant.

  At one grid point the body holds four input blocks — features [1, 2048, 512], two integer row
  labels [1, 1, 2048] and a weight row [1, 1, 2048] — and six accumulators: two [1152, 512] matmul
  accumulators and four [1152, 1] column accumulators.  The loop runs four trips; trip `k` takes
  columns `512 k ‥ 512 k + 511` of every input, and for each accumulator loads it whole, adds the
  chunk's contribution and stores it whole.  No accumulator's update reads another accumulator, so
  the six evolve independently: accumulator `j` before trip `k` is `Bj G k`, where `G` is what
  it held at loop entry and `Bj G (k + 1)` is the one whole-buffer write of the trip's payload over
  `Bj G k` (`nxtj`).  The invariant states exactly that, with the inputs unchanged; one trip is run
  once at a symbolic `k`.
-/
import proofs.«141693_j33234456937041_2_alg».proof.Proof.Gen.KernelIdeal.Loops

set_option maxRecDepth 16384
set_option maxHeartbeats 4000000

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The chunk loop

Trip `k` reads chunk `k` (512 columns) of each of the four input blocks and folds it into the six
scratch accumulators, each of which it loads whole and stores whole. -/

/-- chunk `k` of the feature block: rows `512 k ‥ 512 k + 511` of its 2048 -/
abbrev rIn1 (k : Fin k0_t1_loop.trips) : Rect S1x2048x512 :=
  Rect.unit (s := S1x2048x512) (k0_off1 k) S1x512x512.size (Gen.k0_off1_inb k)
/-- chunk `k` of a per-row vector block: entries `512 k ‥ 512 k + 511` of its 2048 -/
abbrev rIn2 (k : Fin k0_t1_loop.trips) : Rect S1x1x2048 :=
  Rect.unit (s := S1x1x2048) (k0_off2 k) S1x1x512.size (Gen.k0_off2_inb k)
/-- all of a [1152, 512] accumulator -/
abbrev rA : Rect S1152x512 := Rect.unit (s := S1152x512) ![0, 0] S1152x512.size inb_S1152x512_S1152x512_0_0
/-- all of a [1152, 1] accumulator -/
abbrev rC : Rect S1152x1 := Rect.unit (s := S1152x1) ![0, 0] S1152x1.size inb_S1152x1_S1152x1_0_0

section Trip
variable (arg1 : Memref sig .tc .vmem S1x2048x512 .f32) (arg2 : Memref sig .tc .vmem S1x1x2048 .i32) (arg3 : Memref sig .tc .vmem S1x1x2048 .i32) (arg4 : Memref sig .tc .vmem S1x1x2048 .f32) (arg8 : Memref sig .tc .vmem S1152x512 .f32) (arg9 : Memref sig .tc .vmem S1152x512 .f32) (arg10 : Memref sig .tc .vmem S1152x1 .f32) (arg11 : Memref sig .tc .vmem S1152x1 .f32) (arg12 : Memref sig .tc .vmem S1152x1 .f32) (arg13 : Memref sig .tc .vmem S1152x1 .f32) (v24 : IVec S1152x512 32) (X1 : BufTy.Contents (Elt F) arg1.view.ty) (X2 : BufTy.Contents (Elt F) arg2.view.ty) (X3 : BufTy.Contents (Elt F) arg3.view.ty) (X4 : BufTy.Contents (Elt F) arg4.view.ty)

/-- what trip `k` leaves in the first matmul accumulator, found at `f` -/
def nxt8 (k : Fin k0_t1_loop.trips) (f : BufTy.Contents (Elt F) arg8.view.ty) : BufTy.Contents (Elt F) arg8.view.ty :=
  arg8.view.writes (Elt F) f [⟨rA, k0_pay8 v24 (arg1.view.readAt (Elt F) (rIn1 k).toLoadRect X1) (arg2.view.readAt (Elt F) (rIn2 k).toLoadRect X2) (arg8.view.readAt (Elt F) rA.toLoadRect f)⟩]
/-- the second matmul accumulator -/
def nxt9 (k : Fin k0_t1_loop.trips) (f : BufTy.Contents (Elt F) arg9.view.ty) : BufTy.Contents (Elt F) arg9.view.ty :=
  arg9.view.writes (Elt F) f [⟨rA, k0_pay9 v24 (arg1.view.readAt (Elt F) (rIn1 k).toLoadRect X1) (arg3.view.readAt (Elt F) (rIn2 k).toLoadRect X3) (arg9.view.readAt (Elt F) rA.toLoadRect f)⟩]
/-- the four column accumulators -/
def nxt10 (k : Fin k0_t1_loop.trips) (f : BufTy.Contents (Elt F) arg10.view.ty) : BufTy.Contents (Elt F) arg10.view.ty :=
  arg10.view.writes (Elt F) f [⟨rC, k0_pay11 (k0_pay5 v24 (arg2.view.readAt (Elt F) (rIn2 k).toLoadRect X2)) (arg10.view.readAt (Elt F) rC.toLoadRect f)⟩]
def nxt11 (k : Fin k0_t1_loop.trips) (f : BufTy.Contents (Elt F) arg11.view.ty) : BufTy.Contents (Elt F) arg11.view.ty :=
  arg11.view.writes (Elt F) f [⟨rC, k0_pay12 (k0_pay6 v24 (arg3.view.readAt (Elt F) (rIn2 k).toLoadRect X3)) (arg11.view.readAt (Elt F) rC.toLoadRect f)⟩]
def nxt12 (k : Fin k0_t1_loop.trips) (f : BufTy.Contents (Elt F) arg12.view.ty) : BufTy.Contents (Elt F) arg12.view.ty :=
  arg12.view.writes (Elt F) f [⟨rC, k0_pay13 (k0_pay4 (arg4.view.readAt (Elt F) (rIn2 k).toLoadRect X4)) (k0_pay5 v24 (arg2.view.readAt (Elt F) (rIn2 k).toLoadRect X2)) (arg12.view.readAt (Elt F) rC.toLoadRect f)⟩]
def nxt13 (k : Fin k0_t1_loop.trips) (f : BufTy.Contents (Elt F) arg13.view.ty) : BufTy.Contents (Elt F) arg13.view.ty :=
  arg13.view.writes (Elt F) f [⟨rC, k0_pay21 (k0_pay14 (k0_pay4 (arg4.view.readAt (Elt F) (rIn2 k).toLoadRect X4)) (k0_pay5 v24 (arg2.view.readAt (Elt F) (rIn2 k).toLoadRect X2)) (arg13.view.readAt (Elt F) rC.toLoadRect f))⟩]

end Trip

section Rec
variable (arg1 : Memref sig .tc .vmem S1x2048x512 .f32) (arg2 : Memref sig .tc .vmem S1x1x2048 .i32) (arg3 : Memref sig .tc .vmem S1x1x2048 .i32) (arg4 : Memref sig .tc .vmem S1x1x2048 .f32) (arg8 : Memref sig .tc .vmem S1152x512 .f32) (arg9 : Memref sig .tc .vmem S1152x512 .f32) (arg10 : Memref sig .tc .vmem S1152x1 .f32) (arg11 : Memref sig .tc .vmem S1152x1 .f32) (arg12 : Memref sig .tc .vmem S1152x1 .f32) (arg13 : Memref sig .tc .vmem S1152x1 .f32) (v24 : IVec S1152x512 32) (X1 : BufTy.Contents (Elt F) arg1.view.ty) (X2 : BufTy.Contents (Elt F) arg2.view.ty) (X3 : BufTy.Contents (Elt F) arg3.view.ty) (X4 : BufTy.Contents (Elt F) arg4.view.ty)

/-- accumulator 1 before trip `k`, from `G` at loop entry -/
def B8 (G : BufTy.Contents (Elt F) arg8.view.ty) : ℕ → BufTy.Contents (Elt F) arg8.view.ty
  | 0 => G
  | k + 1 => if h : k < k0_t1_loop.trips then nxt8 arg1 arg2 arg8 v24 X1 X2 ⟨k, h⟩ (B8 G k) else B8 G k
theorem B8_succ (G : BufTy.Contents (Elt F) arg8.view.ty) (k : Fin k0_t1_loop.trips) :
    B8 arg1 arg2 arg8 v24 X1 X2 G (k.val + 1) = nxt8 arg1 arg2 arg8 v24 X1 X2 k (B8 arg1 arg2 arg8 v24 X1 X2 G k.val) := by
  rw [B8]; exact dif_pos k.isLt

/-- accumulator 2 before trip `k`, from `G` at loop entry -/
def B9 (G : BufTy.Contents (Elt F) arg9.view.ty) : ℕ → BufTy.Contents (Elt F) arg9.view.ty
  | 0 => G
  | k + 1 => if h : k < k0_t1_loop.trips then nxt9 arg1 arg3 arg9 v24 X1 X3 ⟨k, h⟩ (B9 G k) else B9 G k
theorem B9_succ (G : BufTy.Contents (Elt F) arg9.view.ty) (k : Fin k0_t1_loop.trips) :
    B9 arg1 arg3 arg9 v24 X1 X3 G (k.val + 1) = nxt9 arg1 arg3 arg9 v24 X1 X3 k (B9 arg1 arg3 arg9 v24 X1 X3 G k.val) := by
  rw [B9]; exact dif_pos k.isLt

/-- accumulator 3 before trip `k`, from `G` at loop entry -/
def B10 (G : BufTy.Contents (Elt F) arg10.view.ty) : ℕ → BufTy.Contents (Elt F) arg10.view.ty
  | 0 => G
  | k + 1 => if h : k < k0_t1_loop.trips then nxt10 arg2 arg10 v24 X2 ⟨k, h⟩ (B10 G k) else B10 G k
theorem B10_succ (G : BufTy.Contents (Elt F) arg10.view.ty) (k : Fin k0_t1_loop.trips) :
    B10 arg2 arg10 v24 X2 G (k.val + 1) = nxt10 arg2 arg10 v24 X2 k (B10 arg2 arg10 v24 X2 G k.val) := by
  rw [B10]; exact dif_pos k.isLt

/-- accumulator 4 before trip `k`, from `G` at loop entry -/
def B11 (G : BufTy.Contents (Elt F) arg11.view.ty) : ℕ → BufTy.Contents (Elt F) arg11.view.ty
  | 0 => G
  | k + 1 => if h : k < k0_t1_loop.trips then nxt11 arg3 arg11 v24 X3 ⟨k, h⟩ (B11 G k) else B11 G k
theorem B11_succ (G : BufTy.Contents (Elt F) arg11.view.ty) (k : Fin k0_t1_loop.trips) :
    B11 arg3 arg11 v24 X3 G (k.val + 1) = nxt11 arg3 arg11 v24 X3 k (B11 arg3 arg11 v24 X3 G k.val) := by
  rw [B11]; exact dif_pos k.isLt

/-- accumulator 5 before trip `k`, from `G` at loop entry -/
def B12 (G : BufTy.Contents (Elt F) arg12.view.ty) : ℕ → BufTy.Contents (Elt F) arg12.view.ty
  | 0 => G
  | k + 1 => if h : k < k0_t1_loop.trips then nxt12 arg2 arg4 arg12 v24 X2 X4 ⟨k, h⟩ (B12 G k) else B12 G k
theorem B12_succ (G : BufTy.Contents (Elt F) arg12.view.ty) (k : Fin k0_t1_loop.trips) :
    B12 arg2 arg4 arg12 v24 X2 X4 G (k.val + 1) = nxt12 arg2 arg4 arg12 v24 X2 X4 k (B12 arg2 arg4 arg12 v24 X2 X4 G k.val) := by
  rw [B12]; exact dif_pos k.isLt

/-- accumulator 6 before trip `k`, from `G` at loop entry -/
def B13 (G : BufTy.Contents (Elt F) arg13.view.ty) : ℕ → BufTy.Contents (Elt F) arg13.view.ty
  | 0 => G
  | k + 1 => if h : k < k0_t1_loop.trips then nxt13 arg2 arg4 arg13 v24 X2 X4 ⟨k, h⟩ (B13 G k) else B13 G k
theorem B13_succ (G : BufTy.Contents (Elt F) arg13.view.ty) (k : Fin k0_t1_loop.trips) :
    B13 arg2 arg4 arg13 v24 X2 X4 G (k.val + 1) = nxt13 arg2 arg4 arg13 v24 X2 X4 k (B13 arg2 arg4 arg13 v24 X2 X4 G k.val) := by
  rw [B13]; exact dif_pos k.isLt

end Rec

/-- what one trip holds: the four input blocks' buffers and the six accumulators -/
abbrev Trip (c : Dev nD) (arg1 : Memref sig .tc .vmem S1x2048x512 .f32) (arg2 : Memref sig .tc .vmem S1x1x2048 .i32) (arg3 : Memref sig .tc .vmem S1x1x2048 .i32) (arg4 : Memref sig .tc .vmem S1x1x2048 .f32) (arg8 : Memref sig .tc .vmem S1152x512 .f32) (arg9 : Memref sig .tc .vmem S1152x512 .f32) (arg10 : Memref sig .tc .vmem S1152x1 .f32) (arg11 : Memref sig .tc .vmem S1152x1 .f32) (arg12 : Memref sig .tc .vmem S1152x1 .f32) (arg13 : Memref sig .tc .vmem S1152x1 .f32) (X1 : BufTy.Contents (Elt F) arg1.view.ty) (X2 : BufTy.Contents (Elt F) arg2.view.ty) (X3 : BufTy.Contents (Elt F) arg3.view.ty) (X4 : BufTy.Contents (Elt F) arg4.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) : sProp 𝕄 :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)
    ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13))

/-- ONE TRIP at a symbolic `k`: each accumulator goes from what it held to its `nxt`. -/
theorem trip_sound (𝒱 : Variants) (c : Dev nD) (bd : Option 𝒱.V) (E : Set ℕ) (i : grid0.Coords) (arg1 : Memref sig .tc .vmem S1x2048x512 .f32) (harg1 : arg1.IsWhole) (arg2 : Memref sig .tc .vmem S1x1x2048 .i32) (harg2 : arg2.IsWhole) (arg3 : Memref sig .tc .vmem S1x1x2048 .i32) (harg3 : arg3.IsWhole) (arg4 : Memref sig .tc .vmem S1x1x2048 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1152x512 .f32) (harg8 : arg8.IsWhole) (arg9 : Memref sig .tc .vmem S1152x512 .f32) (harg9 : arg9.IsWhole) (arg10 : Memref sig .tc .vmem S1152x1 .f32) (harg10 : arg10.IsWhole) (arg11 : Memref sig .tc .vmem S1152x1 .f32) (harg11 : arg11.IsWhole) (arg12 : Memref sig .tc .vmem S1152x1 .f32) (harg12 : arg12.IsWhole) (arg13 : Memref sig .tc .vmem S1152x1 .f32) (harg13 : arg13.IsWhole) (v24 : IVec S1152x512 32)
    (X1 : BufTy.Contents (Elt F) arg1.view.ty) (X2 : BufTy.Contents (Elt F) arg2.view.ty) (X3 : BufTy.Contents (Elt F) arg3.view.ty) (X4 : BufTy.Contents (Elt F) arg4.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (k : Fin k0_t1_loop.trips) :
    Trip (F := F) c arg1 arg2 arg3 arg4 arg8 arg9 arg10 arg11 arg12 arg13 X1 X2 X3 X4 f8 f9 f10 f11 f12 f13
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 v24 k ())
          (fun _ => Trip (F := F) c arg1 arg2 arg3 arg4 arg8 arg9 arg10 arg11 arg12 arg13 X1 X2 X3 X4 (nxt8 arg1 arg2 arg8 v24 X1 X2 k f8) (nxt9 arg1 arg3 arg9 v24 X1 X3 k f9) (nxt10 arg2 arg10 v24 X2 k f10) (nxt11 arg3 arg11 v24 X3 k f11) (nxt12 arg2 arg4 arg12 v24 X2 X4 k f12) (nxt13 arg2 arg4 arg13 v24 X2 X4 k f13)) := by
  have hk : k.val < 4 := Nat.lt_of_lt_of_le k.isLt k0_t1_abs.2.1
  unfold k0_t1_body
  iintro ⟨HR1, HR2, HR3, HR4, HW8, HW9, HW10, HW11, HW12, HW13⟩
  sl_exec
  sl_step
  isplitl [HR1]; · iexact HR1
  isplitl [HR2]; · iexact HR2
  isplitl [HR3]; · iexact HR3
  isplitl [HR4]; · iexact HR4
  isplitl [HW8]; · iexact HW8
  isplitl [HW9]; · iexact HW9
  isplitl [HW10]; · iexact HW10
  isplitl [HW11]; · iexact HW11
  isplitl [HW12]; · iexact HW12
  iexact HW13

set_option warn.classDefReducibility false in
/-- THE LOOP BY ITS INVARIANT: before trip `k` the inputs are as they were and accumulator `j` holds `Bj … k`,
    the start contents `G·` parameters. -/
@[sl_loop] def loopInv_k0_t1 (𝒱 : Variants) (c : Dev nD) (bd : Option 𝒱.V) (E : Set ℕ) (i : grid0.Coords) (arg1 : Memref sig .tc .vmem S1x2048x512 .f32) (harg1 : arg1.IsWhole) (arg2 : Memref sig .tc .vmem S1x1x2048 .i32) (harg2 : arg2.IsWhole) (arg3 : Memref sig .tc .vmem S1x1x2048 .i32) (harg3 : arg3.IsWhole) (arg4 : Memref sig .tc .vmem S1x1x2048 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1152x512 .f32) (harg8 : arg8.IsWhole) (arg9 : Memref sig .tc .vmem S1152x512 .f32) (harg9 : arg9.IsWhole) (arg10 : Memref sig .tc .vmem S1152x1 .f32) (harg10 : arg10.IsWhole) (arg11 : Memref sig .tc .vmem S1152x1 .f32) (harg11 : arg11.IsWhole) (arg12 : Memref sig .tc .vmem S1152x1 .f32) (harg12 : arg12.IsWhole) (arg13 : Memref sig .tc .vmem S1152x1 .f32) (harg13 : arg13.IsWhole) (v24 : IVec S1152x512 32)
    (X1 : BufTy.Contents (Elt F) arg1.view.ty) (X2 : BufTy.Contents (Elt F) arg2.view.ty) (X3 : BufTy.Contents (Elt F) arg3.view.ty) (X4 : BufTy.Contents (Elt F) arg4.view.ty) (G8 : BufTy.Contents (Elt F) arg8.view.ty) (G9 : BufTy.Contents (Elt F) arg9.view.ty) (G10 : BufTy.Contents (Elt F) arg10.view.ty) (G11 : BufTy.Contents (Elt F) arg11.view.ty) (G12 : BufTy.Contents (Elt F) arg12.view.ty) (G13 : BufTy.Contents (Elt F) arg13.view.ty) :
    Gen.LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 v24 where
  inv := fun k _ => Trip (F := F) c arg1 arg2 arg3 arg4 arg8 arg9 arg10 arg11 arg12 arg13 X1 X2 X3 X4 (B8 arg1 arg2 arg8 v24 X1 X2 G8 k) (B9 arg1 arg3 arg9 v24 X1 X3 G9 k) (B10 arg2 arg10 v24 X2 G10 k) (B11 arg3 arg11 v24 X3 G11 k) (B12 arg2 arg4 arg12 v24 X2 X4 G12 k) (B13 arg2 arg4 arg13 v24 X2 X4 G13 k)
  step k acc := by
    iintro H
    iapply (wp_wand_r Idealize.ShloMosaic.frame (wpE (defs₀ (F := F)) 𝒱 (c : Thread nD τ) bd) E)
    isplitl [H]
    · iapply (trip_sound (F := F) 𝒱 c bd E i arg1 harg1 arg2 harg2 arg3 harg3 arg4 harg4 arg5 harg5 arg6 harg6 arg7 harg7 arg8 harg8 arg9 harg9 arg10 harg10 arg11 harg11 arg12 harg12 arg13 harg13 v24 X1 X2 X3 X4 _ _ _ _ _ _ k)
      iexact H
    · iintro %_ H
      rw [B8_succ, B9_succ, B10_succ, B11_succ, B12_succ, B13_succ]
      iexact H

end Cert.KernelIdeal.Body
end
-- ==== Proof.KBodyIdeal.Values.lean ====
/-
  The six accumulators and the three outputs of the feature kernel as pure functions of a grid
  point's four input blocks.

  `a8 … a13` follow the chunk loop: each starts at zero and at every trip takes the trip's payload
  of the chunk (columns `512 k ‥ 512 k + 511` of each input block, `View.ld x (rIn· k)`) and of its
  own previous value; `acc` collects the six.  `out4`, `out5`, `out6` are the three [1, 1, 1]
  results the body's tail computes from the accumulators after the fourth trip.

  The second half ties these to memory: a buffer written last through the whole-shape rectangle
  reads as the payload (`read_writes_unit0`), so the contents `Bj G k` the loop's invariant names
  read as `aj k` whenever the start contents `G` read as zero (`read_Bj`, by induction on `k`);
  the tail's three reductions over whole-buffer loads of those contents are then the reductions
  over `aj 4` (`r4_eq`, `r5_eq`, `r6_eq`).
-/
import proofs.«141693_j33234456937041_2_alg».proof.Proof.KBodyIdeal.Loop
import Idealize.ShloMosaic.Lib.Pipeline.Value
import Idealize.ShloMosaic.Lib.Pipeline.FrameBody

set_option maxRecDepth 16384
set_option maxHeartbeats 4000000

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The accumulators as functions of the four input blocks -/

/-- the row-number grid the one-hot comparisons are made against -/
abbrev rowIota : IVec S1152x512 32 := iota .tc S1152x512 32 [0] iota_S1152x512_d0_w32

section Values
variable (x0 : Vec F S1x2048x512 .f32) (x1 x2 : Vec F S1x1x2048 .i32) (x3 : Vec F S1x1x2048 .f32)

/-- the first matmul accumulator before trip `k`: zero, then each trip adds its chunk's product -/
def a8 : ℕ → FVec F S1152x512 .f32
  | 0 => k0_pay15
  | k + 1 => if h : k < k0_t1_loop.trips then k0_pay8 rowIota (View.ld x0 (rIn1 ⟨k, h⟩)) (View.ld x1 (rIn2 ⟨k, h⟩)) (a8 k) else a8 k
/-- the second matmul accumulator -/
def a9 : ℕ → FVec F S1152x512 .f32
  | 0 => k0_pay16
  | k + 1 => if h : k < k0_t1_loop.trips then k0_pay9 rowIota (View.ld x0 (rIn1 ⟨k, h⟩)) (View.ld x2 (rIn2 ⟨k, h⟩)) (a9 k) else a9 k
/-- the four column accumulators -/
def a10 : ℕ → FVec F S1152x1 .f32
  | 0 => k0_pay17
  | k + 1 => if h : k < k0_t1_loop.trips then k0_pay11 (k0_pay5 rowIota (View.ld x1 (rIn2 ⟨k, h⟩))) (a10 k) else a10 k
def a11 : ℕ → FVec F S1152x1 .f32
  | 0 => k0_pay18
  | k + 1 => if h : k < k0_t1_loop.trips then k0_pay12 (k0_pay6 rowIota (View.ld x2 (rIn2 ⟨k, h⟩))) (a11 k) else a11 k
def a12 : ℕ → FVec F S1152x1 .f32
  | 0 => k0_pay19
  | k + 1 => if h : k < k0_t1_loop.trips then k0_pay13 (k0_pay4 (View.ld x3 (rIn2 ⟨k, h⟩))) (k0_pay5 rowIota (View.ld x1 (rIn2 ⟨k, h⟩))) (a12 k) else a12 k
def a13 : ℕ → FVec F S1152x1 .f32
  | 0 => k0_pay20
  | k + 1 => if h : k < k0_t1_loop.trips then k0_pay21 (k0_pay14 (k0_pay4 (View.ld x3 (rIn2 ⟨k, h⟩))) (k0_pay5 rowIota (View.ld x1 (rIn2 ⟨k, h⟩))) (a13 k)) else a13 k

/-- the six scratch buffers' contents before trip `k` of the chunk loop, as pure functions of the point's four input
    blocks: zero at `k = 0`, and at `k + 1` the trip's payloads of the chunk loads at trip `k` and of the contents at `k` -/
def acc (k : ℕ) : FVec F S1152x512 .f32 × FVec F S1152x512 .f32 × FVec F S1152x1 .f32 × FVec F S1152x1 .f32 × FVec F S1152x1 .f32 × FVec F S1152x1 .f32 :=
  (a8 x0 x1 k, a9 x0 x2 k, a10 x1 k, a11 x2 k, a12 x1 x3 k, a13 x1 x3 k)

/-- what the body leaves in output windows 4, 5, 6 at a point -/
def out4 (x0 : Vec F S1x2048x512 .f32) (x1 x2 : Vec F S1x1x2048 .i32) (x3 : Vec F S1x1x2048 .f32) : Vec F S1x1x1 .f32 :=
  k0_pay1 (k0_pay25 (a10 x1 4) (a11 x2 4) (a8 x0 x1 4) (a9 x0 x2 4))
def out5 (x0 : Vec F S1x2048x512 .f32) (x1 x2 : Vec F S1x1x2048 .i32) (x3 : Vec F S1x1x2048 .f32) : Vec F S1x1x1 .f32 :=
  k0_pay2 (k0_pay26 (a10 x1 4) (a11 x2 4))
def out6 (x0 : Vec F S1x2048x512 .f32) (x1 x2 : Vec F S1x1x2048 .i32) (x3 : Vec F S1x1x2048 .f32) : Vec F S1x1x1 .f32 :=
  k0_pay3 (k0_pay27 (a10 x1 4) (a12 x1 x3 4) (a13 x1 x3 4))

theorem out4_eq : out4 x0 x1 x2 x3 = k0_pay1 (k0_pay25 (acc x0 x1 x2 x3 4).2.2.1 (acc x0 x1 x2 x3 4).2.2.2.1 (acc x0 x1 x2 x3 4).1 (acc x0 x1 x2 x3 4).2.1) := rfl
theorem out5_eq : out5 x0 x1 x2 x3 = k0_pay2 (k0_pay26 (acc x0 x1 x2 x3 4).2.2.1 (acc x0 x1 x2 x3 4).2.2.2.1) := rfl
theorem out6_eq : out6 x0 x1 x2 x3 = k0_pay3 (k0_pay27 (acc x0 x1 x2 x3 4).2.2.1 (acc x0 x1 x2 x3 4).2.2.2.2.1 (acc x0 x1 x2 x3 4).2.2.2.2.2) := rfl

end Values

theorem trips_eq : k0_t1_loop.trips = 4 := by decide

/-! ## The buffers' contents read as those functions -/

/-- A buffer's contents after a last store through the whole-shape rectangle at zero offsets read as the payload. -/
theorem read_writes_unit0 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

theorem z2 : (![0, 0] : Fin 2 → Nat) = fun _ => 0 := by funext a; fin_cases a <;> rfl
theorem z3 : (![0, 0, 0] : Fin 3 → Nat) = fun _ => 0 := by funext a; fin_cases a <;> rfl

section ReadB
variable (arg1 : Memref sig .tc .vmem S1x2048x512 .f32) (arg2 : Memref sig .tc .vmem S1x1x2048 .i32) (arg3 : Memref sig .tc .vmem S1x1x2048 .i32) (arg4 : Memref sig .tc .vmem S1x1x2048 .f32) (arg8 : Memref sig .tc .vmem S1152x512 .f32) (arg9 : Memref sig .tc .vmem S1152x512 .f32) (arg10 : Memref sig .tc .vmem S1152x1 .f32) (arg11 : Memref sig .tc .vmem S1152x1 .f32) (arg12 : Memref sig .tc .vmem S1152x1 .f32) (arg13 : Memref sig .tc .vmem S1152x1 .f32) (X1 : BufTy.Contents (Elt F) arg1.view.ty) (X2 : BufTy.Contents (Elt F) arg2.view.ty) (X3 : BufTy.Contents (Elt F) arg3.view.ty) (X4 : BufTy.Contents (Elt F) arg4.view.ty)

theorem read_B8 (G : BufTy.Contents (Elt F) arg8.view.ty) (hG : arg8.view.read (Elt F) G = k0_pay15) :
    ∀ k, arg8.view.read (Elt F) (B8 arg1 arg2 arg8 rowIota X1 X2 G k) = a8 (arg1.view.read (Elt F) X1) (arg2.view.read (Elt F) X2) k
  | 0 => by rw [B8, a8]; exact hG
  | k + 1 => by
    rw [B8, a8]
    by_cases h : k < k0_t1_loop.trips
    · rw [dif_pos h, dif_pos h]; unfold nxt8
      rw [read_writes_unit0 _ _ z2]
      simp only [View.readAt_eq_ld]
      rw [read_B8 G hG k, View.ld_unit_zero z2]
    · rw [dif_neg h, dif_neg h]; exact read_B8 G hG k

theorem read_B9 (G : BufTy.Contents (Elt F) arg9.view.ty) (hG : arg9.view.read (Elt F) G = k0_pay16) :
    ∀ k, arg9.view.read (Elt F) (B9 arg1 arg3 arg9 rowIota X1 X3 G k) = a9 (arg1.view.read (Elt F) X1) (arg3.view.read (Elt F) X3) k
  | 0 => by rw [B9, a9]; exact hG
  | k + 1 => by
    rw [B9, a9]
    by_cases h : k < k0_t1_loop.trips
    · rw [dif_pos h, dif_pos h]; unfold nxt9
      rw [read_writes_unit0 _ _ z2]
      simp only [View.readAt_eq_ld]
      rw [read_B9 G hG k, View.ld_unit_zero z2]
    · rw [dif_neg h, dif_neg h]; exact read_B9 G hG k

theorem read_B10 (G : BufTy.Contents (Elt F) arg10.view.ty) (hG : arg10.view.read (Elt F) G = k0_pay17) :
    ∀ k, arg10.view.read (Elt F) (B10 arg2 arg10 rowIota X2 G k) = a10 (arg2.view.read (Elt F) X2) k
  | 0 => by rw [B10, a10]; exact hG
  | k + 1 => by
    rw [B10, a10]
    by_cases h : k < k0_t1_loop.trips
    · rw [dif_pos h, dif_pos h]; unfold nxt10
      rw [read_writes_unit0 _ _ z2]
      simp only [View.readAt_eq_ld]
      rw [read_B10 G hG k, View.ld_unit_zero z2]
    · rw [dif_neg h, dif_neg h]; exact read_B10 G hG k

theorem read_B11 (G : BufTy.Contents (Elt F) arg11.view.ty) (hG : arg11.view.read (Elt F) G = k0_pay18) :
    ∀ k, arg11.view.read (Elt F) (B11 arg3 arg11 rowIota X3 G k) = a11 (arg3.view.read (Elt F) X3) k
  | 0 => by rw [B11, a11]; exact hG
  | k + 1 => by
    rw [B11, a11]
    by_cases h : k < k0_t1_loop.trips
    · rw [dif_pos h, dif_pos h]; unfold nxt11
      rw [read_writes_unit0 _ _ z2]
      simp only [View.readAt_eq_ld]
      rw [read_B11 G hG k, View.ld_unit_zero z2]
    · rw [dif_neg h, dif_neg h]; exact read_B11 G hG k

theorem read_B12 (G : BufTy.Contents (Elt F) arg12.view.ty) (hG : arg12.view.read (Elt F) G = k0_pay19) :
    ∀ k, arg12.view.read (Elt F) (B12 arg2 arg4 arg12 rowIota X2 X4 G k) = a12 (arg2.view.read (Elt F) X2) (arg4.view.read (Elt F) X4) k
  | 0 => by rw [B12, a12]; exact hG
  | k + 1 => by
    rw [B12, a12]
    by_cases h : k < k0_t1_loop.trips
    · rw [dif_pos h, dif_pos h]; unfold nxt12
      rw [read_writes_unit0 _ _ z2]
      simp only [View.readAt_eq_ld]
      rw [read_B12 G hG k, View.ld_unit_zero z2]
    · rw [dif_neg h, dif_neg h]; exact read_B12 G hG k

theorem read_B13 (G : BufTy.Contents (Elt F) arg13.view.ty) (hG : arg13.view.read (Elt F) G = k0_pay20) :
    ∀ k, arg13.view.read (Elt F) (B13 arg2 arg4 arg13 rowIota X2 X4 G k) = a13 (arg2.view.read (Elt F) X2) (arg4.view.read (Elt F) X4) k
  | 0 => by rw [B13, a13]; exact hG
  | k + 1 => by
    rw [B13, a13]
    by_cases h : k < k0_t1_loop.trips
    · rw [dif_pos h, dif_pos h]; unfold nxt13
      rw [read_writes_unit0 _ _ z2]
      simp only [View.readAt_eq_ld]
      rw [read_B13 G hG k, View.ld_unit_zero z2]
    · rw [dif_neg h, dif_neg h]; exact read_B13 G hG k

end ReadB

/-! ## The tail's three reductions over the accumulators after the last trip -/

section Tail
variable (arg1 : Memref sig .tc .vmem S1x2048x512 .f32) (arg2 : Memref sig .tc .vmem S1x1x2048 .i32) (arg3 : Memref sig .tc .vmem S1x1x2048 .i32) (arg4 : Memref sig .tc .vmem S1x1x2048 .f32) (arg8 : Memref sig .tc .vmem S1152x512 .f32) (arg9 : Memref sig .tc .vmem S1152x512 .f32) (arg10 : Memref sig .tc .vmem S1152x1 .f32) (arg11 : Memref sig .tc .vmem S1152x1 .f32) (arg12 : Memref sig .tc .vmem S1152x1 .f32) (arg13 : Memref sig .tc .vmem S1152x1 .f32) (X1 : BufTy.Contents (Elt F) arg1.view.ty) (X2 : BufTy.Contents (Elt F) arg2.view.ty) (X3 : BufTy.Contents (Elt F) arg3.view.ty) (X4 : BufTy.Contents (Elt F) arg4.view.ty)

/-- a buffer zero-filled by one whole-shape store over anything reads as the fill -/
theorem read_zeroed {κ : Kind} {sp : Space} {S : Shape} {e : EltTy} (v : View sig κ sp S e) {off : Fin S.rank → Nat} (h : off = fun _ => 0)
    (inb : ∀ a, off a + S.size a ≤ S.size a) (w : S.Idx → Elt F e) :
    v.read (Elt F) (v.writes (Elt F) v.junk [(⟨Rect.unit off S.size inb, w⟩ : View.Piece (Elt F) S e)]) = w :=
  read_writes_unit0 v v.junk h inb w []

theorem r4_eq (G8 : BufTy.Contents (Elt F) arg8.view.ty) (G9 : BufTy.Contents (Elt F) arg9.view.ty) (G10 : BufTy.Contents (Elt F) arg10.view.ty) (G11 : BufTy.Contents (Elt F) arg11.view.ty) (G12 : BufTy.Contents (Elt F) arg12.view.ty) (G13 : BufTy.Contents (Elt F) arg13.view.ty)
    (h8 : arg8.view.read (Elt F) G8 = k0_pay15) (h9 : arg9.view.read (Elt F) G9 = k0_pay16)
    (h10 : arg10.view.read (Elt F) G10 = k0_pay17) (h11 : arg11.view.read (Elt F) G11 = k0_pay18) (n : ℕ) (hn : n = 4) :
    k0_pay25 (arg10.view.readAt (Elt F) rC.toLoadRect (B10 arg2 arg10 rowIota X2 G10 n))
        (arg11.view.readAt (Elt F) rC.toLoadRect (B11 arg3 arg11 rowIota X3 G11 n))
        (arg8.view.readAt (Elt F) rA.toLoadRect (B8 arg1 arg2 arg8 rowIota X1 X2 G8 n))
        (arg9.view.readAt (Elt F) rA.toLoadRect (B9 arg1 arg3 arg9 rowIota X1 X3 G9 n))
      = k0_pay25 (a10 (arg2.view.read (Elt F) X2) 4) (a11 (arg3.view.read (Elt F) X3) 4) (a8 (arg1.view.read (Elt F) X1) (arg2.view.read (Elt F) X2) 4) (a9 (arg1.view.read (Elt F) X1) (arg3.view.read (Elt F) X3) 4) := by
  subst hn
  simp only [View.readAt_eq_ld]
  rw [read_B10 _ _ _ _ h10, read_B11 _ _ _ _ h11, read_B8 _ _ _ _ _ _ h8, read_B9 _ _ _ _ _ _ h9]
  simp only [View.ld_unit_zero (S := S1152x1) z2, View.ld_unit_zero (S := S1152x512) z2]

theorem r5_eq (G10 : BufTy.Contents (Elt F) arg10.view.ty) (G11 : BufTy.Contents (Elt F) arg11.view.ty)
    (h10 : arg10.view.read (Elt F) G10 = k0_pay17) (h11 : arg11.view.read (Elt F) G11 = k0_pay18) (n : ℕ) (hn : n = 4) :
    k0_pay26 (arg10.view.readAt (Elt F) rC.toLoadRect (B10 arg2 arg10 rowIota X2 G10 n))
        (arg11.view.readAt (Elt F) rC.toLoadRect (B11 arg3 arg11 rowIota X3 G11 n))
      = k0_pay26 (a10 (arg2.view.read (Elt F) X2) 4) (a11 (arg3.view.read (Elt F) X3) 4) := by
  subst hn
  simp only [View.readAt_eq_ld]
  rw [read_B10 _ _ _ _ h10, read_B11 _ _ _ _ h11]
  simp only [View.ld_unit_zero (S := S1152x1) z2, View.ld_unit_zero (S := S1152x512) z2]

theorem r6_eq (G10 : BufTy.Contents (Elt F) arg10.view.ty) (G12 : BufTy.Contents (Elt F) arg12.view.ty) (G13 : BufTy.Contents (Elt F) arg13.view.ty)
    (h10 : arg10.view.read (Elt F) G10 = k0_pay17) (h12 : arg12.view.read (Elt F) G12 = k0_pay19) (h13 : arg13.view.read (Elt F) G13 = k0_pay20) (n : ℕ) (hn : n = 4) :
    k0_pay27 (arg10.view.readAt (Elt F) rC.toLoadRect (B10 arg2 arg10 rowIota X2 G10 n))
        (arg12.view.readAt (Elt F) rC.toLoadRect (B12 arg2 arg4 arg12 rowIota X2 X4 G12 n))
        (arg13.view.readAt (Elt F) rC.toLoadRect (B13 arg2 arg4 arg13 rowIota X2 X4 G13 n))
      = k0_pay27 (a10 (arg2.view.read (Elt F) X2) 4) (a12 (arg2.view.read (Elt F) X2) (arg4.view.read (Elt F) X4) 4) (a13 (arg2.view.read (Elt F) X2) (arg4.view.read (Elt F) X4) 4) := by
  subst hn
  simp only [View.readAt_eq_ld]
  rw [read_B10 _ _ _ _ h10, read_B12 _ _ _ _ _ _ h12, read_B13 _ _ _ _ _ _ h13]
  simp only [View.ld_unit_zero (S := S1152x1) z2, View.ld_unit_zero (S := S1152x512) z2]

end Tail

end Cert.KernelIdeal.Body
end
-- ==== Proof.KBodyIdeal.Kernel.lean ====
/-
  The feature kernel's body as one triple, on any whole memrefs.

  Holding the four input memrefs at blocks `x0 … x3`, the three output memrefs and the six scratch
  accumulators at anything, the body zero-fills the accumulators, runs the four-trip chunk loop
  (by its invariant: the accumulators then hold `Bj G 4` over the zero fill `G`), loads the
  accumulators whole and stores the three [1, 1, 1] results.  What it leaves in the outputs reads
  as `out4`, `out5`, `out6` of the input blocks; the inputs are as they were and the accumulators
  are left at whatever the loop made of them.
-/
import proofs.«141693_j33234456937041_2_alg».proof.Proof.KBodyIdeal.Values

set_option maxRecDepth 16384
set_option maxHeartbeats 4000000

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body on whole memrefs: inputs at `x0 … x3`, outputs and accumulators at anything; after it the outputs read
    `out4`, `out5`, `out6` of the inputs. -/
theorem sound_kernel (c : Dev nD) (E : Set ℕ) (i : grid0.Coords) (arg1 : Memref sig .tc .vmem S1x2048x512 .f32) (harg1 : arg1.IsWhole) (arg2 : Memref sig .tc .vmem S1x1x2048 .i32) (harg2 : arg2.IsWhole) (arg3 : Memref sig .tc .vmem S1x1x2048 .i32) (harg3 : arg3.IsWhole) (arg4 : Memref sig .tc .vmem S1x1x2048 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1152x512 .f32) (harg8 : arg8.IsWhole) (arg9 : Memref sig .tc .vmem S1152x512 .f32) (harg9 : arg9.IsWhole) (arg10 : Memref sig .tc .vmem S1152x1 .f32) (harg10 : arg10.IsWhole) (arg11 : Memref sig .tc .vmem S1152x1 .f32) (harg11 : arg11.IsWhole) (arg12 : Memref sig .tc .vmem S1152x1 .f32) (harg12 : arg12.IsWhole) (arg13 : Memref sig .tc .vmem S1152x1 .f32) (harg13 : arg13.IsWhole)
    (x0 : Vec F S1x2048x512 .f32) (x1 x2 : Vec F S1x1x2048 .i32) (x3 : Vec F S1x1x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out4 x0 x1 x2 x3) ∗ owns (c : Thread nD τ) arg6 fullShare (out5 x0 x1 x2 x3) ∗ owns (c : Thread nD τ) arg7 fullShare (out6 x0 x1 x2 x3)
            ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none (c : Thread nD τ) none) E (cc0__feat_kernel (F := F) i arg1 harg1 arg2 harg2 arg3 harg3 arg4 harg4 arg5 harg5 arg6 harg6 arg7 harg7 arg8 harg8 arg9 harg9 arg10 harg10 arg11 harg11 arg12 harg12 arg13 harg13) K := by
  simp only [cc0__feat_kernel_eq_skeleton]; unfold cc0__feat_kernel_skel
  unfold owns
  iintro ⟨⟨%X1, %h1, H1⟩, ⟨%X2, %h2, H2⟩, ⟨%X3, %h3, H3⟩, ⟨%X4, %h4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  subst h1 h2 h3 h4
  have h4 : Scf.trips k0_t1_loop.lb k0_t1_loop.ub k0_t1_loop.st = 4 := trips_eq
  sl_exec
  sl_step
  iapply Hk
  isplitl [H1]
  · iexists X1; isplitr; · ipureintro; rfl
    iexact H1
  isplitl [H2]
  · iexists X2; isplitr; · ipureintro; rfl
    iexact H2
  isplitl [H3]
  · iexists X3; isplitr; · ipureintro; rfl
    iexact H3
  isplitl [H4]
  · iexists X4; isplitr; · ipureintro; rfl
    iexact H4
  isplitl [H5]
  · iexists _; isplitr
    swap; · iexact H5
    ipureintro
    rw [read_writes_unit0 _ _ z3]
    unfold out4 sound_kernel.sl.r sound_kernel.sl.v sound_kernel.sl.v27 sound_kernel.sl.v34 sound_kernel.sl.v37 sound_kernel.sl.v24
    simp only [View.readAt_eq_ld]
    rw [read_B10, read_B11, read_B8, read_B9, h4]
    · simp only [View.ld_unit_zero (S := S1152x1) z2, View.ld_unit_zero (S := S1152x512) z2]
    all_goals exact read_zeroed _ z2 _ _
  isplitl [H6]
  · iexists _; isplitr
    swap; · iexact H6
    ipureintro
    rw [read_writes_unit0 _ _ z3]
    unfold out5 sound_kernel.sl.r_1 sound_kernel.sl.v sound_kernel.sl.v27 sound_kernel.sl.v24
    simp only [View.readAt_eq_ld]
    rw [read_B10, read_B11, h4]
    · simp only [View.ld_unit_zero (S := S1152x1) z2]
    all_goals exact read_zeroed _ z2 _ _
  isplitl [H7]
  · iexists _; isplitr
    swap; · iexact H7
    ipureintro
    rw [read_writes_unit0 _ _ z3]
    unfold out6 sound_kernel.sl.r_2 sound_kernel.sl.v sound_kernel.sl.v28 sound_kernel.sl.v29 sound_kernel.sl.v24
    simp only [View.readAt_eq_ld]
    rw [read_B10, read_B12, read_B13, h4]
    · simp only [View.ld_unit_zero (S := S1152x1) z2]
    all_goals exact read_zeroed _ z2 _ _
  isplitl [H8]
  · iexists _; iexists _; isplitr
    swap; · iexact H8
    ipureintro; rfl
  isplitl [H9]
  · iexists _; iexists _; isplitr
    swap; · iexact H9
    ipureintro; rfl
  isplitl [H10]
  · iexists _; iexists _; isplitr
    swap; · iexact H10
    ipureintro; rfl
  isplitl [H11]
  · iexists _; iexists _; isplitr
    swap; · iexact H11
    ipureintro; rfl
  isplitl [H12]
  · iexists _; iexists _; isplitr
    swap; · iexact H12
    ipureintro; rfl
  iexists _; iexists _; isplitr
  swap; · iexact H13
  ipureintro; rfl

end Cert.KernelIdeal.Body
end
-- ==== Proof.KBodyIdeal.lean ====
/-
  The frame of the idealized feature program from the body's triple.

  The proof data of the one pipeline on core `c`: each array as the region finds it; after the
  body at point `t` the four input staging buffers still hold their blocks and the three output
  staging buffers hold `out4`, `out5`, `out6` of those blocks; the invariant is the scoped rest
  (the six scratch accumulators at any contents) and the generator register, which the body may
  use and need not describe.  The body obligation at a generic point follows from the triple on
  whole memrefs, the scratch accumulators taken out of the invariant and handed back at whatever
  the loop left.  The launch theorem for a region followed by host lines then gives the run, and
  the frame is the run read at the argument arrays.
-/
import proofs.«141693_j33234456937041_2_alg».proof.Proof.KBodyIdeal.Kernel
import proofs.«141693_j33234456937041_2_alg».proof.Proof.Gen.KernelIdeal.Frame
import Idealize.ShloMosaic.Lib.Pipeline.Frame
import Idealize.ShloMosaic.Lib.Pipeline.FrameSuffix

set_option maxRecDepth 16384
set_option maxHeartbeats 4000000

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 (iblk m c 0 t) (iblk m c 1 t) (iblk m c 2 t) (iblk m c 3 t)
    | ⟨5, _⟩ => out5 (iblk m c 0 t) (iblk m c 1 t) (iblk m c 2 t) (iblk m c 3 t)
    | ⟨6, _⟩ => out6 (iblk m c 0 t) (iblk m c 1 t) (iblk m c 2 t) (iblk m c 3 t)
  Φ _ := Pipeline.ΦA spec0 c
  q _ := fullShare
  owed _ := 0

theorem dats_A (c : Dev nD) (w : Fin cfg0.W) : (dats m 0 c).A w = V m c (Pipeline.arrRef spec0 w) := rfl

theorem dats_after0 (c : Dev nD) (t : Fin cfg0.N) : (dats m 0 c).after 0 t = iblk m c 0 t := by dsimp only [dats]
theorem dats_after1 (c : Dev nD) (t : Fin cfg0.N) : (dats m 0 c).after 1 t = iblk m c 1 t := by dsimp only [dats]
theorem dats_after2 (c : Dev nD) (t : Fin cfg0.N) : (dats m 0 c).after 2 t = iblk m c 2 t := by dsimp only [dats]
theorem dats_after3 (c : Dev nD) (t : Fin cfg0.N) : (dats m 0 c).after 3 t = iblk m c 3 t := by dsimp only [dats]
theorem dats_after4 (c : Dev nD) (t : Fin cfg0.N) : (dats m 0 c).after 4 t = out4 (iblk m c 0 t) (iblk m c 1 t) (iblk m c 2 t) (iblk m c 3 t) := by dsimp only [dats]
theorem dats_after5 (c : Dev nD) (t : Fin cfg0.N) : (dats m 0 c).after 5 t = out5 (iblk m c 0 t) (iblk m c 1 t) (iblk m c 2 t) (iblk m c 3 t) := by dsimp only [dats]
theorem dats_after6 (c : Dev nD) (t : Fin cfg0.N) : (dats m 0 c).after 6 t = out6 (iblk m c 0 t) (iblk m c 1 t) (iblk m c 2 t) (iblk m c 3 t) := by dsimp only [dats]

/-- Each input's current staging buffer holds its block at every point. -/
theorem before0 (c : Dev nD) (t : Fin cfg0.N) (d) : (dats m 0 c).before 0 t d = iblk m c 0 t :=
  before0_0_of m (dats m 0 c) (dats_A m c 0) (dats_after0 m c) t d
theorem before1 (c : Dev nD) (t : Fin cfg0.N) (d) : (dats m 0 c).before 1 t d = iblk m c 1 t :=
  before0_1_of m (dats m 0 c) (dats_A m c 1) (dats_after1 m c) t d
theorem before2 (c : Dev nD) (t : Fin cfg0.N) (d) : (dats m 0 c).before 2 t d = iblk m c 2 t :=
  before0_2_of m (dats m 0 c) (dats_A m c 2) (dats_after2 m c) t d
theorem before3 (c : Dev nD) (t : Fin cfg0.N) (d) : (dats m 0 c).before 3 t d = iblk m c 3 t :=
  before0_3_of m (dats m 0 c) (dats_A m c 3) (dats_after3 m c) t d

/-! ## The invariant: the scratch accumulators at anything -/

/-- The six scratch operands, whole scoped buffers passed beside the windows. -/
abbrev scM0 : Memref sig .tc .vmem S1152x512 .f32 := Memref.whole cc0_scratch0
abbrev scM1 : Memref sig .tc .vmem S1152x512 .f32 := Memref.whole cc0_scratch1
abbrev scM2 : Memref sig .tc .vmem S1152x1 .f32 := Memref.whole cc0_scratch2
abbrev scM3 : Memref sig .tc .vmem S1152x1 .f32 := Memref.whole cc0_scratch3
abbrev scM4 : Memref sig .tc .vmem S1152x1 .f32 := Memref.whole cc0_scratch4
abbrev scM5 : Memref sig .tc .vmem S1152x1 .f32 := Memref.whole cc0_scratch5

/-- The invariant with the scratch operands as memrefs owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d)) ∗ (∃ r, prngReg c r)) := by
  unfold Pipeline.ΦA; rw [scopedRest0_eq]; simp only [scM0, scM1, scM2, scM3, scM4, scM5, owns_whole]; try rfl

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' memrefs hold their blocks, the scratch accumulators come out of the invariant
    and go back into it, the core's `owes` passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    dats_after0, dats_after1, dats_after2, dats_after3, dats_after4, dats_after5, dats_after6, PhiA_eq]
  iintro ⟨⟨⟨S0, S1, S2, S3, S4, S5⟩, Hr⟩, Ho, ⟨%d0, H0⟩, ⟨%d1, H1⟩, ⟨%d2, H2⟩, ⟨%d3, H3⟩, H4, H5, H6⟩
  iapply (sound_kernel c Set.univ (grid0.coords t) _ _ _ _ _ _ _ _ _ _ _ _ _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · icases H4 with ⟨%d, H4⟩; iexists _; iexact H4
  isplitl [H5]; · icases H5 with ⟨%d, H5⟩; iexists _; iexact H5
  isplitl [H6]; · icases H6 with ⟨%d, H6⟩; iexists _; iexact H6
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, S0, S1, S2, S3, S4, S5⟩
  isplitl [S0 S1 S2 S3 S4 S5 Hr]
  · isplitr [Hr]
    · isplitl [S0]; · iexact S0
      isplitl [S1]; · iexact S1
      isplitl [S2]; · iexact S2
      isplitl [S3]; · iexact S3
      isplitl [S4]; · iexact S4
      iexact S5
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main from any memory with zero counters terminates, and every final state has
    every array of the pipeline at what the library computes from the proof data, every other unscoped buffer as the
    host lines after the region leave it. -/
theorem run_main : θ_run defs (onTc (τ := τ) (main (F := F))) (s₀ m ρ)
    (Pipeline.FramePost cfgs (dats m) 0 (Pipeline.afterTail₀ cfgs (dats m) 0 (Gen.V0 m) [Gen.hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := Gen.V0 m) (opss := [Gen.hostOps1]) (hsub := Gen.sfx_sub) (hfresh := Gen.sfx_fresh) (hkeep := Gen.sfx_keeps)
    (hmain := Gen.hmain m Variants.none) (hA := fun _ _ => rfl) (hΦ := fun _ _ => rfl)

/-- THE FRAME of the idealized feature program, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  Gen.frame_of m ρ (dats m) (fun c w => dats_A m c w) (run_main m ρ)

end Cert.KernelIdeal.Body
end
-- ==== Proof.KBodyBits.Loop.lean ====
/-
  The chunk loop of the feature kernel, by its invariant.

  At one grid point the body holds four input blocks — features [1, 2048, 512], two integer row
  labels [1, 1, 2048] and a weight row [1, 1, 2048] — and six accumulators: two [1152, 512] matmul
  accumulators and four [1152, 1] column accumulators.  The loop runs four trips; trip `k` takes
  columns `512 k ‥ 512 k + 511` of every input, and for each accumulator loads it whole, adds the
  chunk's contribution and stores it whole.  No accumulator's update reads another accumulator, so
  the six evolve independently: accumulator `j` before trip `k` is `Bj G k`, where `G` is what
  it held at loop entry and `Bj G (k + 1)` is the one whole-buffer write of the trip's payload over
  `Bj G k` (`nxtj`).  The invariant states exactly that, with the inputs unchanged; one trip is run
  once at a symbolic `k`.
-/
import proofs.«141693_j33234456937041_2_alg».proof.Proof.Gen.Kernel.Loops

set_option maxRecDepth 16384
set_option maxHeartbeats 4000000

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The chunk loop

Trip `k` reads chunk `k` (512 columns) of each of the four input blocks and folds it into the six
scratch accumulators, each of which it loads whole and stores whole. -/

/-- chunk `k` of the feature block: rows `512 k ‥ 512 k + 511` of its 2048 -/
abbrev rIn1 (k : Fin k0_t1_loop.trips) : Rect S1x2048x512 :=
  Rect.unit (s := S1x2048x512) (k0_off1 k) S1x512x512.size (Gen.k0_off1_inb k)
/-- chunk `k` of a per-row vector block: entries `512 k ‥ 512 k + 511` of its 2048 -/
abbrev rIn2 (k : Fin k0_t1_loop.trips) : Rect S1x1x2048 :=
  Rect.unit (s := S1x1x2048) (k0_off2 k) S1x1x512.size (Gen.k0_off2_inb k)
/-- all of a [1152, 512] accumulator -/
abbrev rA : Rect S1152x512 := Rect.unit (s := S1152x512) ![0, 0] S1152x512.size inb_S1152x512_S1152x512_0_0
/-- all of a [1152, 1] accumulator -/
abbrev rC : Rect S1152x1 := Rect.unit (s := S1152x1) ![0, 0] S1152x1.size inb_S1152x1_S1152x1_0_0

section Trip
variable (arg1 : Memref sig .tc .vmem S1x2048x512 .f32) (arg2 : Memref sig .tc .vmem S1x1x2048 .i32) (arg3 : Memref sig .tc .vmem S1x1x2048 .i32) (arg4 : Memref sig .tc .vmem S1x1x2048 .f32) (arg8 : Memref sig .tc .vmem S1152x512 .f32) (arg9 : Memref sig .tc .vmem S1152x512 .f32) (arg10 : Memref sig .tc .vmem S1152x1 .f32) (arg11 : Memref sig .tc .vmem S1152x1 .f32) (arg12 : Memref sig .tc .vmem S1152x1 .f32) (arg13 : Memref sig .tc .vmem S1152x1 .f32) (v24 : IVec S1152x512 32) (X1 : BufTy.Contents (Elt F) arg1.view.ty) (X2 : BufTy.Contents (Elt F) arg2.view.ty) (X3 : BufTy.Contents (Elt F) arg3.view.ty) (X4 : BufTy.Contents (Elt F) arg4.view.ty)

/-- what trip `k` leaves in the first matmul accumulator, found at `f` -/
def nxt8 (k : Fin k0_t1_loop.trips) (f : BufTy.Contents (Elt F) arg8.view.ty) : BufTy.Contents (Elt F) arg8.view.ty :=
  arg8.view.writes (Elt F) f [⟨rA, k0_pay8 v24 (arg1.view.readAt (Elt F) (rIn1 k).toLoadRect X1) (arg2.view.readAt (Elt F) (rIn2 k).toLoadRect X2) (arg8.view.readAt (Elt F) rA.toLoadRect f)⟩]
/-- the second matmul accumulator -/
def nxt9 (k : Fin k0_t1_loop.trips) (f : BufTy.Contents (Elt F) arg9.view.ty) : BufTy.Contents (Elt F) arg9.view.ty :=
  arg9.view.writes (Elt F) f [⟨rA, k0_pay9 v24 (arg1.view.readAt (Elt F) (rIn1 k).toLoadRect X1) (arg3.view.readAt (Elt F) (rIn2 k).toLoadRect X3) (arg9.view.readAt (Elt F) rA.toLoadRect f)⟩]
/-- the four column accumulators -/
def nxt10 (k : Fin k0_t1_loop.trips) (f : BufTy.Contents (Elt F) arg10.view.ty) : BufTy.Contents (Elt F) arg10.view.ty :=
  arg10.view.writes (Elt F) f [⟨rC, k0_pay11 (k0_pay5 v24 (arg2.view.readAt (Elt F) (rIn2 k).toLoadRect X2)) (arg10.view.readAt (Elt F) rC.toLoadRect f)⟩]
def nxt11 (k : Fin k0_t1_loop.trips) (f : BufTy.Contents (Elt F) arg11.view.ty) : BufTy.Contents (Elt F) arg11.view.ty :=
  arg11.view.writes (Elt F) f [⟨rC, k0_pay12 (k0_pay6 v24 (arg3.view.readAt (Elt F) (rIn2 k).toLoadRect X3)) (arg11.view.readAt (Elt F) rC.toLoadRect f)⟩]
def nxt12 (k : Fin k0_t1_loop.trips) (f : BufTy.Contents (Elt F) arg12.view.ty) : BufTy.Contents (Elt F) arg12.view.ty :=
  arg12.view.writes (Elt F) f [⟨rC, k0_pay13 (k0_pay4 (arg4.view.readAt (Elt F) (rIn2 k).toLoadRect X4)) (k0_pay5 v24 (arg2.view.readAt (Elt F) (rIn2 k).toLoadRect X2)) (arg12.view.readAt (Elt F) rC.toLoadRect f)⟩]
def nxt13 (k : Fin k0_t1_loop.trips) (f : BufTy.Contents (Elt F) arg13.view.ty) : BufTy.Contents (Elt F) arg13.view.ty :=
  arg13.view.writes (Elt F) f [⟨rC, k0_pay21 (k0_pay14 (k0_pay4 (arg4.view.readAt (Elt F) (rIn2 k).toLoadRect X4)) (k0_pay5 v24 (arg2.view.readAt (Elt F) (rIn2 k).toLoadRect X2)) (arg13.view.readAt (Elt F) rC.toLoadRect f))⟩]

end Trip

section Rec
variable (arg1 : Memref sig .tc .vmem S1x2048x512 .f32) (arg2 : Memref sig .tc .vmem S1x1x2048 .i32) (arg3 : Memref sig .tc .vmem S1x1x2048 .i32) (arg4 : Memref sig .tc .vmem S1x1x2048 .f32) (arg8 : Memref sig .tc .vmem S1152x512 .f32) (arg9 : Memref sig .tc .vmem S1152x512 .f32) (arg10 : Memref sig .tc .vmem S1152x1 .f32) (arg11 : Memref sig .tc .vmem S1152x1 .f32) (arg12 : Memref sig .tc .vmem S1152x1 .f32) (arg13 : Memref sig .tc .vmem S1152x1 .f32) (v24 : IVec S1152x512 32) (X1 : BufTy.Contents (Elt F) arg1.view.ty) (X2 : BufTy.Contents (Elt F) arg2.view.ty) (X3 : BufTy.Contents (Elt F) arg3.view.ty) (X4 : BufTy.Contents (Elt F) arg4.view.ty)

/-- accumulator 1 before trip `k`, from `G` at loop entry -/
def B8 (G : BufTy.Contents (Elt F) arg8.view.ty) : ℕ → BufTy.Contents (Elt F) arg8.view.ty
  | 0 => G
  | k + 1 => if h : k < k0_t1_loop.trips then nxt8 arg1 arg2 arg8 v24 X1 X2 ⟨k, h⟩ (B8 G k) else B8 G k
theorem B8_succ (G : BufTy.Contents (Elt F) arg8.view.ty) (k : Fin k0_t1_loop.trips) :
    B8 arg1 arg2 arg8 v24 X1 X2 G (k.val + 1) = nxt8 arg1 arg2 arg8 v24 X1 X2 k (B8 arg1 arg2 arg8 v24 X1 X2 G k.val) := by
  rw [B8]; exact dif_pos k.isLt

/-- accumulator 2 before trip `k`, from `G` at loop entry -/
def B9 (G : BufTy.Contents (Elt F) arg9.view.ty) : ℕ → BufTy.Contents (Elt F) arg9.view.ty
  | 0 => G
  | k + 1 => if h : k < k0_t1_loop.trips then nxt9 arg1 arg3 arg9 v24 X1 X3 ⟨k, h⟩ (B9 G k) else B9 G k
theorem B9_succ (G : BufTy.Contents (Elt F) arg9.view.ty) (k : Fin k0_t1_loop.trips) :
    B9 arg1 arg3 arg9 v24 X1 X3 G (k.val + 1) = nxt9 arg1 arg3 arg9 v24 X1 X3 k (B9 arg1 arg3 arg9 v24 X1 X3 G k.val) := by
  rw [B9]; exact dif_pos k.isLt

/-- accumulator 3 before trip `k`, from `G` at loop entry -/
def B10 (G : BufTy.Contents (Elt F) arg10.view.ty) : ℕ → BufTy.Contents (Elt F) arg10.view.ty
  | 0 => G
  | k + 1 => if h : k < k0_t1_loop.trips then nxt10 arg2 arg10 v24 X2 ⟨k, h⟩ (B10 G k) else B10 G k
theorem B10_succ (G : BufTy.Contents (Elt F) arg10.view.ty) (k : Fin k0_t1_loop.trips) :
    B10 arg2 arg10 v24 X2 G (k.val + 1) = nxt10 arg2 arg10 v24 X2 k (B10 arg2 arg10 v24 X2 G k.val) := by
  rw [B10]; exact dif_pos k.isLt

/-- accumulator 4 before trip `k`, from `G` at loop entry -/
def B11 (G : BufTy.Contents (Elt F) arg11.view.ty) : ℕ → BufTy.Contents (Elt F) arg11.view.ty
  | 0 => G
  | k + 1 => if h : k < k0_t1_loop.trips then nxt11 arg3 arg11 v24 X3 ⟨k, h⟩ (B11 G k) else B11 G k
theorem B11_succ (G : BufTy.Contents (Elt F) arg11.view.ty) (k : Fin k0_t1_loop.trips) :
    B11 arg3 arg11 v24 X3 G (k.val + 1) = nxt11 arg3 arg11 v24 X3 k (B11 arg3 arg11 v24 X3 G k.val) := by
  rw [B11]; exact dif_pos k.isLt

/-- accumulator 5 before trip `k`, from `G` at loop entry -/
def B12 (G : BufTy.Contents (Elt F) arg12.view.ty) : ℕ → BufTy.Contents (Elt F) arg12.view.ty
  | 0 => G
  | k + 1 => if h : k < k0_t1_loop.trips then nxt12 arg2 arg4 arg12 v24 X2 X4 ⟨k, h⟩ (B12 G k) else B12 G k
theorem B12_succ (G : BufTy.Contents (Elt F) arg12.view.ty) (k : Fin k0_t1_loop.trips) :
    B12 arg2 arg4 arg12 v24 X2 X4 G (k.val + 1) = nxt12 arg2 arg4 arg12 v24 X2 X4 k (B12 arg2 arg4 arg12 v24 X2 X4 G k.val) := by
  rw [B12]; exact dif_pos k.isLt

/-- accumulator 6 before trip `k`, from `G` at loop entry -/
def B13 (G : BufTy.Contents (Elt F) arg13.view.ty) : ℕ → BufTy.Contents (Elt F) arg13.view.ty
  | 0 => G
  | k + 1 => if h : k < k0_t1_loop.trips then nxt13 arg2 arg4 arg13 v24 X2 X4 ⟨k, h⟩ (B13 G k) else B13 G k
theorem B13_succ (G : BufTy.Contents (Elt F) arg13.view.ty) (k : Fin k0_t1_loop.trips) :
    B13 arg2 arg4 arg13 v24 X2 X4 G (k.val + 1) = nxt13 arg2 arg4 arg13 v24 X2 X4 k (B13 arg2 arg4 arg13 v24 X2 X4 G k.val) := by
  rw [B13]; exact dif_pos k.isLt

end Rec

/-- what one trip holds: the four input blocks' buffers and the six accumulators -/
abbrev Trip (c : Dev nD) (arg1 : Memref sig .tc .vmem S1x2048x512 .f32) (arg2 : Memref sig .tc .vmem S1x1x2048 .i32) (arg3 : Memref sig .tc .vmem S1x1x2048 .i32) (arg4 : Memref sig .tc .vmem S1x1x2048 .f32) (arg8 : Memref sig .tc .vmem S1152x512 .f32) (arg9 : Memref sig .tc .vmem S1152x512 .f32) (arg10 : Memref sig .tc .vmem S1152x1 .f32) (arg11 : Memref sig .tc .vmem S1152x1 .f32) (arg12 : Memref sig .tc .vmem S1152x1 .f32) (arg13 : Memref sig .tc .vmem S1152x1 .f32) (X1 : BufTy.Contents (Elt F) arg1.view.ty) (X2 : BufTy.Contents (Elt F) arg2.view.ty) (X3 : BufTy.Contents (Elt F) arg3.view.ty) (X4 : BufTy.Contents (Elt F) arg4.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) : sProp 𝕄 :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)
    ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13))

/-- ONE TRIP at a symbolic `k`: each accumulator goes from what it held to its `nxt`. -/
theorem trip_sound (𝒱 : Variants) (c : Dev nD) (bd : Option 𝒱.V) (E : Set ℕ) (i : grid0.Coords) (arg1 : Memref sig .tc .vmem S1x2048x512 .f32) (harg1 : arg1.IsWhole) (arg2 : Memref sig .tc .vmem S1x1x2048 .i32) (harg2 : arg2.IsWhole) (arg3 : Memref sig .tc .vmem S1x1x2048 .i32) (harg3 : arg3.IsWhole) (arg4 : Memref sig .tc .vmem S1x1x2048 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1152x512 .f32) (harg8 : arg8.IsWhole) (arg9 : Memref sig .tc .vmem S1152x512 .f32) (harg9 : arg9.IsWhole) (arg10 : Memref sig .tc .vmem S1152x1 .f32) (harg10 : arg10.IsWhole) (arg11 : Memref sig .tc .vmem S1152x1 .f32) (harg11 : arg11.IsWhole) (arg12 : Memref sig .tc .vmem S1152x1 .f32) (harg12 : arg12.IsWhole) (arg13 : Memref sig .tc .vmem S1152x1 .f32) (harg13 : arg13.IsWhole) (v24 : IVec S1152x512 32)
    (X1 : BufTy.Contents (Elt F) arg1.view.ty) (X2 : BufTy.Contents (Elt F) arg2.view.ty) (X3 : BufTy.Contents (Elt F) arg3.view.ty) (X4 : BufTy.Contents (Elt F) arg4.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (k : Fin k0_t1_loop.trips) :
    Trip (F := F) c arg1 arg2 arg3 arg4 arg8 arg9 arg10 arg11 arg12 arg13 X1 X2 X3 X4 f8 f9 f10 f11 f12 f13
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 v24 k ())
          (fun _ => Trip (F := F) c arg1 arg2 arg3 arg4 arg8 arg9 arg10 arg11 arg12 arg13 X1 X2 X3 X4 (nxt8 arg1 arg2 arg8 v24 X1 X2 k f8) (nxt9 arg1 arg3 arg9 v24 X1 X3 k f9) (nxt10 arg2 arg10 v24 X2 k f10) (nxt11 arg3 arg11 v24 X3 k f11) (nxt12 arg2 arg4 arg12 v24 X2 X4 k f12) (nxt13 arg2 arg4 arg13 v24 X2 X4 k f13)) := by
  have hk : k.val < 4 := Nat.lt_of_lt_of_le k.isLt k0_t1_abs.2.1
  unfold k0_t1_body
  iintro ⟨HR1, HR2, HR3, HR4, HW8, HW9, HW10, HW11, HW12, HW13⟩
  sl_exec
  sl_step
  isplitl [HR1]; · iexact HR1
  isplitl [HR2]; · iexact HR2
  isplitl [HR3]; · iexact HR3
  isplitl [HR4]; · iexact HR4
  isplitl [HW8]; · iexact HW8
  isplitl [HW9]; · iexact HW9
  isplitl [HW10]; · iexact HW10
  isplitl [HW11]; · iexact HW11
  isplitl [HW12]; · iexact HW12
  iexact HW13

set_option warn.classDefReducibility false in
/-- THE LOOP BY ITS INVARIANT: before trip `k` the inputs are as they were and accumulator `j` holds `Bj … k`,
    the start contents `G·` parameters. -/
@[sl_loop] def loopInv_k0_t1 (𝒱 : Variants) (c : Dev nD) (bd : Option 𝒱.V) (E : Set ℕ) (i : grid0.Coords) (arg1 : Memref sig .tc .vmem S1x2048x512 .f32) (harg1 : arg1.IsWhole) (arg2 : Memref sig .tc .vmem S1x1x2048 .i32) (harg2 : arg2.IsWhole) (arg3 : Memref sig .tc .vmem S1x1x2048 .i32) (harg3 : arg3.IsWhole) (arg4 : Memref sig .tc .vmem S1x1x2048 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1152x512 .f32) (harg8 : arg8.IsWhole) (arg9 : Memref sig .tc .vmem S1152x512 .f32) (harg9 : arg9.IsWhole) (arg10 : Memref sig .tc .vmem S1152x1 .f32) (harg10 : arg10.IsWhole) (arg11 : Memref sig .tc .vmem S1152x1 .f32) (harg11 : arg11.IsWhole) (arg12 : Memref sig .tc .vmem S1152x1 .f32) (harg12 : arg12.IsWhole) (arg13 : Memref sig .tc .vmem S1152x1 .f32) (harg13 : arg13.IsWhole) (v24 : IVec S1152x512 32)
    (X1 : BufTy.Contents (Elt F) arg1.view.ty) (X2 : BufTy.Contents (Elt F) arg2.view.ty) (X3 : BufTy.Contents (Elt F) arg3.view.ty) (X4 : BufTy.Contents (Elt F) arg4.view.ty) (G8 : BufTy.Contents (Elt F) arg8.view.ty) (G9 : BufTy.Contents (Elt F) arg9.view.ty) (G10 : BufTy.Contents (Elt F) arg10.view.ty) (G11 : BufTy.Contents (Elt F) arg11.view.ty) (G12 : BufTy.Contents (Elt F) arg12.view.ty) (G13 : BufTy.Contents (Elt F) arg13.view.ty) :
    Gen.LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 v24 where
  inv := fun k _ => Trip (F := F) c arg1 arg2 arg3 arg4 arg8 arg9 arg10 arg11 arg12 arg13 X1 X2 X3 X4 (B8 arg1 arg2 arg8 v24 X1 X2 G8 k) (B9 arg1 arg3 arg9 v24 X1 X3 G9 k) (B10 arg2 arg10 v24 X2 G10 k) (B11 arg3 arg11 v24 X3 G11 k) (B12 arg2 arg4 arg12 v24 X2 X4 G12 k) (B13 arg2 arg4 arg13 v24 X2 X4 G13 k)
  step k acc := by
    iintro H
    iapply (wp_wand_r Idealize.ShloMosaic.frame (wpE (defs₀ (F := F)) 𝒱 (c : Thread nD τ) bd) E)
    isplitl [H]
    · iapply (trip_sound (F := F) 𝒱 c bd E i arg1 harg1 arg2 harg2 arg3 harg3 arg4 harg4 arg5 harg5 arg6 harg6 arg7 harg7 arg8 harg8 arg9 harg9 arg10 harg10 arg11 harg11 arg12 harg12 arg13 harg13 v24 X1 X2 X3 X4 _ _ _ _ _ _ k)
      iexact H
    · iintro %_ H
      rw [B8_succ, B9_succ, B10_succ, B11_succ, B12_succ, B13_succ]
      iexact H

end Cert.Kernel.Body
end
-- ==== Proof.KBodyBits.Values.lean ====
/-
  The six accumulators and the three outputs of the feature kernel as pure functions of a grid
  point's four input blocks.

  `a8 … a13` follow the chunk loop: each starts at zero and at every trip takes the trip's payload
  of the chunk (columns `512 k ‥ 512 k + 511` of each input block, `View.ld x (rIn· k)`) and of its
  own previous value; `acc` collects the six.  `out4`, `out5`, `out6` are the three [1, 1, 1]
  results the body's tail computes from the accumulators after the fourth trip.

  The second half ties these to memory: a buffer written last through the whole-shape rectangle
  reads as the payload (`read_writes_unit0`), so the contents `Bj G k` the loop's invariant names
  read as `aj k` whenever the start contents `G` read as zero (`read_Bj`, by induction on `k`);
  the tail's three reductions over whole-buffer loads of those contents are then the reductions
  over `aj 4` (`r4_eq`, `r5_eq`, `r6_eq`).
-/
import proofs.«141693_j33234456937041_2_alg».proof.Proof.KBodyBits.Loop
import Idealize.ShloMosaic.Lib.Pipeline.Value
import Idealize.ShloMosaic.Lib.Pipeline.FrameBody

set_option maxRecDepth 16384
set_option maxHeartbeats 4000000

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The accumulators as functions of the four input blocks -/

/-- the row-number grid the one-hot comparisons are made against -/
abbrev rowIota : IVec S1152x512 32 := iota .tc S1152x512 32 [0] iota_S1152x512_d0_w32

section Values
variable (x0 : Vec F S1x2048x512 .f32) (x1 x2 : Vec F S1x1x2048 .i32) (x3 : Vec F S1x1x2048 .f32)

/-- the first matmul accumulator before trip `k`: zero, then each trip adds its chunk's product -/
def a8 : ℕ → FVec F S1152x512 .f32
  | 0 => k0_pay15
  | k + 1 => if h : k < k0_t1_loop.trips then k0_pay8 rowIota (View.ld x0 (rIn1 ⟨k, h⟩)) (View.ld x1 (rIn2 ⟨k, h⟩)) (a8 k) else a8 k
/-- the second matmul accumulator -/
def a9 : ℕ → FVec F S1152x512 .f32
  | 0 => k0_pay16
  | k + 1 => if h : k < k0_t1_loop.trips then k0_pay9 rowIota (View.ld x0 (rIn1 ⟨k, h⟩)) (View.ld x2 (rIn2 ⟨k, h⟩)) (a9 k) else a9 k
/-- the four column accumulators -/
def a10 : ℕ → FVec F S1152x1 .f32
  | 0 => k0_pay17
  | k + 1 => if h : k < k0_t1_loop.trips then k0_pay11 (k0_pay5 rowIota (View.ld x1 (rIn2 ⟨k, h⟩))) (a10 k) else a10 k
def a11 : ℕ → FVec F S1152x1 .f32
  | 0 => k0_pay18
  | k + 1 => if h : k < k0_t1_loop.trips then k0_pay12 (k0_pay6 rowIota (View.ld x2 (rIn2 ⟨k, h⟩))) (a11 k) else a11 k
def a12 : ℕ → FVec F S1152x1 .f32
  | 0 => k0_pay19
  | k + 1 => if h : k < k0_t1_loop.trips then k0_pay13 (k0_pay4 (View.ld x3 (rIn2 ⟨k, h⟩))) (k0_pay5 rowIota (View.ld x1 (rIn2 ⟨k, h⟩))) (a12 k) else a12 k
def a13 : ℕ → FVec F S1152x1 .f32
  | 0 => k0_pay20
  | k + 1 => if h : k < k0_t1_loop.trips then k0_pay21 (k0_pay14 (k0_pay4 (View.ld x3 (rIn2 ⟨k, h⟩))) (k0_pay5 rowIota (View.ld x1 (rIn2 ⟨k, h⟩))) (a13 k)) else a13 k

/-- the six scratch buffers' contents before trip `k` of the chunk loop, as pure functions of the point's four input
    blocks: zero at `k = 0`, and at `k + 1` the trip's payloads of the chunk loads at trip `k` and of the contents at `k` -/
def acc (k : ℕ) : FVec F S1152x512 .f32 × FVec F S1152x512 .f32 × FVec F S1152x1 .f32 × FVec F S1152x1 .f32 × FVec F S1152x1 .f32 × FVec F S1152x1 .f32 :=
  (a8 x0 x1 k, a9 x0 x2 k, a10 x1 k, a11 x2 k, a12 x1 x3 k, a13 x1 x3 k)

/-- what the body leaves in output windows 4, 5, 6 at a point -/
def out4 (x0 : Vec F S1x2048x512 .f32) (x1 x2 : Vec F S1x1x2048 .i32) (x3 : Vec F S1x1x2048 .f32) : Vec F S1x1x1 .f32 :=
  k0_pay1 (k0_pay25 (a10 x1 4) (a11 x2 4) (a8 x0 x1 4) (a9 x0 x2 4))
def out5 (x0 : Vec F S1x2048x512 .f32) (x1 x2 : Vec F S1x1x2048 .i32) (x3 : Vec F S1x1x2048 .f32) : Vec F S1x1x1 .f32 :=
  k0_pay2 (k0_pay26 (a10 x1 4) (a11 x2 4))
def out6 (x0 : Vec F S1x2048x512 .f32) (x1 x2 : Vec F S1x1x2048 .i32) (x3 : Vec F S1x1x2048 .f32) : Vec F S1x1x1 .f32 :=
  k0_pay3 (k0_pay27 (a10 x1 4) (a12 x1 x3 4) (a13 x1 x3 4))

theorem out4_eq : out4 x0 x1 x2 x3 = k0_pay1 (k0_pay25 (acc x0 x1 x2 x3 4).2.2.1 (acc x0 x1 x2 x3 4).2.2.2.1 (acc x0 x1 x2 x3 4).1 (acc x0 x1 x2 x3 4).2.1) := rfl
theorem out5_eq : out5 x0 x1 x2 x3 = k0_pay2 (k0_pay26 (acc x0 x1 x2 x3 4).2.2.1 (acc x0 x1 x2 x3 4).2.2.2.1) := rfl
theorem out6_eq : out6 x0 x1 x2 x3 = k0_pay3 (k0_pay27 (acc x0 x1 x2 x3 4).2.2.1 (acc x0 x1 x2 x3 4).2.2.2.2.1 (acc x0 x1 x2 x3 4).2.2.2.2.2) := rfl

end Values

theorem trips_eq : k0_t1_loop.trips = 4 := by decide

/-! ## The buffers' contents read as those functions -/

/-- A buffer's contents after a last store through the whole-shape rectangle at zero offsets read as the payload. -/
theorem read_writes_unit0 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

theorem z2 : (![0, 0] : Fin 2 → Nat) = fun _ => 0 := by funext a; fin_cases a <;> rfl
theorem z3 : (![0, 0, 0] : Fin 3 → Nat) = fun _ => 0 := by funext a; fin_cases a <;> rfl

section ReadB
variable (arg1 : Memref sig .tc .vmem S1x2048x512 .f32) (arg2 : Memref sig .tc .vmem S1x1x2048 .i32) (arg3 : Memref sig .tc .vmem S1x1x2048 .i32) (arg4 : Memref sig .tc .vmem S1x1x2048 .f32) (arg8 : Memref sig .tc .vmem S1152x512 .f32) (arg9 : Memref sig .tc .vmem S1152x512 .f32) (arg10 : Memref sig .tc .vmem S1152x1 .f32) (arg11 : Memref sig .tc .vmem S1152x1 .f32) (arg12 : Memref sig .tc .vmem S1152x1 .f32) (arg13 : Memref sig .tc .vmem S1152x1 .f32) (X1 : BufTy.Contents (Elt F) arg1.view.ty) (X2 : BufTy.Contents (Elt F) arg2.view.ty) (X3 : BufTy.Contents (Elt F) arg3.view.ty) (X4 : BufTy.Contents (Elt F) arg4.view.ty)

theorem read_B8 (G : BufTy.Contents (Elt F) arg8.view.ty) (hG : arg8.view.read (Elt F) G = k0_pay15) :
    ∀ k, arg8.view.read (Elt F) (B8 arg1 arg2 arg8 rowIota X1 X2 G k) = a8 (arg1.view.read (Elt F) X1) (arg2.view.read (Elt F) X2) k
  | 0 => by rw [B8, a8]; exact hG
  | k + 1 => by
    rw [B8, a8]
    by_cases h : k < k0_t1_loop.trips
    · rw [dif_pos h, dif_pos h]; unfold nxt8
      rw [read_writes_unit0 _ _ z2]
      simp only [View.readAt_eq_ld]
      rw [read_B8 G hG k, View.ld_unit_zero z2]
    · rw [dif_neg h, dif_neg h]; exact read_B8 G hG k

theorem read_B9 (G : BufTy.Contents (Elt F) arg9.view.ty) (hG : arg9.view.read (Elt F) G = k0_pay16) :
    ∀ k, arg9.view.read (Elt F) (B9 arg1 arg3 arg9 rowIota X1 X3 G k) = a9 (arg1.view.read (Elt F) X1) (arg3.view.read (Elt F) X3) k
  | 0 => by rw [B9, a9]; exact hG
  | k + 1 => by
    rw [B9, a9]
    by_cases h : k < k0_t1_loop.trips
    · rw [dif_pos h, dif_pos h]; unfold nxt9
      rw [read_writes_unit0 _ _ z2]
      simp only [View.readAt_eq_ld]
      rw [read_B9 G hG k, View.ld_unit_zero z2]
    · rw [dif_neg h, dif_neg h]; exact read_B9 G hG k

theorem read_B10 (G : BufTy.Contents (Elt F) arg10.view.ty) (hG : arg10.view.read (Elt F) G = k0_pay17) :
    ∀ k, arg10.view.read (Elt F) (B10 arg2 arg10 rowIota X2 G k) = a10 (arg2.view.read (Elt F) X2) k
  | 0 => by rw [B10, a10]; exact hG
  | k + 1 => by
    rw [B10, a10]
    by_cases h : k < k0_t1_loop.trips
    · rw [dif_pos h, dif_pos h]; unfold nxt10
      rw [read_writes_unit0 _ _ z2]
      simp only [View.readAt_eq_ld]
      rw [read_B10 G hG k, View.ld_unit_zero z2]
    · rw [dif_neg h, dif_neg h]; exact read_B10 G hG k

theorem read_B11 (G : BufTy.Contents (Elt F) arg11.view.ty) (hG : arg11.view.read (Elt F) G = k0_pay18) :
    ∀ k, arg11.view.read (Elt F) (B11 arg3 arg11 rowIota X3 G k) = a11 (arg3.view.read (Elt F) X3) k
  | 0 => by rw [B11, a11]; exact hG
  | k + 1 => by
    rw [B11, a11]
    by_cases h : k < k0_t1_loop.trips
    · rw [dif_pos h, dif_pos h]; unfold nxt11
      rw [read_writes_unit0 _ _ z2]
      simp only [View.readAt_eq_ld]
      rw [read_B11 G hG k, View.ld_unit_zero z2]
    · rw [dif_neg h, dif_neg h]; exact read_B11 G hG k

theorem read_B12 (G : BufTy.Contents (Elt F) arg12.view.ty) (hG : arg12.view.read (Elt F) G = k0_pay19) :
    ∀ k, arg12.view.read (Elt F) (B12 arg2 arg4 arg12 rowIota X2 X4 G k) = a12 (arg2.view.read (Elt F) X2) (arg4.view.read (Elt F) X4) k
  | 0 => by rw [B12, a12]; exact hG
  | k + 1 => by
    rw [B12, a12]
    by_cases h : k < k0_t1_loop.trips
    · rw [dif_pos h, dif_pos h]; unfold nxt12
      rw [read_writes_unit0 _ _ z2]
      simp only [View.readAt_eq_ld]
      rw [read_B12 G hG k, View.ld_unit_zero z2]
    · rw [dif_neg h, dif_neg h]; exact read_B12 G hG k

theorem read_B13 (G : BufTy.Contents (Elt F) arg13.view.ty) (hG : arg13.view.read (Elt F) G = k0_pay20) :
    ∀ k, arg13.view.read (Elt F) (B13 arg2 arg4 arg13 rowIota X2 X4 G k) = a13 (arg2.view.read (Elt F) X2) (arg4.view.read (Elt F) X4) k
  | 0 => by rw [B13, a13]; exact hG
  | k + 1 => by
    rw [B13, a13]
    by_cases h : k < k0_t1_loop.trips
    · rw [dif_pos h, dif_pos h]; unfold nxt13
      rw [read_writes_unit0 _ _ z2]
      simp only [View.readAt_eq_ld]
      rw [read_B13 G hG k, View.ld_unit_zero z2]
    · rw [dif_neg h, dif_neg h]; exact read_B13 G hG k

end ReadB

/-! ## The tail's three reductions over the accumulators after the last trip -/

section Tail
variable (arg1 : Memref sig .tc .vmem S1x2048x512 .f32) (arg2 : Memref sig .tc .vmem S1x1x2048 .i32) (arg3 : Memref sig .tc .vmem S1x1x2048 .i32) (arg4 : Memref sig .tc .vmem S1x1x2048 .f32) (arg8 : Memref sig .tc .vmem S1152x512 .f32) (arg9 : Memref sig .tc .vmem S1152x512 .f32) (arg10 : Memref sig .tc .vmem S1152x1 .f32) (arg11 : Memref sig .tc .vmem S1152x1 .f32) (arg12 : Memref sig .tc .vmem S1152x1 .f32) (arg13 : Memref sig .tc .vmem S1152x1 .f32) (X1 : BufTy.Contents (Elt F) arg1.view.ty) (X2 : BufTy.Contents (Elt F) arg2.view.ty) (X3 : BufTy.Contents (Elt F) arg3.view.ty) (X4 : BufTy.Contents (Elt F) arg4.view.ty)

/-- a buffer zero-filled by one whole-shape store over anything reads as the fill -/
theorem read_zeroed {κ : Kind} {sp : Space} {S : Shape} {e : EltTy} (v : View sig κ sp S e) {off : Fin S.rank → Nat} (h : off = fun _ => 0)
    (inb : ∀ a, off a + S.size a ≤ S.size a) (w : S.Idx → Elt F e) :
    v.read (Elt F) (v.writes (Elt F) v.junk [(⟨Rect.unit off S.size inb, w⟩ : View.Piece (Elt F) S e)]) = w :=
  read_writes_unit0 v v.junk h inb w []

theorem r4_eq (G8 : BufTy.Contents (Elt F) arg8.view.ty) (G9 : BufTy.Contents (Elt F) arg9.view.ty) (G10 : BufTy.Contents (Elt F) arg10.view.ty) (G11 : BufTy.Contents (Elt F) arg11.view.ty) (G12 : BufTy.Contents (Elt F) arg12.view.ty) (G13 : BufTy.Contents (Elt F) arg13.view.ty)
    (h8 : arg8.view.read (Elt F) G8 = k0_pay15) (h9 : arg9.view.read (Elt F) G9 = k0_pay16)
    (h10 : arg10.view.read (Elt F) G10 = k0_pay17) (h11 : arg11.view.read (Elt F) G11 = k0_pay18) (n : ℕ) (hn : n = 4) :
    k0_pay25 (arg10.view.readAt (Elt F) rC.toLoadRect (B10 arg2 arg10 rowIota X2 G10 n))
        (arg11.view.readAt (Elt F) rC.toLoadRect (B11 arg3 arg11 rowIota X3 G11 n))
        (arg8.view.readAt (Elt F) rA.toLoadRect (B8 arg1 arg2 arg8 rowIota X1 X2 G8 n))
        (arg9.view.readAt (Elt F) rA.toLoadRect (B9 arg1 arg3 arg9 rowIota X1 X3 G9 n))
      = k0_pay25 (a10 (arg2.view.read (Elt F) X2) 4) (a11 (arg3.view.read (Elt F) X3) 4) (a8 (arg1.view.read (Elt F) X1) (arg2.view.read (Elt F) X2) 4) (a9 (arg1.view.read (Elt F) X1) (arg3.view.read (Elt F) X3) 4) := by
  subst hn
  simp only [View.readAt_eq_ld]
  rw [read_B10 _ _ _ _ h10, read_B11 _ _ _ _ h11, read_B8 _ _ _ _ _ _ h8, read_B9 _ _ _ _ _ _ h9]
  simp only [View.ld_unit_zero (S := S1152x1) z2, View.ld_unit_zero (S := S1152x512) z2]

theorem r5_eq (G10 : BufTy.Contents (Elt F) arg10.view.ty) (G11 : BufTy.Contents (Elt F) arg11.view.ty)
    (h10 : arg10.view.read (Elt F) G10 = k0_pay17) (h11 : arg11.view.read (Elt F) G11 = k0_pay18) (n : ℕ) (hn : n = 4) :
    k0_pay26 (arg10.view.readAt (Elt F) rC.toLoadRect (B10 arg2 arg10 rowIota X2 G10 n))
        (arg11.view.readAt (Elt F) rC.toLoadRect (B11 arg3 arg11 rowIota X3 G11 n))
      = k0_pay26 (a10 (arg2.view.read (Elt F) X2) 4) (a11 (arg3.view.read (Elt F) X3) 4) := by
  subst hn
  simp only [View.readAt_eq_ld]
  rw [read_B10 _ _ _ _ h10, read_B11 _ _ _ _ h11]
  simp only [View.ld_unit_zero (S := S1152x1) z2, View.ld_unit_zero (S := S1152x512) z2]

theorem r6_eq (G10 : BufTy.Contents (Elt F) arg10.view.ty) (G12 : BufTy.Contents (Elt F) arg12.view.ty) (G13 : BufTy.Contents (Elt F) arg13.view.ty)
    (h10 : arg10.view.read (Elt F) G10 = k0_pay17) (h12 : arg12.view.read (Elt F) G12 = k0_pay19) (h13 : arg13.view.read (Elt F) G13 = k0_pay20) (n : ℕ) (hn : n = 4) :
    k0_pay27 (arg10.view.readAt (Elt F) rC.toLoadRect (B10 arg2 arg10 rowIota X2 G10 n))
        (arg12.view.readAt (Elt F) rC.toLoadRect (B12 arg2 arg4 arg12 rowIota X2 X4 G12 n))
        (arg13.view.readAt (Elt F) rC.toLoadRect (B13 arg2 arg4 arg13 rowIota X2 X4 G13 n))
      = k0_pay27 (a10 (arg2.view.read (Elt F) X2) 4) (a12 (arg2.view.read (Elt F) X2) (arg4.view.read (Elt F) X4) 4) (a13 (arg2.view.read (Elt F) X2) (arg4.view.read (Elt F) X4) 4) := by
  subst hn
  simp only [View.readAt_eq_ld]
  rw [read_B10 _ _ _ _ h10, read_B12 _ _ _ _ _ _ h12, read_B13 _ _ _ _ _ _ h13]
  simp only [View.ld_unit_zero (S := S1152x1) z2, View.ld_unit_zero (S := S1152x512) z2]

end Tail

end Cert.Kernel.Body
end
-- ==== Proof.KBodyBits.Kernel.lean ====
/-
  The feature kernel's body as one triple, on any whole memrefs.

  Holding the four input memrefs at blocks `x0 … x3`, the three output memrefs and the six scratch
  accumulators at anything, the body zero-fills the accumulators, runs the four-trip chunk loop
  (by its invariant: the accumulators then hold `Bj G 4` over the zero fill `G`), loads the
  accumulators whole and stores the three [1, 1, 1] results.  What it leaves in the outputs reads
  as `out4`, `out5`, `out6` of the input blocks; the inputs are as they were and the accumulators
  are left at whatever the loop made of them.
-/
import proofs.«141693_j33234456937041_2_alg».proof.Proof.KBodyBits.Values

set_option maxRecDepth 16384
set_option maxHeartbeats 4000000

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body on whole memrefs: inputs at `x0 … x3`, outputs and accumulators at anything; after it the outputs read
    `out4`, `out5`, `out6` of the inputs. -/
theorem sound_kernel (c : Dev nD) (E : Set ℕ) (i : grid0.Coords) (arg1 : Memref sig .tc .vmem S1x2048x512 .f32) (harg1 : arg1.IsWhole) (arg2 : Memref sig .tc .vmem S1x1x2048 .i32) (harg2 : arg2.IsWhole) (arg3 : Memref sig .tc .vmem S1x1x2048 .i32) (harg3 : arg3.IsWhole) (arg4 : Memref sig .tc .vmem S1x1x2048 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1152x512 .f32) (harg8 : arg8.IsWhole) (arg9 : Memref sig .tc .vmem S1152x512 .f32) (harg9 : arg9.IsWhole) (arg10 : Memref sig .tc .vmem S1152x1 .f32) (harg10 : arg10.IsWhole) (arg11 : Memref sig .tc .vmem S1152x1 .f32) (harg11 : arg11.IsWhole) (arg12 : Memref sig .tc .vmem S1152x1 .f32) (harg12 : arg12.IsWhole) (arg13 : Memref sig .tc .vmem S1152x1 .f32) (harg13 : arg13.IsWhole)
    (x0 : Vec F S1x2048x512 .f32) (x1 x2 : Vec F S1x1x2048 .i32) (x3 : Vec F S1x1x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out4 x0 x1 x2 x3) ∗ owns (c : Thread nD τ) arg6 fullShare (out5 x0 x1 x2 x3) ∗ owns (c : Thread nD τ) arg7 fullShare (out6 x0 x1 x2 x3)
            ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none (c : Thread nD τ) none) E (cc0__feat_kernel (F := F) i arg1 harg1 arg2 harg2 arg3 harg3 arg4 harg4 arg5 harg5 arg6 harg6 arg7 harg7 arg8 harg8 arg9 harg9 arg10 harg10 arg11 harg11 arg12 harg12 arg13 harg13) K := by
  simp only [cc0__feat_kernel_eq_skeleton]; unfold cc0__feat_kernel_skel
  unfold owns
  iintro ⟨⟨%X1, %h1, H1⟩, ⟨%X2, %h2, H2⟩, ⟨%X3, %h3, H3⟩, ⟨%X4, %h4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  subst h1 h2 h3 h4
  have h4 : Scf.trips k0_t1_loop.lb k0_t1_loop.ub k0_t1_loop.st = 4 := trips_eq
  sl_exec
  sl_step
  iapply Hk
  isplitl [H1]
  · iexists X1; isplitr; · ipureintro; rfl
    iexact H1
  isplitl [H2]
  · iexists X2; isplitr; · ipureintro; rfl
    iexact H2
  isplitl [H3]
  · iexists X3; isplitr; · ipureintro; rfl
    iexact H3
  isplitl [H4]
  · iexists X4; isplitr; · ipureintro; rfl
    iexact H4
  isplitl [H5]
  · iexists _; isplitr
    swap; · iexact H5
    ipureintro
    rw [read_writes_unit0 _ _ z3]
    unfold out4 sound_kernel.sl.r sound_kernel.sl.v sound_kernel.sl.v27 sound_kernel.sl.v34 sound_kernel.sl.v37 sound_kernel.sl.v24
    simp only [View.readAt_eq_ld]
    rw [read_B10, read_B11, read_B8, read_B9, h4]
    · simp only [View.ld_unit_zero (S := S1152x1) z2, View.ld_unit_zero (S := S1152x512) z2]
    all_goals exact read_zeroed _ z2 _ _
  isplitl [H6]
  · iexists _; isplitr
    swap; · iexact H6
    ipureintro
    rw [read_writes_unit0 _ _ z3]
    unfold out5 sound_kernel.sl.r_1 sound_kernel.sl.v sound_kernel.sl.v27 sound_kernel.sl.v24
    simp only [View.readAt_eq_ld]
    rw [read_B10, read_B11, h4]
    · simp only [View.ld_unit_zero (S := S1152x1) z2]
    all_goals exact read_zeroed _ z2 _ _
  isplitl [H7]
  · iexists _; isplitr
    swap; · iexact H7
    ipureintro
    rw [read_writes_unit0 _ _ z3]
    unfold out6 sound_kernel.sl.r_2 sound_kernel.sl.v sound_kernel.sl.v28 sound_kernel.sl.v29 sound_kernel.sl.v24
    simp only [View.readAt_eq_ld]
    rw [read_B10, read_B12, read_B13, h4]
    · simp only [View.ld_unit_zero (S := S1152x1) z2]
    all_goals exact read_zeroed _ z2 _ _
  isplitl [H8]
  · iexists _; iexists _; isplitr
    swap; · iexact H8
    ipureintro; rfl
  isplitl [H9]
  · iexists _; iexists _; isplitr
    swap; · iexact H9
    ipureintro; rfl
  isplitl [H10]
  · iexists _; iexists _; isplitr
    swap; · iexact H10
    ipureintro; rfl
  isplitl [H11]
  · iexists _; iexists _; isplitr
    swap; · iexact H11
    ipureintro; rfl
  isplitl [H12]
  · iexists _; iexists _; isplitr
    swap; · iexact H12
    ipureintro; rfl
  iexists _; iexists _; isplitr
  swap; · iexact H13
  ipureintro; rfl

end Cert.Kernel.Body
end
-- ==== Proof.KBodyBits.lean ====
/-
  The frame of the word-level feature program from the body's triple.

  The proof data of the one pipeline on core `c`: each array as the region finds it; after the
  body at point `t` the four input staging buffers still hold their blocks and the three output
  staging buffers hold `out4`, `out5`, `out6` of those blocks; the invariant is the scoped rest
  (the six scratch accumulators at any contents) and the generator register, which the body may
  use and need not describe.  The body obligation at a generic point follows from the triple on
  whole memrefs, the scratch accumulators taken out of the invariant and handed back at whatever
  the loop left.  The launch theorem for a region followed by host lines then gives the run, and
  the frame is the run read at the argument arrays.
-/
import proofs.«141693_j33234456937041_2_alg».proof.Proof.KBodyBits.Kernel
import proofs.«141693_j33234456937041_2_alg».proof.Proof.Gen.Kernel.Frame
import Idealize.ShloMosaic.Lib.Pipeline.Frame
import Idealize.ShloMosaic.Lib.Pipeline.FrameSuffix

set_option maxRecDepth 16384
set_option maxHeartbeats 4000000

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 (iblk m c 0 t) (iblk m c 1 t) (iblk m c 2 t) (iblk m c 3 t)
    | ⟨5, _⟩ => out5 (iblk m c 0 t) (iblk m c 1 t) (iblk m c 2 t) (iblk m c 3 t)
    | ⟨6, _⟩ => out6 (iblk m c 0 t) (iblk m c 1 t) (iblk m c 2 t) (iblk m c 3 t)
  Φ _ := Pipeline.ΦA spec0 c
  q _ := fullShare
  owed _ := 0

theorem dats_A (c : Dev nD) (w : Fin cfg0.W) : (dats m 0 c).A w = V m c (Pipeline.arrRef spec0 w) := rfl

theorem dats_after0 (c : Dev nD) (t : Fin cfg0.N) : (dats m 0 c).after 0 t = iblk m c 0 t := by dsimp only [dats]
theorem dats_after1 (c : Dev nD) (t : Fin cfg0.N) : (dats m 0 c).after 1 t = iblk m c 1 t := by dsimp only [dats]
theorem dats_after2 (c : Dev nD) (t : Fin cfg0.N) : (dats m 0 c).after 2 t = iblk m c 2 t := by dsimp only [dats]
theorem dats_after3 (c : Dev nD) (t : Fin cfg0.N) : (dats m 0 c).after 3 t = iblk m c 3 t := by dsimp only [dats]
theorem dats_after4 (c : Dev nD) (t : Fin cfg0.N) : (dats m 0 c).after 4 t = out4 (iblk m c 0 t) (iblk m c 1 t) (iblk m c 2 t) (iblk m c 3 t) := by dsimp only [dats]
theorem dats_after5 (c : Dev nD) (t : Fin cfg0.N) : (dats m 0 c).after 5 t = out5 (iblk m c 0 t) (iblk m c 1 t) (iblk m c 2 t) (iblk m c 3 t) := by dsimp only [dats]
theorem dats_after6 (c : Dev nD) (t : Fin cfg0.N) : (dats m 0 c).after 6 t = out6 (iblk m c 0 t) (iblk m c 1 t) (iblk m c 2 t) (iblk m c 3 t) := by dsimp only [dats]

/-- Each input's current staging buffer holds its block at every point. -/
theorem before0 (c : Dev nD) (t : Fin cfg0.N) (d) : (dats m 0 c).before 0 t d = iblk m c 0 t :=
  before0_0_of m (dats m 0 c) (dats_A m c 0) (dats_after0 m c) t d
theorem before1 (c : Dev nD) (t : Fin cfg0.N) (d) : (dats m 0 c).before 1 t d = iblk m c 1 t :=
  before0_1_of m (dats m 0 c) (dats_A m c 1) (dats_after1 m c) t d
theorem before2 (c : Dev nD) (t : Fin cfg0.N) (d) : (dats m 0 c).before 2 t d = iblk m c 2 t :=
  before0_2_of m (dats m 0 c) (dats_A m c 2) (dats_after2 m c) t d
theorem before3 (c : Dev nD) (t : Fin cfg0.N) (d) : (dats m 0 c).before 3 t d = iblk m c 3 t :=
  before0_3_of m (dats m 0 c) (dats_A m c 3) (dats_after3 m c) t d

/-! ## The invariant: the scratch accumulators at anything -/

/-- The six scratch operands, whole scoped buffers passed beside the windows. -/
abbrev scM0 : Memref sig .tc .vmem S1152x512 .f32 := Memref.whole cc0_scratch0
abbrev scM1 : Memref sig .tc .vmem S1152x512 .f32 := Memref.whole cc0_scratch1
abbrev scM2 : Memref sig .tc .vmem S1152x1 .f32 := Memref.whole cc0_scratch2
abbrev scM3 : Memref sig .tc .vmem S1152x1 .f32 := Memref.whole cc0_scratch3
abbrev scM4 : Memref sig .tc .vmem S1152x1 .f32 := Memref.whole cc0_scratch4
abbrev scM5 : Memref sig .tc .vmem S1152x1 .f32 := Memref.whole cc0_scratch5

/-- The invariant with the scratch operands as memrefs owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d)) ∗ (∃ r, prngReg c r)) := by
  unfold Pipeline.ΦA; rw [scopedRest0_eq]; simp only [scM0, scM1, scM2, scM3, scM4, scM5, owns_whole]; try rfl

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' memrefs hold their blocks, the scratch accumulators come out of the invariant
    and go back into it, the core's `owes` passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    dats_after0, dats_after1, dats_after2, dats_after3, dats_after4, dats_after5, dats_after6, PhiA_eq]
  iintro ⟨⟨⟨S0, S1, S2, S3, S4, S5⟩, Hr⟩, Ho, ⟨%d0, H0⟩, ⟨%d1, H1⟩, ⟨%d2, H2⟩, ⟨%d3, H3⟩, H4, H5, H6⟩
  iapply (sound_kernel c Set.univ (grid0.coords t) _ _ _ _ _ _ _ _ _ _ _ _ _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · icases H4 with ⟨%d, H4⟩; iexists _; iexact H4
  isplitl [H5]; · icases H5 with ⟨%d, H5⟩; iexists _; iexact H5
  isplitl [H6]; · icases H6 with ⟨%d, H6⟩; iexists _; iexact H6
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, S0, S1, S2, S3, S4, S5⟩
  isplitl [S0 S1 S2 S3 S4 S5 Hr]
  · isplitr [Hr]
    · isplitl [S0]; · iexact S0
      isplitl [S1]; · iexact S1
      isplitl [S2]; · iexact S2
      isplitl [S3]; · iexact S3
      isplitl [S4]; · iexact S4
      iexact S5
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main from any memory with zero counters terminates, and every final state has
    every array of the pipeline at what the library computes from the proof data, every other unscoped buffer as the
    host lines after the region leave it. -/
theorem run_main : θ_run defs (onTc (τ := τ) (main (F := F))) (s₀ m ρ)
    (Pipeline.FramePost cfgs (dats m) 0 (Pipeline.afterTail₀ cfgs (dats m) 0 (Gen.V0 m) [Gen.hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := Gen.V0 m) (opss := [Gen.hostOps1]) (hsub := Gen.sfx_sub) (hfresh := Gen.sfx_fresh) (hkeep := Gen.sfx_keeps)
    (hmain := Gen.hmain m Variants.none) (hA := fun _ _ => rfl) (hΦ := fun _ _ => rfl)

/-- THE FRAME of the word-level feature program, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  Gen.frame_of m ρ (dats m) (fun c w => dats_A m c w) (run_main m ρ)

end Cert.Kernel.Body
end
-- ==== Proof.RefRun.Ops.lean ====
/- The reference program's @main as one list of host operations, the operations of the functions it calls
   written at their call sites over each call's own buffers, and every buffer's value after the run as a named
   function of the two argument arrays. -/
import proofs.«141693_j33234456937041_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 19 of @main, in order. -/
abbrev w0 : List (HloOp τ sig (Elt F)) :=
  [ StableHlo.reshape main_arg0 main_v0 rfl shapeCasts_S32x2048x1_S32x2048,
    StableHlo.nullary main_cst (constant S_ .f32 0x3F000000#32),
    StableHlo.unary main_cst main_v1 (broadcastInDim S32x2048 ![] bcast_S_S32x2048 : (⟨S_, .f32⟩ : BufTy).Contents (Elt F) → (⟨S32x2048, .f32⟩ : BufTy).Contents (Elt F)),
    StableHlo.binary main_v0 main_v1 main_v2 (cmpf .ogt : (⟨S32x2048, .f32⟩ : BufTy).Contents (Elt F) → (⟨S32x2048, .f32⟩ : BufTy).Contents (Elt F) → (⟨S32x2048, .i1⟩ : BufTy).Contents (Elt F)),
    StableHlo.unary main_v2 main_v3 ((extractStridedSlice S32x2047 ![0, 0] · slices_S32x2048_S32x2047_0_0) : (⟨S32x2048, .i1⟩ : BufTy).Contents (Elt F) → (⟨S32x2047, .i1⟩ : BufTy).Contents (Elt F)),
    StableHlo.nullary main_c (constantI S_ 32 0#32),
    StableHlo.TRef.nullary main_call0.c (constantI S_ 32 0#32),
    StableHlo.TRef.unary main_call0.c main_call0.v0 (broadcastInDim S_ ![] bcast_S_S_),
    StableHlo.TRef.binary (.of main_c : StableHlo.TRef sig ⟨S_, .i32⟩) main_call0.v0 main_call0.v1 (cmpi .ne),
    StableHlo.TRef.unary main_call0.v1 main_call0.v2 id,
    StableHlo.TRef.binary (.of main_v3 : StableHlo.TRef sig ⟨S32x2047, .i1⟩) main_call0.v2 main_call0.v3 (fun x v => pad S32x2048 ![0, 1] ![0, 0] ![0, 0] x v pads_S32x2047_S32x2048_000_100 h_S_),
    StableHlo.unary main_v4 main_v5 (noti : (⟨S32x2048, .i1⟩ : BufTy).Contents (Elt F) → (⟨S32x2048, .i1⟩ : BufTy).Contents (Elt F)),
    StableHlo.binary main_v2 main_v5 main_v6 (andi : (⟨S32x2048, .i1⟩ : BufTy).Contents (Elt F) → (⟨S32x2048, .i1⟩ : BufTy).Contents (Elt F) → (⟨S32x2048, .i1⟩ : BufTy).Contents (Elt F)),
    StableHlo.unary main_v6 main_v7 ((extui 32 · natLt_1_32) : (⟨S32x2048, .i1⟩ : BufTy).Contents (Elt F) → (⟨S32x2048, .i32⟩ : BufTy).Contents (Elt F)),
    StableHlo.TRef.nullary main_call1_call0.c (constantI S_ 32 0#32),
    StableHlo.TRef.unary main_call1_call0.c main_call1_call0.v0 (broadcastInDim S_ ![] bcast_S_S_),
    StableHlo.TRef.binary (.of main_v7 : StableHlo.TRef sig ⟨S32x2048, .i32⟩) main_call1_call0.v0 main_call1_call0.v1 (fun x v => Host.reduceWindow IntOp.addi ![1, 2048] ![1, 1] ![0, 2047] ![0, 0] x v reduceWindows_S32x2048_S32x2048_w1s1p0_0_w2048s1p2047_0 h_S_),
    StableHlo.nullary main_c_0 (constantI S_ 32 1#32),
    StableHlo.unary main_c_0 main_v9 (broadcastInDim S32x2048 ![] bcast_S_S32x2048 : (⟨S_, .i32⟩ : BufTy).Contents (Elt F) → (⟨S32x2048, .i32⟩ : BufTy).Contents (Elt F)) ]

/-- Operations 20 … 37 of @main, in order. -/
abbrev w1 : List (HloOp τ sig (Elt F)) :=
  [ StableHlo.binary main_v8 main_v9 main_v10 (subi : (⟨S32x2048, .i32⟩ : BufTy).Contents (Elt F) → (⟨S32x2048, .i32⟩ : BufTy).Contents (Elt F) → (⟨S32x2048, .i32⟩ : BufTy).Contents (Elt F)),
    StableHlo.nullary main_v11 (iotaInDim S32 32 0),
    StableHlo.unary main_v11 main_v12 (broadcastInDim S32x1 ![0] bcast_S32_S32x1_0 : (⟨S32, .i32⟩ : BufTy).Contents (Elt F) → (⟨S32x1, .i32⟩ : BufTy).Contents (Elt F)),
    StableHlo.nullary main_c_1 (constantI S_ 32 1025#32),
    StableHlo.unary main_c_1 main_v13 (broadcastInDim S32x1 ![] bcast_S_S32x1 : (⟨S_, .i32⟩ : BufTy).Contents (Elt F) → (⟨S32x1, .i32⟩ : BufTy).Contents (Elt F)),
    StableHlo.binary main_v12 main_v13 main_v14 (muli : (⟨S32x1, .i32⟩ : BufTy).Contents (Elt F) → (⟨S32x1, .i32⟩ : BufTy).Contents (Elt F) → (⟨S32x1, .i32⟩ : BufTy).Contents (Elt F)),
    StableHlo.unary main_v14 main_v15 (broadcastInDim S32x2048 ![0, 1] bcast_S32x1_S32x2048_0_1 : (⟨S32x1, .i32⟩ : BufTy).Contents (Elt F) → (⟨S32x2048, .i32⟩ : BufTy).Contents (Elt F)),
    StableHlo.binary main_v15 main_v10 main_v16 (addi : (⟨S32x2048, .i32⟩ : BufTy).Contents (Elt F) → (⟨S32x2048, .i32⟩ : BufTy).Contents (Elt F) → (⟨S32x2048, .i32⟩ : BufTy).Contents (Elt F)),
    StableHlo.nullary main_c_2 (constantI S_ 32 32800#32),
    StableHlo.TRef.unary (.of main_c_2 : StableHlo.TRef sig ⟨S_, .i32⟩) main_call2.v0 id,
    StableHlo.TRef.unary main_call2.v0 main_call2.v1 (broadcastInDim S32x2048 ![] bcast_S_S32x2048),
    StableHlo.TRef.ternary (.of main_v2 : StableHlo.TRef sig ⟨S32x2048, .i1⟩) (.of main_v16 : StableHlo.TRef sig ⟨S32x2048, .i32⟩) main_call2.v1 main_call2.v2 select,
    StableHlo.reshape main_v17 main_v18 rfl shapeCasts_S32x2048_S65536,
    StableHlo.unary main_v2 main_v19 (uitofp .f32 : (⟨S32x2048, .i1⟩ : BufTy).Contents (Elt F) → (⟨S32x2048, .f32⟩ : BufTy).Contents (Elt F)),
    StableHlo.reshape main_v19 main_v20 rfl shapeCasts_S32x2048_S65536,
    StableHlo.reshape main_v0 main_v21 rfl shapeCasts_S32x2048_S65536,
    StableHlo.nullary main_cst_3 (constant S_ .f32 0x00000000#32),
    StableHlo.unary main_cst_3 main_v22 (broadcastInDim S32801 ![] bcast_S_S32801 : (⟨S_, .f32⟩ : BufTy).Contents (Elt F) → (⟨S32801, .f32⟩ : BufTy).Contents (Elt F)) ]

/-- Operations 38 … 55 of @main, in order. -/
abbrev w2 : List (HloOp τ sig (Elt F)) :=
  [ StableHlo.unary main_v18 main_v23 (broadcastInDim S65536x1 ![0] bcast_S65536_S65536x1_0 : (⟨S65536, .i32⟩ : BufTy).Contents (Elt F) → (⟨S65536x1, .i32⟩ : BufTy).Contents (Elt F)),
    StableHlo.ternary main_v22 main_v23 main_v20 main_v24 ((fun x i u => Host.scatterAdd scatter_S32801_S65536x1_S65536_n_0_0_1 x i u) : (⟨S32801, .f32⟩ : BufTy).Contents (Elt F) → (⟨S65536x1, .i32⟩ : BufTy).Contents (Elt F) → (⟨S65536, .f32⟩ : BufTy).Contents (Elt F) → (⟨S32801, .f32⟩ : BufTy).Contents (Elt F)),
    StableHlo.unary main_v24 main_v25 ((extractStridedSlice S32800 ![0] · slices_S32801_S32800_0) : (⟨S32801, .f32⟩ : BufTy).Contents (Elt F) → (⟨S32800, .f32⟩ : BufTy).Contents (Elt F)),
    StableHlo.nullary main_cst_4 (constant S_ .f32 0x3F800000#32),
    StableHlo.unary main_cst_4 main_v26 (broadcastInDim S32800 ![] bcast_S_S32800 : (⟨S_, .f32⟩ : BufTy).Contents (Elt F) → (⟨S32800, .f32⟩ : BufTy).Contents (Elt F)),
    StableHlo.binary main_v25 main_v26 main_v27 (maximumf : (⟨S32800, .f32⟩ : BufTy).Contents (Elt F) → (⟨S32800, .f32⟩ : BufTy).Contents (Elt F) → (⟨S32800, .f32⟩ : BufTy).Contents (Elt F)),
    StableHlo.binary main_v21 main_v20 main_v28 (mulf : (⟨S65536, .f32⟩ : BufTy).Contents (Elt F) → (⟨S65536, .f32⟩ : BufTy).Contents (Elt F) → (⟨S65536, .f32⟩ : BufTy).Contents (Elt F)),
    StableHlo.nullary main_cst_5 (constant S_ .f32 0x00000000#32),
    StableHlo.unary main_cst_5 main_v29 (broadcastInDim S32801 ![] bcast_S_S32801 : (⟨S_, .f32⟩ : BufTy).Contents (Elt F) → (⟨S32801, .f32⟩ : BufTy).Contents (Elt F)),
    StableHlo.unary main_v18 main_v30 (broadcastInDim S65536x1 ![0] bcast_S65536_S65536x1_0 : (⟨S65536, .i32⟩ : BufTy).Contents (Elt F) → (⟨S65536x1, .i32⟩ : BufTy).Contents (Elt F)),
    StableHlo.ternary main_v29 main_v30 main_v28 main_v31 ((fun x i u => Host.scatterAdd scatter_S32801_S65536x1_S65536_n_0_0_1 x i u) : (⟨S32801, .f32⟩ : BufTy).Contents (Elt F) → (⟨S65536x1, .i32⟩ : BufTy).Contents (Elt F) → (⟨S65536, .f32⟩ : BufTy).Contents (Elt F) → (⟨S32801, .f32⟩ : BufTy).Contents (Elt F)),
    StableHlo.unary main_v31 main_v32 ((extractStridedSlice S32800 ![0] · slices_S32801_S32800_0) : (⟨S32801, .f32⟩ : BufTy).Contents (Elt F) → (⟨S32800, .f32⟩ : BufTy).Contents (Elt F)),
    StableHlo.binary main_v32 main_v27 main_v33 (Host.divf : (⟨S32800, .f32⟩ : BufTy).Contents (Elt F) → (⟨S32800, .f32⟩ : BufTy).Contents (Elt F) → (⟨S32800, .f32⟩ : BufTy).Contents (Elt F)),
    StableHlo.nullary main_c_6 (constantI S_ 32 0#32),
    StableHlo.nullary main_c_7 (constantI S_ 32 32799#32),
    StableHlo.TRef.unary (.of main_c_6 : StableHlo.TRef sig ⟨S_, .i32⟩) main_call3.v0 id,
    StableHlo.TRef.unary main_call3.v0 main_call3.v1 (broadcastInDim S65536 ![] bcast_S_S65536),
    StableHlo.TRef.binary main_call3.v1 (.of main_v18 : StableHlo.TRef sig ⟨S65536, .i32⟩) main_call3.v2 maxsi ]

/-- Operations 56 … 73 of @main, in order. -/
abbrev w3 : List (HloOp τ sig (Elt F)) :=
  [ StableHlo.TRef.unary (.of main_c_7 : StableHlo.TRef sig ⟨S_, .i32⟩) main_call3.v3 id,
    StableHlo.TRef.unary main_call3.v3 main_call3.v4 (broadcastInDim S65536 ![] bcast_S_S65536),
    StableHlo.TRef.binary main_call3.v4 main_call3.v2 main_call3.v5 minsi,
    StableHlo.nullary main_c_8 (constantI S_ 32 0#32),
    StableHlo.unary main_c_8 main_v35 (broadcastInDim S65536 ![] bcast_S_S65536 : (⟨S_, .i32⟩ : BufTy).Contents (Elt F) → (⟨S65536, .i32⟩ : BufTy).Contents (Elt F)),
    StableHlo.binary main_v34 main_v35 main_v36 (cmpi .slt : (⟨S65536, .i32⟩ : BufTy).Contents (Elt F) → (⟨S65536, .i32⟩ : BufTy).Contents (Elt F) → (⟨S65536, .i1⟩ : BufTy).Contents (Elt F)),
    StableHlo.nullary main_c_9 (constantI S_ 32 32800#32),
    StableHlo.unary main_c_9 main_v37 (broadcastInDim S65536 ![] bcast_S_S65536 : (⟨S_, .i32⟩ : BufTy).Contents (Elt F) → (⟨S65536, .i32⟩ : BufTy).Contents (Elt F)),
    StableHlo.binary main_v34 main_v37 main_v38 (addi : (⟨S65536, .i32⟩ : BufTy).Contents (Elt F) → (⟨S65536, .i32⟩ : BufTy).Contents (Elt F) → (⟨S65536, .i32⟩ : BufTy).Contents (Elt F)),
    StableHlo.ternary main_v36 main_v38 main_v34 main_v39 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v39 main_v40 (broadcastInDim S65536x1 ![0] bcast_S65536_S65536x1_0 : (⟨S65536, .i32⟩ : BufTy).Contents (Elt F) → (⟨S65536x1, .i32⟩ : BufTy).Contents (Elt F)),
    StableHlo.binary main_v33 main_v40 main_v41 ((fun x i => Host.gather gather_S32800_S65536x1_S65536_n_0_n_n_0_1_1 x i) : (⟨S32800, .f32⟩ : BufTy).Contents (Elt F) → (⟨S65536x1, .i32⟩ : BufTy).Contents (Elt F) → (⟨S65536, .f32⟩ : BufTy).Contents (Elt F)),
    StableHlo.binary main_v21 main_v41 main_v42 (subf : (⟨S65536, .f32⟩ : BufTy).Contents (Elt F) → (⟨S65536, .f32⟩ : BufTy).Contents (Elt F) → (⟨S65536, .f32⟩ : BufTy).Contents (Elt F)),
    StableHlo.binary main_v42 main_v42 main_v43 (mulf : (⟨S65536, .f32⟩ : BufTy).Contents (Elt F) → (⟨S65536, .f32⟩ : BufTy).Contents (Elt F) → (⟨S65536, .f32⟩ : BufTy).Contents (Elt F)),
    StableHlo.binary main_v20 main_v43 main_v44 (mulf : (⟨S65536, .f32⟩ : BufTy).Contents (Elt F) → (⟨S65536, .f32⟩ : BufTy).Contents (Elt F) → (⟨S65536, .f32⟩ : BufTy).Contents (Elt F)),
    StableHlo.nullary main_cst_10 (constant S_ .f32 0x00000000#32),
    StableHlo.unary main_cst_10 main_v45 (broadcastInDim S32801 ![] bcast_S_S32801 : (⟨S_, .f32⟩ : BufTy).Contents (Elt F) → (⟨S32801, .f32⟩ : BufTy).Contents (Elt F)),
    StableHlo.unary main_v18 main_v46 (broadcastInDim S65536x1 ![0] bcast_S65536_S65536x1_0 : (⟨S65536, .i32⟩ : BufTy).Contents (Elt F) → (⟨S65536x1, .i32⟩ : BufTy).Contents (Elt F)) ]

/-- Operations 74 … 94 of @main, in order. -/
abbrev w4 : List (HloOp τ sig (Elt F)) :=
  [ StableHlo.ternary main_v45 main_v46 main_v44 main_v47 ((fun x i u => Host.scatterAdd scatter_S32801_S65536x1_S65536_n_0_0_1 x i u) : (⟨S32801, .f32⟩ : BufTy).Contents (Elt F) → (⟨S65536x1, .i32⟩ : BufTy).Contents (Elt F) → (⟨S65536, .f32⟩ : BufTy).Contents (Elt F) → (⟨S32801, .f32⟩ : BufTy).Contents (Elt F)),
    StableHlo.unary main_v47 main_v48 ((extractStridedSlice S32800 ![0] · slices_S32801_S32800_0) : (⟨S32801, .f32⟩ : BufTy).Contents (Elt F) → (⟨S32800, .f32⟩ : BufTy).Contents (Elt F)),
    StableHlo.binary main_v48 main_v27 main_v49 (Host.divf : (⟨S32800, .f32⟩ : BufTy).Contents (Elt F) → (⟨S32800, .f32⟩ : BufTy).Contents (Elt F) → (⟨S32800, .f32⟩ : BufTy).Contents (Elt F)),
    StableHlo.unary main_v6 main_v50 ((extui 32 · natLt_1_32) : (⟨S32x2048, .i1⟩ : BufTy).Contents (Elt F) → (⟨S32x2048, .i32⟩ : BufTy).Contents (Elt F)),
    StableHlo.nullary main_c_11 (constantI S_ 32 0#32),
    StableHlo.binary main_v50 main_c_11 main_v51 ((fun x v => Host.reduce IntOp.addi x v reducesTo_S32x2048_S32_d1 h_S_) : (⟨S32x2048, .i32⟩ : BufTy).Contents (Elt F) → (⟨S_, .i32⟩ : BufTy).Contents (Elt F) → (⟨S32, .i32⟩ : BufTy).Contents (Elt F)),
    StableHlo.nullary main_v52 (iotaInDim S1025 32 0),
    StableHlo.unary main_v52 main_v53 (broadcastInDim S1x1025 ![1] bcast_S1025_S1x1025_1 : (⟨S1025, .i32⟩ : BufTy).Contents (Elt F) → (⟨S1x1025, .i32⟩ : BufTy).Contents (Elt F)),
    StableHlo.unary main_v51 main_v54 (broadcastInDim S32x1 ![0] bcast_S32_S32x1_0 : (⟨S32, .i32⟩ : BufTy).Contents (Elt F) → (⟨S32x1, .i32⟩ : BufTy).Contents (Elt F)),
    StableHlo.unary main_v53 main_v55 (broadcastInDim S32x1025 ![0, 1] bcast_S1x1025_S32x1025_0_1 : (⟨S1x1025, .i32⟩ : BufTy).Contents (Elt F) → (⟨S32x1025, .i32⟩ : BufTy).Contents (Elt F)),
    StableHlo.unary main_v54 main_v56 (broadcastInDim S32x1025 ![0, 1] bcast_S32x1_S32x1025_0_1 : (⟨S32x1, .i32⟩ : BufTy).Contents (Elt F) → (⟨S32x1025, .i32⟩ : BufTy).Contents (Elt F)),
    StableHlo.binary main_v55 main_v56 main_v57 (cmpi .slt : (⟨S32x1025, .i32⟩ : BufTy).Contents (Elt F) → (⟨S32x1025, .i32⟩ : BufTy).Contents (Elt F) → (⟨S32x1025, .i1⟩ : BufTy).Contents (Elt F)),
    StableHlo.reshape main_v49 main_v58 rfl shapeCasts_S32800_S32x1025,
    StableHlo.unary main_v57 main_v59 (uitofp .f32 : (⟨S32x1025, .i1⟩ : BufTy).Contents (Elt F) → (⟨S32x1025, .f32⟩ : BufTy).Contents (Elt F)),
    StableHlo.binary main_v58 main_v59 main_v60 (mulf : (⟨S32x1025, .f32⟩ : BufTy).Contents (Elt F) → (⟨S32x1025, .f32⟩ : BufTy).Contents (Elt F) → (⟨S32x1025, .f32⟩ : BufTy).Contents (Elt F)),
    StableHlo.nullary main_cst_12 (constant S_ .f32 0x00000000#32),
    StableHlo.binary main_v60 main_cst_12 main_v61 ((fun x v => Host.reduceAdd x v reducesTo_S32x1025_S32_d1 h_S_) : (⟨S32x1025, .f32⟩ : BufTy).Contents (Elt F) → (⟨S_, .f32⟩ : BufTy).Contents (Elt F) → (⟨S32, .f32⟩ : BufTy).Contents (Elt F)),
    StableHlo.nullary main_c_13 (constantI S_ 32 1#32),
    StableHlo.unary main_c_13 main_v62 (broadcastInDim S32 ![] bcast_S_S32 : (⟨S_, .i32⟩ : BufTy).Contents (Elt F) → (⟨S32, .i32⟩ : BufTy).Contents (Elt F)),
    StableHlo.binary main_v51 main_v62 main_v63 (maxsi : (⟨S32, .i32⟩ : BufTy).Contents (Elt F) → (⟨S32, .i32⟩ : BufTy).Contents (Elt F) → (⟨S32, .i32⟩ : BufTy).Contents (Elt F)),
    StableHlo.unary main_v63 main_v64 (sitofp .f32 : (⟨S32, .i32⟩ : BufTy).Contents (Elt F) → (⟨S32, .f32⟩ : BufTy).Contents (Elt F)) ]

/-- Operations 95 … 115 of @main, in order. -/
abbrev w5 : List (HloOp τ sig (Elt F)) :=
  [ StableHlo.binary main_v61 main_v64 main_v65 (Host.divf : (⟨S32, .f32⟩ : BufTy).Contents (Elt F) → (⟨S32, .f32⟩ : BufTy).Contents (Elt F) → (⟨S32, .f32⟩ : BufTy).Contents (Elt F)),
    StableHlo.nullary main_cst_14 (constant S_ .f32 0x00000000#32),
    StableHlo.binary main_v65 main_cst_14 main_v66 ((fun x v => Host.reduceAdd x v reducesTo_S32_S_d0 h_S_) : (⟨S32, .f32⟩ : BufTy).Contents (Elt F) → (⟨S_, .f32⟩ : BufTy).Contents (Elt F) → (⟨S_, .f32⟩ : BufTy).Contents (Elt F)),
    StableHlo.nullary main_cst_15 (constant S_ .f32 0x42000000#32),
    StableHlo.binary main_v66 main_cst_15 main_v67 (Host.divf : (⟨S_, .f32⟩ : BufTy).Contents (Elt F) → (⟨S_, .f32⟩ : BufTy).Contents (Elt F) → (⟨S_, .f32⟩ : BufTy).Contents (Elt F)),
    StableHlo.nullary main_cst_16 (constant S_ .f32 0x3F333333#32),
    StableHlo.unary main_cst_16 main_v68 (broadcastInDim S32x2048 ![] bcast_S_S32x2048 : (⟨S_, .f32⟩ : BufTy).Contents (Elt F) → (⟨S32x2048, .f32⟩ : BufTy).Contents (Elt F)),
    StableHlo.binary main_v0 main_v68 main_v69 (cmpf .ogt : (⟨S32x2048, .f32⟩ : BufTy).Contents (Elt F) → (⟨S32x2048, .f32⟩ : BufTy).Contents (Elt F) → (⟨S32x2048, .i1⟩ : BufTy).Contents (Elt F)),
    StableHlo.binary main_v2 main_v4 main_v70 (ori : (⟨S32x2048, .i1⟩ : BufTy).Contents (Elt F) → (⟨S32x2048, .i1⟩ : BufTy).Contents (Elt F) → (⟨S32x2048, .i1⟩ : BufTy).Contents (Elt F)),
    StableHlo.binary main_v69 main_v70 main_v71 (andi : (⟨S32x2048, .i1⟩ : BufTy).Contents (Elt F) → (⟨S32x2048, .i1⟩ : BufTy).Contents (Elt F) → (⟨S32x2048, .i1⟩ : BufTy).Contents (Elt F)),
    StableHlo.nullary main_c_17 (constantI S_ 32 32800#32),
    StableHlo.TRef.unary (.of main_c_17 : StableHlo.TRef sig ⟨S_, .i32⟩) main_call4.v0 id,
    StableHlo.TRef.unary main_call4.v0 main_call4.v1 (broadcastInDim S32x2048 ![] bcast_S_S32x2048),
    StableHlo.TRef.ternary (.of main_v71 : StableHlo.TRef sig ⟨S32x2048, .i1⟩) (.of main_v16 : StableHlo.TRef sig ⟨S32x2048, .i32⟩) main_call4.v1 main_call4.v2 select,
    StableHlo.reshape main_v72 main_v73 rfl shapeCasts_S32x2048_S65536,
    StableHlo.unary main_v71 main_v74 (uitofp .f32 : (⟨S32x2048, .i1⟩ : BufTy).Contents (Elt F) → (⟨S32x2048, .f32⟩ : BufTy).Contents (Elt F)),
    StableHlo.reshape main_v74 main_v75 rfl shapeCasts_S32x2048_S65536,
    StableHlo.reshape main_arg1 main_v76 rfl shapeCasts_S32x2048x512_S65536x512,
    StableHlo.unary main_v20 main_v77 (broadcastInDim S65536x1 ![0] bcast_S65536_S65536x1_0 : (⟨S65536, .f32⟩ : BufTy).Contents (Elt F) → (⟨S65536x1, .f32⟩ : BufTy).Contents (Elt F)),
    StableHlo.unary main_v77 main_v78 (broadcastInDim S65536x512 ![0, 1] bcast_S65536x1_S65536x512_0_1 : (⟨S65536x1, .f32⟩ : BufTy).Contents (Elt F) → (⟨S65536x512, .f32⟩ : BufTy).Contents (Elt F)),
    StableHlo.binary main_v76 main_v78 main_v79 (mulf : (⟨S65536x512, .f32⟩ : BufTy).Contents (Elt F) → (⟨S65536x512, .f32⟩ : BufTy).Contents (Elt F) → (⟨S65536x512, .f32⟩ : BufTy).Contents (Elt F)) ]

/-- Operations 116 … 135 of @main, in order. -/
abbrev w6 : List (HloOp τ sig (Elt F)) :=
  [ StableHlo.nullary main_cst_18 (constant S_ .f32 0x00000000#32),
    StableHlo.unary main_cst_18 main_v80 (broadcastInDim S32801x512 ![] bcast_S_S32801x512 : (⟨S_, .f32⟩ : BufTy).Contents (Elt F) → (⟨S32801x512, .f32⟩ : BufTy).Contents (Elt F)),
    StableHlo.unary main_v18 main_v81 (broadcastInDim S65536x1 ![0] bcast_S65536_S65536x1_0 : (⟨S65536, .i32⟩ : BufTy).Contents (Elt F) → (⟨S65536x1, .i32⟩ : BufTy).Contents (Elt F)),
    StableHlo.ternary main_v80 main_v81 main_v79 main_v82 ((fun x i u => Host.scatterAdd scatter_S32801x512_S65536x1_S65536x512_1_0_0_1 x i u) : (⟨S32801x512, .f32⟩ : BufTy).Contents (Elt F) → (⟨S65536x1, .i32⟩ : BufTy).Contents (Elt F) → (⟨S65536x512, .f32⟩ : BufTy).Contents (Elt F) → (⟨S32801x512, .f32⟩ : BufTy).Contents (Elt F)),
    StableHlo.unary main_v82 main_v83 ((extractStridedSlice S32800x512 ![0, 0] · slices_S32801x512_S32800x512_0_0) : (⟨S32801x512, .f32⟩ : BufTy).Contents (Elt F) → (⟨S32800x512, .f32⟩ : BufTy).Contents (Elt F)),
    StableHlo.unary main_v27 main_v84 (broadcastInDim S32800x1 ![0] bcast_S32800_S32800x1_0 : (⟨S32800, .f32⟩ : BufTy).Contents (Elt F) → (⟨S32800x1, .f32⟩ : BufTy).Contents (Elt F)),
    StableHlo.unary main_v84 main_v85 (broadcastInDim S32800x512 ![0, 1] bcast_S32800x1_S32800x512_0_1 : (⟨S32800x1, .f32⟩ : BufTy).Contents (Elt F) → (⟨S32800x512, .f32⟩ : BufTy).Contents (Elt F)),
    StableHlo.binary main_v83 main_v85 main_v86 (Host.divf : (⟨S32800x512, .f32⟩ : BufTy).Contents (Elt F) → (⟨S32800x512, .f32⟩ : BufTy).Contents (Elt F) → (⟨S32800x512, .f32⟩ : BufTy).Contents (Elt F)),
    StableHlo.nullary main_cst_19 (constant S_ .f32 0x00000000#32),
    StableHlo.unary main_cst_19 main_v87 (broadcastInDim S32801 ![] bcast_S_S32801 : (⟨S_, .f32⟩ : BufTy).Contents (Elt F) → (⟨S32801, .f32⟩ : BufTy).Contents (Elt F)),
    StableHlo.unary main_v73 main_v88 (broadcastInDim S65536x1 ![0] bcast_S65536_S65536x1_0 : (⟨S65536, .i32⟩ : BufTy).Contents (Elt F) → (⟨S65536x1, .i32⟩ : BufTy).Contents (Elt F)),
    StableHlo.ternary main_v87 main_v88 main_v75 main_v89 ((fun x i u => Host.scatterAdd scatter_S32801_S65536x1_S65536_n_0_0_1 x i u) : (⟨S32801, .f32⟩ : BufTy).Contents (Elt F) → (⟨S65536x1, .i32⟩ : BufTy).Contents (Elt F) → (⟨S65536, .f32⟩ : BufTy).Contents (Elt F) → (⟨S32801, .f32⟩ : BufTy).Contents (Elt F)),
    StableHlo.unary main_v89 main_v90 ((extractStridedSlice S32800 ![0] · slices_S32801_S32800_0) : (⟨S32801, .f32⟩ : BufTy).Contents (Elt F) → (⟨S32800, .f32⟩ : BufTy).Contents (Elt F)),
    StableHlo.unary main_v75 main_v91 (broadcastInDim S65536x1 ![0] bcast_S65536_S65536x1_0 : (⟨S65536, .f32⟩ : BufTy).Contents (Elt F) → (⟨S65536x1, .f32⟩ : BufTy).Contents (Elt F)),
    StableHlo.unary main_v91 main_v92 (broadcastInDim S65536x512 ![0, 1] bcast_S65536x1_S65536x512_0_1 : (⟨S65536x1, .f32⟩ : BufTy).Contents (Elt F) → (⟨S65536x512, .f32⟩ : BufTy).Contents (Elt F)),
    StableHlo.binary main_v76 main_v92 main_v93 (mulf : (⟨S65536x512, .f32⟩ : BufTy).Contents (Elt F) → (⟨S65536x512, .f32⟩ : BufTy).Contents (Elt F) → (⟨S65536x512, .f32⟩ : BufTy).Contents (Elt F)),
    StableHlo.nullary main_cst_20 (constant S_ .f32 0x00000000#32),
    StableHlo.unary main_cst_20 main_v94 (broadcastInDim S32801x512 ![] bcast_S_S32801x512 : (⟨S_, .f32⟩ : BufTy).Contents (Elt F) → (⟨S32801x512, .f32⟩ : BufTy).Contents (Elt F)),
    StableHlo.unary main_v73 main_v95 (broadcastInDim S65536x1 ![0] bcast_S65536_S65536x1_0 : (⟨S65536, .i32⟩ : BufTy).Contents (Elt F) → (⟨S65536x1, .i32⟩ : BufTy).Contents (Elt F)),
    StableHlo.ternary main_v94 main_v95 main_v93 main_v96 ((fun x i u => Host.scatterAdd scatter_S32801x512_S65536x1_S65536x512_1_0_0_1 x i u) : (⟨S32801x512, .f32⟩ : BufTy).Contents (Elt F) → (⟨S65536x1, .i32⟩ : BufTy).Contents (Elt F) → (⟨S65536x512, .f32⟩ : BufTy).Contents (Elt F) → (⟨S32801x512, .f32⟩ : BufTy).Contents (Elt F)) ]

/-- Operations 136 … 153 of @main, in order. -/
abbrev w7 : List (HloOp τ sig (Elt F)) :=
  [ StableHlo.unary main_v96 main_v97 ((extractStridedSlice S32800x512 ![0, 0] · slices_S32801x512_S32800x512_0_0) : (⟨S32801x512, .f32⟩ : BufTy).Contents (Elt F) → (⟨S32800x512, .f32⟩ : BufTy).Contents (Elt F)),
    StableHlo.nullary main_cst_21 (constant S_ .f32 0x3F800000#32),
    StableHlo.unary main_cst_21 main_v98 (broadcastInDim S32800 ![] bcast_S_S32800 : (⟨S_, .f32⟩ : BufTy).Contents (Elt F) → (⟨S32800, .f32⟩ : BufTy).Contents (Elt F)),
    StableHlo.binary main_v90 main_v98 main_v99 (maximumf : (⟨S32800, .f32⟩ : BufTy).Contents (Elt F) → (⟨S32800, .f32⟩ : BufTy).Contents (Elt F) → (⟨S32800, .f32⟩ : BufTy).Contents (Elt F)),
    StableHlo.unary main_v99 main_v100 (broadcastInDim S32800x1 ![0] bcast_S32800_S32800x1_0 : (⟨S32800, .f32⟩ : BufTy).Contents (Elt F) → (⟨S32800x1, .f32⟩ : BufTy).Contents (Elt F)),
    StableHlo.unary main_v100 main_v101 (broadcastInDim S32800x512 ![0, 1] bcast_S32800x1_S32800x512_0_1 : (⟨S32800x1, .f32⟩ : BufTy).Contents (Elt F) → (⟨S32800x512, .f32⟩ : BufTy).Contents (Elt F)),
    StableHlo.binary main_v97 main_v101 main_v102 (Host.divf : (⟨S32800x512, .f32⟩ : BufTy).Contents (Elt F) → (⟨S32800x512, .f32⟩ : BufTy).Contents (Elt F) → (⟨S32800x512, .f32⟩ : BufTy).Contents (Elt F)),
    StableHlo.reshape main_v57 main_v103 rfl shapeCasts_S32x1025_S32800,
    StableHlo.nullary main_cst_22 (constant S_ .f32 0x00000000#32),
    StableHlo.unary main_cst_22 main_v104 (broadcastInDim S32800 ![] bcast_S_S32800 : (⟨S_, .f32⟩ : BufTy).Contents (Elt F) → (⟨S32800, .f32⟩ : BufTy).Contents (Elt F)),
    StableHlo.binary main_v90 main_v104 main_v105 (cmpf .ogt : (⟨S32800, .f32⟩ : BufTy).Contents (Elt F) → (⟨S32800, .f32⟩ : BufTy).Contents (Elt F) → (⟨S32800, .i1⟩ : BufTy).Contents (Elt F)),
    StableHlo.binary main_v103 main_v105 main_v106 (andi : (⟨S32800, .i1⟩ : BufTy).Contents (Elt F) → (⟨S32800, .i1⟩ : BufTy).Contents (Elt F) → (⟨S32800, .i1⟩ : BufTy).Contents (Elt F)),
    StableHlo.binary main_v86 main_v102 main_v107 (subf : (⟨S32800x512, .f32⟩ : BufTy).Contents (Elt F) → (⟨S32800x512, .f32⟩ : BufTy).Contents (Elt F) → (⟨S32800x512, .f32⟩ : BufTy).Contents (Elt F)),
    StableHlo.binary main_v107 main_v107 main_v108 (mulf : (⟨S32800x512, .f32⟩ : BufTy).Contents (Elt F) → (⟨S32800x512, .f32⟩ : BufTy).Contents (Elt F) → (⟨S32800x512, .f32⟩ : BufTy).Contents (Elt F)),
    StableHlo.nullary main_cst_23 (constant S_ .f32 0x00000000#32),
    StableHlo.binary main_v108 main_cst_23 main_v109 ((fun x v => Host.reduceAdd x v reducesTo_S32800x512_S32800_d1 h_S_) : (⟨S32800x512, .f32⟩ : BufTy).Contents (Elt F) → (⟨S_, .f32⟩ : BufTy).Contents (Elt F) → (⟨S32800, .f32⟩ : BufTy).Contents (Elt F)),
    StableHlo.nullary main_cst_24 (constant S_ .f32 0x44000000#32),
    StableHlo.unary main_cst_24 main_v110 (broadcastInDim S32800 ![] bcast_S_S32800 : (⟨S_, .f32⟩ : BufTy).Contents (Elt F) → (⟨S32800, .f32⟩ : BufTy).Contents (Elt F)) ]

/-- Operations 154 … 170 of @main, in order. -/
abbrev w8 : List (HloOp τ sig (Elt F)) :=
  [ StableHlo.binary main_v109 main_v110 main_v111 (Host.divf : (⟨S32800, .f32⟩ : BufTy).Contents (Elt F) → (⟨S32800, .f32⟩ : BufTy).Contents (Elt F) → (⟨S32800, .f32⟩ : BufTy).Contents (Elt F)),
    StableHlo.unary main_v106 main_v112 ((extui 32 · natLt_1_32) : (⟨S32800, .i1⟩ : BufTy).Contents (Elt F) → (⟨S32800, .i32⟩ : BufTy).Contents (Elt F)),
    StableHlo.nullary main_c_25 (constantI S_ 32 0#32),
    StableHlo.binary main_v112 main_c_25 main_v113 ((fun x v => Host.reduce IntOp.addi x v reducesTo_S32800_S_d0 h_S_) : (⟨S32800, .i32⟩ : BufTy).Contents (Elt F) → (⟨S_, .i32⟩ : BufTy).Contents (Elt F) → (⟨S_, .i32⟩ : BufTy).Contents (Elt F)),
    StableHlo.unary main_v106 main_v114 (uitofp .f32 : (⟨S32800, .i1⟩ : BufTy).Contents (Elt F) → (⟨S32800, .f32⟩ : BufTy).Contents (Elt F)),
    StableHlo.binary main_v111 main_v114 main_v115 (mulf : (⟨S32800, .f32⟩ : BufTy).Contents (Elt F) → (⟨S32800, .f32⟩ : BufTy).Contents (Elt F) → (⟨S32800, .f32⟩ : BufTy).Contents (Elt F)),
    StableHlo.nullary main_cst_26 (constant S_ .f32 0x00000000#32),
    StableHlo.binary main_v115 main_cst_26 main_v116 ((fun x v => Host.reduceAdd x v reducesTo_S32800_S_d0 h_S_) : (⟨S32800, .f32⟩ : BufTy).Contents (Elt F) → (⟨S_, .f32⟩ : BufTy).Contents (Elt F) → (⟨S_, .f32⟩ : BufTy).Contents (Elt F)),
    StableHlo.nullary main_c_27 (constantI S_ 32 1#32),
    StableHlo.binary main_v113 main_c_27 main_v117 (maxsi : (⟨S_, .i32⟩ : BufTy).Contents (Elt F) → (⟨S_, .i32⟩ : BufTy).Contents (Elt F) → (⟨S_, .i32⟩ : BufTy).Contents (Elt F)),
    StableHlo.unary main_v117 main_v118 (sitofp .f32 : (⟨S_, .i32⟩ : BufTy).Contents (Elt F) → (⟨S_, .f32⟩ : BufTy).Contents (Elt F)),
    StableHlo.binary main_v116 main_v118 main_v119 (Host.divf : (⟨S_, .f32⟩ : BufTy).Contents (Elt F) → (⟨S_, .f32⟩ : BufTy).Contents (Elt F) → (⟨S_, .f32⟩ : BufTy).Contents (Elt F)),
    StableHlo.nullary main_cst_28 (constant S_ .f32 0x3F800000#32),
    StableHlo.binary main_cst_28 main_v119 main_v120 (mulf : (⟨S_, .f32⟩ : BufTy).Contents (Elt F) → (⟨S_, .f32⟩ : BufTy).Contents (Elt F) → (⟨S_, .f32⟩ : BufTy).Contents (Elt F)),
    StableHlo.nullary main_cst_29 (constant S_ .f32 0x3F800000#32),
    StableHlo.binary main_cst_29 main_v67 main_v121 (mulf : (⟨S_, .f32⟩ : BufTy).Contents (Elt F) → (⟨S_, .f32⟩ : BufTy).Contents (Elt F) → (⟨S_, .f32⟩ : BufTy).Contents (Elt F)),
    StableHlo.binary main_v120 main_v121 main_v122 (addf : (⟨S_, .f32⟩ : BufTy).Contents (Elt F) → (⟨S_, .f32⟩ : BufTy).Contents (Elt F) → (⟨S_, .f32⟩ : BufTy).Contents (Elt F)) ]

/-- The operations of @main's first stretch. -/
abbrev p0 : List (HloOp τ sig (Elt F)) := w0 ++ w1 ++ w2 ++ w3
/-- The operations of @main's second stretch. -/
abbrev p1 : List (HloOp τ sig (Elt F)) := w4 ++ w5 ++ w6
/-- The operations of @main's third stretch. -/
abbrev p2 : List (HloOp τ sig (Elt F)) := w7 ++ w8
/-- @main's 170 operations, in order. -/
abbrev ops : List (HloOp τ sig (Elt F)) := p0 ++ p1 ++ p2

set_option maxRecDepth 16384 in
set_option maxHeartbeats 4000000 in
theorem main_part0_eq (c : Dev nD) : main_part0 (F := F) c = seq p0 := rfl
set_option maxRecDepth 16384 in
set_option maxHeartbeats 4000000 in
theorem main_part1_eq (c : Dev nD) : main_part1 (F := F) c = seq p1 := rfl
set_option maxRecDepth 16384 in
set_option maxHeartbeats 4000000 in
theorem main_part2_eq (c : Dev nD) : main_part2 (F := F) c = seq p2 := rfl

/-- @main is the three stretches in sequence, and sequencing two lists is running their concatenation. -/
theorem main_eq (c : Dev nD) : main (F := F) c = seq ops := by
  have e : (seq ops : Prog (TpuEff nD τ sig (Elt F) (Pipeline.Sig Λ₀ (Fin 0) fun p => (pcfgs (F := F) p).Adm) .tc) PUnit)
      = (seq p0 >>= fun _ => seq p1) >>= fun _ => seq p2 := by
    show seq ((p0 ++ p1) ++ p2) = _
    rw [seq_append (p0 ++ p1) p2, seq_append p0 p1]
  rw [e, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem w0_sub : (w0 : List (HloOp τ sig (Elt F))).Forall fun op => op.bufs ⊆ tcRefs τ sig :=
  ⟨reshape_bufs_sub .., nullary_bufs_sub .., unary_bufs_sub .., binary_bufs_sub .., unary_bufs_sub .., nullary_bufs_sub .., nullary_bufs_sub .., unary_bufs_sub .., binary_bufs_sub .., unary_bufs_sub .., binary_bufs_sub .., unary_bufs_sub .., binary_bufs_sub .., unary_bufs_sub .., nullary_bufs_sub .., unary_bufs_sub .., binary_bufs_sub .., nullary_bufs_sub .., unary_bufs_sub ..⟩
theorem w1_sub : (w1 : List (HloOp τ sig (Elt F))).Forall fun op => op.bufs ⊆ tcRefs τ sig :=
  ⟨binary_bufs_sub .., nullary_bufs_sub .., unary_bufs_sub .., nullary_bufs_sub .., unary_bufs_sub .., binary_bufs_sub .., unary_bufs_sub .., binary_bufs_sub .., nullary_bufs_sub .., unary_bufs_sub .., unary_bufs_sub .., ternary_bufs_sub .., reshape_bufs_sub .., unary_bufs_sub .., reshape_bufs_sub .., reshape_bufs_sub .., nullary_bufs_sub .., unary_bufs_sub ..⟩
theorem w2_sub : (w2 : List (HloOp τ sig (Elt F))).Forall fun op => op.bufs ⊆ tcRefs τ sig :=
  ⟨unary_bufs_sub .., ternary_bufs_sub .., unary_bufs_sub .., nullary_bufs_sub .., unary_bufs_sub .., binary_bufs_sub .., binary_bufs_sub .., nullary_bufs_sub .., unary_bufs_sub .., unary_bufs_sub .., ternary_bufs_sub .., unary_bufs_sub .., binary_bufs_sub .., nullary_bufs_sub .., nullary_bufs_sub .., unary_bufs_sub .., unary_bufs_sub .., binary_bufs_sub ..⟩
theorem w3_sub : (w3 : List (HloOp τ sig (Elt F))).Forall fun op => op.bufs ⊆ tcRefs τ sig :=
  ⟨unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., binary_bufs_sub .., nullary_bufs_sub .., unary_bufs_sub .., unary_bufs_sub ..⟩
theorem w4_sub : (w4 : List (HloOp τ sig (Elt F))).Forall fun op => op.bufs ⊆ tcRefs τ sig :=
  ⟨ternary_bufs_sub .., unary_bufs_sub .., binary_bufs_sub .., unary_bufs_sub .., nullary_bufs_sub .., binary_bufs_sub .., nullary_bufs_sub .., unary_bufs_sub .., unary_bufs_sub .., unary_bufs_sub .., unary_bufs_sub .., binary_bufs_sub .., reshape_bufs_sub .., unary_bufs_sub .., binary_bufs_sub .., nullary_bufs_sub .., binary_bufs_sub .., nullary_bufs_sub .., unary_bufs_sub .., binary_bufs_sub .., unary_bufs_sub ..⟩
theorem w5_sub : (w5 : List (HloOp τ sig (Elt F))).Forall fun op => op.bufs ⊆ tcRefs τ sig :=
  ⟨binary_bufs_sub .., nullary_bufs_sub .., binary_bufs_sub .., nullary_bufs_sub .., binary_bufs_sub .., nullary_bufs_sub .., unary_bufs_sub .., binary_bufs_sub .., binary_bufs_sub .., binary_bufs_sub .., nullary_bufs_sub .., unary_bufs_sub .., unary_bufs_sub .., ternary_bufs_sub .., reshape_bufs_sub .., unary_bufs_sub .., reshape_bufs_sub .., reshape_bufs_sub .., unary_bufs_sub .., unary_bufs_sub .., binary_bufs_sub ..⟩
theorem w6_sub : (w6 : List (HloOp τ sig (Elt F))).Forall fun op => op.bufs ⊆ tcRefs τ sig :=
  ⟨nullary_bufs_sub .., unary_bufs_sub .., unary_bufs_sub .., ternary_bufs_sub .., unary_bufs_sub .., unary_bufs_sub .., unary_bufs_sub .., binary_bufs_sub .., nullary_bufs_sub .., unary_bufs_sub .., unary_bufs_sub .., ternary_bufs_sub .., unary_bufs_sub .., unary_bufs_sub .., unary_bufs_sub .., binary_bufs_sub .., nullary_bufs_sub .., unary_bufs_sub .., unary_bufs_sub .., ternary_bufs_sub ..⟩
theorem w7_sub : (w7 : List (HloOp τ sig (Elt F))).Forall fun op => op.bufs ⊆ tcRefs τ sig :=
  ⟨unary_bufs_sub .., nullary_bufs_sub .., unary_bufs_sub .., binary_bufs_sub .., unary_bufs_sub .., unary_bufs_sub .., binary_bufs_sub .., reshape_bufs_sub .., nullary_bufs_sub .., unary_bufs_sub .., binary_bufs_sub .., binary_bufs_sub .., binary_bufs_sub .., binary_bufs_sub .., nullary_bufs_sub .., binary_bufs_sub .., nullary_bufs_sub .., unary_bufs_sub ..⟩
theorem w8_sub : (w8 : List (HloOp τ sig (Elt F))).Forall fun op => op.bufs ⊆ tcRefs τ sig :=
  ⟨binary_bufs_sub .., unary_bufs_sub .., nullary_bufs_sub .., binary_bufs_sub .., unary_bufs_sub .., binary_bufs_sub .., nullary_bufs_sub .., binary_bufs_sub .., nullary_bufs_sub .., binary_bufs_sub .., unary_bufs_sub .., binary_bufs_sub .., nullary_bufs_sub .., binary_bufs_sub .., nullary_bufs_sub .., binary_bufs_sub .., binary_bufs_sub ..⟩
theorem ops_sub : (ops : List (HloOp τ sig (Elt F))).Forall fun op => op.bufs ⊆ tcRefs τ sig :=
  List.forall_iff_forall_mem.mpr fun op h => by
    simp only [ops, p0, p1, p2, List.mem_append, or_assoc] at h
    rcases h with h | h | h | h | h | h | h | h | h
    exacts [List.forall_iff_forall_mem.mp w0_sub op h, List.forall_iff_forall_mem.mp w1_sub op h, List.forall_iff_forall_mem.mp w2_sub op h, List.forall_iff_forall_mem.mp w3_sub op h, List.forall_iff_forall_mem.mp w4_sub op h, List.forall_iff_forall_mem.mp w5_sub op h, List.forall_iff_forall_mem.mp w6_sub op h, List.forall_iff_forall_mem.mp w7_sub op h, List.forall_iff_forall_mem.mp w8_sub op h]

theorem w0_fresh : ∀ op ∈ (w0 : List (HloOp τ sig (Elt F))), op.fresh = ∅ := by
  intro _ h; (repeat (cases h with | head => rfl | tail _ h => ?_)); exact nomatch h
theorem w1_fresh : ∀ op ∈ (w1 : List (HloOp τ sig (Elt F))), op.fresh = ∅ := by
  intro _ h; (repeat (cases h with | head => rfl | tail _ h => ?_)); exact nomatch h
theorem w2_fresh : ∀ op ∈ (w2 : List (HloOp τ sig (Elt F))), op.fresh = ∅ := by
  intro _ h; (repeat (cases h with | head => rfl | tail _ h => ?_)); exact nomatch h
theorem w3_fresh : ∀ op ∈ (w3 : List (HloOp τ sig (Elt F))), op.fresh = ∅ := by
  intro _ h; (repeat (cases h with | head => rfl | tail _ h => ?_)); exact nomatch h
theorem w4_fresh : ∀ op ∈ (w4 : List (HloOp τ sig (Elt F))), op.fresh = ∅ := by
  intro _ h; (repeat (cases h with | head => rfl | tail _ h => ?_)); exact nomatch h
theorem w5_fresh : ∀ op ∈ (w5 : List (HloOp τ sig (Elt F))), op.fresh = ∅ := by
  intro _ h; (repeat (cases h with | head => rfl | tail _ h => ?_)); exact nomatch h
theorem w6_fresh : ∀ op ∈ (w6 : List (HloOp τ sig (Elt F))), op.fresh = ∅ := by
  intro _ h; (repeat (cases h with | head => rfl | tail _ h => ?_)); exact nomatch h
theorem w7_fresh : ∀ op ∈ (w7 : List (HloOp τ sig (Elt F))), op.fresh = ∅ := by
  intro _ h; (repeat (cases h with | head => rfl | tail _ h => ?_)); exact nomatch h
theorem w8_fresh : ∀ op ∈ (w8 : List (HloOp τ sig (Elt F))), op.fresh = ∅ := by
  intro _ h; (repeat (cases h with | head => rfl | tail _ h => ?_)); exact nomatch h
/-- No operation of the list allocates a buffer: each determines what it writes. -/
theorem ops_fresh : ∀ op ∈ (ops : List (HloOp τ sig (Elt F))), op.fresh = ∅ := fun op h => by
    simp only [ops, p0, p1, p2, List.mem_append, or_assoc] at h
    rcases h with h | h | h | h | h | h | h | h | h
    exacts [w0_fresh op h, w1_fresh op h, w2_fresh op h, w3_fresh op h, w4_fresh op h, w5_fresh op h, w6_fresh op h, w7_fresh op h, w8_fresh op h]

/-- The fold of a concatenation is the fold of the second list over the fold of the first. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- The first argument array in a device's buffer contents. -/
abbrev A0 (V0 : Valuation τ sig (Elt F)) : (⟨S32x2048x1, .f32⟩ : BufTy).Contents (Elt F) := V0 (Proc.devRef .tc main_arg0)
/-- The second argument array in a device's buffer contents. -/
abbrev A1 (V0 : Valuation τ sig (Elt F)) : (⟨S32x2048x512, .f32⟩ : BufTy).Contents (Elt F) := V0 (Proc.devRef .tc main_arg1)

/-! ## Every buffer's value as a function of the two argument arrays

One definition per buffer @main writes, each the printed operation applied to the definitions of the buffers
it reads. -/

def res_v0 (a0 : (⟨S32x2048x1, .f32⟩ : BufTy).Contents (Elt F)) (a1 : (⟨S32x2048x512, .f32⟩ : BufTy).Contents (Elt F)) : (⟨S32x2048, .f32⟩ : BufTy).Contents (Elt F) :=
  shapeCast _ (a0) shapeCasts_S32x2048x1_S32x2048
def res_cst (a0 : (⟨S32x2048x1, .f32⟩ : BufTy).Contents (Elt F)) (a1 : (⟨S32x2048x512, .f32⟩ : BufTy).Contents (Elt F)) : (⟨S_, .f32⟩ : BufTy).Contents (Elt F) :=
  constant S_ .f32 0x3F000000#32
def res_v1 (a0 : (⟨S32x2048x1, .f32⟩ : BufTy).Contents (Elt F)) (a1 : (⟨S32x2048x512, .f32⟩ : BufTy).Contents (Elt F)) : (⟨S32x2048, .f32⟩ : BufTy).Contents (Elt F) :=
  broadcastInDim S32x2048 ![] bcast_S_S32x2048 (res_cst a0 a1)
def res_v2 (a0 : (⟨S32x2048x1, .f32⟩ : BufTy).Contents (Elt F)) (a1 : (⟨S32x2048x512, .f32⟩ : BufTy).Contents (Elt F)) : (⟨S32x2048, .i1⟩ : BufTy).Contents (Elt F) :=
  cmpf .ogt (res_v0 a0 a1) (res_v1 a0 a1)
def res_v3 (a0 : (⟨S32x2048x1, .f32⟩ : BufTy).Contents (Elt F)) (a1 : (⟨S32x2048x512, .f32⟩ : BufTy).Contents (Elt F)) : (⟨S32x2047, .i1⟩ : BufTy).Contents (Elt F) :=
  extractStridedSlice S32x2047 ![0, 0] (res_v2 a0 a1) slices_S32x2048_S32x2047_0_0
def res_c (a0 : (⟨S32x2048x1, .f32⟩ : BufTy).Contents (Elt F)) (a1 : (⟨S32x2048x512, .f32⟩ : BufTy).Contents (Elt F)) : (⟨S_, .i32⟩ : BufTy).Contents (Elt F) :=
  constantI S_ 32 0#32
def res_call0_c (a0 : (⟨S32x2048x1, .f32⟩ : BufTy).Contents (Elt F)) (a1 : (⟨S32x2048x512, .f32⟩ : BufTy).Contents (Elt F)) : (⟨S_, .i32⟩ : BufTy).Contents (Elt F) :=
  constantI S_ 32 0#32
def res_call0_v0 (a0 : (⟨S32x2048x1, .f32⟩ : BufTy).Contents (Elt F)) (a1 : (⟨S32x2048x512, .f32⟩ : BufTy).Contents (Elt F)) : (⟨S_, .i32⟩ : BufTy).Contents (Elt F) :=
  broadcastInDim S_ ![] bcast_S_S_ (res_call0_c a0 a1)
def res_call0_v1 (a0 : (⟨S32x2048x1, .f32⟩ : BufTy).Contents (Elt F)) (a1 : (⟨S32x2048x512, .f32⟩ : BufTy).Contents (Elt F)) : (⟨S_, .i1⟩ : BufTy).Contents (Elt F) :=
  cmpi .ne (res_c a0 a1) (res_call0_v0 a0 a1)
def res_call0_v2 (a0 : (⟨S32x2048x1, .f32⟩ : BufTy).Contents (Elt F)) (a1 : (⟨S32x2048x512, .f32⟩ : BufTy).Contents (Elt F)) : (⟨S_, .i1⟩ : BufTy).Contents (Elt F) :=
  id (res_call0_v1 a0 a1)
def res_v4 (a0 : (⟨S32x2048x1, .f32⟩ : BufTy).Contents (Elt F)) (a1 : (⟨S32x2048x512, .f32⟩ : BufTy).Contents (Elt F)) : (⟨S32x2048, .i1⟩ : BufTy).Contents (Elt F) :=
  pad S32x2048 ![0, 1] ![0, 0] ![0, 0] (res_v3 a0 a1) (res_call0_v2 a0 a1) pads_S32x2047_S32x2048_000_100 h_S_
def res_v5 (a0 : (⟨S32x2048x1, .f32⟩ : BufTy).Contents (Elt F)) (a1 : (⟨S32x2048x512, .f32⟩ : BufTy).Contents (Elt F)) : (⟨S32x2048, .i1⟩ : BufTy).Contents (Elt F) :=
  noti (res_v4 a0 a1)
def res_v6 (a0 : (⟨S32x2048x1, .f32⟩ : BufTy).Contents (Elt F)) (a1 : (⟨S32x2048x512, .f32⟩ : BufTy).Contents (Elt F)) : (⟨S32x2048, .i1⟩ : BufTy).Contents (Elt F) :=
  andi (res_v2 a0 a1) (res_v5 a0 a1)
def res_v7 (a0 : (⟨S32x2048x1, .f32⟩ : BufTy).Contents (Elt F)) (a1 : (⟨S32x2048x512, .f32⟩ : BufTy).Contents (Elt F)) : (⟨S32x2048, .i32⟩ : BufTy).Contents (Elt F) :=
  extui 32 (res_v6 a0 a1) natLt_1_32
def res_call1_call0_c (a0 : (⟨S32x2048x1, .f32⟩ : BufTy).Contents (Elt F)) (a1 : (⟨S32x2048x512, .f32⟩ : BufTy).Contents (Elt F)) : (⟨S_, .i32⟩ : BufTy).Contents (Elt F) :=
  constantI S_ 32 0#32
def res_call1_call0_v0 (a0 : (⟨S32x2048x1, .f32⟩ : BufTy).Contents (Elt F)) (a1 : (⟨S32x2048x512, .f32⟩ : BufTy).Contents (Elt F)) : (⟨S_, .i32⟩ : BufTy).Contents (Elt F) :=
  broadcastInDim S_ ![] bcast_S_S_ (res_call1_call0_c a0 a1)
def res_v8 (a0 : (⟨S32x2048x1, .f32⟩ : BufTy).Contents (Elt F)) (a1 : (⟨S32x2048x512, .f32⟩ : BufTy).Contents (Elt F)) : (⟨S32x2048, .i32⟩ : BufTy).Contents (Elt F) :=
  Host.reduceWindow IntOp.addi ![1, 2048] ![1, 1] ![0, 2047] ![0, 0] (res_v7 a0 a1) (res_call1_call0_v0 a0 a1) reduceWindows_S32x2048_S32x2048_w1s1p0_0_w2048s1p2047_0 h_S_
def res_c_0 (a0 : (⟨S32x2048x1, .f32⟩ : BufTy).Contents (Elt F)) (a1 : (⟨S32x2048x512, .f32⟩ : BufTy).Contents (Elt F)) : (⟨S_, .i32⟩ : BufTy).Contents (Elt F) :=
  constantI S_ 32 1#32
def res_v9 (a0 : (⟨S32x2048x1, .f32⟩ : BufTy).Contents (Elt F)) (a1 : (⟨S32x2048x512, .f32⟩ : BufTy).Contents (Elt F)) : (⟨S32x2048, .i32⟩ : BufTy).Contents (Elt F) :=
  broadcastInDim S32x2048 ![] bcast_S_S32x2048 (res_c_0 a0 a1)
def res_v10 (a0 : (⟨S32x2048x1, .f32⟩ : BufTy).Contents (Elt F)) (a1 : (⟨S32x2048x512, .f32⟩ : BufTy).Contents (Elt F)) : (⟨S32x2048, .i32⟩ : BufTy).Contents (Elt F) :=
  subi (res_v8 a0 a1) (res_v9 a0 a1)
def res_v11 (a0 : (⟨S32x2048x1, .f32⟩ : BufTy).Contents (Elt F)) (a1 : (⟨S32x2048x512, .f32⟩ : BufTy).Contents (Elt F)) : (⟨S32, .i32⟩ : BufTy).Contents (Elt F) :=
  iotaInDim S32 32 0
def res_v12 (a0 : (⟨S32x2048x1, .f32⟩ : BufTy).Contents (Elt F)) (a1 : (⟨S32x2048x512, .f32⟩ : BufTy).Contents (Elt F)) : (⟨S32x1, .i32⟩ : BufTy).Contents (Elt F) :=
  broadcastInDim S32x1 ![0] bcast_S32_S32x1_0 (res_v11 a0 a1)
def res_c_1 (a0 : (⟨S32x2048x1, .f32⟩ : BufTy).Contents (Elt F)) (a1 : (⟨S32x2048x512, .f32⟩ : BufTy).Contents (Elt F)) : (⟨S_, .i32⟩ : BufTy).Contents (Elt F) :=
  constantI S_ 32 1025#32
def res_v13 (a0 : (⟨S32x2048x1, .f32⟩ : BufTy).Contents (Elt F)) (a1 : (⟨S32x2048x512, .f32⟩ : BufTy).Contents (Elt F)) : (⟨S32x1, .i32⟩ : BufTy).Contents (Elt F) :=
  broadcastInDim S32x1 ![] bcast_S_S32x1 (res_c_1 a0 a1)
def res_v14 (a0 : (⟨S32x2048x1, .f32⟩ : BufTy).Contents (Elt F)) (a1 : (⟨S32x2048x512, .f32⟩ : BufTy).Contents (Elt F)) : (⟨S32x1, .i32⟩ : BufTy).Contents (Elt F) :=
  muli (res_v12 a0 a1) (res_v13 a0 a1)
def res_v15 (a0 : (⟨S32x2048x1, .f32⟩ : BufTy).Contents (Elt F)) (a1 : (⟨S32x2048x512, .f32⟩ : BufTy).Contents (Elt F)) : (⟨S32x2048, .i32⟩ : BufTy).Contents (Elt F) :=
  broadcastInDim S32x2048 ![0, 1] bcast_S32x1_S32x2048_0_1 (res_v14 a0 a1)
def res_v16 (a0 : (⟨S32x2048x1, .f32⟩ : BufTy).Contents (Elt F)) (a1 : (⟨S32x2048x512, .f32⟩ : BufTy).Contents (Elt F)) : (⟨S32x2048, .i32⟩ : BufTy).Contents (Elt F) :=
  addi (res_v15 a0 a1) (res_v10 a0 a1)
def res_c_2 (a0 : (⟨S32x2048x1, .f32⟩ : BufTy).Contents (Elt F)) (a1 : (⟨S32x2048x512, .f32⟩ : BufTy).Contents (Elt F)) : (⟨S_, .i32⟩ : BufTy).Contents (Elt F) :=
  constantI S_ 32 32800#32
def res_call2_v0 (a0 : (⟨S32x2048x1, .f32⟩ : BufTy).Contents (Elt F)) (a1 : (⟨S32x2048x512, .f32⟩ : BufTy).Contents (Elt F)) : (⟨S_, .i32⟩ : BufTy).Contents (Elt F) :=
  id (res_c_2 a0 a1)
def res_call2_v1 (a0 : (⟨S32x2048x1, .f32⟩ : BufTy).Contents (Elt F)) (a1 : (⟨S32x2048x512, .f32⟩ : BufTy).Contents (Elt F)) : (⟨S32x2048, .i32⟩ : BufTy).Contents (Elt F) :=
  broadcastInDim S32x2048 ![] bcast_S_S32x2048 (res_call2_v0 a0 a1)
def res_v17 (a0 : (⟨S32x2048x1, .f32⟩ : BufTy).Contents (Elt F)) (a1 : (⟨S32x2048x512, .f32⟩ : BufTy).Contents (Elt F)) : (⟨S32x2048, .i32⟩ : BufTy).Contents (Elt F) :=
  select (res_v2 a0 a1) (res_v16 a0 a1) (res_call2_v1 a0 a1)
def res_v18 (a0 : (⟨S32x2048x1, .f32⟩ : BufTy).Contents (Elt F)) (a1 : (⟨S32x2048x512, .f32⟩ : BufTy).Contents (Elt F)) : (⟨S65536, .i32⟩ : BufTy).Contents (Elt F) :=
  shapeCast _ (res_v17 a0 a1) shapeCasts_S32x2048_S65536
def res_v19 (a0 : (⟨S32x2048x1, .f32⟩ : BufTy).Contents (Elt F)) (a1 : (⟨S32x2048x512, .f32⟩ : BufTy).Contents (Elt F)) : (⟨S32x2048, .f32⟩ : BufTy).Contents (Elt F) :=
  uitofp .f32 (res_v2 a0 a1)
def res_v20 (a0 : (⟨S32x2048x1, .f32⟩ : BufTy).Contents (Elt F)) (a1 : (⟨S32x2048x512, .f32⟩ : BufTy).Contents (Elt F)) : (⟨S65536, .f32⟩ : BufTy).Contents (Elt F) :=
  shapeCast _ (res_v19 a0 a1) shapeCasts_S32x2048_S65536
def res_v21 (a0 : (⟨S32x2048x1, .f32⟩ : BufTy).Contents (Elt F)) (a1 : (⟨S32x2048x512, .f32⟩ : BufTy).Contents (Elt F)) : (⟨S65536, .f32⟩ : BufTy).Contents (Elt F) :=
  shapeCast _ (res_v0 a0 a1) shapeCasts_S32x2048_S65536
def res_cst_3 (a0 : (⟨S32x2048x1, .f32⟩ : BufTy).Contents (Elt F)) (a1 : (⟨S32x2048x512, .f32⟩ : BufTy).Contents (Elt F)) : (⟨S_, .f32⟩ : BufTy).Contents (Elt F) :=
  constant S_ .f32 0x00000000#32
def res_v22 (a0 : (⟨S32x2048x1, .f32⟩ : BufTy).Contents (Elt F)) (a1 : (⟨S32x2048x512, .f32⟩ : BufTy).Contents (Elt F)) : (⟨S32801, .f32⟩ : BufTy).Contents (Elt F) :=
  broadcastInDim S32801 ![] bcast_S_S32801 (res_cst_3 a0 a1)
def res_v23 (a0 : (⟨S32x2048x1, .f32⟩ : BufTy).Contents (Elt F)) (a1 : (⟨S32x2048x512, .f32⟩ : BufTy).Contents (Elt F)) : (⟨S65536x1, .i32⟩ : BufTy).Contents (Elt F) :=
  broadcastInDim S65536x1 ![0] bcast_S65536_S65536x1_0 (res_v18 a0 a1)
def res_v24 (a0 : (⟨S32x2048x1, .f32⟩ : BufTy).Contents (Elt F)) (a1 : (⟨S32x2048x512, .f32⟩ : BufTy).Contents (Elt F)) : (⟨S32801, .f32⟩ : BufTy).Contents (Elt F) :=
  Host.scatterAdd scatter_S32801_S65536x1_S65536_n_0_0_1 (res_v22 a0 a1) (res_v23 a0 a1) (res_v20 a0 a1)
def res_v25 (a0 : (⟨S32x2048x1, .f32⟩ : BufTy).Contents (Elt F)) (a1 : (⟨S32x2048x512, .f32⟩ : BufTy).Contents (Elt F)) : (⟨S32800, .f32⟩ : BufTy).Contents (Elt F) :=
  extractStridedSlice S32800 ![0] (res_v24 a0 a1) slices_S32801_S32800_0
def res_cst_4 (a0 : (⟨S32x2048x1, .f32⟩ : BufTy).Contents (Elt F)) (a1 : (⟨S32x2048x512, .f32⟩ : BufTy).Contents (Elt F)) : (⟨S_, .f32⟩ : BufTy).Contents (Elt F) :=
  constant S_ .f32 0x3F800000#32
def res_v26 (a0 : (⟨S32x2048x1, .f32⟩ : BufTy).Contents (Elt F)) (a1 : (⟨S32x2048x512, .f32⟩ : BufTy).Contents (Elt F)) : (⟨S32800, .f32⟩ : BufTy).Contents (Elt F) :=
  broadcastInDim S32800 ![] bcast_S_S32800 (res_cst_4 a0 a1)
def res_v27 (a0 : (⟨S32x2048x1, .f32⟩ : BufTy).Contents (Elt F)) (a1 : (⟨S32x2048x512, .f32⟩ : BufTy).Contents (Elt F)) : (⟨S32800, .f32⟩ : BufTy).Contents (Elt F) :=
  maximumf (res_v25 a0 a1) (res_v26 a0 a1)
def res_v28 (a0 : (⟨S32x2048x1, .f32⟩ : BufTy).Contents (Elt F)) (a1 : (⟨S32x2048x512, .f32⟩ : BufTy).Contents (Elt F)) : (⟨S65536, .f32⟩ : BufTy).Contents (Elt F) :=
  mulf (res_v21 a0 a1) (res_v20 a0 a1)
def res_cst_5 (a0 : (⟨S32x2048x1, .f32⟩ : BufTy).Contents (Elt F)) (a1 : (⟨S32x2048x512, .f32⟩ : BufTy).Contents (Elt F)) : (⟨S_, .f32⟩ : BufTy).Contents (Elt F) :=
  constant S_ .f32 0x00000000#32
def res_v29 (a0 : (⟨S32x2048x1, .f32⟩ : BufTy).Contents (Elt F)) (a1 : (⟨S32x2048x512, .f32⟩ : BufTy).Contents (Elt F)) : (⟨S32801, .f32⟩ : BufTy).Contents (Elt F) :=
  broadcastInDim S32801 ![] bcast_S_S32801 (res_cst_5 a0 a1)
def res_v30 (a0 : (⟨S32x2048x1, .f32⟩ : BufTy).Contents (Elt F)) (a1 : (⟨S32x2048x512, .f32⟩ : BufTy).Contents (Elt F)) : (⟨S65536x1, .i32⟩ : BufTy).Contents (Elt F) :=
  broadcastInDim S65536x1 ![0] bcast_S65536_S65536x1_0 (res_v18 a0 a1)
def res_v31 (a0 : (⟨S32x2048x1, .f32⟩ : BufTy).Contents (Elt F)) (a1 : (⟨S32x2048x512, .f32⟩ : BufTy).Contents (Elt F)) : (⟨S32801, .f32⟩ : BufTy).Contents (Elt F) :=
  Host.scatterAdd scatter_S32801_S65536x1_S65536_n_0_0_1 (res_v29 a0 a1) (res_v30 a0 a1) (res_v28 a0 a1)
def res_v32 (a0 : (⟨S32x2048x1, .f32⟩ : BufTy).Contents (Elt F)) (a1 : (⟨S32x2048x512, .f32⟩ : BufTy).Contents (Elt F)) : (⟨S32800, .f32⟩ : BufTy).Contents (Elt F) :=
  extractStridedSlice S32800 ![0] (res_v31 a0 a1) slices_S32801_S32800_0
def res_v33 (a0 : (⟨S32x2048x1, .f32⟩ : BufTy).Contents (Elt F)) (a1 : (⟨S32x2048x512, .f32⟩ : BufTy).Contents (Elt F)) : (⟨S32800, .f32⟩ : BufTy).Contents (Elt F) :=
  Host.divf (res_v32 a0 a1) (res_v27 a0 a1)
def res_c_6 (a0 : (⟨S32x2048x1, .f32⟩ : BufTy).Contents (Elt F)) (a1 : (⟨S32x2048x512, .f32⟩ : BufTy).Contents (Elt F)) : (⟨S_, .i32⟩ : BufTy).Contents (Elt F) :=
  constantI S_ 32 0#32
def res_c_7 (a0 : (⟨S32x2048x1, .f32⟩ : BufTy).Contents (Elt F)) (a1 : (⟨S32x2048x512, .f32⟩ : BufTy).Contents (Elt F)) : (⟨S_, .i32⟩ : BufTy).Contents (Elt F) :=
  constantI S_ 32 32799#32
def res_call3_v0 (a0 : (⟨S32x2048x1, .f32⟩ : BufTy).Contents (Elt F)) (a1 : (⟨S32x2048x512, .f32⟩ : BufTy).Contents (Elt F)) : (⟨S_, .i32⟩ : BufTy).Contents (Elt F) :=
  id (res_c_6 a0 a1)
def res_call3_v1 (a0 : (⟨S32x2048x1, .f32⟩ : BufTy).Contents (Elt F)) (a1 : (⟨S32x2048x512, .f32⟩ : BufTy).Contents (Elt F)) : (⟨S65536, .i32⟩ : BufTy).Contents (Elt F) :=
  broadcastInDim S65536 ![] bcast_S_S65536 (res_call3_v0 a0 a1)
def res_call3_v2 (a0 : (⟨S32x2048x1, .f32⟩ : BufTy).Contents (Elt F)) (a1 : (⟨S32x2048x512, .f32⟩ : BufTy).Contents (Elt F)) : (⟨S65536, .i32⟩ : BufTy).Contents (Elt F) :=
  maxsi (res_call3_v1 a0 a1) (res_v18 a0 a1)
def res_call3_v3 (a0 : (⟨S32x2048x1, .f32⟩ : BufTy).Contents (Elt F)) (a1 : (⟨S32x2048x512, .f32⟩ : BufTy).Contents (Elt F)) : (⟨S_, .i32⟩ : BufTy).Contents (Elt F) :=
  id (res_c_7 a0 a1)
def res_call3_v4 (a0 : (⟨S32x2048x1, .f32⟩ : BufTy).Contents (Elt F)) (a1 : (⟨S32x2048x512, .f32⟩ : BufTy).Contents (Elt F)) : (⟨S65536, .i32⟩ : BufTy).Contents (Elt F) :=
  broadcastInDim S65536 ![] bcast_S_S65536 (res_call3_v3 a0 a1)
def res_v34 (a0 : (⟨S32x2048x1, .f32⟩ : BufTy).Contents (Elt F)) (a1 : (⟨S32x2048x512, .f32⟩ : BufTy).Contents (Elt F)) : (⟨S65536, .i32⟩ : BufTy).Contents (Elt F) :=
  minsi (res_call3_v4 a0 a1) (res_call3_v2 a0 a1)
def res_c_8 (a0 : (⟨S32x2048x1, .f32⟩ : BufTy).Contents (Elt F)) (a1 : (⟨S32x2048x512, .f32⟩ : BufTy).Contents (Elt F)) : (⟨S_, .i32⟩ : BufTy).Contents (Elt F) :=
  constantI S_ 32 0#32
def res_v35 (a0 : (⟨S32x2048x1, .f32⟩ : BufTy).Contents (Elt F)) (a1 : (⟨S32x2048x512, .f32⟩ : BufTy).Contents (Elt F)) : (⟨S65536, .i32⟩ : BufTy).Contents (Elt F) :=
  broadcastInDim S65536 ![] bcast_S_S65536 (res_c_8 a0 a1)
def res_v36 (a0 : (⟨S32x2048x1, .f32⟩ : BufTy).Contents (Elt F)) (a1 : (⟨S32x2048x512, .f32⟩ : BufTy).Contents (Elt F)) : (⟨S65536, .i1⟩ : BufTy).Contents (Elt F) :=
  cmpi .slt (res_v34 a0 a1) (res_v35 a0 a1)
def res_c_9 (a0 : (⟨S32x2048x1, .f32⟩ : BufTy).Contents (Elt F)) (a1 : (⟨S32x2048x512, .f32⟩ : BufTy).Contents (Elt F)) : (⟨S_, .i32⟩ : BufTy).Contents (Elt F) :=
  constantI S_ 32 32800#32
def res_v37 (a0 : (⟨S32x2048x1, .f32⟩ : BufTy).Contents (Elt F)) (a1 : (⟨S32x2048x512, .f32⟩ : BufTy).Contents (Elt F)) : (⟨S65536, .i32⟩ : BufTy).Contents (Elt F) :=
  broadcastInDim S65536 ![] bcast_S_S65536 (res_c_9 a0 a1)
def res_v38 (a0 : (⟨S32x2048x1, .f32⟩ : BufTy).Contents (Elt F)) (a1 : (⟨S32x2048x512, .f32⟩ : BufTy).Contents (Elt F)) : (⟨S65536, .i32⟩ : BufTy).Contents (Elt F) :=
  addi (res_v34 a0 a1) (res_v37 a0 a1)
def res_v39 (a0 : (⟨S32x2048x1, .f32⟩ : BufTy).Contents (Elt F)) (a1 : (⟨S32x2048x512, .f32⟩ : BufTy).Contents (Elt F)) : (⟨S65536, .i32⟩ : BufTy).Contents (Elt F) :=
  select (res_v36 a0 a1) (res_v38 a0 a1) (res_v34 a0 a1)
def res_v40 (a0 : (⟨S32x2048x1, .f32⟩ : BufTy).Contents (Elt F)) (a1 : (⟨S32x2048x512, .f32⟩ : BufTy).Contents (Elt F)) : (⟨S65536x1, .i32⟩ : BufTy).Contents (Elt F) :=
  broadcastInDim S65536x1 ![0] bcast_S65536_S65536x1_0 (res_v39 a0 a1)
def res_v41 (a0 : (⟨S32x2048x1, .f32⟩ : BufTy).Contents (Elt F)) (a1 : (⟨S32x2048x512, .f32⟩ : BufTy).Contents (Elt F)) : (⟨S65536, .f32⟩ : BufTy).Contents (Elt F) :=
  Host.gather gather_S32800_S65536x1_S65536_n_0_n_n_0_1_1 (res_v33 a0 a1) (res_v40 a0 a1)
def res_v42 (a0 : (⟨S32x2048x1, .f32⟩ : BufTy).Contents (Elt F)) (a1 : (⟨S32x2048x512, .f32⟩ : BufTy).Contents (Elt F)) : (⟨S65536, .f32⟩ : BufTy).Contents (Elt F) :=
  subf (res_v21 a0 a1) (res_v41 a0 a1)
def res_v43 (a0 : (⟨S32x2048x1, .f32⟩ : BufTy).Contents (Elt F)) (a1 : (⟨S32x2048x512, .f32⟩ : BufTy).Contents (Elt F)) : (⟨S65536, .f32⟩ : BufTy).Contents (Elt F) :=
  mulf (res_v42 a0 a1) (res_v42 a0 a1)
def res_v44 (a0 : (⟨S32x2048x1, .f32⟩ : BufTy).Contents (Elt F)) (a1 : (⟨S32x2048x512, .f32⟩ : BufTy).Contents (Elt F)) : (⟨S65536, .f32⟩ : BufTy).Contents (Elt F) :=
  mulf (res_v20 a0 a1) (res_v43 a0 a1)
def res_cst_10 (a0 : (⟨S32x2048x1, .f32⟩ : BufTy).Contents (Elt F)) (a1 : (⟨S32x2048x512, .f32⟩ : BufTy).Contents (Elt F)) : (⟨S_, .f32⟩ : BufTy).Contents (Elt F) :=
  constant S_ .f32 0x00000000#32
def res_v45 (a0 : (⟨S32x2048x1, .f32⟩ : BufTy).Contents (Elt F)) (a1 : (⟨S32x2048x512, .f32⟩ : BufTy).Contents (Elt F)) : (⟨S32801, .f32⟩ : BufTy).Contents (Elt F) :=
  broadcastInDim S32801 ![] bcast_S_S32801 (res_cst_10 a0 a1)
def res_v46 (a0 : (⟨S32x2048x1, .f32⟩ : BufTy).Contents (Elt F)) (a1 : (⟨S32x2048x512, .f32⟩ : BufTy).Contents (Elt F)) : (⟨S65536x1, .i32⟩ : BufTy).Contents (Elt F) :=
  broadcastInDim S65536x1 ![0] bcast_S65536_S65536x1_0 (res_v18 a0 a1)
def res_v47 (a0 : (⟨S32x2048x1, .f32⟩ : BufTy).Contents (Elt F)) (a1 : (⟨S32x2048x512, .f32⟩ : BufTy).Contents (Elt F)) : (⟨S32801, .f32⟩ : BufTy).Contents (Elt F) :=
  Host.scatterAdd scatter_S32801_S65536x1_S65536_n_0_0_1 (res_v45 a0 a1) (res_v46 a0 a1) (res_v44 a0 a1)
def res_v48 (a0 : (⟨S32x2048x1, .f32⟩ : BufTy).Contents (Elt F)) (a1 : (⟨S32x2048x512, .f32⟩ : BufTy).Contents (Elt F)) : (⟨S32800, .f32⟩ : BufTy).Contents (Elt F) :=
  extractStridedSlice S32800 ![0] (res_v47 a0 a1) slices_S32801_S32800_0
def res_v49 (a0 : (⟨S32x2048x1, .f32⟩ : BufTy).Contents (Elt F)) (a1 : (⟨S32x2048x512, .f32⟩ : BufTy).Contents (Elt F)) : (⟨S32800, .f32⟩ : BufTy).Contents (Elt F) :=
  Host.divf (res_v48 a0 a1) (res_v27 a0 a1)
def res_v50 (a0 : (⟨S32x2048x1, .f32⟩ : BufTy).Contents (Elt F)) (a1 : (⟨S32x2048x512, .f32⟩ : BufTy).Contents (Elt F)) : (⟨S32x2048, .i32⟩ : BufTy).Contents (Elt F) :=
  extui 32 (res_v6 a0 a1) natLt_1_32
def res_c_11 (a0 : (⟨S32x2048x1, .f32⟩ : BufTy).Contents (Elt F)) (a1 : (⟨S32x2048x512, .f32⟩ : BufTy).Contents (Elt F)) : (⟨S_, .i32⟩ : BufTy).Contents (Elt F) :=
  constantI S_ 32 0#32
def res_v51 (a0 : (⟨S32x2048x1, .f32⟩ : BufTy).Contents (Elt F)) (a1 : (⟨S32x2048x512, .f32⟩ : BufTy).Contents (Elt F)) : (⟨S32, .i32⟩ : BufTy).Contents (Elt F) :=
  Host.reduce IntOp.addi (res_v50 a0 a1) (res_c_11 a0 a1) reducesTo_S32x2048_S32_d1 h_S_
def res_v52 (a0 : (⟨S32x2048x1, .f32⟩ : BufTy).Contents (Elt F)) (a1 : (⟨S32x2048x512, .f32⟩ : BufTy).Contents (Elt F)) : (⟨S1025, .i32⟩ : BufTy).Contents (Elt F) :=
  iotaInDim S1025 32 0
def res_v53 (a0 : (⟨S32x2048x1, .f32⟩ : BufTy).Contents (Elt F)) (a1 : (⟨S32x2048x512, .f32⟩ : BufTy).Contents (Elt F)) : (⟨S1x1025, .i32⟩ : BufTy).Contents (Elt F) :=
  broadcastInDim S1x1025 ![1] bcast_S1025_S1x1025_1 (res_v52 a0 a1)
def res_v54 (a0 : (⟨S32x2048x1, .f32⟩ : BufTy).Contents (Elt F)) (a1 : (⟨S32x2048x512, .f32⟩ : BufTy).Contents (Elt F)) : (⟨S32x1, .i32⟩ : BufTy).Contents (Elt F) :=
  broadcastInDim S32x1 ![0] bcast_S32_S32x1_0 (res_v51 a0 a1)
def res_v55 (a0 : (⟨S32x2048x1, .f32⟩ : BufTy).Contents (Elt F)) (a1 : (⟨S32x2048x512, .f32⟩ : BufTy).Contents (Elt F)) : (⟨S32x1025, .i32⟩ : BufTy).Contents (Elt F) :=
  broadcastInDim S32x1025 ![0, 1] bcast_S1x1025_S32x1025_0_1 (res_v53 a0 a1)
def res_v56 (a0 : (⟨S32x2048x1, .f32⟩ : BufTy).Contents (Elt F)) (a1 : (⟨S32x2048x512, .f32⟩ : BufTy).Contents (Elt F)) : (⟨S32x1025, .i32⟩ : BufTy).Contents (Elt F) :=
  broadcastInDim S32x1025 ![0, 1] bcast_S32x1_S32x1025_0_1 (res_v54 a0 a1)
def res_v57 (a0 : (⟨S32x2048x1, .f32⟩ : BufTy).Contents (Elt F)) (a1 : (⟨S32x2048x512, .f32⟩ : BufTy).Contents (Elt F)) : (⟨S32x1025, .i1⟩ : BufTy).Contents (Elt F) :=
  cmpi .slt (res_v55 a0 a1) (res_v56 a0 a1)
def res_v58 (a0 : (⟨S32x2048x1, .f32⟩ : BufTy).Contents (Elt F)) (a1 : (⟨S32x2048x512, .f32⟩ : BufTy).Contents (Elt F)) : (⟨S32x1025, .f32⟩ : BufTy).Contents (Elt F) :=
  shapeCast _ (res_v49 a0 a1) shapeCasts_S32800_S32x1025
def res_v59 (a0 : (⟨S32x2048x1, .f32⟩ : BufTy).Contents (Elt F)) (a1 : (⟨S32x2048x512, .f32⟩ : BufTy).Contents (Elt F)) : (⟨S32x1025, .f32⟩ : BufTy).Contents (Elt F) :=
  uitofp .f32 (res_v57 a0 a1)
def res_v60 (a0 : (⟨S32x2048x1, .f32⟩ : BufTy).Contents (Elt F)) (a1 : (⟨S32x2048x512, .f32⟩ : BufTy).Contents (Elt F)) : (⟨S32x1025, .f32⟩ : BufTy).Contents (Elt F) :=
  mulf (res_v58 a0 a1) (res_v59 a0 a1)
def res_cst_12 (a0 : (⟨S32x2048x1, .f32⟩ : BufTy).Contents (Elt F)) (a1 : (⟨S32x2048x512, .f32⟩ : BufTy).Contents (Elt F)) : (⟨S_, .f32⟩ : BufTy).Contents (Elt F) :=
  constant S_ .f32 0x00000000#32
def res_v61 (a0 : (⟨S32x2048x1, .f32⟩ : BufTy).Contents (Elt F)) (a1 : (⟨S32x2048x512, .f32⟩ : BufTy).Contents (Elt F)) : (⟨S32, .f32⟩ : BufTy).Contents (Elt F) :=
  Host.reduceAdd (res_v60 a0 a1) (res_cst_12 a0 a1) reducesTo_S32x1025_S32_d1 h_S_
def res_c_13 (a0 : (⟨S32x2048x1, .f32⟩ : BufTy).Contents (Elt F)) (a1 : (⟨S32x2048x512, .f32⟩ : BufTy).Contents (Elt F)) : (⟨S_, .i32⟩ : BufTy).Contents (Elt F) :=
  constantI S_ 32 1#32
def res_v62 (a0 : (⟨S32x2048x1, .f32⟩ : BufTy).Contents (Elt F)) (a1 : (⟨S32x2048x512, .f32⟩ : BufTy).Contents (Elt F)) : (⟨S32, .i32⟩ : BufTy).Contents (Elt F) :=
  broadcastInDim S32 ![] bcast_S_S32 (res_c_13 a0 a1)
def res_v63 (a0 : (⟨S32x2048x1, .f32⟩ : BufTy).Contents (Elt F)) (a1 : (⟨S32x2048x512, .f32⟩ : BufTy).Contents (Elt F)) : (⟨S32, .i32⟩ : BufTy).Contents (Elt F) :=
  maxsi (res_v51 a0 a1) (res_v62 a0 a1)
def res_v64 (a0 : (⟨S32x2048x1, .f32⟩ : BufTy).Contents (Elt F)) (a1 : (⟨S32x2048x512, .f32⟩ : BufTy).Contents (Elt F)) : (⟨S32, .f32⟩ : BufTy).Contents (Elt F) :=
  sitofp .f32 (res_v63 a0 a1)
def res_v65 (a0 : (⟨S32x2048x1, .f32⟩ : BufTy).Contents (Elt F)) (a1 : (⟨S32x2048x512, .f32⟩ : BufTy).Contents (Elt F)) : (⟨S32, .f32⟩ : BufTy).Contents (Elt F) :=
  Host.divf (res_v61 a0 a1) (res_v64 a0 a1)
def res_cst_14 (a0 : (⟨S32x2048x1, .f32⟩ : BufTy).Contents (Elt F)) (a1 : (⟨S32x2048x512, .f32⟩ : BufTy).Contents (Elt F)) : (⟨S_, .f32⟩ : BufTy).Contents (Elt F) :=
  constant S_ .f32 0x00000000#32
def res_v66 (a0 : (⟨S32x2048x1, .f32⟩ : BufTy).Contents (Elt F)) (a1 : (⟨S32x2048x512, .f32⟩ : BufTy).Contents (Elt F)) : (⟨S_, .f32⟩ : BufTy).Contents (Elt F) :=
  Host.reduceAdd (res_v65 a0 a1) (res_cst_14 a0 a1) reducesTo_S32_S_d0 h_S_
def res_cst_15 (a0 : (⟨S32x2048x1, .f32⟩ : BufTy).Contents (Elt F)) (a1 : (⟨S32x2048x512, .f32⟩ : BufTy).Contents (Elt F)) : (⟨S_, .f32⟩ : BufTy).Contents (Elt F) :=
  constant S_ .f32 0x42000000#32
def res_v67 (a0 : (⟨S32x2048x1, .f32⟩ : BufTy).Contents (Elt F)) (a1 : (⟨S32x2048x512, .f32⟩ : BufTy).Contents (Elt F)) : (⟨S_, .f32⟩ : BufTy).Contents (Elt F) :=
  Host.divf (res_v66 a0 a1) (res_cst_15 a0 a1)
def res_cst_16 (a0 : (⟨S32x2048x1, .f32⟩ : BufTy).Contents (Elt F)) (a1 : (⟨S32x2048x512, .f32⟩ : BufTy).Contents (Elt F)) : (⟨S_, .f32⟩ : BufTy).Contents (Elt F) :=
  constant S_ .f32 0x3F333333#32
def res_v68 (a0 : (⟨S32x2048x1, .f32⟩ : BufTy).Contents (Elt F)) (a1 : (⟨S32x2048x512, .f32⟩ : BufTy).Contents (Elt F)) : (⟨S32x2048, .f32⟩ : BufTy).Contents (Elt F) :=
  broadcastInDim S32x2048 ![] bcast_S_S32x2048 (res_cst_16 a0 a1)
def res_v69 (a0 : (⟨S32x2048x1, .f32⟩ : BufTy).Contents (Elt F)) (a1 : (⟨S32x2048x512, .f32⟩ : BufTy).Contents (Elt F)) : (⟨S32x2048, .i1⟩ : BufTy).Contents (Elt F) :=
  cmpf .ogt (res_v0 a0 a1) (res_v68 a0 a1)
def res_v70 (a0 : (⟨S32x2048x1, .f32⟩ : BufTy).Contents (Elt F)) (a1 : (⟨S32x2048x512, .f32⟩ : BufTy).Contents (Elt F)) : (⟨S32x2048, .i1⟩ : BufTy).Contents (Elt F) :=
  ori (res_v2 a0 a1) (res_v4 a0 a1)
def res_v71 (a0 : (⟨S32x2048x1, .f32⟩ : BufTy).Contents (Elt F)) (a1 : (⟨S32x2048x512, .f32⟩ : BufTy).Contents (Elt F)) : (⟨S32x2048, .i1⟩ : BufTy).Contents (Elt F) :=
  andi (res_v69 a0 a1) (res_v70 a0 a1)
def res_c_17 (a0 : (⟨S32x2048x1, .f32⟩ : BufTy).Contents (Elt F)) (a1 : (⟨S32x2048x512, .f32⟩ : BufTy).Contents (Elt F)) : (⟨S_, .i32⟩ : BufTy).Contents (Elt F) :=
  constantI S_ 32 32800#32
def res_call4_v0 (a0 : (⟨S32x2048x1, .f32⟩ : BufTy).Contents (Elt F)) (a1 : (⟨S32x2048x512, .f32⟩ : BufTy).Contents (Elt F)) : (⟨S_, .i32⟩ : BufTy).Contents (Elt F) :=
  id (res_c_17 a0 a1)
def res_call4_v1 (a0 : (⟨S32x2048x1, .f32⟩ : BufTy).Contents (Elt F)) (a1 : (⟨S32x2048x512, .f32⟩ : BufTy).Contents (Elt F)) : (⟨S32x2048, .i32⟩ : BufTy).Contents (Elt F) :=
  broadcastInDim S32x2048 ![] bcast_S_S32x2048 (res_call4_v0 a0 a1)
def res_v72 (a0 : (⟨S32x2048x1, .f32⟩ : BufTy).Contents (Elt F)) (a1 : (⟨S32x2048x512, .f32⟩ : BufTy).Contents (Elt F)) : (⟨S32x2048, .i32⟩ : BufTy).Contents (Elt F) :=
  select (res_v71 a0 a1) (res_v16 a0 a1) (res_call4_v1 a0 a1)
def res_v73 (a0 : (⟨S32x2048x1, .f32⟩ : BufTy).Contents (Elt F)) (a1 : (⟨S32x2048x512, .f32⟩ : BufTy).Contents (Elt F)) : (⟨S65536, .i32⟩ : BufTy).Contents (Elt F) :=
  shapeCast _ (res_v72 a0 a1) shapeCasts_S32x2048_S65536
def res_v74 (a0 : (⟨S32x2048x1, .f32⟩ : BufTy).Contents (Elt F)) (a1 : (⟨S32x2048x512, .f32⟩ : BufTy).Contents (Elt F)) : (⟨S32x2048, .f32⟩ : BufTy).Contents (Elt F) :=
  uitofp .f32 (res_v71 a0 a1)
def res_v75 (a0 : (⟨S32x2048x1, .f32⟩ : BufTy).Contents (Elt F)) (a1 : (⟨S32x2048x512, .f32⟩ : BufTy).Contents (Elt F)) : (⟨S65536, .f32⟩ : BufTy).Contents (Elt F) :=
  shapeCast _ (res_v74 a0 a1) shapeCasts_S32x2048_S65536
def res_v76 (a0 : (⟨S32x2048x1, .f32⟩ : BufTy).Contents (Elt F)) (a1 : (⟨S32x2048x512, .f32⟩ : BufTy).Contents (Elt F)) : (⟨S65536x512, .f32⟩ : BufTy).Contents (Elt F) :=
  shapeCast _ (a1) shapeCasts_S32x2048x512_S65536x512
def res_v77 (a0 : (⟨S32x2048x1, .f32⟩ : BufTy).Contents (Elt F)) (a1 : (⟨S32x2048x512, .f32⟩ : BufTy).Contents (Elt F)) : (⟨S65536x1, .f32⟩ : BufTy).Contents (Elt F) :=
  broadcastInDim S65536x1 ![0] bcast_S65536_S65536x1_0 (res_v20 a0 a1)
def res_v78 (a0 : (⟨S32x2048x1, .f32⟩ : BufTy).Contents (Elt F)) (a1 : (⟨S32x2048x512, .f32⟩ : BufTy).Contents (Elt F)) : (⟨S65536x512, .f32⟩ : BufTy).Contents (Elt F) :=
  broadcastInDim S65536x512 ![0, 1] bcast_S65536x1_S65536x512_0_1 (res_v77 a0 a1)
def res_v79 (a0 : (⟨S32x2048x1, .f32⟩ : BufTy).Contents (Elt F)) (a1 : (⟨S32x2048x512, .f32⟩ : BufTy).Contents (Elt F)) : (⟨S65536x512, .f32⟩ : BufTy).Contents (Elt F) :=
  mulf (res_v76 a0 a1) (res_v78 a0 a1)
def res_cst_18 (a0 : (⟨S32x2048x1, .f32⟩ : BufTy).Contents (Elt F)) (a1 : (⟨S32x2048x512, .f32⟩ : BufTy).Contents (Elt F)) : (⟨S_, .f32⟩ : BufTy).Contents (Elt F) :=
  constant S_ .f32 0x00000000#32
def res_v80 (a0 : (⟨S32x2048x1, .f32⟩ : BufTy).Contents (Elt F)) (a1 : (⟨S32x2048x512, .f32⟩ : BufTy).Contents (Elt F)) : (⟨S32801x512, .f32⟩ : BufTy).Contents (Elt F) :=
  broadcastInDim S32801x512 ![] bcast_S_S32801x512 (res_cst_18 a0 a1)
def res_v81 (a0 : (⟨S32x2048x1, .f32⟩ : BufTy).Contents (Elt F)) (a1 : (⟨S32x2048x512, .f32⟩ : BufTy).Contents (Elt F)) : (⟨S65536x1, .i32⟩ : BufTy).Contents (Elt F) :=
  broadcastInDim S65536x1 ![0] bcast_S65536_S65536x1_0 (res_v18 a0 a1)
def res_v82 (a0 : (⟨S32x2048x1, .f32⟩ : BufTy).Contents (Elt F)) (a1 : (⟨S32x2048x512, .f32⟩ : BufTy).Contents (Elt F)) : (⟨S32801x512, .f32⟩ : BufTy).Contents (Elt F) :=
  Host.scatterAdd scatter_S32801x512_S65536x1_S65536x512_1_0_0_1 (res_v80 a0 a1) (res_v81 a0 a1) (res_v79 a0 a1)
def res_v83 (a0 : (⟨S32x2048x1, .f32⟩ : BufTy).Contents (Elt F)) (a1 : (⟨S32x2048x512, .f32⟩ : BufTy).Contents (Elt F)) : (⟨S32800x512, .f32⟩ : BufTy).Contents (Elt F) :=
  extractStridedSlice S32800x512 ![0, 0] (res_v82 a0 a1) slices_S32801x512_S32800x512_0_0
def res_v84 (a0 : (⟨S32x2048x1, .f32⟩ : BufTy).Contents (Elt F)) (a1 : (⟨S32x2048x512, .f32⟩ : BufTy).Contents (Elt F)) : (⟨S32800x1, .f32⟩ : BufTy).Contents (Elt F) :=
  broadcastInDim S32800x1 ![0] bcast_S32800_S32800x1_0 (res_v27 a0 a1)
def res_v85 (a0 : (⟨S32x2048x1, .f32⟩ : BufTy).Contents (Elt F)) (a1 : (⟨S32x2048x512, .f32⟩ : BufTy).Contents (Elt F)) : (⟨S32800x512, .f32⟩ : BufTy).Contents (Elt F) :=
  broadcastInDim S32800x512 ![0, 1] bcast_S32800x1_S32800x512_0_1 (res_v84 a0 a1)
def res_v86 (a0 : (⟨S32x2048x1, .f32⟩ : BufTy).Contents (Elt F)) (a1 : (⟨S32x2048x512, .f32⟩ : BufTy).Contents (Elt F)) : (⟨S32800x512, .f32⟩ : BufTy).Contents (Elt F) :=
  Host.divf (res_v83 a0 a1) (res_v85 a0 a1)
def res_cst_19 (a0 : (⟨S32x2048x1, .f32⟩ : BufTy).Contents (Elt F)) (a1 : (⟨S32x2048x512, .f32⟩ : BufTy).Contents (Elt F)) : (⟨S_, .f32⟩ : BufTy).Contents (Elt F) :=
  constant S_ .f32 0x00000000#32
def res_v87 (a0 : (⟨S32x2048x1, .f32⟩ : BufTy).Contents (Elt F)) (a1 : (⟨S32x2048x512, .f32⟩ : BufTy).Contents (Elt F)) : (⟨S32801, .f32⟩ : BufTy).Contents (Elt F) :=
  broadcastInDim S32801 ![] bcast_S_S32801 (res_cst_19 a0 a1)
def res_v88 (a0 : (⟨S32x2048x1, .f32⟩ : BufTy).Contents (Elt F)) (a1 : (⟨S32x2048x512, .f32⟩ : BufTy).Contents (Elt F)) : (⟨S65536x1, .i32⟩ : BufTy).Contents (Elt F) :=
  broadcastInDim S65536x1 ![0] bcast_S65536_S65536x1_0 (res_v73 a0 a1)
def res_v89 (a0 : (⟨S32x2048x1, .f32⟩ : BufTy).Contents (Elt F)) (a1 : (⟨S32x2048x512, .f32⟩ : BufTy).Contents (Elt F)) : (⟨S32801, .f32⟩ : BufTy).Contents (Elt F) :=
  Host.scatterAdd scatter_S32801_S65536x1_S65536_n_0_0_1 (res_v87 a0 a1) (res_v88 a0 a1) (res_v75 a0 a1)
def res_v90 (a0 : (⟨S32x2048x1, .f32⟩ : BufTy).Contents (Elt F)) (a1 : (⟨S32x2048x512, .f32⟩ : BufTy).Contents (Elt F)) : (⟨S32800, .f32⟩ : BufTy).Contents (Elt F) :=
  extractStridedSlice S32800 ![0] (res_v89 a0 a1) slices_S32801_S32800_0
def res_v91 (a0 : (⟨S32x2048x1, .f32⟩ : BufTy).Contents (Elt F)) (a1 : (⟨S32x2048x512, .f32⟩ : BufTy).Contents (Elt F)) : (⟨S65536x1, .f32⟩ : BufTy).Contents (Elt F) :=
  broadcastInDim S65536x1 ![0] bcast_S65536_S65536x1_0 (res_v75 a0 a1)
def res_v92 (a0 : (⟨S32x2048x1, .f32⟩ : BufTy).Contents (Elt F)) (a1 : (⟨S32x2048x512, .f32⟩ : BufTy).Contents (Elt F)) : (⟨S65536x512, .f32⟩ : BufTy).Contents (Elt F) :=
  broadcastInDim S65536x512 ![0, 1] bcast_S65536x1_S65536x512_0_1 (res_v91 a0 a1)
def res_v93 (a0 : (⟨S32x2048x1, .f32⟩ : BufTy).Contents (Elt F)) (a1 : (⟨S32x2048x512, .f32⟩ : BufTy).Contents (Elt F)) : (⟨S65536x512, .f32⟩ : BufTy).Contents (Elt F) :=
  mulf (res_v76 a0 a1) (res_v92 a0 a1)
def res_cst_20 (a0 : (⟨S32x2048x1, .f32⟩ : BufTy).Contents (Elt F)) (a1 : (⟨S32x2048x512, .f32⟩ : BufTy).Contents (Elt F)) : (⟨S_, .f32⟩ : BufTy).Contents (Elt F) :=
  constant S_ .f32 0x00000000#32
def res_v94 (a0 : (⟨S32x2048x1, .f32⟩ : BufTy).Contents (Elt F)) (a1 : (⟨S32x2048x512, .f32⟩ : BufTy).Contents (Elt F)) : (⟨S32801x512, .f32⟩ : BufTy).Contents (Elt F) :=
  broadcastInDim S32801x512 ![] bcast_S_S32801x512 (res_cst_20 a0 a1)
def res_v95 (a0 : (⟨S32x2048x1, .f32⟩ : BufTy).Contents (Elt F)) (a1 : (⟨S32x2048x512, .f32⟩ : BufTy).Contents (Elt F)) : (⟨S65536x1, .i32⟩ : BufTy).Contents (Elt F) :=
  broadcastInDim S65536x1 ![0] bcast_S65536_S65536x1_0 (res_v73 a0 a1)
def res_v96 (a0 : (⟨S32x2048x1, .f32⟩ : BufTy).Contents (Elt F)) (a1 : (⟨S32x2048x512, .f32⟩ : BufTy).Contents (Elt F)) : (⟨S32801x512, .f32⟩ : BufTy).Contents (Elt F) :=
  Host.scatterAdd scatter_S32801x512_S65536x1_S65536x512_1_0_0_1 (res_v94 a0 a1) (res_v95 a0 a1) (res_v93 a0 a1)
def res_v97 (a0 : (⟨S32x2048x1, .f32⟩ : BufTy).Contents (Elt F)) (a1 : (⟨S32x2048x512, .f32⟩ : BufTy).Contents (Elt F)) : (⟨S32800x512, .f32⟩ : BufTy).Contents (Elt F) :=
  extractStridedSlice S32800x512 ![0, 0] (res_v96 a0 a1) slices_S32801x512_S32800x512_0_0
def res_cst_21 (a0 : (⟨S32x2048x1, .f32⟩ : BufTy).Contents (Elt F)) (a1 : (⟨S32x2048x512, .f32⟩ : BufTy).Contents (Elt F)) : (⟨S_, .f32⟩ : BufTy).Contents (Elt F) :=
  constant S_ .f32 0x3F800000#32
def res_v98 (a0 : (⟨S32x2048x1, .f32⟩ : BufTy).Contents (Elt F)) (a1 : (⟨S32x2048x512, .f32⟩ : BufTy).Contents (Elt F)) : (⟨S32800, .f32⟩ : BufTy).Contents (Elt F) :=
  broadcastInDim S32800 ![] bcast_S_S32800 (res_cst_21 a0 a1)
def res_v99 (a0 : (⟨S32x2048x1, .f32⟩ : BufTy).Contents (Elt F)) (a1 : (⟨S32x2048x512, .f32⟩ : BufTy).Contents (Elt F)) : (⟨S32800, .f32⟩ : BufTy).Contents (Elt F) :=
  maximumf (res_v90 a0 a1) (res_v98 a0 a1)
def res_v100 (a0 : (⟨S32x2048x1, .f32⟩ : BufTy).Contents (Elt F)) (a1 : (⟨S32x2048x512, .f32⟩ : BufTy).Contents (Elt F)) : (⟨S32800x1, .f32⟩ : BufTy).Contents (Elt F) :=
  broadcastInDim S32800x1 ![0] bcast_S32800_S32800x1_0 (res_v99 a0 a1)
def res_v101 (a0 : (⟨S32x2048x1, .f32⟩ : BufTy).Contents (Elt F)) (a1 : (⟨S32x2048x512, .f32⟩ : BufTy).Contents (Elt F)) : (⟨S32800x512, .f32⟩ : BufTy).Contents (Elt F) :=
  broadcastInDim S32800x512 ![0, 1] bcast_S32800x1_S32800x512_0_1 (res_v100 a0 a1)
def res_v102 (a0 : (⟨S32x2048x1, .f32⟩ : BufTy).Contents (Elt F)) (a1 : (⟨S32x2048x512, .f32⟩ : BufTy).Contents (Elt F)) : (⟨S32800x512, .f32⟩ : BufTy).Contents (Elt F) :=
  Host.divf (res_v97 a0 a1) (res_v101 a0 a1)
def res_v103 (a0 : (⟨S32x2048x1, .f32⟩ : BufTy).Contents (Elt F)) (a1 : (⟨S32x2048x512, .f32⟩ : BufTy).Contents (Elt F)) : (⟨S32800, .i1⟩ : BufTy).Contents (Elt F) :=
  shapeCast _ (res_v57 a0 a1) shapeCasts_S32x1025_S32800
def res_cst_22 (a0 : (⟨S32x2048x1, .f32⟩ : BufTy).Contents (Elt F)) (a1 : (⟨S32x2048x512, .f32⟩ : BufTy).Contents (Elt F)) : (⟨S_, .f32⟩ : BufTy).Contents (Elt F) :=
  constant S_ .f32 0x00000000#32
def res_v104 (a0 : (⟨S32x2048x1, .f32⟩ : BufTy).Contents (Elt F)) (a1 : (⟨S32x2048x512, .f32⟩ : BufTy).Contents (Elt F)) : (⟨S32800, .f32⟩ : BufTy).Contents (Elt F) :=
  broadcastInDim S32800 ![] bcast_S_S32800 (res_cst_22 a0 a1)
def res_v105 (a0 : (⟨S32x2048x1, .f32⟩ : BufTy).Contents (Elt F)) (a1 : (⟨S32x2048x512, .f32⟩ : BufTy).Contents (Elt F)) : (⟨S32800, .i1⟩ : BufTy).Contents (Elt F) :=
  cmpf .ogt (res_v90 a0 a1) (res_v104 a0 a1)
def res_v106 (a0 : (⟨S32x2048x1, .f32⟩ : BufTy).Contents (Elt F)) (a1 : (⟨S32x2048x512, .f32⟩ : BufTy).Contents (Elt F)) : (⟨S32800, .i1⟩ : BufTy).Contents (Elt F) :=
  andi (res_v103 a0 a1) (res_v105 a0 a1)
def res_v107 (a0 : (⟨S32x2048x1, .f32⟩ : BufTy).Contents (Elt F)) (a1 : (⟨S32x2048x512, .f32⟩ : BufTy).Contents (Elt F)) : (⟨S32800x512, .f32⟩ : BufTy).Contents (Elt F) :=
  subf (res_v86 a0 a1) (res_v102 a0 a1)
def res_v108 (a0 : (⟨S32x2048x1, .f32⟩ : BufTy).Contents (Elt F)) (a1 : (⟨S32x2048x512, .f32⟩ : BufTy).Contents (Elt F)) : (⟨S32800x512, .f32⟩ : BufTy).Contents (Elt F) :=
  mulf (res_v107 a0 a1) (res_v107 a0 a1)
def res_cst_23 (a0 : (⟨S32x2048x1, .f32⟩ : BufTy).Contents (Elt F)) (a1 : (⟨S32x2048x512, .f32⟩ : BufTy).Contents (Elt F)) : (⟨S_, .f32⟩ : BufTy).Contents (Elt F) :=
  constant S_ .f32 0x00000000#32
def res_v109 (a0 : (⟨S32x2048x1, .f32⟩ : BufTy).Contents (Elt F)) (a1 : (⟨S32x2048x512, .f32⟩ : BufTy).Contents (Elt F)) : (⟨S32800, .f32⟩ : BufTy).Contents (Elt F) :=
  Host.reduceAdd (res_v108 a0 a1) (res_cst_23 a0 a1) reducesTo_S32800x512_S32800_d1 h_S_
def res_cst_24 (a0 : (⟨S32x2048x1, .f32⟩ : BufTy).Contents (Elt F)) (a1 : (⟨S32x2048x512, .f32⟩ : BufTy).Contents (Elt F)) : (⟨S_, .f32⟩ : BufTy).Contents (Elt F) :=
  constant S_ .f32 0x44000000#32
def res_v110 (a0 : (⟨S32x2048x1, .f32⟩ : BufTy).Contents (Elt F)) (a1 : (⟨S32x2048x512, .f32⟩ : BufTy).Contents (Elt F)) : (⟨S32800, .f32⟩ : BufTy).Contents (Elt F) :=
  broadcastInDim S32800 ![] bcast_S_S32800 (res_cst_24 a0 a1)
def res_v111 (a0 : (⟨S32x2048x1, .f32⟩ : BufTy).Contents (Elt F)) (a1 : (⟨S32x2048x512, .f32⟩ : BufTy).Contents (Elt F)) : (⟨S32800, .f32⟩ : BufTy).Contents (Elt F) :=
  Host.divf (res_v109 a0 a1) (res_v110 a0 a1)
def res_v112 (a0 : (⟨S32x2048x1, .f32⟩ : BufTy).Contents (Elt F)) (a1 : (⟨S32x2048x512, .f32⟩ : BufTy).Contents (Elt F)) : (⟨S32800, .i32⟩ : BufTy).Contents (Elt F) :=
  extui 32 (res_v106 a0 a1) natLt_1_32
def res_c_25 (a0 : (⟨S32x2048x1, .f32⟩ : BufTy).Contents (Elt F)) (a1 : (⟨S32x2048x512, .f32⟩ : BufTy).Contents (Elt F)) : (⟨S_, .i32⟩ : BufTy).Contents (Elt F) :=
  constantI S_ 32 0#32
def res_v113 (a0 : (⟨S32x2048x1, .f32⟩ : BufTy).Contents (Elt F)) (a1 : (⟨S32x2048x512, .f32⟩ : BufTy).Contents (Elt F)) : (⟨S_, .i32⟩ : BufTy).Contents (Elt F) :=
  Host.reduce IntOp.addi (res_v112 a0 a1) (res_c_25 a0 a1) reducesTo_S32800_S_d0 h_S_
def res_v114 (a0 : (⟨S32x2048x1, .f32⟩ : BufTy).Contents (Elt F)) (a1 : (⟨S32x2048x512, .f32⟩ : BufTy).Contents (Elt F)) : (⟨S32800, .f32⟩ : BufTy).Contents (Elt F) :=
  uitofp .f32 (res_v106 a0 a1)
def res_v115 (a0 : (⟨S32x2048x1, .f32⟩ : BufTy).Contents (Elt F)) (a1 : (⟨S32x2048x512, .f32⟩ : BufTy).Contents (Elt F)) : (⟨S32800, .f32⟩ : BufTy).Contents (Elt F) :=
  mulf (res_v111 a0 a1) (res_v114 a0 a1)
def res_cst_26 (a0 : (⟨S32x2048x1, .f32⟩ : BufTy).Contents (Elt F)) (a1 : (⟨S32x2048x512, .f32⟩ : BufTy).Contents (Elt F)) : (⟨S_, .f32⟩ : BufTy).Contents (Elt F) :=
  constant S_ .f32 0x00000000#32
def res_v116 (a0 : (⟨S32x2048x1, .f32⟩ : BufTy).Contents (Elt F)) (a1 : (⟨S32x2048x512, .f32⟩ : BufTy).Contents (Elt F)) : (⟨S_, .f32⟩ : BufTy).Contents (Elt F) :=
  Host.reduceAdd (res_v115 a0 a1) (res_cst_26 a0 a1) reducesTo_S32800_S_d0 h_S_
def res_c_27 (a0 : (⟨S32x2048x1, .f32⟩ : BufTy).Contents (Elt F)) (a1 : (⟨S32x2048x512, .f32⟩ : BufTy).Contents (Elt F)) : (⟨S_, .i32⟩ : BufTy).Contents (Elt F) :=
  constantI S_ 32 1#32
def res_v117 (a0 : (⟨S32x2048x1, .f32⟩ : BufTy).Contents (Elt F)) (a1 : (⟨S32x2048x512, .f32⟩ : BufTy).Contents (Elt F)) : (⟨S_, .i32⟩ : BufTy).Contents (Elt F) :=
  maxsi (res_v113 a0 a1) (res_c_27 a0 a1)
def res_v118 (a0 : (⟨S32x2048x1, .f32⟩ : BufTy).Contents (Elt F)) (a1 : (⟨S32x2048x512, .f32⟩ : BufTy).Contents (Elt F)) : (⟨S_, .f32⟩ : BufTy).Contents (Elt F) :=
  sitofp .f32 (res_v117 a0 a1)
def res_v119 (a0 : (⟨S32x2048x1, .f32⟩ : BufTy).Contents (Elt F)) (a1 : (⟨S32x2048x512, .f32⟩ : BufTy).Contents (Elt F)) : (⟨S_, .f32⟩ : BufTy).Contents (Elt F) :=
  Host.divf (res_v116 a0 a1) (res_v118 a0 a1)
def res_cst_28 (a0 : (⟨S32x2048x1, .f32⟩ : BufTy).Contents (Elt F)) (a1 : (⟨S32x2048x512, .f32⟩ : BufTy).Contents (Elt F)) : (⟨S_, .f32⟩ : BufTy).Contents (Elt F) :=
  constant S_ .f32 0x3F800000#32
def res_v120 (a0 : (⟨S32x2048x1, .f32⟩ : BufTy).Contents (Elt F)) (a1 : (⟨S32x2048x512, .f32⟩ : BufTy).Contents (Elt F)) : (⟨S_, .f32⟩ : BufTy).Contents (Elt F) :=
  mulf (res_cst_28 a0 a1) (res_v119 a0 a1)
def res_cst_29 (a0 : (⟨S32x2048x1, .f32⟩ : BufTy).Contents (Elt F)) (a1 : (⟨S32x2048x512, .f32⟩ : BufTy).Contents (Elt F)) : (⟨S_, .f32⟩ : BufTy).Contents (Elt F) :=
  constant S_ .f32 0x3F800000#32
def res_v121 (a0 : (⟨S32x2048x1, .f32⟩ : BufTy).Contents (Elt F)) (a1 : (⟨S32x2048x512, .f32⟩ : BufTy).Contents (Elt F)) : (⟨S_, .f32⟩ : BufTy).Contents (Elt F) :=
  mulf (res_cst_29 a0 a1) (res_v67 a0 a1)
def res_v122 (a0 : (⟨S32x2048x1, .f32⟩ : BufTy).Contents (Elt F)) (a1 : (⟨S32x2048x512, .f32⟩ : BufTy).Contents (Elt F)) : (⟨S_, .f32⟩ : BufTy).Contents (Elt F) :=
  addf (res_v120 a0 a1) (res_v121 a0 a1)

/-- The result buffer's contents: the operations' composed term of the two argument arrays. -/
def result (a0 : (⟨S32x2048x1, .f32⟩ : BufTy).Contents (Elt F)) (a1 : (⟨S32x2048x512, .f32⟩ : BufTy).Contents (Elt F)) : (⟨S_, .f32⟩ : BufTy).Contents (Elt F) := res_v122 a0 a1

end Cert.ReferenceIdeal.HandRun

end
-- ==== Proof.RefRun.Win0.lean ====
/- The buffers' contents after each window of the reference's operation list (stretch 1 of 3), read back as the
   named functions of the two argument arrays. -/
import proofs.«141693_j33234456937041_2_alg».proof.Proof.RefRun.Ops

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

-- the folds and searches inside these are never opened here: each is compared by its operands only
attribute [local irreducible] Host.reduceWindow Host.reduce Host.reduceAdd Host.gather Host.scatterAdd

/-- The device's buffer contents before the first window. -/
def val0 (V0 : Valuation τ sig (Elt F)) : Valuation τ sig (Elt F) := V0
theorem val0_arg0 (V0 : Valuation τ sig (Elt F)) : val0 V0 (no_index (Proc.devRef .tc main_arg0)) = V0 (Proc.devRef .tc main_arg0) := rfl
theorem val0_arg1 (V0 : Valuation τ sig (Elt F)) : val0 V0 (no_index (Proc.devRef .tc main_arg1)) = V0 (Proc.devRef .tc main_arg1) := rfl

/-- The device's buffer contents after the first 1 window. -/
def val1 (V0 : Valuation τ sig (Elt F)) : Valuation τ sig (Elt F) := after w0 (val0 V0)
/-- The buffers that window `w0`'s operations write. -/
abbrev w0_W : List (Ref sig .tc) := [main_v0, main_cst, main_v1, main_v2, main_v3, main_c, main_call0_c, main_call0_v0, main_call0_v1, main_call0_v2, main_v4, main_v5, main_v6, main_v7, main_call1_call0_c, main_call1_call0_v0, main_v8, main_c_0, main_v9]
set_option maxRecDepth 8192 in
theorem w0_writes : (w0 : List (HloOp τ sig (Elt F))).Forall fun op => op.writes ⊆ (w0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `w0` does not write keeps its contents through it. -/
theorem val1_keep (V0 : Valuation τ sig (Elt F)) (r : Ref sig .tc) (h : r ∉ w0_W) :
    val1 V0 (Proc.devRef .tc r) = val0 V0 (Proc.devRef .tc r) :=
  after_of_writes_sub w0 _ w0_writes h
theorem val1_arg0 (V0 : Valuation τ sig (Elt F)) : val1 V0 (no_index (Proc.devRef .tc main_arg0)) = V0 (Proc.devRef .tc main_arg0) :=
  (val1_keep V0 main_arg0 (by decide)).trans (val0_arg0 V0)
theorem val1_arg1 (V0 : Valuation τ sig (Elt F)) : val1 V0 (no_index (Proc.devRef .tc main_arg1)) = V0 (Proc.devRef .tc main_arg1) :=
  (val1_keep V0 main_arg1 (by decide)).trans (val0_arg1 V0)
set_option maxRecDepth 8192 in
set_option maxHeartbeats 2000000 in
theorem val1_v0 (V0 : Valuation τ sig (Elt F)) : val1 V0 (no_index (Proc.devRef .tc main_v0)) = res_v0 (A0 V0) (A1 V0) := by
  unfold val1
  simp only [w0]
  after_results_simp
  simp only [val0_arg0] <;> rfl
set_option maxRecDepth 8192 in
set_option maxHeartbeats 2000000 in
theorem val1_v2 (V0 : Valuation τ sig (Elt F)) : val1 V0 (no_index (Proc.devRef .tc main_v2)) = res_v2 (A0 V0) (A1 V0) := by
  unfold val1
  simp only [w0]
  after_results_simp
  simp only [val0_arg0] <;> rfl
set_option maxRecDepth 8192 in
set_option maxHeartbeats 2000000 in
theorem val1_v4 (V0 : Valuation τ sig (Elt F)) : val1 V0 (no_index (Proc.devRef .tc main_v4)) = res_v4 (A0 V0) (A1 V0) := by
  unfold val1
  simp only [w0]
  after_results_simp
  simp only [val0_arg0] <;> rfl
set_option maxRecDepth 8192 in
set_option maxHeartbeats 2000000 in
theorem val1_v6 (V0 : Valuation τ sig (Elt F)) : val1 V0 (no_index (Proc.devRef .tc main_v6)) = res_v6 (A0 V0) (A1 V0) := by
  unfold val1
  simp only [w0]
  after_results_simp
  simp only [val0_arg0] <;> rfl
set_option maxRecDepth 8192 in
set_option maxHeartbeats 2000000 in
theorem val1_v8 (V0 : Valuation τ sig (Elt F)) : val1 V0 (no_index (Proc.devRef .tc main_v8)) = res_v8 (A0 V0) (A1 V0) := by
  unfold val1
  simp only [w0]
  after_results_simp
  simp only [val0_arg0] <;> rfl
set_option maxRecDepth 8192 in
set_option maxHeartbeats 2000000 in
theorem val1_v9 (V0 : Valuation τ sig (Elt F)) : val1 V0 (no_index (Proc.devRef .tc main_v9)) = res_v9 (A0 V0) (A1 V0) := by
  unfold val1
  simp only [w0]
  after_results_simp
  all_goals rfl

/-- The device's buffer contents after the first 2 windows. -/
def val2 (V0 : Valuation τ sig (Elt F)) : Valuation τ sig (Elt F) := after w1 (val1 V0)
/-- The buffers that window `w1`'s operations write. -/
abbrev w1_W : List (Ref sig .tc) := [main_v10, main_v11, main_v12, main_c_1, main_v13, main_v14, main_v15, main_v16, main_c_2, main_call2_v0, main_call2_v1, main_v17, main_v18, main_v19, main_v20, main_v21, main_cst_3, main_v22]
set_option maxRecDepth 8192 in
theorem w1_writes : (w1 : List (HloOp τ sig (Elt F))).Forall fun op => op.writes ⊆ (w1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `w1` does not write keeps its contents through it. -/
theorem val2_keep (V0 : Valuation τ sig (Elt F)) (r : Ref sig .tc) (h : r ∉ w1_W) :
    val2 V0 (Proc.devRef .tc r) = val1 V0 (Proc.devRef .tc r) :=
  after_of_writes_sub w1 _ w1_writes h
theorem val2_arg0 (V0 : Valuation τ sig (Elt F)) : val2 V0 (no_index (Proc.devRef .tc main_arg0)) = V0 (Proc.devRef .tc main_arg0) :=
  (val2_keep V0 main_arg0 (by decide)).trans (val1_arg0 V0)
theorem val2_arg1 (V0 : Valuation τ sig (Elt F)) : val2 V0 (no_index (Proc.devRef .tc main_arg1)) = V0 (Proc.devRef .tc main_arg1) :=
  (val2_keep V0 main_arg1 (by decide)).trans (val1_arg1 V0)
theorem val2_v0 (V0 : Valuation τ sig (Elt F)) : val2 V0 (no_index (Proc.devRef .tc main_v0)) = res_v0 (A0 V0) (A1 V0) :=
  (val2_keep V0 main_v0 (by decide)).trans (val1_v0 V0)
theorem val2_v2 (V0 : Valuation τ sig (Elt F)) : val2 V0 (no_index (Proc.devRef .tc main_v2)) = res_v2 (A0 V0) (A1 V0) :=
  (val2_keep V0 main_v2 (by decide)).trans (val1_v2 V0)
theorem val2_v4 (V0 : Valuation τ sig (Elt F)) : val2 V0 (no_index (Proc.devRef .tc main_v4)) = res_v4 (A0 V0) (A1 V0) :=
  (val2_keep V0 main_v4 (by decide)).trans (val1_v4 V0)
theorem val2_v6 (V0 : Valuation τ sig (Elt F)) : val2 V0 (no_index (Proc.devRef .tc main_v6)) = res_v6 (A0 V0) (A1 V0) :=
  (val2_keep V0 main_v6 (by decide)).trans (val1_v6 V0)
set_option maxRecDepth 8192 in
set_option maxHeartbeats 2000000 in
theorem val2_v16 (V0 : Valuation τ sig (Elt F)) : val2 V0 (no_index (Proc.devRef .tc main_v16)) = res_v16 (A0 V0) (A1 V0) := by
  unfold val2
  simp only [w1]
  after_results_simp
  simp only [val1_v9, val1_v8] <;> rfl
set_option maxRecDepth 8192 in
set_option maxHeartbeats 2000000 in
theorem val2_v18 (V0 : Valuation τ sig (Elt F)) : val2 V0 (no_index (Proc.devRef .tc main_v18)) = res_v18 (A0 V0) (A1 V0) := by
  unfold val2
  simp only [w1]
  after_results_simp
  simp only [val1_v9, val1_v8, val1_v2] <;> rfl
set_option maxRecDepth 8192 in
set_option maxHeartbeats 2000000 in
theorem val2_v20 (V0 : Valuation τ sig (Elt F)) : val2 V0 (no_index (Proc.devRef .tc main_v20)) = res_v20 (A0 V0) (A1 V0) := by
  unfold val2
  simp only [w1]
  after_results_simp
  simp only [val1_v2] <;> rfl
set_option maxRecDepth 8192 in
set_option maxHeartbeats 2000000 in
theorem val2_v21 (V0 : Valuation τ sig (Elt F)) : val2 V0 (no_index (Proc.devRef .tc main_v21)) = res_v21 (A0 V0) (A1 V0) := by
  unfold val2
  simp only [w1]
  after_results_simp
  simp only [val1_v0] <;> rfl
set_option maxRecDepth 8192 in
set_option maxHeartbeats 2000000 in
theorem val2_v22 (V0 : Valuation τ sig (Elt F)) : val2 V0 (no_index (Proc.devRef .tc main_v22)) = res_v22 (A0 V0) (A1 V0) := by
  unfold val2
  simp only [w1]
  after_results_simp
  all_goals rfl

/-- The device's buffer contents after the first 3 windows. -/
def val3 (V0 : Valuation τ sig (Elt F)) : Valuation τ sig (Elt F) := after w2 (val2 V0)
/-- The buffers that window `w2`'s operations write. -/
abbrev w2_W : List (Ref sig .tc) := [main_v23, main_v24, main_v25, main_cst_4, main_v26, main_v27, main_v28, main_cst_5, main_v29, main_v30, main_v31, main_v32, main_v33, main_c_6, main_c_7, main_call3_v0, main_call3_v1, main_call3_v2]
set_option maxRecDepth 8192 in
theorem w2_writes : (w2 : List (HloOp τ sig (Elt F))).Forall fun op => op.writes ⊆ (w2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `w2` does not write keeps its contents through it. -/
theorem val3_keep (V0 : Valuation τ sig (Elt F)) (r : Ref sig .tc) (h : r ∉ w2_W) :
    val3 V0 (Proc.devRef .tc r) = val2 V0 (Proc.devRef .tc r) :=
  after_of_writes_sub w2 _ w2_writes h
theorem val3_arg0 (V0 : Valuation τ sig (Elt F)) : val3 V0 (no_index (Proc.devRef .tc main_arg0)) = V0 (Proc.devRef .tc main_arg0) :=
  (val3_keep V0 main_arg0 (by decide)).trans (val2_arg0 V0)
theorem val3_arg1 (V0 : Valuation τ sig (Elt F)) : val3 V0 (no_index (Proc.devRef .tc main_arg1)) = V0 (Proc.devRef .tc main_arg1) :=
  (val3_keep V0 main_arg1 (by decide)).trans (val2_arg1 V0)
theorem val3_v0 (V0 : Valuation τ sig (Elt F)) : val3 V0 (no_index (Proc.devRef .tc main_v0)) = res_v0 (A0 V0) (A1 V0) :=
  (val3_keep V0 main_v0 (by decide)).trans (val2_v0 V0)
theorem val3_v2 (V0 : Valuation τ sig (Elt F)) : val3 V0 (no_index (Proc.devRef .tc main_v2)) = res_v2 (A0 V0) (A1 V0) :=
  (val3_keep V0 main_v2 (by decide)).trans (val2_v2 V0)
theorem val3_v4 (V0 : Valuation τ sig (Elt F)) : val3 V0 (no_index (Proc.devRef .tc main_v4)) = res_v4 (A0 V0) (A1 V0) :=
  (val3_keep V0 main_v4 (by decide)).trans (val2_v4 V0)
theorem val3_v6 (V0 : Valuation τ sig (Elt F)) : val3 V0 (no_index (Proc.devRef .tc main_v6)) = res_v6 (A0 V0) (A1 V0) :=
  (val3_keep V0 main_v6 (by decide)).trans (val2_v6 V0)
theorem val3_v16 (V0 : Valuation τ sig (Elt F)) : val3 V0 (no_index (Proc.devRef .tc main_v16)) = res_v16 (A0 V0) (A1 V0) :=
  (val3_keep V0 main_v16 (by decide)).trans (val2_v16 V0)
theorem val3_v18 (V0 : Valuation τ sig (Elt F)) : val3 V0 (no_index (Proc.devRef .tc main_v18)) = res_v18 (A0 V0) (A1 V0) :=
  (val3_keep V0 main_v18 (by decide)).trans (val2_v18 V0)
theorem val3_v20 (V0 : Valuation τ sig (Elt F)) : val3 V0 (no_index (Proc.devRef .tc main_v20)) = res_v20 (A0 V0) (A1 V0) :=
  (val3_keep V0 main_v20 (by decide)).trans (val2_v20 V0)
theorem val3_v21 (V0 : Valuation τ sig (Elt F)) : val3 V0 (no_index (Proc.devRef .tc main_v21)) = res_v21 (A0 V0) (A1 V0) :=
  (val3_keep V0 main_v21 (by decide)).trans (val2_v21 V0)
set_option maxRecDepth 8192 in
set_option maxHeartbeats 2000000 in
theorem val3_v27 (V0 : Valuation τ sig (Elt F)) : val3 V0 (no_index (Proc.devRef .tc main_v27)) = res_v27 (A0 V0) (A1 V0) := by
  unfold val3
  simp only [w2]
  after_results_simp
  simp only [val2_v20, val2_v18, val2_v22] <;> rfl
set_option maxRecDepth 8192 in
set_option maxHeartbeats 2000000 in
theorem val3_v33 (V0 : Valuation τ sig (Elt F)) : val3 V0 (no_index (Proc.devRef .tc main_v33)) = res_v33 (A0 V0) (A1 V0) := by
  unfold val3
  simp only [w2]
  after_results_simp
  simp only [val2_v20, val2_v18, val2_v22, val2_v21] <;> rfl
set_option maxRecDepth 8192 in
set_option maxHeartbeats 2000000 in
theorem val3_c_7 (V0 : Valuation τ sig (Elt F)) : val3 V0 (no_index (Proc.devRef .tc main_c_7)) = res_c_7 (A0 V0) (A1 V0) := by
  unfold val3
  simp only [w2]
  after_results_simp
  all_goals rfl
set_option maxRecDepth 8192 in
set_option maxHeartbeats 2000000 in
theorem val3_call3_v2 (V0 : Valuation τ sig (Elt F)) : val3 V0 (no_index (Proc.devRef .tc main_call3_v2)) = res_call3_v2 (A0 V0) (A1 V0) := by
  unfold val3
  simp only [w2]
  after_results_simp
  simp only [val2_v18] <;> rfl

/-- The device's buffer contents after the first 4 windows. -/
def val4 (V0 : Valuation τ sig (Elt F)) : Valuation τ sig (Elt F) := after w3 (val3 V0)
/-- The buffers that window `w3`'s operations write. -/
abbrev w3_W : List (Ref sig .tc) := [main_call3_v3, main_call3_v4, main_v34, main_c_8, main_v35, main_v36, main_c_9, main_v37, main_v38, main_v39, main_v40, main_v41, main_v42, main_v43, main_v44, main_cst_10, main_v45, main_v46]
set_option maxRecDepth 8192 in
theorem w3_writes : (w3 : List (HloOp τ sig (Elt F))).Forall fun op => op.writes ⊆ (w3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `w3` does not write keeps its contents through it. -/
theorem val4_keep (V0 : Valuation τ sig (Elt F)) (r : Ref sig .tc) (h : r ∉ w3_W) :
    val4 V0 (Proc.devRef .tc r) = val3 V0 (Proc.devRef .tc r) :=
  after_of_writes_sub w3 _ w3_writes h
theorem val4_arg0 (V0 : Valuation τ sig (Elt F)) : val4 V0 (no_index (Proc.devRef .tc main_arg0)) = V0 (Proc.devRef .tc main_arg0) :=
  (val4_keep V0 main_arg0 (by decide)).trans (val3_arg0 V0)
theorem val4_arg1 (V0 : Valuation τ sig (Elt F)) : val4 V0 (no_index (Proc.devRef .tc main_arg1)) = V0 (Proc.devRef .tc main_arg1) :=
  (val4_keep V0 main_arg1 (by decide)).trans (val3_arg1 V0)
theorem val4_v0 (V0 : Valuation τ sig (Elt F)) : val4 V0 (no_index (Proc.devRef .tc main_v0)) = res_v0 (A0 V0) (A1 V0) :=
  (val4_keep V0 main_v0 (by decide)).trans (val3_v0 V0)
theorem val4_v2 (V0 : Valuation τ sig (Elt F)) : val4 V0 (no_index (Proc.devRef .tc main_v2)) = res_v2 (A0 V0) (A1 V0) :=
  (val4_keep V0 main_v2 (by decide)).trans (val3_v2 V0)
theorem val4_v4 (V0 : Valuation τ sig (Elt F)) : val4 V0 (no_index (Proc.devRef .tc main_v4)) = res_v4 (A0 V0) (A1 V0) :=
  (val4_keep V0 main_v4 (by decide)).trans (val3_v4 V0)
theorem val4_v6 (V0 : Valuation τ sig (Elt F)) : val4 V0 (no_index (Proc.devRef .tc main_v6)) = res_v6 (A0 V0) (A1 V0) :=
  (val4_keep V0 main_v6 (by decide)).trans (val3_v6 V0)
theorem val4_v16 (V0 : Valuation τ sig (Elt F)) : val4 V0 (no_index (Proc.devRef .tc main_v16)) = res_v16 (A0 V0) (A1 V0) :=
  (val4_keep V0 main_v16 (by decide)).trans (val3_v16 V0)
theorem val4_v18 (V0 : Valuation τ sig (Elt F)) : val4 V0 (no_index (Proc.devRef .tc main_v18)) = res_v18 (A0 V0) (A1 V0) :=
  (val4_keep V0 main_v18 (by decide)).trans (val3_v18 V0)
theorem val4_v20 (V0 : Valuation τ sig (Elt F)) : val4 V0 (no_index (Proc.devRef .tc main_v20)) = res_v20 (A0 V0) (A1 V0) :=
  (val4_keep V0 main_v20 (by decide)).trans (val3_v20 V0)
theorem val4_v27 (V0 : Valuation τ sig (Elt F)) : val4 V0 (no_index (Proc.devRef .tc main_v27)) = res_v27 (A0 V0) (A1 V0) :=
  (val4_keep V0 main_v27 (by decide)).trans (val3_v27 V0)
set_option maxRecDepth 8192 in
set_option maxHeartbeats 2000000 in
theorem val4_v44 (V0 : Valuation τ sig (Elt F)) : val4 V0 (no_index (Proc.devRef .tc main_v44)) = res_v44 (A0 V0) (A1 V0) := by
  unfold val4
  simp only [w3]
  after_results_simp
  simp only [val3_call3_v2, val3_c_7, val3_v33, val3_v21, val3_v20] <;> rfl
set_option maxRecDepth 8192 in
set_option maxHeartbeats 2000000 in
theorem val4_v45 (V0 : Valuation τ sig (Elt F)) : val4 V0 (no_index (Proc.devRef .tc main_v45)) = res_v45 (A0 V0) (A1 V0) := by
  unfold val4
  simp only [w3]
  after_results_simp
  all_goals rfl
set_option maxRecDepth 8192 in
set_option maxHeartbeats 2000000 in
theorem val4_v46 (V0 : Valuation τ sig (Elt F)) : val4 V0 (no_index (Proc.devRef .tc main_v46)) = res_v46 (A0 V0) (A1 V0) := by
  unfold val4
  simp only [w3]
  after_results_simp
  simp only [val3_v18] <;> rfl

end Cert.ReferenceIdeal.HandRun

end
-- ==== Proof.RefRun.Win1.lean ====
/- The buffers' contents after each window of the reference's operation list (stretch 2 of 3), read back as the
   named functions of the two argument arrays. -/
import proofs.«141693_j33234456937041_2_alg».proof.Proof.RefRun.Win0

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

-- the folds and searches inside these are never opened here: each is compared by its operands only
attribute [local irreducible] Host.reduceWindow Host.reduce Host.reduceAdd Host.gather Host.scatterAdd

/-- The device's buffer contents after the first 5 windows. -/
def val5 (V0 : Valuation τ sig (Elt F)) : Valuation τ sig (Elt F) := after w4 (val4 V0)
/-- The buffers that window `w4`'s operations write. -/
abbrev w4_W : List (Ref sig .tc) := [main_v47, main_v48, main_v49, main_v50, main_c_11, main_v51, main_v52, main_v53, main_v54, main_v55, main_v56, main_v57, main_v58, main_v59, main_v60, main_cst_12, main_v61, main_c_13, main_v62, main_v63, main_v64]
set_option maxRecDepth 8192 in
theorem w4_writes : (w4 : List (HloOp τ sig (Elt F))).Forall fun op => op.writes ⊆ (w4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `w4` does not write keeps its contents through it. -/
theorem val5_keep (V0 : Valuation τ sig (Elt F)) (r : Ref sig .tc) (h : r ∉ w4_W) :
    val5 V0 (Proc.devRef .tc r) = val4 V0 (Proc.devRef .tc r) :=
  after_of_writes_sub w4 _ w4_writes h
theorem val5_arg0 (V0 : Valuation τ sig (Elt F)) : val5 V0 (no_index (Proc.devRef .tc main_arg0)) = V0 (Proc.devRef .tc main_arg0) :=
  (val5_keep V0 main_arg0 (by decide)).trans (val4_arg0 V0)
theorem val5_arg1 (V0 : Valuation τ sig (Elt F)) : val5 V0 (no_index (Proc.devRef .tc main_arg1)) = V0 (Proc.devRef .tc main_arg1) :=
  (val5_keep V0 main_arg1 (by decide)).trans (val4_arg1 V0)
theorem val5_v0 (V0 : Valuation τ sig (Elt F)) : val5 V0 (no_index (Proc.devRef .tc main_v0)) = res_v0 (A0 V0) (A1 V0) :=
  (val5_keep V0 main_v0 (by decide)).trans (val4_v0 V0)
theorem val5_v2 (V0 : Valuation τ sig (Elt F)) : val5 V0 (no_index (Proc.devRef .tc main_v2)) = res_v2 (A0 V0) (A1 V0) :=
  (val5_keep V0 main_v2 (by decide)).trans (val4_v2 V0)
theorem val5_v4 (V0 : Valuation τ sig (Elt F)) : val5 V0 (no_index (Proc.devRef .tc main_v4)) = res_v4 (A0 V0) (A1 V0) :=
  (val5_keep V0 main_v4 (by decide)).trans (val4_v4 V0)
theorem val5_v16 (V0 : Valuation τ sig (Elt F)) : val5 V0 (no_index (Proc.devRef .tc main_v16)) = res_v16 (A0 V0) (A1 V0) :=
  (val5_keep V0 main_v16 (by decide)).trans (val4_v16 V0)
theorem val5_v18 (V0 : Valuation τ sig (Elt F)) : val5 V0 (no_index (Proc.devRef .tc main_v18)) = res_v18 (A0 V0) (A1 V0) :=
  (val5_keep V0 main_v18 (by decide)).trans (val4_v18 V0)
theorem val5_v20 (V0 : Valuation τ sig (Elt F)) : val5 V0 (no_index (Proc.devRef .tc main_v20)) = res_v20 (A0 V0) (A1 V0) :=
  (val5_keep V0 main_v20 (by decide)).trans (val4_v20 V0)
theorem val5_v27 (V0 : Valuation τ sig (Elt F)) : val5 V0 (no_index (Proc.devRef .tc main_v27)) = res_v27 (A0 V0) (A1 V0) :=
  (val5_keep V0 main_v27 (by decide)).trans (val4_v27 V0)
set_option maxRecDepth 8192 in
set_option maxHeartbeats 2000000 in
theorem val5_v57 (V0 : Valuation τ sig (Elt F)) : val5 V0 (no_index (Proc.devRef .tc main_v57)) = res_v57 (A0 V0) (A1 V0) := by
  unfold val5
  simp only [w4]
  after_results_simp
  simp only [val4_v6] <;> rfl
set_option maxRecDepth 8192 in
set_option maxHeartbeats 2000000 in
theorem val5_v61 (V0 : Valuation τ sig (Elt F)) : val5 V0 (no_index (Proc.devRef .tc main_v61)) = res_v61 (A0 V0) (A1 V0) := by
  unfold val5
  simp only [w4]
  after_results_simp
  simp only [val4_v6, val4_v27, val4_v44, val4_v46, val4_v45] <;> rfl
set_option maxRecDepth 8192 in
set_option maxHeartbeats 2000000 in
theorem val5_v64 (V0 : Valuation τ sig (Elt F)) : val5 V0 (no_index (Proc.devRef .tc main_v64)) = res_v64 (A0 V0) (A1 V0) := by
  unfold val5
  simp only [w4]
  after_results_simp
  simp only [val4_v6] <;> rfl

/-- The device's buffer contents after the first 6 windows. -/
def val6 (V0 : Valuation τ sig (Elt F)) : Valuation τ sig (Elt F) := after w5 (val5 V0)
/-- The buffers that window `w5`'s operations write. -/
abbrev w5_W : List (Ref sig .tc) := [main_v65, main_cst_14, main_v66, main_cst_15, main_v67, main_cst_16, main_v68, main_v69, main_v70, main_v71, main_c_17, main_call4_v0, main_call4_v1, main_v72, main_v73, main_v74, main_v75, main_v76, main_v77, main_v78, main_v79]
set_option maxRecDepth 8192 in
theorem w5_writes : (w5 : List (HloOp τ sig (Elt F))).Forall fun op => op.writes ⊆ (w5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `w5` does not write keeps its contents through it. -/
theorem val6_keep (V0 : Valuation τ sig (Elt F)) (r : Ref sig .tc) (h : r ∉ w5_W) :
    val6 V0 (Proc.devRef .tc r) = val5 V0 (Proc.devRef .tc r) :=
  after_of_writes_sub w5 _ w5_writes h
theorem val6_arg0 (V0 : Valuation τ sig (Elt F)) : val6 V0 (no_index (Proc.devRef .tc main_arg0)) = V0 (Proc.devRef .tc main_arg0) :=
  (val6_keep V0 main_arg0 (by decide)).trans (val5_arg0 V0)
theorem val6_arg1 (V0 : Valuation τ sig (Elt F)) : val6 V0 (no_index (Proc.devRef .tc main_arg1)) = V0 (Proc.devRef .tc main_arg1) :=
  (val6_keep V0 main_arg1 (by decide)).trans (val5_arg1 V0)
theorem val6_v18 (V0 : Valuation τ sig (Elt F)) : val6 V0 (no_index (Proc.devRef .tc main_v18)) = res_v18 (A0 V0) (A1 V0) :=
  (val6_keep V0 main_v18 (by decide)).trans (val5_v18 V0)
theorem val6_v27 (V0 : Valuation τ sig (Elt F)) : val6 V0 (no_index (Proc.devRef .tc main_v27)) = res_v27 (A0 V0) (A1 V0) :=
  (val6_keep V0 main_v27 (by decide)).trans (val5_v27 V0)
theorem val6_v57 (V0 : Valuation τ sig (Elt F)) : val6 V0 (no_index (Proc.devRef .tc main_v57)) = res_v57 (A0 V0) (A1 V0) :=
  (val6_keep V0 main_v57 (by decide)).trans (val5_v57 V0)
set_option maxRecDepth 8192 in
set_option maxHeartbeats 2000000 in
theorem val6_v67 (V0 : Valuation τ sig (Elt F)) : val6 V0 (no_index (Proc.devRef .tc main_v67)) = res_v67 (A0 V0) (A1 V0) := by
  unfold val6
  simp only [w5]
  after_results_simp
  simp only [val5_v64, val5_v61] <;> rfl
set_option maxRecDepth 8192 in
set_option maxHeartbeats 2000000 in
theorem val6_v73 (V0 : Valuation τ sig (Elt F)) : val6 V0 (no_index (Proc.devRef .tc main_v73)) = res_v73 (A0 V0) (A1 V0) := by
  unfold val6
  simp only [w5]
  after_results_simp
  simp only [val5_v16, val5_v4, val5_v2, val5_v0] <;> rfl
set_option maxRecDepth 8192 in
set_option maxHeartbeats 2000000 in
theorem val6_v75 (V0 : Valuation τ sig (Elt F)) : val6 V0 (no_index (Proc.devRef .tc main_v75)) = res_v75 (A0 V0) (A1 V0) := by
  unfold val6
  simp only [w5]
  after_results_simp
  simp only [val5_v4, val5_v2, val5_v0] <;> rfl
set_option maxRecDepth 8192 in
set_option maxHeartbeats 2000000 in
theorem val6_v76 (V0 : Valuation τ sig (Elt F)) : val6 V0 (no_index (Proc.devRef .tc main_v76)) = res_v76 (A0 V0) (A1 V0) := by
  unfold val6
  simp only [w5]
  after_results_simp
  simp only [val5_arg1] <;> rfl
set_option maxRecDepth 8192 in
set_option maxHeartbeats 2000000 in
theorem val6_v79 (V0 : Valuation τ sig (Elt F)) : val6 V0 (no_index (Proc.devRef .tc main_v79)) = res_v79 (A0 V0) (A1 V0) := by
  unfold val6
  simp only [w5]
  after_results_simp
  simp only [val5_v20, val5_arg1] <;> rfl

/-- The device's buffer contents after the first 7 windows. -/
def val7 (V0 : Valuation τ sig (Elt F)) : Valuation τ sig (Elt F) := after w6 (val6 V0)
/-- The buffers that window `w6`'s operations write. -/
abbrev w6_W : List (Ref sig .tc) := [main_cst_18, main_v80, main_v81, main_v82, main_v83, main_v84, main_v85, main_v86, main_cst_19, main_v87, main_v88, main_v89, main_v90, main_v91, main_v92, main_v93, main_cst_20, main_v94, main_v95, main_v96]
set_option maxRecDepth 8192 in
theorem w6_writes : (w6 : List (HloOp τ sig (Elt F))).Forall fun op => op.writes ⊆ (w6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `w6` does not write keeps its contents through it. -/
theorem val7_keep (V0 : Valuation τ sig (Elt F)) (r : Ref sig .tc) (h : r ∉ w6_W) :
    val7 V0 (Proc.devRef .tc r) = val6 V0 (Proc.devRef .tc r) :=
  after_of_writes_sub w6 _ w6_writes h
theorem val7_arg0 (V0 : Valuation τ sig (Elt F)) : val7 V0 (no_index (Proc.devRef .tc main_arg0)) = V0 (Proc.devRef .tc main_arg0) :=
  (val7_keep V0 main_arg0 (by decide)).trans (val6_arg0 V0)
theorem val7_arg1 (V0 : Valuation τ sig (Elt F)) : val7 V0 (no_index (Proc.devRef .tc main_arg1)) = V0 (Proc.devRef .tc main_arg1) :=
  (val7_keep V0 main_arg1 (by decide)).trans (val6_arg1 V0)
theorem val7_v57 (V0 : Valuation τ sig (Elt F)) : val7 V0 (no_index (Proc.devRef .tc main_v57)) = res_v57 (A0 V0) (A1 V0) :=
  (val7_keep V0 main_v57 (by decide)).trans (val6_v57 V0)
theorem val7_v67 (V0 : Valuation τ sig (Elt F)) : val7 V0 (no_index (Proc.devRef .tc main_v67)) = res_v67 (A0 V0) (A1 V0) :=
  (val7_keep V0 main_v67 (by decide)).trans (val6_v67 V0)
set_option maxRecDepth 8192 in
set_option maxHeartbeats 2000000 in
theorem val7_v86 (V0 : Valuation τ sig (Elt F)) : val7 V0 (no_index (Proc.devRef .tc main_v86)) = res_v86 (A0 V0) (A1 V0) := by
  unfold val7
  simp only [w6]
  after_results_simp
  simp only [val6_v27, val6_v79, val6_v18] <;> rfl
set_option maxRecDepth 8192 in
set_option maxHeartbeats 2000000 in
theorem val7_v90 (V0 : Valuation τ sig (Elt F)) : val7 V0 (no_index (Proc.devRef .tc main_v90)) = res_v90 (A0 V0) (A1 V0) := by
  unfold val7
  simp only [w6]
  after_results_simp
  simp only [val6_v75, val6_v73] <;> rfl
set_option maxRecDepth 8192 in
set_option maxHeartbeats 2000000 in
theorem val7_v96 (V0 : Valuation τ sig (Elt F)) : val7 V0 (no_index (Proc.devRef .tc main_v96)) = res_v96 (A0 V0) (A1 V0) := by
  unfold val7
  simp only [w6]
  after_results_simp
  simp only [val6_v75, val6_v76, val6_v73] <;> rfl

end Cert.ReferenceIdeal.HandRun

end
-- ==== Proof.RefRun.Win2.lean ====
/- The buffers' contents after each window of the reference's operation list (stretch 3 of 3), read back as the
   named functions of the two argument arrays. -/
import proofs.«141693_j33234456937041_2_alg».proof.Proof.RefRun.Win1

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

-- the folds and searches inside these are never opened here: each is compared by its operands only
attribute [local irreducible] Host.reduceWindow Host.reduce Host.reduceAdd Host.gather Host.scatterAdd

/-- The device's buffer contents after the first 8 windows. -/
def val8 (V0 : Valuation τ sig (Elt F)) : Valuation τ sig (Elt F) := after w7 (val7 V0)
/-- The buffers that window `w7`'s operations write. -/
abbrev w7_W : List (Ref sig .tc) := [main_v97, main_cst_21, main_v98, main_v99, main_v100, main_v101, main_v102, main_v103, main_cst_22, main_v104, main_v105, main_v106, main_v107, main_v108, main_cst_23, main_v109, main_cst_24, main_v110]
set_option maxRecDepth 8192 in
theorem w7_writes : (w7 : List (HloOp τ sig (Elt F))).Forall fun op => op.writes ⊆ (w7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `w7` does not write keeps its contents through it. -/
theorem val8_keep (V0 : Valuation τ sig (Elt F)) (r : Ref sig .tc) (h : r ∉ w7_W) :
    val8 V0 (Proc.devRef .tc r) = val7 V0 (Proc.devRef .tc r) :=
  after_of_writes_sub w7 _ w7_writes h
theorem val8_arg0 (V0 : Valuation τ sig (Elt F)) : val8 V0 (no_index (Proc.devRef .tc main_arg0)) = V0 (Proc.devRef .tc main_arg0) :=
  (val8_keep V0 main_arg0 (by decide)).trans (val7_arg0 V0)
theorem val8_arg1 (V0 : Valuation τ sig (Elt F)) : val8 V0 (no_index (Proc.devRef .tc main_arg1)) = V0 (Proc.devRef .tc main_arg1) :=
  (val8_keep V0 main_arg1 (by decide)).trans (val7_arg1 V0)
theorem val8_v67 (V0 : Valuation τ sig (Elt F)) : val8 V0 (no_index (Proc.devRef .tc main_v67)) = res_v67 (A0 V0) (A1 V0) :=
  (val8_keep V0 main_v67 (by decide)).trans (val7_v67 V0)
set_option maxRecDepth 8192 in
set_option maxHeartbeats 2000000 in
theorem val8_v106 (V0 : Valuation τ sig (Elt F)) : val8 V0 (no_index (Proc.devRef .tc main_v106)) = res_v106 (A0 V0) (A1 V0) := by
  unfold val8
  simp only [w7]
  after_results_simp
  simp only [val7_v90, val7_v57] <;> rfl
set_option maxRecDepth 8192 in
set_option maxHeartbeats 2000000 in
theorem val8_v109 (V0 : Valuation τ sig (Elt F)) : val8 V0 (no_index (Proc.devRef .tc main_v109)) = res_v109 (A0 V0) (A1 V0) := by
  unfold val8
  simp only [w7]
  after_results_simp
  simp only [val7_v90, val7_v96, val7_v86] <;> rfl
set_option maxRecDepth 8192 in
set_option maxHeartbeats 2000000 in
theorem val8_v110 (V0 : Valuation τ sig (Elt F)) : val8 V0 (no_index (Proc.devRef .tc main_v110)) = res_v110 (A0 V0) (A1 V0) := by
  unfold val8
  simp only [w7]
  after_results_simp
  all_goals rfl

/-- The device's buffer contents after the first 9 windows. -/
def val9 (V0 : Valuation τ sig (Elt F)) : Valuation τ sig (Elt F) := after w8 (val8 V0)
/-- The buffers that window `w8`'s operations write. -/
abbrev w8_W : List (Ref sig .tc) := [main_v111, main_v112, main_c_25, main_v113, main_v114, main_v115, main_cst_26, main_v116, main_c_27, main_v117, main_v118, main_v119, main_cst_28, main_v120, main_cst_29, main_v121, main_v122]
set_option maxRecDepth 8192 in
theorem w8_writes : (w8 : List (HloOp τ sig (Elt F))).Forall fun op => op.writes ⊆ (w8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `w8` does not write keeps its contents through it. -/
theorem val9_keep (V0 : Valuation τ sig (Elt F)) (r : Ref sig .tc) (h : r ∉ w8_W) :
    val9 V0 (Proc.devRef .tc r) = val8 V0 (Proc.devRef .tc r) :=
  after_of_writes_sub w8 _ w8_writes h
theorem val9_arg0 (V0 : Valuation τ sig (Elt F)) : val9 V0 (no_index (Proc.devRef .tc main_arg0)) = V0 (Proc.devRef .tc main_arg0) :=
  (val9_keep V0 main_arg0 (by decide)).trans (val8_arg0 V0)
theorem val9_arg1 (V0 : Valuation τ sig (Elt F)) : val9 V0 (no_index (Proc.devRef .tc main_arg1)) = V0 (Proc.devRef .tc main_arg1) :=
  (val9_keep V0 main_arg1 (by decide)).trans (val8_arg1 V0)
set_option maxRecDepth 8192 in
set_option maxHeartbeats 2000000 in
theorem val9_v122 (V0 : Valuation τ sig (Elt F)) : val9 V0 (no_index (Proc.devRef .tc main_v122)) = res_v122 (A0 V0) (A1 V0) := by
  unfold val9
  simp only [w8]
  after_results_simp
  simp only [val8_v67, val8_v106, val8_v110, val8_v109] <;> rfl

end Cert.ReferenceIdeal.HandRun

end
-- ==== Proof.RefRun.lean ====
/- The reference program's run read back: every weakly fair execution of @main terminates with the result buffer
   at the operations' composed term of the two argument arrays (the named definitions `res_…` of RefRun/Ops), the
   argument arrays unchanged. -/
import proofs.«141693_j33234456937041_2_alg».proof.Proof.RefRun.Win2

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The fold of the whole list is the fold window by window. -/
theorem after_ops (V0 : Valuation τ sig (Elt F)) : after ops V0 = val9 V0 := by
  show after (((w0 ++ w1 ++ w2 ++ w3) ++ (w4 ++ w5 ++ w6)) ++ (w7 ++ w8)) V0 = _
  simp only [after_app]
  rfl

/-- On every device, for any float values, from any memory with zero counters: every weakly fair execution of
    @main terminates with the result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v122) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v122).trans (by simp only [after_ops]; exact val9_v122 (launchContents m c)),
      (h c main_arg0).trans (by simp only [after_ops]; exact val9_arg0 (launchContents m c)),
      (h c main_arg1).trans (by simp only [after_ops]; exact val9_arg1 (launchContents m c))⟩)
    (run_seq scopedRefs_eq scopedSems_eq defs main (fun _ => ops) main_eq (fun _ => ops_sub) m ρ (fun _ => ops_fresh))

end Cert.ReferenceIdeal.HandRun

end
-- ==== Proof.LibRunLength.lean ====
import Mathlib.Algebra.BigOperators.Fin
import Mathlib.Algebra.Order.BigOperators.Group.Finset
import Mathlib.Tactic.Linarith
import Mathlib.Tactic.Ring

/-!
# Run starts of a Boolean sequence and their running count

For a Boolean sequence `p : ℕ → Bool` a *run* is a maximal block of consecutive
positions at which `p` is true.  A run *starts* at `t` when `p t` is true and
`p (t - 1)` is false (position `0` has no predecessor, so a true `p 0` is a start).
The inclusive running count `csum p t` of the starts among `0, …, t` labels every
position inside a run by the (1-based) index of its run.

This file proves the elementary combinatorics of that labelling: the count is
monotone, two starts are never adjacent (so at most `⌈(t+1)/2⌉` starts occur among
`0..t`), the count takes every value between `1` and its final value, first at a
start, and therefore bucket `r` of the labelling is non-empty exactly when `r` is
below the number of runs.  The same facts are then restated for sequences indexed
by `Fin n`.
-/

open Finset

namespace RunLength

/-- The sequence shifted one step to the right; position `0` gets `false`. -/
def prev (p : ℕ → Bool) : ℕ → Bool
  | 0 => false
  | (t+1) => p t

/-- A run starts at `t`: `p t` holds and the previous position (if any) fails `p`. -/
def start (p : ℕ → Bool) (t : ℕ) : Bool := p t && !(prev p t)

/-- The inclusive running count of run starts among the positions `0, …, t`. -/
def csum (p : ℕ → Bool) (t : ℕ) : ℕ :=
  ∑ u ∈ Finset.range (t+1), if start p u then 1 else 0

@[simp] theorem prev_zero (p : ℕ → Bool) : prev p 0 = false := rfl

@[simp] theorem prev_succ (p : ℕ → Bool) (t : ℕ) : prev p (t+1) = p t := rfl

/-- At position `0` a start is just `p 0`. -/
theorem start_zero (p : ℕ → Bool) : start p 0 = p 0 := by simp [start]

/-- At a successor position a start is `p (t+1)` and not `p t`. -/
theorem start_succ (p : ℕ → Bool) (t : ℕ) : start p (t+1) = (p (t+1) && !(p t)) := rfl

/-- A start is in particular a position where `p` holds. -/
theorem p_of_start (p : ℕ → Bool) (t : ℕ) (h : start p t = true) : p t = true := by
  simp [start] at h; exact h.1

/-- The count at position `0` is `1` if `0` is a start and `0` otherwise. -/
theorem csum_zero (p : ℕ → Bool) : csum p 0 = if start p 0 then 1 else 0 := by
  unfold csum; rw [Finset.sum_range_one]

/-- The running count grows by one exactly at a start. -/
theorem csum_succ (p : ℕ → Bool) (t : ℕ) :
    csum p (t+1) = csum p t + if start p (t+1) then 1 else 0 := by
  unfold csum; rw [Finset.sum_range_succ]

/-- The running count is monotone. -/
theorem csum_mono (p : ℕ → Bool) {s t : ℕ} (h : s ≤ t) : csum p s ≤ csum p t := by
  induction h with
  | refl => exact le_rfl
  | step _ ih => exact ih.trans (by rw [csum_succ]; exact Nat.le_add_right _ _)

/-- Sharp form of the non-adjacency bound: twice the count is at most `t + 1`, plus one
more when `p t` holds.  (A start at `t+1` needs `p t` false, which is when the bound at
`t` has one unit of slack.) -/
theorem two_mul_csum_le_aux (p : ℕ → Bool) (t : ℕ) :
    2 * csum p t ≤ t + 1 + (if p t then 1 else 0) := by
  induction t with
  | zero =>
    rw [csum_zero, start_zero]
    cases p 0 <;> simp
  | succ t ih =>
    rw [csum_succ, start_succ]
    cases h1 : p t <;> cases h2 : p (t+1) <;> simp [h1] at ih ⊢ <;> omega

/-- Starts are never adjacent, so among `0..t` there are at most `⌈(t+1)/2⌉` of them. -/
theorem two_mul_csum_le (p : ℕ → Bool) (t : ℕ) : 2 * csum p t ≤ t + 2 := by
  have h := two_mul_csum_le_aux p t
  have : (if p t then 1 else 0) ≤ 1 := by split <;> omega
  omega

/-- A position where `p` holds has a start at or before it. -/
theorem csum_pos_of_p (p : ℕ → Bool) (t : ℕ) (h : p t = true) : 1 ≤ csum p t := by
  induction t with
  | zero => rw [csum_zero, start_zero, h]; simp
  | succ t ih =>
    rw [csum_succ, start_succ, h]
    cases h1 : p t
    · simp
    · have := ih h1; omega

/-- A position inside a run, or right after one, has a start at or before it. -/
theorem csum_pos (p : ℕ → Bool) (t : ℕ) (h : p t = true ∨ prev p t = true) : 1 ≤ csum p t := by
  rcases h with h | h
  · exact csum_pos_of_p p t h
  · cases t with
    | zero => simp at h
    | succ t => exact (csum_pos_of_p p t h).trans (csum_mono p (Nat.le_succ t))

/-- The running count takes every value `1..csum p N`, and takes it first at a start. -/
theorem exists_start_csum_eq (p : ℕ → Bool) (N r : ℕ) (hr : r < csum p N) :
    ∃ t, t ≤ N ∧ start p t = true ∧ csum p t = r + 1 := by
  induction N with
  | zero =>
    rw [csum_zero] at hr
    by_cases h0 : start p 0 = true
    · refine ⟨0, le_rfl, h0, ?_⟩
      rw [csum_zero]; simp [h0] at hr ⊢; omega
    · simp [h0] at hr
  | succ N ih =>
    by_cases hlt : r < csum p N
    · obtain ⟨t, htN, hs, hc⟩ := ih hlt
      exact ⟨t, htN.trans (Nat.le_succ N), hs, hc⟩
    · rw [csum_succ] at hr
      by_cases hs : start p (N+1) = true
      · refine ⟨N+1, le_rfl, hs, ?_⟩
        rw [csum_succ]; simp [hs] at hr ⊢; omega
      · simp [hs] at hr; omega

/-- Bucket `r` of the run-length labelling (positions where `p` holds and the running
count is `r + 1`) is non-empty iff `r` is below the number of runs. -/
theorem card_run_pos_iff (p : ℕ → Bool) (N r : ℕ) :
    0 < (Finset.filter (fun t => p t = true ∧ csum p t = r + 1) (Finset.range (N+1))).card
      ↔ r < csum p N := by
  rw [Finset.card_pos]
  constructor
  · rintro ⟨t, ht⟩
    rw [Finset.mem_filter, Finset.mem_range] at ht
    have := csum_mono p (show t ≤ N by omega)
    omega
  · intro hr
    obtain ⟨t, htN, hs, hc⟩ := exists_start_csum_eq p N r hr
    exact ⟨t, by
      rw [Finset.mem_filter, Finset.mem_range]
      exact ⟨by omega, p_of_start p t hs, hc⟩⟩

/-- With `2048` positions there are at most `1024` runs. -/
theorem csum_le_1024 (p : ℕ → Bool) (t : ℕ) (ht : t < 2048) : csum p t ≤ 1024 := by
  have := two_mul_csum_le p t
  omega

/-! ## Sequences indexed by `Fin n`

A sequence `P : Fin n → Bool` is extended by `false` beyond `n`; starts and their running
count computed directly on `Fin n` agree with those of the extension, so every fact above
transfers. -/

section FinIndexed

variable {n : ℕ}

/-- Extension of a `Fin n`-indexed Boolean sequence to all of `ℕ` by `false`. -/
def extend (P : Fin n → Bool) : ℕ → Bool := fun t => if h : t < n then P ⟨t, h⟩ else false

/-- The value at the previous index; `false` at index `0`. -/
def prevFin (P : Fin n → Bool) (u : Fin n) : Bool :=
  if h : u.val = 0 then false else P ⟨u.val - 1, by omega⟩

/-- A run starts at index `u`: `P u` holds and the previous index (if any) fails `P`. -/
def startFin (P : Fin n → Bool) (u : Fin n) : Bool :=
  P u && !(if h : u.val = 0 then false else P ⟨u.val - 1, by omega⟩)

/-- The inclusive running count of run starts among the indices `≤ t`. -/
def csumFin (P : Fin n → Bool) (t : Fin n) : ℕ :=
  ∑ u : Fin n, if u ≤ t ∧ startFin P u then 1 else 0

/-- The total number of runs. -/
def runs (P : Fin n → Bool) : ℕ := ∑ u : Fin n, if startFin P u then 1 else 0

theorem startFin_eq (P : Fin n → Bool) (u : Fin n) :
    startFin P u = (P u && !(prevFin P u)) := rfl

/-- The extension agrees with `P` on indices below `n`. -/
theorem extend_val (P : Fin n → Bool) (u : Fin n) : extend P u.val = P u := by
  simp [extend]

/-- The extension is `false` from `n` on. -/
theorem extend_of_le (P : Fin n → Bool) {t : ℕ} (h : n ≤ t) : extend P t = false := by
  simp [extend, Nat.not_lt.mpr h]

/-- The shifted extension agrees with the previous-index value. -/
theorem prev_extend (P : Fin n → Bool) (u : Fin n) : prev (extend P) u.val = prevFin P u := by
  obtain ⟨v, hv⟩ := u
  cases v with
  | zero => simp [prevFin]
  | succ v =>
    have hv' : v < n := by omega
    simp [prevFin, extend, hv']

/-- Starts on `Fin n` are the starts of the extension. -/
theorem startFin_eq_start (P : Fin n → Bool) (u : Fin n) :
    startFin P u = start (extend P) u.val := by
  rw [startFin_eq, start, extend_val, prev_extend]

/-- The running count on `Fin n` is the running count of the extension. -/
theorem csumFin_eq_csum (P : Fin n → Bool) (t : Fin n) :
    csumFin P t = csum (extend P) t.val := by
  unfold csumFin csum
  have h1 : ∀ u : Fin n, (if u ≤ t ∧ startFin P u = true then 1 else 0)
      = (fun i : ℕ => if i ≤ t.val ∧ start (extend P) i = true then 1 else 0) u.val := by
    intro u; simp only [startFin_eq_start, Fin.le_def]
  rw [Finset.sum_congr rfl (fun u _ => h1 u),
    Fin.sum_univ_eq_sum_range (fun i : ℕ => if i ≤ t.val ∧ start (extend P) i = true then 1 else 0) n,
    ← Finset.sum_subset (Finset.range_mono (show t.val + 1 ≤ n by omega))]
  · refine Finset.sum_congr rfl (fun i hi => ?_)
    rw [Finset.mem_range] at hi
    simp [show i ≤ t.val by omega]
  · intro i _ hi
    rw [Finset.mem_range] at hi
    simp [show ¬ i ≤ t.val by omega]

/-- The total number of runs is the running count of the extension at the last index. -/
theorem runs_eq_csum (P : Fin n → Bool) (hn : 0 < n) : runs P = csum (extend P) (n - 1) := by
  unfold runs csum
  have h1 : ∀ u : Fin n, (if startFin P u = true then 1 else 0)
      = (fun i : ℕ => if start (extend P) i = true then 1 else 0) u.val := by
    intro u; simp only [startFin_eq_start]
  rw [Finset.sum_congr rfl (fun u _ => h1 u),
    Fin.sum_univ_eq_sum_range (fun i : ℕ => if start (extend P) i = true then 1 else 0) n,
    show n - 1 + 1 = n by omega]

/-- The total number of runs is the running count at the last index. -/
theorem runs_eq_csumFin_last (P : Fin n → Bool) (hn : 0 < n) :
    runs P = csumFin P ⟨n - 1, by omega⟩ := by
  rw [runs_eq_csum P hn, csumFin_eq_csum]

/-- The running count grows by one exactly at a start. -/
theorem csumFin_succ (P : Fin n → Bool) (t : ℕ) (h : t + 1 < n) :
    csumFin P ⟨t + 1, h⟩ = csumFin P ⟨t, by omega⟩ + if startFin P ⟨t + 1, h⟩ then 1 else 0 := by
  rw [csumFin_eq_csum, csumFin_eq_csum, startFin_eq_start]
  exact csum_succ _ _

/-- The running count is monotone. -/
theorem csumFin_mono (P : Fin n → Bool) {s t : Fin n} (h : s ≤ t) : csumFin P s ≤ csumFin P t := by
  rw [csumFin_eq_csum, csumFin_eq_csum]
  exact csum_mono _ h

/-- The running count never exceeds the total number of runs. -/
theorem csumFin_le_runs (P : Fin n → Bool) (t : Fin n) : csumFin P t ≤ runs P := by
  have hn : 0 < n := by have := t.isLt; omega
  rw [runs_eq_csum P hn, csumFin_eq_csum]
  exact csum_mono _ (by have := t.isLt; omega)

/-- Starts are never adjacent, so among the indices `≤ t` there are at most
`⌈(t+1)/2⌉` of them. -/
theorem two_mul_csumFin_le (P : Fin n → Bool) (t : Fin n) : 2 * csumFin P t ≤ t.val + 2 := by
  rw [csumFin_eq_csum]
  exact two_mul_csum_le _ _

/-- There are at most `⌈n/2⌉` runs among `n` positions. -/
theorem two_mul_runs_le (P : Fin n → Bool) : 2 * runs P ≤ n + 1 := by
  rcases Nat.eq_zero_or_pos n with hn | hn
  · subst hn; simp [runs]
  · rw [runs_eq_csum P hn]
    have := two_mul_csum_le (extend P) (n - 1)
    omega

/-- An index inside a run, or right after one, has a start at or before it. -/
theorem csumFin_pos (P : Fin n → Bool) (t : Fin n) (h : P t = true ∨ prevFin P t = true) :
    1 ≤ csumFin P t := by
  rw [csumFin_eq_csum]
  exact csum_pos _ _ (by rwa [extend_val, prev_extend])

/-- The running count takes every value `1..csumFin P N`, and takes it first at a start. -/
theorem exists_startFin_csumFin_eq (P : Fin n → Bool) (N : Fin n) (r : ℕ)
    (hr : r < csumFin P N) :
    ∃ t : Fin n, t ≤ N ∧ startFin P t = true ∧ csumFin P t = r + 1 := by
  rw [csumFin_eq_csum] at hr
  obtain ⟨t, htN, hs, hc⟩ := exists_start_csum_eq _ _ _ hr
  have htn : t < n := by have := N.isLt; omega
  refine ⟨⟨t, htn⟩, htN, ?_, ?_⟩
  · rw [startFin_eq_start]; exact hs
  · rw [csumFin_eq_csum]; exact hc

/-- Every value `1..runs P` is the running count at some start. -/
theorem exists_startFin_csumFin_eq_of_lt_runs (P : Fin n → Bool) (r : ℕ) (hr : r < runs P) :
    ∃ t : Fin n, startFin P t = true ∧ csumFin P t = r + 1 := by
  have hn : 0 < n := by
    rcases Nat.eq_zero_or_pos n with hn | hn
    · subst hn; simp [runs] at hr
    · exact hn
  rw [runs_eq_csumFin_last P hn] at hr
  obtain ⟨t, _, hs, hc⟩ := exists_startFin_csumFin_eq P _ r hr
  exact ⟨t, hs, hc⟩

/-- Bucket `r` of the run-length labelling restricted to the indices `≤ N` is non-empty
iff `r` is below the running count at `N`. -/
theorem card_runFin_le_pos_iff (P : Fin n → Bool) (N : Fin n) (r : ℕ) :
    0 < (Finset.filter (fun t : Fin n => t ≤ N ∧ P t = true ∧ csumFin P t = r + 1)
          Finset.univ).card ↔ r < csumFin P N := by
  rw [Finset.card_pos]
  constructor
  · rintro ⟨t, ht⟩
    rw [Finset.mem_filter] at ht
    have := csumFin_mono P ht.2.1
    omega
  · intro hr
    obtain ⟨t, htN, hs, hc⟩ := exists_startFin_csumFin_eq P N r hr
    refine ⟨t, ?_⟩
    rw [Finset.mem_filter]
    refine ⟨Finset.mem_univ _, htN, ?_, hc⟩
    rw [startFin_eq_start] at hs
    rw [← extend_val P t]; exact p_of_start _ _ hs

/-- Bucket `r` of the run-length labelling (indices where `P` holds and the running
count is `r + 1`) is non-empty iff `r` is below the number of runs. -/
theorem card_runFin_pos_iff (P : Fin n → Bool) (r : ℕ) :
    0 < (Finset.filter (fun t : Fin n => P t = true ∧ csumFin P t = r + 1)
          Finset.univ).card ↔ r < runs P := by
  rw [Finset.card_pos]
  constructor
  · rintro ⟨t, ht⟩
    rw [Finset.mem_filter] at ht
    have := csumFin_le_runs P t
    omega
  · intro hr
    obtain ⟨t, hs, hc⟩ := exists_startFin_csumFin_eq_of_lt_runs P r hr
    refine ⟨t, ?_⟩
    rw [Finset.mem_filter]
    refine ⟨Finset.mem_univ _, ?_, hc⟩
    rw [startFin_eq_start] at hs
    rw [← extend_val P t]; exact p_of_start _ _ hs

/-- With at most `2048` positions the running count is at most `1024`. -/
theorem csumFin_le_1024 (P : Fin n → Bool) (hn : n ≤ 2048) (t : Fin n) : csumFin P t ≤ 1024 := by
  have := two_mul_csumFin_le P t
  have := t.isLt
  omega

/-- With at most `2048` positions there are at most `1024` runs. -/
theorem runs_le_1024 (P : Fin n → Bool) (hn : n ≤ 2048) : runs P ≤ 1024 := by
  have := two_mul_runs_le P
  omega

end FinIndexed

end RunLength
-- ==== Proof.Spec.lean ====
/-
  The run-length consistency loss, stated once over plain finite index types.

  For each of 32 sequences of 2048 time steps there is an attention value `a b t` and a feature row `x b t d`
  (512 features).  A time step is *in a proposal* when its attention exceeds one half; maximal blocks of consecutive
  proposal steps are *runs*, numbered 0, 1, … in order of their first step: the run of step `t` is the number of run
  starts at or before `t`, less one.  A step is a *representative* of its run when its attention also exceeds the
  second threshold and it lies in a proposal or directly after one.

  Per run the loss needs six sums over the run's steps (the count, the representatives' count, the sum and sum of
  squares of the attention, the feature sums over the run and over its representatives).  From them:
    * the mean squared distance between the run's mean feature row and its representatives' mean feature row,
      counted for the runs that have a representative;
    * the variance of the attention over the run.

  Two arrangements of the same loss are stated here.  The first (`lossK`) keeps, per sequence, a table of 1152 rows
  of which only the rows below the number of runs are ever non-empty, recognises a real run by its count being positive,
  takes the variance as mean of squares minus square of mean clamped at zero, and adds the sequences' numerators and
  denominators as numbers.  The second (`lossR`) keeps one table of 32·1025 rows, recognises a real run by its row
  number being below the number of runs, takes the variance as the mean squared deviation from the mean, and counts the
  qualifying runs as an integer.  They are the same number when every input is a real.
-/
import proofs.«141693_j33234456937041_2_alg».proof.Proof.LibRunLength
import Idealize.ShloMosaic.PureOps.Ideal

noncomputable section

namespace Cert.Spec

open Idealize.ShloMosaic RunLength

variable (a : Fin 32 → Fin 2048 → EReal) (x : Fin 32 → Fin 2048 → Fin 512 → EReal)

/-- The proposal threshold, one half, as the binary value both programs spell. -/
def half : EReal := Ideal.ofBits .f32 0x3F000000#32
/-- The representative threshold: the binary value nearest seven tenths, as both programs spell it. -/
def rep : EReal := Ideal.ofBits .f32 0x3F333333#32

/-- Step `t` of sequence `b` is in a proposal. -/
def P (b : Fin 32) (t : Fin 2048) : Bool := decide (half < a b t)
/-- The step before `t` is in a proposal (false at the first step). -/
def Q (b : Fin 32) (t : Fin 2048) : Bool := prevFin (P a b) t
/-- Step `t` is a representative: above the second threshold, and in a proposal or directly after one. -/
def M (b : Fin 32) (t : Fin 2048) : Bool := decide (rep < a b t) && (P a b t || Q a b t)
/-- The number of run starts at or before `t`. -/
def rank (b : Fin 32) (t : Fin 2048) : ℕ := csumFin (P a b) t
/-- The number of runs of sequence `b`. -/
def nruns (b : Fin 32) : ℕ := runs (P a b)

/-- Step `t` belongs to run `r`. -/
def In (b : Fin 32) (r : ℕ) (t : Fin 2048) : Prop := P a b t = true ∧ rank a b t = r + 1
/-- Step `t` is a representative of run `r`. -/
def InRep (b : Fin 32) (r : ℕ) (t : Fin 2048) : Prop := M a b t = true ∧ rank a b t = r + 1

instance (b : Fin 32) (r : ℕ) (t : Fin 2048) : Decidable (In a b r t) := by unfold In; infer_instance
instance (b : Fin 32) (r : ℕ) (t : Fin 2048) : Decidable (InRep a b r t) := by unfold InRep; infer_instance

/-- One or zero. -/
def ind (p : Prop) [Decidable p] : EReal := if p then 1 else 0
/-- One where the number is positive, else zero. -/
def posI (y : EReal) : EReal := if 0 < y then 1 else 0

/-! ## The six sums of a run -/

def cnt (b : Fin 32) (r : ℕ) : EReal := ∑ t : Fin 2048, ind (In a b r t)
def rcnt (b : Fin 32) (r : ℕ) : EReal := ∑ t : Fin 2048, ind (InRep a b r t)
def asum (b : Fin 32) (r : ℕ) : EReal := ∑ t : Fin 2048, ind (In a b r t) * a b t
def a2sum (b : Fin 32) (r : ℕ) : EReal := ∑ t : Fin 2048, ind (In a b r t) * (a b t * a b t)
def fm (b : Fin 32) (r : ℕ) (d : Fin 512) : EReal := ∑ t : Fin 2048, ind (In a b r t) * x b t d
def rm (b : Fin 32) (r : ℕ) (d : Fin 512) : EReal := ∑ t : Fin 2048, ind (InRep a b r t) * x b t d

/-- The divisors: a count, or one for an empty row. -/
def scnt (b : Fin 32) (r : ℕ) : EReal := max (cnt a b r) 1
def srcnt (b : Fin 32) (r : ℕ) : EReal := max (rcnt a b r) 1

/-- The difference of the two mean feature rows at feature `d`. -/
def dmean (b : Fin 32) (r : ℕ) (d : Fin 512) : EReal :=
  Ideal.div (fm a x b r d) (scnt a b r) - Ideal.div (rm a x b r d) (srcnt a b r)
/-- The mean over the 512 features of its square. -/
def mse (b : Fin 32) (r : ℕ) : EReal :=
  Ideal.div (∑ d : Fin 512, dmean a x b r d * dmean a x b r d) (Ideal.ofBits .f32 0x44000000#32)
/-- The run's mean attention. -/
def mean (b : Fin 32) (r : ℕ) : EReal := Ideal.div (asum a b r) (scnt a b r)

/-! ## First arrangement: 1152 rows per sequence -/

def qualK (b : Fin 32) (r : ℕ) : EReal := posI (cnt a b r) * posI (rcnt a b r)
def numK (b : Fin 32) : EReal := ∑ r : Fin 1152, mse a x b r.val * qualK a b r.val
def denK (b : Fin 32) : EReal := ∑ r : Fin 1152, qualK a b r.val
def varK (b : Fin 32) (r : ℕ) : EReal :=
  max (Ideal.div (a2sum a b r) (scnt a b r) - mean a b r * mean a b r) 0
def attK (b : Fin 32) : EReal := ∑ r : Fin 1152, varK a b r.val * posI (cnt a b r.val)
/-- The number of runs as a float. -/
def nrunsF (b : Fin 32) : EReal := ((nruns a b : ℝ) : EReal)
def featLossK : EReal := Ideal.div (∑ b : Fin 32, numK a x b) (max (∑ b : Fin 32, denK a b) 1)
def attnLossK : EReal :=
  Ideal.div (∑ b : Fin 32, Ideal.div (attK a b) (max (nrunsF a b) 1)) (Ideal.ofBits .f32 0x42000000#32)
def lossK : EReal := 1 * featLossK a x + 1 * attnLossK a

/-! ## Second arrangement: one table of 32 · 1025 rows -/

/-- The sequence and the run of a row of the long table. -/
def seqOf (j : Fin 32800) : Fin 32 := ⟨j.val / 1025, by have := j.isLt; omega⟩
def runOf (j : Fin 32800) : ℕ := j.val % 1025

def varR (b : Fin 32) (r : ℕ) : EReal :=
  Ideal.div (∑ t : Fin 2048, ind (In a b r t) * ((a b t - mean a b r) * (a b t - mean a b r))) (scnt a b r)
def validR (b : Fin 32) (r : ℕ) : Prop := r < nruns a b
instance (b : Fin 32) (r : ℕ) : Decidable (validR a b r) := by unfold validR; infer_instance
def attR (b : Fin 32) : EReal := ∑ r : Fin 1025, varR a b r.val * ind (validR a b r.val)
def qualR (j : Fin 32800) : Prop := validR a (seqOf j) (runOf j) ∧ 0 < rcnt a (seqOf j) (runOf j)
instance (j : Fin 32800) : Decidable (qualR a j) := by unfold qualR; infer_instance
/-- The qualifying runs, counted. -/
def nqual : ℕ := ∑ j : Fin 32800, if qualR a j then 1 else 0
def featLossR : EReal :=
  Ideal.div (∑ j : Fin 32800, mse a x (seqOf j) (runOf j) * ind (qualR a j)) (((max (nqual a) 1 : ℕ) : ℝ) : EReal)
def attnLossR : EReal :=
  Ideal.div (∑ b : Fin 32, Ideal.div (attR a b) (((max (nruns a b) 1 : ℕ) : ℝ) : EReal)) (Ideal.ofBits .f32 0x42000000#32)
def lossR : EReal := 1 * featLossR a x + 1 * attnLossR a

end Cert.Spec

end
-- ==== Proof.RunStages.lean ====
/-
  The run-length prologue, one operation at a time, read at an index.

  Both programs begin the same way on the `[32, 2048]` attention array: compare with a threshold (a 0/1 word per time
  step), shift that mask one step to the right with a zero in front, combine masks, and count run starts by a running sum.
  Each lemma reads one of those operations at an index `(b, t)`, over variables, so that either program's own chain
  of operations can be read by composing them.
-/
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

namespace Cert.RunStages

open Idealize.ShloMosaic Idealize.ShloMosaic.ValueIdx

abbrev SBT : Shape := ⟨2, ![32, 2048]⟩
abbrev SBT' : Shape := ⟨2, ![32, 2047]⟩
abbrev S0 : Shape := ⟨0, ![]⟩

/-- A scalar broadcast to `[32, 2048]` reads the scalar everywhere. -/
theorem bcast0_apply {α : Type} (h : S0.BroadcastsInDim SBT ![]) (z : S0.Idx → α) (j : SBT.Idx) :
    broadcastInDim SBT ![] h z j = z ix0 :=
  broadcastInDim_apply ![] h z j ix0 fun a => a.elim0

/-- "Greater than a constant" at the ideal values, read at an index: the 0/1 word of the strict comparison. -/
theorem gt_const_apply (v0 : FVec Ideal SBT .f32) (h : S0.BroadcastsInDim SBT ![]) (w : BitVec 32) (j : SBT.Idx) :
    cmpf .ogt v0 (broadcastInDim SBT ![] h (constant (F := Ideal) S0 .f32 w)) j
      = BitVec.ofBool (decide (Ideal.ofBits .f32 w < v0 j)) := by
  rw [cmpf_apply, bcast0_apply]
  rfl

/-- The mask shifted one step to the right along the time axis with the padding word in front: the padding word at the
    first step, the mask's previous entry afterwards. -/
theorem shift_apply {α : Type} (v2 : SBT.Idx → α) (hs : SBT.Slices ![0, 0] SBT') (hp : SBT'.Pads ![0, 1] ![0, 0] ![0, 0] SBT)
    (z : S0.Idx → α) (hu : 0 < S0.numel) (b : Fin 32) (t : Fin 2048) :
    pad SBT ![0, 1] ![0, 0] ![0, 0] (extractStridedSlice SBT' ![0, 0] v2 hs) z hp hu (ix2 b t)
      = if h : t.val = 0 then z ix0 else v2 (ix2 b ⟨t.val - 1, by have := t.isLt; omega⟩) := by
  by_cases h : t.val = 0
  · rw [dif_pos h]
    refine (pad_apply_of_not_inside _ _ _ _ z hp hu (ix2 b t) (1 : Fin 2) ?_).trans (congrArg z (eq_ix0 _))
    intro hc
    have h1 : (1 : ℕ) ≤ t.val := hc.1
    omega
  · rw [dif_neg h]
    have ht := t.isLt
    refine (pad_apply_of_inside _ _ _ _ z hp hu (ix2 b t) (ix2 b ⟨t.val - 1, by omega⟩) ?_).trans ?_
    · intro a
      match a with
      | ⟨0, _⟩ => show b.val = 0 + b.val * (0 + 1); omega
      | ⟨1, _⟩ => show t.val = 1 + (t.val - 1) * (0 + 1); omega
    · refine extractStridedSlice_apply _ v2 hs _ _ fun a => ?_
      match a with
      | ⟨0, _⟩ => show b.val = 0 + b.val; omega
      | ⟨1, _⟩ => show t.val - 1 = 0 + (t.val - 1); omega

end Cert.RunStages

end
-- ==== Proof.LibSumBlocks.lean ====
/-
  Regrouping a long sum into blocks, on any additive commutative monoid `M` (the extended reals are one).

  A sum over `Fin (a * b)` is the sum over the `a` blocks of the sums over each block's `b` entries, the
  entry `j` of block `t` at position `t * b + j`; a sum over `Fin (a * b * c)` is the triple sum with
  position `t * (b * c) + j * c + r`. Both are the re-indexing of the sum along
  `Fin a × Fin b ≃ Fin (a * b)` followed by the sum over a product as an iterated sum.

  A counted loop that starts from `init` and adds `g k` at trip `k` — the left fold of
  `fun acc k => acc + g k` over `List.finRange n`, which is how the value of an effect-free counted
  loop is expressed — ends at `init + ∑ k, g k`; with `g k` a block's sum and `init = 0` the loop
  computes the whole sum.
-/
import Mathlib.Algebra.BigOperators.Fin
import Mathlib.Algebra.BigOperators.Pi
import Mathlib.Logic.Equiv.Fin.Basic
import Mathlib.Data.Fintype.BigOperators
import Mathlib.Tactic.Ring

namespace Cert.Lib

open scoped BigOperators

variable {M : Type*} [AddCommMonoid M]

/-- Entry `j` of block `t`, among `a` blocks of `b` entries, sits below `a * b`:
    `t * b + j < t * b + b = (t + 1) * b ≤ a * b`. -/
theorem block₂_lt {a b : ℕ} (t : Fin a) (j : Fin b) : t.val * b + j.val < a * b :=
  calc t.val * b + j.val < t.val * b + b := Nat.add_lt_add_left j.isLt _
    _ = (t.val + 1) * b := (Nat.succ_mul _ _).symm
    _ ≤ a * b := Nat.mul_le_mul_right _ t.isLt

/-- Entry `r` of row `j` of block `t`, among `a` blocks of `b` rows of `c` entries, sits below
    `a * b * c`: the position is `(t * b + j) * c + r`, two uses of the two-level bound. -/
theorem block₃_lt {a b c : ℕ} (t : Fin a) (j : Fin b) (r : Fin c) :
    t.val * (b * c) + j.val * c + r.val < a * b * c := by
  have h : t.val * (b * c) + j.val * c + r.val = (t.val * b + j.val) * c + r.val := by ring
  rw [h]
  exact block₂_lt (⟨t.val * b + j.val, block₂_lt t j⟩ : Fin (a * b)) r

/-- A sum over `Fin (a * b)` regrouped into `a` blocks of `b`:
    `∑ i, f i = ∑ t, ∑ j, f (t * b + j)`. -/
theorem sum_blocks₂ (a b : ℕ) (f : Fin (a * b) → M) :
    ∑ i, f i = ∑ t : Fin a, ∑ j : Fin b, f ⟨t.val * b + j.val, block₂_lt t j⟩ := by
  rw [← Equiv.sum_comp (finProdFinEquiv (m := a) (n := b)) f, Fintype.sum_prod_type]
  refine Finset.sum_congr rfl fun t _ => Finset.sum_congr rfl fun j _ => congrArg f (Fin.ext ?_)
  show j.val + b * t.val = t.val * b + j.val
  ring

/-- A sum over `Fin (a * b * c)` regrouped into `a` blocks of `b` rows of `c`:
    `∑ i, f i = ∑ t, ∑ j, ∑ r, f (t * (b * c) + j * c + r)`. -/
theorem sum_blocks₃ (a b c : ℕ) (f : Fin (a * b * c) → M) :
    ∑ i, f i
      = ∑ t : Fin a, ∑ j : Fin b, ∑ r : Fin c, f ⟨t.val * (b * c) + j.val * c + r.val, block₃_lt t j r⟩ := by
  rw [sum_blocks₂ (a * b) c f, sum_blocks₂ a b]
  refine Finset.sum_congr rfl fun t _ => Finset.sum_congr rfl fun j _ => Finset.sum_congr rfl fun r _ =>
    congrArg f (Fin.ext ?_)
  show (t.val * b + j.val) * c + r.val = t.val * (b * c) + j.val * c + r.val
  ring

/-- The two-level regrouping for an index type `Fin n` with `n = a * b` known by an equation (a length
    written as a numeral). -/
theorem sum_blocks₂_of_eq {n : ℕ} (a b : ℕ) (h : n = a * b) (f : Fin n → M) :
    ∑ i, f i = ∑ t : Fin a, ∑ j : Fin b, f ⟨t.val * b + j.val, h ▸ block₂_lt t j⟩ := by
  subst h; exact sum_blocks₂ a b f

/-- The three-level regrouping for an index type `Fin n` with `n = a * b * c` known by an equation. -/
theorem sum_blocks₃_of_eq {n : ℕ} (a b c : ℕ) (h : n = a * b * c) (f : Fin n → M) :
    ∑ i, f i
      = ∑ t : Fin a, ∑ j : Fin b, ∑ r : Fin c,
          f ⟨t.val * (b * c) + j.val * c + r.val, h ▸ block₃_lt t j r⟩ := by
  subst h; exact sum_blocks₃ a b c f

/-- A left fold that adds `g k` to the carried value at each element `k` of a list ends at the initial
    value plus the sum of `g` over the list. -/
theorem foldl_add_eq_add_sum {α : Type*} (g : α → M) :
    ∀ (l : List α) (init : M), l.foldl (fun acc k => acc + g k) init = init + (l.map g).sum
  | [], init => by rw [List.foldl_nil, List.map_nil, List.sum_nil, add_zero]
  | k :: l, init => by
    rw [List.foldl_cons, foldl_add_eq_add_sum g l, List.map_cons, List.sum_cons, add_assoc]

/-- A counted loop of `n` trips that adds `g k` to its carried value at trip `k`, read as the left fold
    over the trips in order, ends at the initial value plus `∑ k, g k`. -/
theorem foldl_finRange_add (n : ℕ) (g : Fin n → M) (init : M) :
    (List.finRange n).foldl (fun acc k => acc + g k) init = init + ∑ k, g k := by
  rw [foldl_add_eq_add_sum, Fin.sum_univ_def]

/-- The same with the trip's term added on the left, `g k + acc`. -/
theorem foldl_finRange_add' (n : ℕ) (g : Fin n → M) (init : M) :
    (List.finRange n).foldl (fun acc k => g k + acc) init = init + ∑ k, g k := by
  have h : (fun (acc : M) (k : Fin n) => g k + acc) = fun acc k => acc + g k := by
    funext acc k; exact add_comm _ _
  rw [h, foldl_finRange_add]

/-- The same from zero: the loop computes the sum. -/
theorem foldl_finRange_add_zero (n : ℕ) (g : Fin n → M) :
    (List.finRange n).foldl (fun acc k => acc + g k) 0 = ∑ k, g k := by
  rw [foldl_finRange_add, zero_add]

/-- The same for a carried FAMILY of values (a vector), added entry by entry: at each entry `i` the
    loop ends at `init i + ∑ k, g k i`. -/
theorem foldl_finRange_add_pointwise {ι : Type*} (n : ℕ) (g : Fin n → ι → M) (init : ι → M) :
    (List.finRange n).foldl (fun acc k => fun i => acc i + g k i) init = fun i => init i + ∑ k, g k i := by
  have h := foldl_finRange_add n g init
  funext i
  have h' := congrFun h i
  rw [Pi.add_apply, Finset.sum_apply] at h'
  exact h'

/-- A carried value given by its recurrence — `acc 0 = 0` and `acc (k + 1) = acc k + g k` — is the sum
    of the first `n` terms after `n` trips. -/
theorem acc_eq_sum_range (acc : ℕ → M) (g : ℕ → M) (h0 : acc 0 = 0) (hs : ∀ k, acc (k + 1) = acc k + g k) :
    ∀ n, acc n = ∑ k ∈ Finset.range n, g k
  | 0 => by rw [h0, Finset.sum_range_zero]
  | n + 1 => by rw [hs, acc_eq_sum_range acc g h0 hs n, Finset.sum_range_succ]

/-- A counted loop over the `a` blocks that starts from zero and adds, at trip `t`, the sum of block
    `t`'s `b` entries, computes the whole sum over `Fin (a * b)`. -/
theorem foldl_blocks₂ (a b : ℕ) (f : Fin (a * b) → M) :
    (List.finRange a).foldl (fun acc t => acc + ∑ j : Fin b, f ⟨t.val * b + j.val, block₂_lt t j⟩) 0
      = ∑ i, f i := by
  rw [foldl_finRange_add_zero, sum_blocks₂]

/-- A counted loop over the `a` blocks that starts from zero and adds, at trip `t`, the sum of block
    `t`'s `b` rows of `c` entries, computes the whole sum over `Fin (a * b * c)`. -/
theorem foldl_blocks₃ (a b c : ℕ) (f : Fin (a * b * c) → M) :
    (List.finRange a).foldl
        (fun acc t => acc + ∑ j : Fin b, ∑ r : Fin c, f ⟨t.val * (b * c) + j.val * c + r.val, block₃_lt t j r⟩) 0
      = ∑ i, f i := by
  rw [foldl_finRange_add_zero, sum_blocks₃]

end Cert.Lib
-- ==== Proof.LibCumsum.lean ====
/-
  A running sum along the last axis, as a reduction over a sliding window.

  An inclusive cumulative sum of a `[B, T]` integer array along its second axis can be written as a windowed add-reduction:
  pad the second axis with `T - 1` zeros on the low side and slide a window of the full length `T` with stride one.
  The window that ends at column `t` then covers `t + 1` real columns (0 … t) and `T - 1 - t` padding zeros.  The
  lemma below reads such a reduction at an index as the plain sum of the row's entries at or before that column.
  The integers are 32-bit words; their addition wraps, and the statement is about the wrapping sum.
-/
import Idealize.ShloMosaic.Lib.ValueIdx
import Mathlib.Data.BitVec
import Idealize.ShloMosaic.PureOps.Contract
import proofs.«141693_j33234456937041_2_alg».proof.Proof.LibSumBlocks

noncomputable section
namespace Cert.Lib
open Idealize.ShloMosaic Idealize.ShloMosaic.ValueIdx

/-- The full-length low-padded add-window along the last axis of a `[B, T]` word array, read at `(b, t)`, is the sum of
    row `b`'s entries at columns `u ≤ t`: window position `k` reads column `t + k - (T - 1)` when that is a column and
    the initial value, zero, otherwise. -/
theorem reduceWindow_cumsum_apply {B T : ℕ} (x : (⟨2, ![B, T]⟩ : Shape).Idx → BitVec 32)
    (init : (⟨0, ![]⟩ : Shape).Idx → BitVec 32) (h0 : init ix0 = 0)
    (h : (⟨2, ![B, T]⟩ : Shape).ReduceWindows ![1, T] ![1, 1] ![0, T - 1] ![0, 0] ⟨2, ![B, T]⟩)
    (hu : 0 < (⟨0, ![]⟩ : Shape).numel) (b : Fin B) (t : Fin T) :
    Host.reduceWindow IntOp.addi ![1, T] ![1, 1] ![0, T - 1] ![0, 0] x init h hu (ix2 b t)
      = ∑ u : Fin T, if u ≤ t then x (ix2 b u) else 0 := by
  unfold Host.reduceWindow
  dsimp only
  have hv : init (Shape.Idx.first hu) = 0 := by rw [← h0]; exact congrArg init (eq_ix0 _)
  rw [hv]
  simp only [IntOp.addi]
  rw [foldl_finRange_add, zero_add]
  rw [← Equiv.sum_comp (⟨2, ![1, T]⟩ : Shape).rowMajor]
  simp only [Equiv.symm_apply_apply]
  rw [sum_idx2]
  rw [Fin.sum_univ_one]
  have hT : ∀ k : Fin T, t.val + k.val - (T - 1) < T := fun k => by have := t.isLt; have := k.isLt; omega
  trans ∑ k : Fin T, if T - 1 ≤ t.val + k.val then x (ix2 b ⟨t.val + k.val - (T - 1), hT k⟩) else 0
  · refine Finset.sum_congr rfl fun k _ => ?_
    by_cases hc : T - 1 ≤ t.val + k.val
    · rw [if_pos hc, dif_pos ?_]
      · refine congrArg x (funext fun a => Fin.ext ?_)
        match a with
        | ⟨0, _⟩ => show b.val * 1 + 0 - 0 = b.val; omega
        | ⟨1, _⟩ => show t.val * 1 + k.val - (T - 1) = t.val + k.val - (T - 1); omega
      · intro a
        match a with
        | ⟨0, _⟩ => show 0 ≤ b.val * 1 + 0 ∧ b.val * 1 + 0 - 0 < B; have := b.isLt; omega
        | ⟨1, _⟩ => show T - 1 ≤ t.val * 1 + k.val ∧ t.val * 1 + k.val - (T - 1) < T; have := hT k; omega
    · rw [if_neg hc, dif_neg]
      intro hin
      have h1 : T - 1 ≤ t.val * 1 + k.val := (hin 1).1
      omega
  · rw [← Finset.sum_filter, ← Finset.sum_filter]
    refine Finset.sum_bij (fun k _ => (⟨t.val + k.val - (T - 1), hT k⟩ : Fin T)) ?_ ?_ ?_ ?_
    · intro k hk
      have hk' : T - 1 ≤ t.val + k.val := (Finset.mem_filter.mp hk).2
      refine Finset.mem_filter.mpr ⟨Finset.mem_univ _, ?_⟩
      show t.val + k.val - (T - 1) ≤ t.val
      have := k.isLt; omega
    · intro k1 hk1 k2 hk2 he
      have h1 : T - 1 ≤ t.val + k1.val := (Finset.mem_filter.mp hk1).2
      have h2 : T - 1 ≤ t.val + k2.val := (Finset.mem_filter.mp hk2).2
      have he' : t.val + k1.val - (T - 1) = t.val + k2.val - (T - 1) := congrArg Fin.val he
      exact Fin.ext (by omega)
    · intro u hu'
      have hut : u.val ≤ t.val := (Finset.mem_filter.mp hu').2
      have := t.isLt
      refine ⟨⟨u.val + (T - 1) - t.val, by omega⟩, Finset.mem_filter.mpr ⟨Finset.mem_univ _, ?_⟩, Fin.ext ?_⟩
      · show T - 1 ≤ t.val + (u.val + (T - 1) - t.val); omega
      · show t.val + (u.val + (T - 1) - t.val) - (T - 1) = u.val; omega
    · intro k hk
      rfl

end Cert.Lib
end
-- ==== Proof.LibRunWords.lean ====
import Mathlib.Data.BitVec
import Mathlib.Data.Finset.Fold
import Mathlib.Data.Fintype.BigOperators
import proofs.«141693_j33234456937041_2_alg».proof.Proof.LibRunLength

/-!
# Run numbers computed in 32-bit words

Run starts, their running count and the number of runs are natural numbers far below `2 ^ 31`.
When they are computed in 32-bit words with wrapping arithmetic and signed comparisons nothing
wraps, so the words are the images of the natural numbers under `BitVec.ofNat 32`, their signed
readings are the numbers themselves, and signed maxima, minima, comparisons and equality tests of
such words are those of the numbers.  This file records these facts: one-bit truth values and
their widening, sums of zero/one words, the bridge to the running count of run starts, and the
row / bucket index words built from a run number.
-/

open Finset

namespace RunWords

open RunLength

/-! ## One-bit truth values -/

/-- A one-bit truth value widened (zero-extended) to a 32-bit word. -/
def w1 (b : Bool) : BitVec 32 := (BitVec.ofBool b).setWidth 32

/-- The widened truth value is the word one or the word zero. -/
theorem w1_eq (b : Bool) : w1 b = BitVec.ofNat 32 (if b then 1 else 0) := by
  cases b <;> rfl

/-- Bitwise "and not" on one-bit words is the Boolean "and not". -/
theorem and_not_word (p q : Bool) :
    BitVec.ofBool p &&& ~~~(BitVec.ofBool q) = BitVec.ofBool (p && !q) := by
  cases p <;> cases q <;> rfl

/-- Bitwise "or" on one-bit words is the Boolean "or". -/
theorem or_word (p q : Bool) : BitVec.ofBool p ||| BitVec.ofBool q = BitVec.ofBool (p || q) := by
  cases p <;> cases q <;> rfl

/-- Bitwise "and" on one-bit words is the Boolean "and". -/
theorem and_word (p q : Bool) : BitVec.ofBool p &&& BitVec.ofBool q = BitVec.ofBool (p && q) := by
  cases p <;> cases q <;> rfl

/-! ## Sums of words -/

/-- The word of a finite sum of natural numbers is the (wrapping) sum of the words. -/
theorem ofNat_sum {ι : Type*} (s : Finset ι) (f : ι → ℕ) :
    BitVec.ofNat 32 (∑ i ∈ s, f i) = ∑ i ∈ s, BitVec.ofNat 32 (f i) := by
  classical
  induction s using Finset.induction_on with
  | empty => rw [Finset.sum_empty, Finset.sum_empty]; rfl
  | insert a s ha ih => rw [Finset.sum_insert ha, Finset.sum_insert ha, BitVec.ofNat_add, ih]

/-- A sum of zero/one words is the word of the count. -/
theorem count_word {ι : Type*} [Fintype ι] (q : ι → Bool) :
    (∑ i : ι, w1 (q i)) = BitVec.ofNat 32 (∑ i : ι, if q i then 1 else 0) := by
  rw [ofNat_sum]
  exact Finset.sum_congr rfl (fun i _ => w1_eq (q i))

/-- The word sum of the run-start bits is the word of the number of runs. -/
theorem runs_word {n : ℕ} (P : Fin n → Bool) :
    (∑ u : Fin n, w1 (startFin P u)) = BitVec.ofNat 32 (runs P) :=
  count_word (fun u => startFin P u)

/-- The word sum of the run-start bits at or before `t` is the word of the running count. -/
theorem csum_word {n : ℕ} (P : Fin n → Bool) (t : Fin n) :
    (∑ u : Fin n, if u ≤ t then w1 (startFin P u) else 0) = BitVec.ofNat 32 (csumFin P t) := by
  unfold csumFin
  rw [ofNat_sum]
  refine Finset.sum_congr rfl (fun u _ => ?_)
  by_cases h : u ≤ t
  · rw [if_pos h, w1_eq]
    cases hs : startFin P u
    · rw [if_neg (by simp), if_neg (by simp)]
    · rw [if_pos rfl, if_pos ⟨h, rfl⟩]
  · rw [if_neg h, if_neg (fun hh => h hh.1)]
    rfl

/-- Folding a wrapping addition over a finite set is adding the sum to the initial word. -/
theorem fold_add_eq_sum {ι : Type*} (s : Finset ι) (f : ι → BitVec 32) (init : BitVec 32) :
    s.fold (fun x y : BitVec 32 => x + y) init f = init + ∑ i ∈ s, f i := by
  classical
  induction s using Finset.induction_on with
  | empty => rw [Finset.fold_empty, Finset.sum_empty, add_zero]
  | insert a s ha ih =>
    rw [Finset.fold_insert ha, ih, Finset.sum_insert ha]
    exact add_left_comm _ _ _

/-! ## Signed readings and comparisons of small words -/

/-- The unsigned reading of the word of a number below `2 ^ 32` is the number. -/
theorem toNat_ofNat_small (n : ℕ) (h : n < 2 ^ 32) : (BitVec.ofNat 32 n).toNat = n := by
  rw [BitVec.toNat_ofNat]
  exact Nat.mod_eq_of_lt h

/-- The signed reading of the word of a number below `2 ^ 31` is the number. -/
theorem toInt_ofNat_small (n : ℕ) (h : n < 2 ^ 31) : (BitVec.ofNat 32 n).toInt = (n : ℤ) := by
  have h1 : (BitVec.ofNat 32 n).toNat = n := toNat_ofNat_small n (by omega)
  rw [BitVec.toInt_eq_toNat_of_lt (by rw [h1]; omega), h1]

/-- Words of numbers below `2 ^ 32` are equal only when the numbers are. -/
theorem ofNat_inj_small (x y : ℕ) (hx : x < 2 ^ 32) (hy : y < 2 ^ 32) :
    BitVec.ofNat 32 x = BitVec.ofNat 32 y ↔ x = y := by
  constructor
  · intro h
    have h2 := congrArg BitVec.toNat h
    rwa [toNat_ofNat_small x hx, toNat_ofNat_small y hy] at h2
  · rintro rfl; rfl

/-- Signed "less than" on words of numbers below `2 ^ 31` is "less than" on the numbers. -/
theorem slt_ofNat (r n : ℕ) (hr : r < 2 ^ 31) (hn : n < 2 ^ 31) :
    (BitVec.ofNat 32 r).slt (BitVec.ofNat 32 n) = decide (r < n) := by
  rw [BitVec.slt_eq_decide, toInt_ofNat_small r hr, toInt_ofNat_small n hn]
  simp only [Nat.cast_lt]

/-- Signed maximum (the first word if the second is signed-less than it, else the second) of words
of numbers below `2 ^ 31` is the word of the maximum. -/
theorem maxs_ofNat (x y : ℕ) (hx : x < 2 ^ 31) (hy : y < 2 ^ 31) :
    (if (BitVec.ofNat 32 y).slt (BitVec.ofNat 32 x) then BitVec.ofNat 32 x else BitVec.ofNat 32 y)
      = BitVec.ofNat 32 (max x y) := by
  rw [slt_ofNat y x hy hx]
  by_cases h : y < x
  · rw [if_pos (decide_eq_true h), max_eq_left h.le]
  · rw [if_neg (by simpa using h), max_eq_right (not_lt.mp h)]

/-- Signed minimum (the first word if it is signed-less than the second, else the second) of words
of numbers below `2 ^ 31` is the word of the minimum. -/
theorem mins_ofNat (x y : ℕ) (hx : x < 2 ^ 31) (hy : y < 2 ^ 31) :
    (if (BitVec.ofNat 32 x).slt (BitVec.ofNat 32 y) then BitVec.ofNat 32 x else BitVec.ofNat 32 y)
      = BitVec.ofNat 32 (min x y) := by
  rw [slt_ofNat x y hx hy]
  by_cases h : x < y
  · rw [if_pos (decide_eq_true h), min_eq_left h.le]
  · rw [if_neg (by simpa using h), min_eq_right (not_lt.mp h)]

/-- Signed maximum of a small word with the word one, the word one being the second argument. -/
theorem maxsi_one (n : ℕ) (hn : n < 2 ^ 31) :
    (if (1#32).slt (BitVec.ofNat 32 n) then BitVec.ofNat 32 n else 1#32)
      = BitVec.ofNat 32 (max n 1) :=
  maxs_ofNat n 1 hn (by norm_num)

/-- Signed maximum of the word one with a small word, the word one being the first argument. -/
theorem maxsi_one' (n : ℕ) (hn : n < 2 ^ 31) :
    (if (BitVec.ofNat 32 n).slt (1#32) then 1#32 else BitVec.ofNat 32 n)
      = BitVec.ofNat 32 (max n 1) := by
  rw [max_comm]
  exact maxs_ofNat 1 n (by norm_num) hn

/-! ## Row and bucket index words -/

/-- Subtracting the word one from the word of a positive number gives the word of its predecessor. -/
theorem ofNat_sub_one (k : ℕ) (h1 : 1 ≤ k) : BitVec.ofNat 32 k - 1#32 = BitVec.ofNat 32 (k - 1) :=
  BitVec.ofNat_sub_ofNat_of_le k 1 (by norm_num) h1

/-- The bucket word: sequence number times 1025 plus run number less one, computed in words, is
the word of the same expression computed in natural numbers. -/
theorem bucket_word (b k : ℕ) (h1 : 1 ≤ k) :
    BitVec.ofNat 32 b * 1025#32 + (BitVec.ofNat 32 k - 1#32)
      = BitVec.ofNat 32 (b * 1025 + (k - 1)) := by
  rw [ofNat_sub_one k h1, BitVec.ofNat_mul_ofNat, BitVec.ofNat_add_ofNat]

/-- The one-hot test: the row word `r` equals the column word (run number less one where the
position is in a proposal, the out-of-range row 1152 elsewhere) exactly when the position is in
a proposal and its run number is `r + 1`. -/
theorem onehot_iff (r k : ℕ) (hr : r < 1152) (hk : k ≤ 1024) (p : Bool) (hp : p = true → 1 ≤ k) :
    BitVec.ofNat 32 r = (if p = true then BitVec.ofNat 32 k - 1#32 else 1152#32)
      ↔ (p = true ∧ k = r + 1) := by
  cases p with
  | false =>
    rw [if_neg Bool.false_ne_true]
    constructor
    · intro h
      have := (ofNat_inj_small r 1152 (by omega) (by norm_num)).mp h
      omega
    · rintro ⟨h, _⟩
      exact absurd h Bool.false_ne_true
  | true =>
    have h1 := hp rfl
    rw [if_pos rfl, ofNat_sub_one k h1, ofNat_inj_small r (k - 1) (by omega) (by omega)]
    constructor
    · intro h; exact ⟨rfl, by omega⟩
    · rintro ⟨_, h⟩; omega

/-- The bucket word (sequence times 1025 plus run number less one where the position is in a
proposal, the drop bucket 32800 elsewhere), read as a signed integer, is `j` exactly when the
position is in a proposal and `b * 1025 + k = j + 1`. -/
theorem bucket_iff (b k j : ℕ) (hb : b < 32) (hk : k ≤ 1024) (hj : j < 32800) (p : Bool)
    (hp : p = true → 1 ≤ k) :
    (if p = true then BitVec.ofNat 32 b * 1025#32 + (BitVec.ofNat 32 k - 1#32)
      else 32800#32).toInt = (j : ℤ) ↔ (p = true ∧ b * 1025 + k = j + 1) := by
  cases p with
  | false =>
    rw [if_neg Bool.false_ne_true, toInt_ofNat_small 32800 (by norm_num)]
    constructor
    · intro h; omega
    · rintro ⟨h, _⟩
      exact absurd h Bool.false_ne_true
  | true =>
    have h1 := hp rfl
    rw [if_pos rfl, bucket_word b k h1, toInt_ofNat_small _ (by omega)]
    constructor
    · intro h; exact ⟨rfl, by omega⟩
    · rintro ⟨_, h⟩; omega

/-- Wrapping a negative index by 32800 leaves the word of a number below `2 ^ 31` alone. -/
theorem wrap_ofNat (m : ℕ) (hm : m < 2 ^ 31) :
    (if (BitVec.ofNat 32 m).slt 0#32 then BitVec.ofNat 32 m + 32800#32 else BitVec.ofNat 32 m)
      = BitVec.ofNat 32 m := by
  rw [slt_ofNat m 0 hm (by norm_num), if_neg (by simp)]

/-- The gather index of the word of a number at most 32799: its signed reading, as a natural
number capped at 32799, is the number. -/
theorem gather_value (m : ℕ) (hm : m ≤ 32799) :
    min (BitVec.ofNat 32 m).toInt.toNat (32800 - 1) = m := by
  rw [toInt_ofNat_small m (by omega), Int.toNat_natCast]
  omega

/-- The bucket word of a position in a proposal after the clip to `[0, 32799]` (signed maximum with
zero in either argument order, then signed minimum with 32799 in either argument order) and the
negative-index wrap is still the word of `b * 1025 + k - 1`. -/
theorem gather_word (b k : ℕ) (hb : b < 32) (hk : k ≤ 1024) (h1 : 1 ≤ k) (w lo c v : BitVec 32)
    (hw : w = BitVec.ofNat 32 b * 1025#32 + (BitVec.ofNat 32 k - 1#32))
    (hlo : lo = (if w.slt 0#32 then 0#32 else w) ∨ lo = (if (0#32).slt w then w else 0#32))
    (hc : c = (if lo.slt 32799#32 then lo else 32799#32)
      ∨ c = (if (32799#32).slt lo then 32799#32 else lo))
    (hv : v = if c.slt 0#32 then c + 32800#32 else c) :
    v = BitVec.ofNat 32 (b * 1025 + k - 1) := by
  have hm : b * 1025 + (k - 1) ≤ 32798 := by omega
  have hw' : w = BitVec.ofNat 32 (b * 1025 + (k - 1)) := by rw [hw, bucket_word b k h1]
  have hlo' : lo = BitVec.ofNat 32 (b * 1025 + (k - 1)) := by
    rcases hlo with h | h
    · rw [h, hw']
      have := maxs_ofNat 0 (b * 1025 + (k - 1)) (by norm_num) (by omega)
      rw [this, Nat.zero_max]
    · rw [h, hw']
      have := maxs_ofNat (b * 1025 + (k - 1)) 0 (by omega) (by norm_num)
      rw [this, Nat.max_zero]
  have hc' : c = BitVec.ofNat 32 (b * 1025 + (k - 1)) := by
    rcases hc with h | h
    · rw [h, hlo']
      have := mins_ofNat (b * 1025 + (k - 1)) 32799 (by omega) (by norm_num)
      rw [this, min_eq_left (by omega)]
    · rw [h, hlo']
      have := mins_ofNat 32799 (b * 1025 + (k - 1)) (by norm_num) (by omega)
      rw [this, min_eq_right (by omega)]
  rw [hv, hc', wrap_ofNat _ (by omega)]
  congr 1
  omega

/-- The gather index of a position in a proposal: the bucket word after the clip to
`[0, 32799]` and the negative-index wrap, read signed and capped at 32799, is the bucket
`b * 1025 + k - 1`. -/
theorem gather_index (b k : ℕ) (hb : b < 32) (hk : k ≤ 1024) (h1 : 1 ≤ k) :
    let w : BitVec 32 := BitVec.ofNat 32 b * 1025#32 + (BitVec.ofNat 32 k - 1#32)
    let lo : BitVec 32 := if w.slt 0#32 then 0#32 else w
    let c : BitVec 32 := if lo.slt 32799#32 then lo else 32799#32
    let v : BitVec 32 := if c.slt 0#32 then c + 32800#32 else c
    min v.toInt.toNat (32800 - 1) = b * 1025 + k - 1 := by
  intro w lo c v
  have hv : v = BitVec.ofNat 32 (b * 1025 + k - 1) :=
    gather_word b k hb hk h1 w lo c v rfl (Or.inl rfl) (Or.inl rfl) rfl
  rw [hv]
  exact gather_value _ (by omega)

/-- The same with the other argument order in both the maximum and the minimum. -/
theorem gather_index' (b k : ℕ) (hb : b < 32) (hk : k ≤ 1024) (h1 : 1 ≤ k) :
    let w : BitVec 32 := BitVec.ofNat 32 b * 1025#32 + (BitVec.ofNat 32 k - 1#32)
    let lo : BitVec 32 := if (0#32).slt w then w else 0#32
    let c : BitVec 32 := if (32799#32).slt lo then 32799#32 else lo
    let v : BitVec 32 := if c.slt 0#32 then c + 32800#32 else c
    min v.toInt.toNat (32800 - 1) = b * 1025 + k - 1 := by
  intro w lo c v
  have hv : v = BitVec.ofNat 32 (b * 1025 + k - 1) :=
    gather_word b k hb hk h1 w lo c v rfl (Or.inr rfl) (Or.inr rfl) rfl
  rw [hv]
  exact gather_value _ (by omega)

/-! ## Counting in words -/

/-- A count of truth values is at most the number of indices. -/
theorem count_le_card {ι : Type*} [Fintype ι] (q : ι → Bool) :
    (∑ i : ι, if q i then 1 else 0) ≤ Fintype.card ι := by
  calc (∑ i : ι, if q i then 1 else 0) ≤ ∑ _i : ι, 1 :=
        Finset.sum_le_sum (fun i _ => by split <;> omega)
    _ = Fintype.card ι := by rw [Finset.sum_const, Finset.card_univ, smul_eq_mul, mul_one]

/-- The signed reading of a sum of fewer than `2 ^ 31` zero/one words is the count. -/
theorem count_toInt {ι : Type*} [Fintype ι] (q : ι → Bool) (h : Fintype.card ι < 2 ^ 31) :
    (∑ i : ι, w1 (q i)).toInt = ((∑ i : ι, if q i then 1 else 0 : ℕ) : ℤ) := by
  rw [count_word, toInt_ofNat_small _ (lt_of_le_of_lt (count_le_card q) h)]

end RunWords
-- ==== Proof.RefRead.Words.lean ====
/-
  The run-length prologue of the reference, one buffer at a time, read at an index at the ideal values: the proposal
  mask, its shift, the run starts, their running count, the run's bucket word, the number of runs, the representatives'
  mask and bucket word — each as the word of the corresponding quantity of the specification.
-/
import proofs.«141693_j33234456937041_2_alg».proof.Proof.RefRun.Ops
import proofs.«141693_j33234456937041_2_alg».proof.Proof.Spec
import proofs.«141693_j33234456937041_2_alg».proof.Proof.RunStages
import proofs.«141693_j33234456937041_2_alg».proof.Proof.LibCumsum
import proofs.«141693_j33234456937041_2_alg».proof.Proof.LibRunWords
import Idealize.ShloMosaic.Lib.IdealHost
import Idealize.ShloMosaic.PureOps.Reduce

noncomputable section

namespace Cert.ReferenceIdeal.HandRead

open Cert.ReferenceIdeal Cert.ReferenceIdeal.Gen Cert.ReferenceIdeal.HandRun Idealize.ShloMosaic Idealize.ShloMosaic.ValueIdx
open RunLength RunWords

/-- The attention array's type. -/
abbrev Arg0 : Type := (⟨S32x2048x1, .f32⟩ : BufTy).Contents (Elt Ideal)
/-- The feature array's type. -/
abbrev Arg1 : Type := (⟨S32x2048x512, .f32⟩ : BufTy).Contents (Elt Ideal)

/-- The attention value of sequence `b` at step `t`. -/
abbrev att (a0 : Arg0) : Fin 32 → Fin 2048 → EReal := fun b t => a0 (ix3 b t (0 : Fin 1))
/-- Feature `d` of sequence `b` at step `t`. -/
abbrev feat (a1 : Arg1) : Fin 32 → Fin 2048 → Fin 512 → EReal := fun b t d => a1 (ix3 b t d)

/-- The flat position of step `t` of sequence `b`. -/
abbrev flat (b : Fin 32) (t : Fin 2048) : Fin 65536 := ⟨b.val * 2048 + t.val, by have := b.isLt; have := t.isLt; omega⟩

variable (a0 : Arg0) (a1 : Arg1)

/-- The attention array without its unit axis. -/
theorem v0_apply (b : Fin 32) (t : Fin 2048) : res_v0 (F := Ideal) a0 a1 (ix2 b t) = att a0 b t := by
  unfold res_v0
  refine shapeCast_apply a0 _ (ix2 b t) (ix3 b t (0 : Fin 1)) ?_
  rw [Shape.rowMajor_val_three, Shape.rowMajor_val_two]
  show (b.val * 2048 + t.val) * 1 + 0 = b.val * 2048 + t.val
  omega

/-- The proposal mask. -/
theorem v2_apply (b : Fin 32) (t : Fin 2048) :
    res_v2 (F := Ideal) a0 a1 (ix2 b t) = BitVec.ofBool (Spec.P (att a0) b t) := by
  unfold res_v2 res_v1 res_cst
  refine (RunStages.gt_const_apply (res_v0 a0 a1) _ _ (ix2 b t)).trans ?_
  rw [v0_apply]
  rfl

/-- The padding word of the shift is the zero bit. -/
theorem call0_v2_apply : res_call0_v2 (F := Ideal) a0 a1 ix0 = BitVec.ofBool false := by
  unfold res_call0_v2 res_call0_v1 res_c res_call0_v0 res_call0_c
  rfl

/-- The proposal mask shifted one step to the right. -/
theorem v4_apply (b : Fin 32) (t : Fin 2048) :
    res_v4 (F := Ideal) a0 a1 (ix2 b t) = BitVec.ofBool (Spec.Q (att a0) b t) := by
  unfold res_v4 res_v3
  refine (RunStages.shift_apply (res_v2 a0 a1) _ _ (res_call0_v2 a0 a1) _ b t).trans ?_
  unfold Spec.Q prevFin
  by_cases h : t.val = 0
  · rw [dif_pos h, dif_pos h, call0_v2_apply]
  · rw [dif_neg h, dif_neg h, v2_apply]

/-- The run starts. -/
theorem v6_apply (b : Fin 32) (t : Fin 2048) :
    res_v6 (F := Ideal) a0 a1 (ix2 b t) = BitVec.ofBool (startFin (Spec.P (att a0) b) t) := by
  unfold res_v6 res_v5
  show (res_v2 a0 a1 (ix2 b t)) &&& ~~~(res_v4 a0 a1 (ix2 b t)) = _
  rw [v2_apply, v4_apply, and_not_word]
  rfl

/-- The run starts as 32-bit words. -/
theorem v7_apply (b : Fin 32) (t : Fin 2048) :
    res_v7 (F := Ideal) a0 a1 (ix2 b t) = w1 (startFin (Spec.P (att a0) b) t) := by
  unfold res_v7
  show (res_v6 a0 a1 (ix2 b t)).setWidth 32 = _
  rw [v6_apply]
  rfl

/-- The running count of run starts. -/
theorem v8_apply (b : Fin 32) (t : Fin 2048) :
    res_v8 (F := Ideal) a0 a1 (ix2 b t) = BitVec.ofNat 32 (Spec.rank (att a0) b t) := by
  unfold res_v8
  refine (Cert.Lib.reduceWindow_cumsum_apply (B := 32) (T := 2048) (res_v7 a0 a1) (res_call1_call0_v0 a0 a1) ?_ _ _ b t).trans ?_
  · unfold res_call1_call0_v0 res_call1_call0_c
    rfl
  · show _ = BitVec.ofNat 32 (csumFin (Spec.P (att a0) b) t)
    rw [← csum_word]
    exact Finset.sum_congr rfl fun u _ => by rw [v7_apply]

/-- The run number less one. -/
theorem v10_apply (b : Fin 32) (t : Fin 2048) :
    res_v10 (F := Ideal) a0 a1 (ix2 b t) = BitVec.ofNat 32 (Spec.rank (att a0) b t) - 1#32 := by
  unfold res_v10 res_v9 res_c_0
  show res_v8 a0 a1 (ix2 b t) - _ = _
  rw [v8_apply]
  rfl

/-- The sequence's first row in the long table. -/
theorem v14_apply (b : Fin 32) : res_v14 (F := Ideal) a0 a1 (ix2 b (0 : Fin 1)) = BitVec.ofNat 32 b.val * 1025#32 := by
  unfold res_v14 res_v13 res_c_1 res_v12 res_v11
  show broadcastInDim S32x1 ![0] bcast_S32_S32x1_0 (iotaInDim S32 32 0) (ix2 b (0 : Fin 1)) * _ = _
  rw [broadcastInDim_apply ![0] bcast_S32_S32x1_0 (iotaInDim S32 32 0) (ix2 b (0 : Fin 1)) (ix1 b) (fun a => by
    match a with
    | ⟨0, _⟩ => rfl)]
  rfl

/-- The bucket word of a step: the sequence's first row plus the run number less one. -/
theorem v16_apply (b : Fin 32) (t : Fin 2048) :
    res_v16 (F := Ideal) a0 a1 (ix2 b t)
      = BitVec.ofNat 32 b.val * 1025#32 + (BitVec.ofNat 32 (Spec.rank (att a0) b t) - 1#32) := by
  unfold res_v16 res_v15
  show broadcastInDim S32x2048 ![0, 1] bcast_S32x1_S32x2048_0_1 (res_v14 a0 a1) (ix2 b t) + res_v10 a0 a1 (ix2 b t) = _
  rw [broadcastInDim_apply ![0, 1] bcast_S32x1_S32x2048_0_1 (res_v14 a0 a1) (ix2 b t) (ix2 b (0 : Fin 1)) (fun a => by
    match a with
    | ⟨0, _⟩ => rfl
    | ⟨1, _⟩ => rfl), v14_apply, v10_apply]

/-- The word a step scatters to: its bucket where the mask holds, the drop bucket elsewhere. -/
def bucketWord (p : Bool) (b k : ℕ) : BitVec 32 :=
  if p = true then BitVec.ofNat 32 b * 1025#32 + (BitVec.ofNat 32 k - 1#32) else 32800#32

theorem select_ofBool {α : Type} (p : Bool) (x y : α) : Scalar.select (BitVec.ofBool p) x y = if p = true then x else y := by
  cases p
  · exact select_zero x y
  · exact select_one x y

/-- The proposal steps' bucket word. -/
theorem v17_apply (b : Fin 32) (t : Fin 2048) :
    res_v17 (F := Ideal) a0 a1 (ix2 b t) = bucketWord (Spec.P (att a0) b t) b.val (Spec.rank (att a0) b t) := by
  unfold res_v17 res_call2_v1 res_call2_v0 res_c_2
  show Scalar.select (res_v2 a0 a1 (ix2 b t)) (res_v16 a0 a1 (ix2 b t)) _ = _
  rw [v2_apply, v16_apply, select_ofBool]
  rfl

/-- A `[32, 2048]` array flattened reads, at the flat position of `(b, t)`, its entry `(b, t)`. -/
theorem flatten_apply {α : Type} (v : S32x2048.Idx → α) (b : Fin 32) (t : Fin 2048) :
    shapeCast S65536 v shapeCasts_S32x2048_S65536 (ix1 (flat b t)) = v (ix2 b t) := by
  refine shapeCast_apply v _ (ix1 (flat b t)) (ix2 b t) ?_
  rw [Shape.rowMajor_val_two, Shape.rowMajor_val_one]
  rfl

theorem v18_apply (b : Fin 32) (t : Fin 2048) :
    res_v18 (F := Ideal) a0 a1 (ix1 (flat b t)) = bucketWord (Spec.P (att a0) b t) b.val (Spec.rank (att a0) b t) := by
  unfold res_v18
  rw [flatten_apply, v17_apply]

/-- The number of runs of a sequence. -/
theorem v51_apply (b : Fin 32) : res_v51 (F := Ideal) a0 a1 (ix1 b) = BitVec.ofNat 32 (Spec.nruns (att a0) b) := by
  unfold res_v51 res_c_11 res_v50
  have hr : S32x2048.Reduces [1] S32 := by decide
  rw [Host.reduce_eq_fold_single IntOp.addi _ _ reducesTo_S32x2048_S32_d1 hr h_S_ (ix1 b)]
  refine (fold_add_eq_sum _ _ _).trans ?_
  show (0#32 : BitVec 32) + _ = BitVec.ofNat 32 (runs (Spec.P (att a0) b))
  rw [BitVec.zero_add, ← runs_word]
  refine Finset.sum_congr rfl fun u _ => ?_
  show (res_v6 a0 a1 (hr.lift (ix1 b) u)).setWidth 32 = _
  have hl : hr.lift (ix1 b) u = ix2 b u := by
    funext c
    match c with
    | ⟨0, _⟩ => exact Fin.ext (by rw [hr.lift_val]; rfl)
    | ⟨1, _⟩ => exact Fin.ext (by rw [hr.lift_val]; rfl)
  rw [hl]
  exact congrArg (BitVec.setWidth 32) (v6_apply a0 a1 b u)

/-- The representatives' mask. -/
theorem v71_apply (b : Fin 32) (t : Fin 2048) :
    res_v71 (F := Ideal) a0 a1 (ix2 b t) = BitVec.ofBool (Spec.M (att a0) b t) := by
  unfold res_v71 res_v70 res_v69 res_v68 res_cst_16
  show (cmpf .ogt (res_v0 a0 a1) (broadcastInDim S32x2048 ![] bcast_S_S32x2048 (constant S_ .f32 0x3F333333#32)) (ix2 b t))
      &&& ((res_v2 a0 a1 (ix2 b t)) ||| (res_v4 a0 a1 (ix2 b t))) = _
  rw [RunStages.gt_const_apply (res_v0 a0 a1) _ _ (ix2 b t), v0_apply, v2_apply, v4_apply, or_word, and_word]
  rfl

/-- The representatives' bucket word. -/
theorem v72_apply (b : Fin 32) (t : Fin 2048) :
    res_v72 (F := Ideal) a0 a1 (ix2 b t) = bucketWord (Spec.M (att a0) b t) b.val (Spec.rank (att a0) b t) := by
  unfold res_v72 res_call4_v1 res_call4_v0 res_c_17
  show Scalar.select (res_v71 a0 a1 (ix2 b t)) (res_v16 a0 a1 (ix2 b t)) _ = _
  rw [v71_apply, v16_apply, select_ofBool]
  rfl

theorem v73_apply (b : Fin 32) (t : Fin 2048) :
    res_v73 (F := Ideal) a0 a1 (ix1 (flat b t)) = bucketWord (Spec.M (att a0) b t) b.val (Spec.rank (att a0) b t) := by
  unfold res_v73
  rw [flatten_apply, v72_apply]

/-! ## Bounds on the run number -/

/-- A run number is at most 1024. -/
theorem rank_le (a : Fin 32 → Fin 2048 → EReal) (b : Fin 32) (t : Fin 2048) : Spec.rank a b t ≤ 1024 :=
  csumFin_le_1024 _ (by norm_num) t

/-- A step in a proposal has a positive run number. -/
theorem rank_pos_of_P (a : Fin 32 → Fin 2048 → EReal) (b : Fin 32) (t : Fin 2048) (h : Spec.P a b t = true) :
    1 ≤ Spec.rank a b t :=
  csumFin_pos _ t (Or.inl h)

/-- A representative has a positive run number. -/
theorem rank_pos_of_M (a : Fin 32 → Fin 2048 → EReal) (b : Fin 32) (t : Fin 2048) (h : Spec.M a b t = true) :
    1 ≤ Spec.rank a b t := by
  unfold Spec.M at h
  have h2 : (Spec.P a b t || Spec.Q a b t) = true := (Bool.and_eq_true _ _ ▸ h).2
  rcases (Bool.or_eq_true _ _ ▸ h2) with hp | hq
  · exact csumFin_pos _ t (Or.inl hp)
  · exact csumFin_pos _ t (Or.inr hq)

end Cert.ReferenceIdeal.HandRead

end
-- ==== Proof.LibVariance.lean ====
import Mathlib.Algebra.BigOperators.Field
import Mathlib.Algebra.Order.BigOperators.Ring.Finset
import Mathlib.Data.Real.Basic
import Mathlib.Data.EReal.Basic
import Mathlib.Tactic.FieldSimp
import Mathlib.Tactic.Linarith
import Mathlib.Tactic.Ring

/-!
# The variance computed in two passes equals the variance computed from moments

For real numbers `x t` indexed by a non-empty finite set, the mean of the squared deviations
from the mean (the "two-pass" variance) equals the mean of the squares minus the square of
the mean (the "moments" form).  The moments form is therefore non-negative, so clamping it
below at `0` changes nothing.

The same identity is given with weights `w t`: the weighted two-pass variance with total
weight `n = ∑ w t ≠ 0` equals the weighted moments form; with non-negative weights the latter
is non-negative.  For `0/1` weights the total weight is either `0` or at least `1`, and
with the divisor `max n 1` both forms agree in either case (both are `0` when `n = 0`).

Finally the coercion from the reals to the extended reals commutes with finite sums.
-/

open Finset

namespace VarianceLaw

/-! ## Unweighted form over a finite set -/

/-- Two-pass variance equals the moments form: the mean of `(x - mean)²` is the mean of
`x²` minus `mean²`. -/
theorem two_pass_eq_moments {ι : Type*} (S : Finset ι) (x : ι → ℝ) (hS : S.Nonempty) :
    (∑ t ∈ S, (x t - (∑ u ∈ S, x u) / S.card) * (x t - (∑ u ∈ S, x u) / S.card)) / S.card
      = (∑ t ∈ S, x t * x t) / S.card
        - ((∑ u ∈ S, x u) / S.card) * ((∑ u ∈ S, x u) / S.card) := by
  have hn : (S.card : ℝ) ≠ 0 := Nat.cast_ne_zero.mpr (Finset.card_ne_zero.mpr hS)
  generalize hμ : (∑ u ∈ S, x u) / (S.card : ℝ) = μ
  have hs : ∑ u ∈ S, x u = μ * S.card := by rw [← hμ]; field_simp
  have h1 : ∑ t ∈ S, (x t - μ) * (x t - μ)
      = ∑ t ∈ S, x t * x t - 2 * μ * ∑ t ∈ S, x t + S.card * (μ * μ) := by
    have h2 : ∀ t, (x t - μ) * (x t - μ) = x t * x t - 2 * μ * x t + μ * μ := fun t => by ring
    simp only [h2, Finset.sum_add_distrib, Finset.sum_sub_distrib, ← Finset.mul_sum,
      Finset.sum_const, nsmul_eq_mul]
    ring
  rw [h1, hs]
  field_simp
  ring

/-- The moments form of the variance is non-negative. -/
theorem moments_nonneg {ι : Type*} (S : Finset ι) (x : ι → ℝ) (hS : S.Nonempty) :
    0 ≤ (∑ t ∈ S, x t * x t) / S.card
        - ((∑ u ∈ S, x u) / S.card) * ((∑ u ∈ S, x u) / S.card) := by
  rw [← two_pass_eq_moments S x hS]
  exact div_nonneg (Finset.sum_nonneg (fun t _ => mul_self_nonneg _)) (Nat.cast_nonneg _)

/-- Two-pass variance equals the moments form clamped below at `0`. -/
theorem two_pass_eq_max_moments {ι : Type*} (S : Finset ι) (x : ι → ℝ) (hS : S.Nonempty) :
    (∑ t ∈ S, (x t - (∑ u ∈ S, x u) / S.card) * (x t - (∑ u ∈ S, x u) / S.card)) / S.card
      = max ((∑ t ∈ S, x t * x t) / S.card
        - ((∑ u ∈ S, x u) / S.card) * ((∑ u ∈ S, x u) / S.card)) 0 := by
  rw [two_pass_eq_moments S x hS, max_eq_left (moments_nonneg S x hS)]

/-! ## Weighted form -/

section Weighted

variable {ι : Type*} [Fintype ι]

/-- Weighted two-pass variance equals the weighted moments form, for any divisor `n ≠ 0`
equal to the total weight and `μ` the weighted mean. -/
theorem weighted_two_pass_eq_moments_of (w x : ι → ℝ) (n μ : ℝ) (hn : n = ∑ t, w t)
    (hn0 : n ≠ 0) (hμ : μ = (∑ t, w t * x t) / n) :
    (∑ t, w t * ((x t - μ) * (x t - μ))) / n = (∑ t, w t * (x t * x t)) / n - μ * μ := by
  have hs : ∑ t, w t * x t = μ * n := by rw [hμ]; field_simp
  have h1 : ∑ t, w t * ((x t - μ) * (x t - μ))
      = ∑ t, w t * (x t * x t) - 2 * μ * ∑ t, w t * x t + (μ * μ) * ∑ t, w t := by
    have h2 : ∀ t, w t * ((x t - μ) * (x t - μ))
        = w t * (x t * x t) - 2 * μ * (w t * x t) + (μ * μ) * w t := fun t => by ring
    simp only [h2, Finset.sum_add_distrib, Finset.sum_sub_distrib, ← Finset.mul_sum]
  rw [h1, hs, ← hn]
  field_simp
  ring

/-- With non-negative weights and positive total weight the weighted moments form is
non-negative. -/
theorem weighted_moments_nonneg_of (w x : ι → ℝ) (n μ : ℝ) (hn : n = ∑ t, w t)
    (hpos : 0 < n) (hμ : μ = (∑ t, w t * x t) / n) (hw : ∀ t, 0 ≤ w t) :
    0 ≤ (∑ t, w t * (x t * x t)) / n - μ * μ := by
  rw [← weighted_two_pass_eq_moments_of w x n μ hn hpos.ne' hμ]
  exact div_nonneg
    (Finset.sum_nonneg (fun t _ => mul_nonneg (hw t) (mul_self_nonneg _))) hpos.le

/-- Weighted two-pass variance equals the weighted moments form clamped below at `0`
(non-negative weights, positive total weight). -/
theorem weighted_two_pass_eq_max_moments_of (w x : ι → ℝ) (n μ : ℝ) (hn : n = ∑ t, w t)
    (hpos : 0 < n) (hμ : μ = (∑ t, w t * x t) / n) (hw : ∀ t, 0 ≤ w t) :
    (∑ t, w t * ((x t - μ) * (x t - μ))) / n
      = max ((∑ t, w t * (x t * x t)) / n - μ * μ) 0 := by
  rw [weighted_two_pass_eq_moments_of w x n μ hn hpos.ne' hμ,
    max_eq_left (weighted_moments_nonneg_of w x n μ hn hpos hμ hw)]

/-- A `0/1` weight is non-negative. -/
theorem nonneg_of_zero_one (w : ι → ℝ) (hw : ∀ t, w t = 0 ∨ w t = 1) (t : ι) : 0 ≤ w t := by
  rcases hw t with h | h <;> rw [h]
  exact zero_le_one

/-- The total of a `0/1` weight is `0` (all weights vanish) or at least `1`. -/
theorem zero_one_total (w : ι → ℝ) (hw : ∀ t, w t = 0 ∨ w t = 1) :
    (∀ t, w t = 0) ∨ 1 ≤ ∑ t, w t := by
  by_cases h : ∀ t, w t = 0
  · exact Or.inl h
  · right
    obtain ⟨t, ht⟩ := not_forall.mp h
    have h1 : w t = 1 := (hw t).resolve_left ht
    rw [← h1]
    exact Finset.single_le_sum (fun u _ => nonneg_of_zero_one w hw u) (Finset.mem_univ t)

/-- The form actually met: `0/1` weights with total `n ≥ 1`; the weighted two-pass variance
with weighted mean `μ` equals the clamped weighted moments form. -/
theorem weighted_two_pass_eq_max_moments (w x : ι → ℝ) (hw : ∀ t, w t = 0 ∨ w t = 1)
    (hn : 1 ≤ ∑ t, w t) :
    (∑ t, w t * ((x t - (∑ u, w u * x u) / (∑ u, w u))
        * (x t - (∑ u, w u * x u) / (∑ u, w u)))) / (∑ u, w u)
      = max ((∑ t, w t * (x t * x t)) / (∑ u, w u)
          - ((∑ u, w u * x u) / (∑ u, w u)) * ((∑ u, w u * x u) / (∑ u, w u))) 0 :=
  weighted_two_pass_eq_max_moments_of w x _ _ rfl (lt_of_lt_of_le zero_lt_one hn) rfl
    (nonneg_of_zero_one w hw)

/-- The empty case: all weights vanish, the divisor is `1`, and both sides are `0`. -/
theorem weighted_empty (w x : ι → ℝ) (h0 : ∀ t, w t = 0) (μ : ℝ) :
    (∑ t, w t * ((x t - μ) * (x t - μ))) / 1 = 0
      ∧ max ((∑ t, w t * (x t * x t)) / 1 - ((∑ t, w t * x t) / 1) * ((∑ t, w t * x t) / 1)) 0
          = 0 := by
  simp [h0]

/-- Both cases at once, with the divisor `max n 1`: for `0/1` weights the weighted two-pass
variance equals the clamped weighted moments form, whether or not any weight is non-zero. -/
theorem weighted_two_pass_eq_max_moments_clamped (w x : ι → ℝ)
    (hw : ∀ t, w t = 0 ∨ w t = 1) (d μ : ℝ) (hd : d = max (∑ t, w t) 1)
    (hμ : μ = (∑ t, w t * x t) / d) :
    (∑ t, w t * ((x t - μ) * (x t - μ))) / d
      = max ((∑ t, w t * (x t * x t)) / d - μ * μ) 0 := by
  rcases zero_one_total w hw with h0 | h1
  · have hμ0 : μ = 0 := by rw [hμ]; simp [h0]
    rw [hμ0]
    simp [h0]
  · have hd' : d = ∑ t, w t := by rw [hd, max_eq_left h1]
    exact weighted_two_pass_eq_max_moments_of w x d μ hd'
      (by rw [hd']; exact lt_of_lt_of_le zero_lt_one h1) hμ (nonneg_of_zero_one w hw)

end Weighted

/-! ## Extended reals -/

/-- The coercion `ℝ → EReal` commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end VarianceLaw
-- ==== Proof.LibRealChain.lean ====
/-
  "Being a real" is preserved along a dense layer and a softmax read on the extended reals.

  An extended real `x` IS A REAL when `x = ↑r` for some `r : ℝ`, equivalently `x ≠ ⊤ ∧ x ≠ ⊥`; it is a
  POSITIVE REAL when moreover `0 < r`. The operations below are the scalar operations of the ideal
  float instance: EReal's `+`, `-`, `*`, `max`, `min`, unary `-`, and `Ideal.tanh`, `Ideal.exp`,
  `Ideal.div`. Each step keeps the value a real:

    • a finite sum of reals, of products of reals, and a real added to it (a dense layer's row);
    • `tanh` of a real (`Real.tanh`);
    • the maximum of two reals, a difference of reals (a softmax's shift by the row maximum);
    • `exp` of a real is a POSITIVE real (`Real.exp`);
    • a nonempty finite sum of positive reals is a positive real (the softmax's denominator);
    • a real divided by a positive real (by a nonzero real) is a real, and it is `↑(a / b)`.
-/
import Idealize.ShloMosaic.PureOps.Ideal
import Mathlib.Data.Finset.Fold

namespace Cert.Lib

open Idealize.ShloMosaic
open scoped BigOperators

/-- An extended real that is (the coercion of) a real. -/
def IsReal (x : EReal) : Prop := ∃ r : ℝ, x = (r : EReal)

/-- An extended real that is a positive real. -/
def IsPosReal (x : EReal) : Prop := ∃ r : ℝ, 0 < r ∧ x = (r : EReal)

/-- Being a real is being neither infinity. -/
theorem isReal_iff {x : EReal} : IsReal x ↔ x ≠ ⊤ ∧ x ≠ ⊥ := by
  constructor
  · rintro ⟨r, rfl⟩; exact ⟨EReal.coe_ne_top r, EReal.coe_ne_bot r⟩
  · rintro ⟨ht, hb⟩; exact ⟨x.toReal, (EReal.coe_toReal ht hb).symm⟩

/-- A coerced real is a real. -/
theorem isReal_coe (r : ℝ) : IsReal (r : EReal) := ⟨r, rfl⟩

/-- Zero is a real. -/
theorem isReal_zero : IsReal 0 := ⟨0, EReal.coe_zero.symm⟩

/-- One is a real. -/
theorem isReal_one : IsReal 1 := ⟨1, EReal.coe_one.symm⟩

/-- A real is the coercion of its real part. -/
theorem IsReal.coe_toReal {x : EReal} (h : IsReal x) : ((x.toReal : ℝ) : EReal) = x := by
  obtain ⟨r, rfl⟩ := h; rw [EReal.toReal_coe]

theorem IsReal.ne_top {x : EReal} (h : IsReal x) : x ≠ ⊤ := (isReal_iff.mp h).1
theorem IsReal.ne_bot {x : EReal} (h : IsReal x) : x ≠ ⊥ := (isReal_iff.mp h).2

/-- A positive real is a real. -/
theorem IsPosReal.isReal {x : EReal} (h : IsPosReal x) : IsReal x := by
  obtain ⟨r, _, rfl⟩ := h; exact ⟨r, rfl⟩

/-- A positive real is above zero. -/
theorem IsPosReal.pos {x : EReal} (h : IsPosReal x) : 0 < x := by
  obtain ⟨r, hr, rfl⟩ := h; exact EReal.coe_pos.mpr hr

/-- A positive real is not zero. -/
theorem IsPosReal.ne_zero {x : EReal} (h : IsPosReal x) : x ≠ 0 := h.pos.ne'

/-- A positive real is a real above zero, and conversely. -/
theorem isPosReal_iff {x : EReal} : IsPosReal x ↔ IsReal x ∧ 0 < x := by
  constructor
  · intro h; exact ⟨h.isReal, h.pos⟩
  · rintro ⟨⟨r, rfl⟩, h⟩; exact ⟨r, EReal.coe_pos.mp h, rfl⟩

/-- The sum of two reals is a real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The difference of two reals is a real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two reals is a real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negation of a real is a real. -/
theorem IsReal.neg {x : EReal} (hx : IsReal x) : IsReal (-x) := by
  obtain ⟨a, rfl⟩ := hx; exact ⟨-a, (EReal.coe_neg a).symm⟩

/-- The maximum of two reals is a real. -/
theorem IsReal.max {x y : EReal} (hx : IsReal x) (hy : IsReal y) : IsReal (max x y) := by
  rcases max_choice x y with h | h <;> rw [h] <;> assumption

/-- The minimum of two reals is a real. -/
theorem IsReal.min {x y : EReal} (hx : IsReal x) (hy : IsReal y) : IsReal (min x y) := by
  rcases min_choice x y with h | h <;> rw [h] <;> assumption

/-- A finite sum of reals is a real. -/
theorem IsReal.sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- A sum of reals over a whole finite type is a real. -/
theorem IsReal.sum_univ {ι : Type*} [Fintype ι] (f : ι → EReal) (h : ∀ i, IsReal (f i)) :
    IsReal (∑ i, f i) :=
  IsReal.sum Finset.univ f fun i _ => h i

/-- A finite sum of products of reals (a row of a dense layer before its bias) is a real. -/
theorem IsReal.sum_mul {ι : Type*} (s : Finset ι) (f g : ι → EReal) (hf : ∀ i ∈ s, IsReal (f i))
    (hg : ∀ i ∈ s, IsReal (g i)) : IsReal (∑ i ∈ s, f i * g i) :=
  IsReal.sum s _ fun i hi => (hf i hi).mul (hg i hi)

/-- The same over a whole finite type. -/
theorem IsReal.sum_univ_mul {ι : Type*} [Fintype ι] (f g : ι → EReal) (hf : ∀ i, IsReal (f i))
    (hg : ∀ i, IsReal (g i)) : IsReal (∑ i, f i * g i) :=
  IsReal.sum_univ _ fun i => (hf i).mul (hg i)

/-- An accumulator plus a sum of products, all real (a contraction onto a real accumulator), is a real. -/
theorem IsReal.add_sum_univ_mul {ι : Type*} [Fintype ι] {acc : EReal} (hacc : IsReal acc) (f g : ι → EReal)
    (hf : ∀ i, IsReal (f i)) (hg : ∀ i, IsReal (g i)) : IsReal (acc + ∑ i, f i * g i) :=
  hacc.add (IsReal.sum_univ_mul f g hf hg)

/-- `tanh` of a real is a real: the ideal `tanh` is `Real.tanh` on the reals. -/
theorem IsReal.tanh {x : EReal} (hx : IsReal x) : IsReal (Ideal.tanh x) := by
  obtain ⟨a, rfl⟩ := hx; exact ⟨Real.tanh a, rfl⟩

/-- `exp` of a real is a positive real: the ideal `exp` is `Real.exp` on the reals. -/
theorem IsReal.exp {x : EReal} (hx : IsReal x) : IsPosReal (Ideal.exp x) := by
  obtain ⟨a, rfl⟩ := hx; exact ⟨Real.exp a, Real.exp_pos a, rfl⟩

/-- The sum of two positive reals is a positive real. -/
theorem IsPosReal.add {x y : EReal} (hx : IsPosReal x) (hy : IsPosReal y) : IsPosReal (x + y) := by
  obtain ⟨a, ha, rfl⟩ := hx; obtain ⟨b, hb, rfl⟩ := hy
  exact ⟨a + b, add_pos ha hb, (EReal.coe_add a b).symm⟩

/-- The product of two positive reals is a positive real. -/
theorem IsPosReal.mul {x y : EReal} (hx : IsPosReal x) (hy : IsPosReal y) : IsPosReal (x * y) := by
  obtain ⟨a, ha, rfl⟩ := hx; obtain ⟨b, hb, rfl⟩ := hy
  exact ⟨a * b, mul_pos ha hb, (EReal.coe_mul a b).symm⟩

/-- A nonempty finite sum of positive reals (a softmax's denominator) is a positive real. -/
theorem IsPosReal.sum {ι : Type*} {s : Finset ι} (hs : s.Nonempty) (f : ι → EReal)
    (h : ∀ i ∈ s, IsPosReal (f i)) : IsPosReal (∑ i ∈ s, f i) := by
  induction hs using Finset.Nonempty.cons_induction with
  | singleton a => rw [Finset.sum_singleton]; exact h a (Finset.mem_singleton_self a)
  | cons a s ha hs ih =>
    rw [Finset.sum_cons]
    exact (h a (Finset.mem_cons_self a s)).add (ih fun i hi => h i (Finset.mem_cons.mpr (Or.inr hi)))

/-- The same over a whole nonempty finite type. -/
theorem IsPosReal.sum_univ {ι : Type*} [Fintype ι] [Nonempty ι] (f : ι → EReal) (h : ∀ i, IsPosReal (f i)) :
    IsPosReal (∑ i, f i) :=
  IsPosReal.sum Finset.univ_nonempty f fun i _ => h i

/-- The ideal quotient of two coerced reals, the divisor nonzero, is the coerced real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- A real divided by a nonzero real is a real. -/
theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h, EReal.coe_zero])
  exact ⟨a / b, div_coe_coe a hb⟩

/-- A real divided by a positive real (a softmax's numerator by its denominator) is a real. -/
theorem IsReal.div_pos {x y : EReal} (hx : IsReal x) (hy : IsPosReal y) : IsReal (Ideal.div x y) :=
  hx.div hy.isReal hy.ne_zero

/-- A positive real divided by a positive real is a positive real. -/
theorem IsPosReal.div {x y : EReal} (hx : IsPosReal x) (hy : IsPosReal y) : IsPosReal (Ideal.div x y) := by
  obtain ⟨a, ha, rfl⟩ := hx; obtain ⟨b, hb, rfl⟩ := hy
  exact ⟨a / b, _root_.div_pos ha hb, div_coe_coe a hb.ne'⟩

/-- The fold of `max` over a nonempty finite family of reals, from an initial value that is not `⊤`
    (a row maximum taken from `-∞` or from a real), is a real. -/
theorem IsReal.fold_max {ι : Type*} {s : Finset ι} (hs : s.Nonempty) (f : ι → EReal) {b : EReal} (hb : b ≠ ⊤)
    (h : ∀ i ∈ s, IsReal (f i)) : IsReal (s.fold Max.max b f) := by
  rw [isReal_iff]
  constructor
  · exact ((Finset.fold_max_lt _).mpr ⟨lt_top_iff_ne_top.mpr hb, fun i hi => lt_top_iff_ne_top.mpr (h i hi).ne_top⟩).ne
  · obtain ⟨i, hi⟩ := hs
    exact ((Finset.lt_fold_max _).mpr (Or.inr ⟨i, hi, bot_lt_iff_ne_bot.mpr (h i hi).ne_bot⟩)).ne'

end Cert.Lib
-- ==== Proof.SpecEq.lean ====
/-
  The two arrangements of the run-length consistency loss are the same number.

  The argument has five parts.
    * Indicators: products of 0/1 indicators are indicators of conjunctions, and the indicator of membership of
      a step in a run is the coercion of a real 0/1 weight.
    * Rows: the number of run starts up to any step is at most 1024, so rows 1024 and beyond of any table are
      empty; a row `r` has positive count exactly when `r` is below the number of runs.  Hence sums over 1152
      rows of terms carrying these indicators are sums over the first 1025 rows.
    * The long table of 32 · 1025 rows is the 32 tables of 1025 rows laid end to end.
    * Variance: with real inputs every sum is a real, and the mean of squares minus the square of the mean,
      clamped at zero, is the mean squared deviation from the mean (the divisor being the count, or one for an
      empty row).
    * Assembly of the two losses from these.
-/
import proofs.«141693_j33234456937041_2_alg».proof.Proof.Spec
import proofs.«141693_j33234456937041_2_alg».proof.Proof.LibRunLength
import proofs.«141693_j33234456937041_2_alg».proof.Proof.LibVariance
import proofs.«141693_j33234456937041_2_alg».proof.Proof.LibRealChain
import proofs.«141693_j33234456937041_2_alg».proof.Proof.LibSumBlocks

noncomputable section

namespace Cert.Spec

open Idealize.ShloMosaic RunLength Cert.Lib

variable (a : Fin 32 → Fin 2048 → EReal) (x : Fin 32 → Fin 2048 → Fin 512 → EReal)

/-! ## Indicators -/

/-- The indicator of a true proposition is one. -/
theorem ind_true {p : Prop} [Decidable p] (h : p) : ind p = 1 := if_pos h

/-- The indicator of a false proposition is zero. -/
theorem ind_false {p : Prop} [Decidable p] (h : ¬ p) : ind p = 0 := if_neg h

/-- Equivalent propositions have the same indicator. -/
theorem ind_congr {p q : Prop} [Decidable p] [Decidable q] (h : p ↔ q) : ind p = ind q := by
  by_cases hp : p
  · rw [ind_true hp, ind_true (h.mp hp)]
  · rw [ind_false hp, ind_false (fun hq => hp (h.mpr hq))]

/-- The product of two indicators is the indicator of the conjunction. -/
theorem ind_mul_ind {p q : Prop} [Decidable p] [Decidable q] [Decidable (p ∧ q)] :
    ind p * ind q = ind (p ∧ q) := by
  by_cases hp : p
  · by_cases hq : q
    · rw [ind_true hp, ind_true hq, ind_true ⟨hp, hq⟩, one_mul]
    · rw [ind_false hq, ind_false (p := p ∧ q) (fun h => hq h.2), mul_zero]
  · rw [ind_false hp, ind_false (p := p ∧ q) (fun h => hp h.1), zero_mul]

/-- "One where positive" is the indicator of positivity. -/
theorem posI_eq_ind (y : EReal) [Decidable (0 < y)] : posI y = ind (0 < y) := by
  unfold posI
  by_cases h : 0 < y
  · rw [if_pos h, ind_true h]
  · rw [if_neg h, ind_false h]

/-- The real 0/1 weight of step `t` in run `r` of sequence `b`. -/
def wt (b : Fin 32) (r : ℕ) (t : Fin 2048) : ℝ := if In a b r t then 1 else 0

/-- The membership indicator is the coercion of the real weight. -/
theorem ind_In_eq (b : Fin 32) (r : ℕ) (t : Fin 2048) :
    ind (In a b r t) = ((wt a b r t : ℝ) : EReal) := by
  unfold wt
  by_cases h : In a b r t
  · rw [ind_true h, if_pos h, EReal.coe_one]
  · rw [ind_false h, if_neg h, EReal.coe_zero]

/-- The weight is zero or one. -/
theorem wt_zero_one (b : Fin 32) (r : ℕ) (t : Fin 2048) : wt a b r t = 0 ∨ wt a b r t = 1 := by
  unfold wt
  by_cases h : In a b r t
  · right; rw [if_pos h]
  · left; rw [if_neg h]

/-- The weight is non-negative. -/
theorem wt_nonneg (b : Fin 32) (r : ℕ) (t : Fin 2048) : 0 ≤ wt a b r t := by
  rcases wt_zero_one a b r t with h | h <;> rw [h]
  exact zero_le_one

/-! ## Rows -/

/-- At most 1024 runs start among 2048 steps. -/
theorem rank_le_1024 (b : Fin 32) (t : Fin 2048) : rank a b t ≤ 1024 :=
  csumFin_le_1024 (P a b) le_rfl t

/-- A sequence has at most 1024 runs. -/
theorem nruns_le_1024 (b : Fin 32) : nruns a b ≤ 1024 :=
  runs_le_1024 (P a b) le_rfl

/-- No step belongs to a run numbered 1024 or more. -/
theorem not_In_of_ge (b : Fin 32) {r : ℕ} (hr : 1024 ≤ r) (t : Fin 2048) : ¬ In a b r t := by
  rintro ⟨_, h⟩
  have := rank_le_1024 a b t
  omega

/-- No step represents a run numbered 1024 or more. -/
theorem not_InRep_of_ge (b : Fin 32) {r : ℕ} (hr : 1024 ≤ r) (t : Fin 2048) : ¬ InRep a b r t := by
  rintro ⟨_, h⟩
  have := rank_le_1024 a b t
  omega

/-- A row numbered 1024 or more is not below the number of runs. -/
theorem not_validR_of_ge (b : Fin 32) {r : ℕ} (hr : 1024 ≤ r) : ¬ validR a b r := by
  unfold validR
  have := nruns_le_1024 a b
  omega

/-- Row `r` has a step exactly when `r` is below the number of runs. -/
theorem exists_In_iff (b : Fin 32) (r : ℕ) : (∃ t, In a b r t) ↔ validR a b r := by
  unfold validR nruns
  rw [← card_runFin_pos_iff (P a b) r, Finset.card_pos]
  constructor
  · rintro ⟨t, ht⟩
    exact ⟨t, Finset.mem_filter.mpr ⟨Finset.mem_univ _, ht⟩⟩
  · rintro ⟨t, ht⟩
    exact ⟨t, (Finset.mem_filter.mp ht).2⟩

/-- The count of a row is the coercion of the real total weight. -/
theorem cnt_eq (b : Fin 32) (r : ℕ) : cnt a b r = ((∑ t, wt a b r t : ℝ) : EReal) := by
  unfold cnt
  rw [VarianceLaw.coe_sum]
  exact Finset.sum_congr rfl (fun t _ => ind_In_eq a b r t)

/-- The total weight of a row is positive exactly when the row has a step. -/
theorem sum_wt_pos_iff (b : Fin 32) (r : ℕ) : 0 < ∑ t, wt a b r t ↔ ∃ t, In a b r t := by
  constructor
  · intro h
    by_contra hne
    have h0 : ∀ t, wt a b r t = 0 := fun t => by
      unfold wt; rw [if_neg (fun hin => hne ⟨t, hin⟩)]
    rw [Finset.sum_eq_zero (fun t _ => h0 t)] at h
    exact lt_irrefl _ h
  · rintro ⟨t, ht⟩
    have h1 : wt a b r t = 1 := by unfold wt; rw [if_pos ht]
    have h2 : wt a b r t ≤ ∑ u, wt a b r u :=
      Finset.single_le_sum (fun u _ => wt_nonneg a b r u) (Finset.mem_univ t)
    rw [h1] at h2
    exact lt_of_lt_of_le zero_lt_one h2

/-- The count of a row is positive exactly when the row is below the number of runs. -/
theorem cnt_pos_iff (b : Fin 32) (r : ℕ) : 0 < cnt a b r ↔ validR a b r := by
  rw [cnt_eq, EReal.coe_pos, sum_wt_pos_iff, exists_In_iff]

/-- "One where the count is positive" is the indicator of the row being below the number of runs. -/
theorem posI_cnt (b : Fin 32) (r : ℕ) : posI (cnt a b r) = ind (validR a b r) := by
  unfold posI
  by_cases h : validR a b r
  · rw [if_pos ((cnt_pos_iff a b r).mpr h), ind_true h]
  · rw [if_neg (fun hc => h ((cnt_pos_iff a b r).mp hc)), ind_false h]

/-- A sum over `n` rows of a term vanishing from row `m` on is the sum over the first `m` rows. -/
theorem sum_fin_truncate {M : Type*} [AddCommMonoid M] (f : ℕ → M) {m n : ℕ} (hmn : m ≤ n)
    (h0 : ∀ k, m ≤ k → f k = 0) : ∑ r : Fin n, f r.val = ∑ r : Fin m, f r.val := by
  rw [Fin.sum_univ_eq_sum_range f n, Fin.sum_univ_eq_sum_range f m]
  refine (Finset.sum_subset (Finset.range_mono hmn) (fun k _ hk => ?_)).symm
  rw [Finset.mem_range] at hk
  exact h0 k (by omega)

/-! ## Variance -/

/-- The divisor of a row as a real: the total weight, or one for an empty row. -/
def dR (b : Fin 32) (r : ℕ) : ℝ := max (∑ t, wt a b r t) 1

/-- The divisor is not zero (it is at least one). -/
theorem dR_ne_zero (b : Fin 32) (r : ℕ) : dR a b r ≠ 0 :=
  ne_of_gt (lt_of_lt_of_le zero_lt_one (le_max_right _ _))

/-- The coercion from the reals commutes with the maximum. -/
theorem coe_max (y z : ℝ) : ((max y z : ℝ) : EReal) = max (y : EReal) (z : EReal) :=
  EReal.coe_strictMono.monotone.map_max

/-- The clamped count of a row is the coercion of the real divisor. -/
theorem scnt_eq (b : Fin 32) (r : ℕ) : scnt a b r = ((dR a b r : ℝ) : EReal) := by
  unfold scnt dR
  rw [cnt_eq, coe_max, EReal.coe_one]

section RealInputs

variable (v : Fin 32 → Fin 2048 → ℝ)

/-- The run's mean attention as a real. -/
def muR (b : Fin 32) (r : ℕ) : ℝ := (∑ t, wt a b r t * v b t) / dR a b r

/-- With real attention the attention sum of a row is the coercion of the weighted real sum. -/
theorem asum_eq (hv : ∀ b t, a b t = ((v b t : ℝ) : EReal)) (b : Fin 32) (r : ℕ) :
    asum a b r = ((∑ t, wt a b r t * v b t : ℝ) : EReal) := by
  unfold asum
  rw [VarianceLaw.coe_sum]
  refine Finset.sum_congr rfl (fun t _ => ?_)
  rw [ind_In_eq, hv b t, EReal.coe_mul]

/-- With real attention the sum of squares of a row is the coercion of the weighted real sum of squares. -/
theorem a2sum_eq (hv : ∀ b t, a b t = ((v b t : ℝ) : EReal)) (b : Fin 32) (r : ℕ) :
    a2sum a b r = ((∑ t, wt a b r t * (v b t * v b t) : ℝ) : EReal) := by
  unfold a2sum
  rw [VarianceLaw.coe_sum]
  refine Finset.sum_congr rfl (fun t _ => ?_)
  rw [ind_In_eq, hv b t, EReal.coe_mul, EReal.coe_mul]

/-- With real attention the mean of a row is the coercion of the real mean. -/
theorem mean_eq (hv : ∀ b t, a b t = ((v b t : ℝ) : EReal)) (b : Fin 32) (r : ℕ) :
    mean a b r = ((muR a v b r : ℝ) : EReal) := by
  unfold mean muR
  rw [asum_eq a v hv, scnt_eq, div_coe_coe _ (dR_ne_zero a b r)]

/-- With real attention the moments form of the variance is the coercion of its real counterpart. -/
theorem varK_eq (hv : ∀ b t, a b t = ((v b t : ℝ) : EReal)) (b : Fin 32) (r : ℕ) :
    varK a b r
      = ((max ((∑ t, wt a b r t * (v b t * v b t)) / dR a b r - muR a v b r * muR a v b r) 0 : ℝ)
          : EReal) := by
  unfold varK
  rw [mean_eq a v hv, scnt_eq, a2sum_eq a v hv, div_coe_coe _ (dR_ne_zero a b r), ← EReal.coe_mul,
    ← EReal.coe_sub, coe_max, EReal.coe_zero]

/-- With real attention the two-pass form of the variance is the coercion of its real counterpart. -/
theorem varR_eq (hv : ∀ b t, a b t = ((v b t : ℝ) : EReal)) (b : Fin 32) (r : ℕ) :
    varR a b r
      = (((∑ t, wt a b r t * ((v b t - muR a v b r) * (v b t - muR a v b r))) / dR a b r : ℝ)
          : EReal) := by
  unfold varR
  rw [mean_eq a v hv, scnt_eq, ← div_coe_coe _ (dR_ne_zero a b r), VarianceLaw.coe_sum]
  refine congrArg (fun s => Ideal.div s ((dR a b r : ℝ) : EReal)) ?_
  refine Finset.sum_congr rfl (fun t _ => ?_)
  rw [ind_In_eq, hv b t, ← EReal.coe_sub, ← EReal.coe_mul, ← EReal.coe_mul]

/-- With real attention the two forms of the variance of a row agree. -/
theorem varK_eq_varR_of (hv : ∀ b t, a b t = ((v b t : ℝ) : EReal)) (b : Fin 32) (r : ℕ) :
    varK a b r = varR a b r := by
  rw [varK_eq a v hv, varR_eq a v hv,
    VarianceLaw.weighted_two_pass_eq_max_moments_clamped (wt a b r) (v b) (wt_zero_one a b r)
      (dR a b r) (muR a v b r) rfl rfl]

end RealInputs

/-- With real attention the two forms of the variance of a row agree. -/
theorem varK_eq_varR (ha : ∀ b t, ∃ v : ℝ, a b t = (v : EReal)) (b : Fin 32) (r : ℕ) :
    varK a b r = varR a b r := by
  choose v hv using ha
  exact varK_eq_varR_of a v hv b r

/-- The attention term of a sequence is the same in both arrangements. -/
theorem attK_eq_attR (ha : ∀ b t, ∃ v : ℝ, a b t = (v : EReal)) (b : Fin 32) :
    attK a b = attR a b := by
  have h1 : ∀ r : Fin 1152, varK a b r.val * posI (cnt a b r.val)
      = (fun k => varR a b k * ind (validR a b k)) r.val := fun r => by
    rw [posI_cnt, varK_eq_varR a ha]
  unfold attK attR
  rw [Finset.sum_congr rfl (fun r _ => h1 r)]
  exact sum_fin_truncate (fun k => varR a b k * ind (validR a b k)) (by norm_num) (fun k hk => by
    rw [ind_false (not_validR_of_ge a b (by omega)), mul_zero])

/-! ## The long table -/

/-- Row `b · 1025 + r` of the long table belongs to sequence `b`. -/
theorem seqOf_mk (b : Fin 32) (r : Fin 1025) (h : b.val * 1025 + r.val < 32800) :
    seqOf ⟨b.val * 1025 + r.val, h⟩ = b := by
  apply Fin.ext
  show (b.val * 1025 + r.val) / 1025 = b.val
  have := r.isLt
  omega

/-- Row `b · 1025 + r` of the long table is run `r`. -/
theorem runOf_mk (b : Fin 32) (r : Fin 1025) (h : b.val * 1025 + r.val < 32800) :
    runOf ⟨b.val * 1025 + r.val, h⟩ = r.val := by
  show (b.val * 1025 + r.val) % 1025 = r.val
  have := r.isLt
  omega

/-- The long table of 32 · 1025 rows is 32 tables of 1025 rows laid end to end. -/
theorem sum_long {M : Type*} [AddCommMonoid M] (f : Fin 32 → ℕ → M) :
    ∑ j : Fin 32800, f (seqOf j) (runOf j) = ∑ b : Fin 32, ∑ r : Fin 1025, f b r.val := by
  refine (sum_blocks₂_of_eq 32 1025 (by norm_num)
    (fun j : Fin 32800 => f (seqOf j) (runOf j))).trans ?_
  refine Finset.sum_congr rfl (fun b _ => Finset.sum_congr rfl (fun r _ => ?_))
  show f (seqOf ⟨b.val * 1025 + r.val, _⟩) (runOf ⟨b.val * 1025 + r.val, _⟩) = f b r.val
  rw [seqOf_mk, runOf_mk]

/-! ## The feature term -/

/-- The indicator that row `r` of sequence `b` is a run that has a representative. -/
def qual (b : Fin 32) (r : ℕ) : EReal := ind (validR a b r ∧ 0 < rcnt a b r)

/-- Recognising a run by its positive count, or by its row number, gives the same indicator. -/
theorem qualK_eq_qual (b : Fin 32) (r : ℕ) : qualK a b r = qual a b r := by
  unfold qualK qual
  rw [posI_cnt, posI_eq_ind (rcnt a b r)]
  exact ind_mul_ind

/-- The qualifying indicator of a row of the long table. -/
theorem ind_qualR (j : Fin 32800) : ind (qualR a j) = qual a (seqOf j) (runOf j) :=
  ind_congr Iff.rfl

/-- Rows numbered 1024 or more never qualify. -/
theorem qual_of_ge (b : Fin 32) {r : ℕ} (hr : 1024 ≤ r) : qual a b r = 0 :=
  ind_false (fun h => not_validR_of_ge a b hr h.1)

/-- The feature numerator of a sequence over its first 1025 rows. -/
theorem numK_eq (b : Fin 32) :
    numK a x b = ∑ r : Fin 1025, mse a x b r.val * qual a b r.val := by
  have h1 : ∀ r : Fin 1152, mse a x b r.val * qualK a b r.val
      = (fun k => mse a x b k * qual a b k) r.val := fun r => by rw [qualK_eq_qual]
  unfold numK
  rw [Finset.sum_congr rfl (fun r _ => h1 r)]
  exact sum_fin_truncate (fun k => mse a x b k * qual a b k) (by norm_num) (fun k hk => by
    rw [qual_of_ge a b (by omega), mul_zero])

/-- The feature denominator of a sequence over its first 1025 rows. -/
theorem denK_eq (b : Fin 32) : denK a b = ∑ r : Fin 1025, qual a b r.val := by
  have h1 : ∀ r : Fin 1152, qualK a b r.val = (fun k => qual a b k) r.val :=
    fun r => by rw [qualK_eq_qual]
  unfold denK
  rw [Finset.sum_congr rfl (fun r _ => h1 r)]
  exact sum_fin_truncate (fun k => qual a b k) (by norm_num) (fun k hk => qual_of_ge a b (by omega))

/-- The feature numerators of the two arrangements agree. -/
theorem featNum_eq :
    ∑ j : Fin 32800, mse a x (seqOf j) (runOf j) * ind (qualR a j) = ∑ b : Fin 32, numK a x b := by
  calc ∑ j : Fin 32800, mse a x (seqOf j) (runOf j) * ind (qualR a j)
      = ∑ j : Fin 32800, (fun b r => mse a x b r * qual a b r) (seqOf j) (runOf j) :=
        Finset.sum_congr rfl (fun j _ => by rw [ind_qualR])
    _ = ∑ b : Fin 32, ∑ r : Fin 1025, mse a x b r.val * qual a b r.val :=
        sum_long (fun b r => mse a x b r * qual a b r)
    _ = ∑ b : Fin 32, numK a x b := Finset.sum_congr rfl (fun b _ => (numK_eq a x b).symm)

/-- The integer count of qualifying rows, as an extended real, is the sum of their indicators. -/
theorem nqual_eq : ((nqual a : ℝ) : EReal) = ∑ j : Fin 32800, ind (qualR a j) := by
  unfold nqual
  rw [Nat.cast_sum, VarianceLaw.coe_sum]
  refine Finset.sum_congr rfl (fun j _ => ?_)
  by_cases h : qualR a j
  · rw [if_pos h, ind_true h, Nat.cast_one, EReal.coe_one]
  · rw [if_neg h, ind_false h, Nat.cast_zero, EReal.coe_zero]

/-- The feature denominators of the two arrangements agree. -/
theorem featDen_eq : ∑ b : Fin 32, denK a b = ((nqual a : ℝ) : EReal) := by
  rw [nqual_eq]
  calc ∑ b : Fin 32, denK a b
      = ∑ b : Fin 32, ∑ r : Fin 1025, qual a b r.val :=
        Finset.sum_congr rfl (fun b _ => denK_eq a b)
    _ = ∑ j : Fin 32800, (fun b r => qual a b r) (seqOf j) (runOf j) :=
        (sum_long (fun b r => qual a b r)).symm
    _ = ∑ j : Fin 32800, ind (qualR a j) :=
        Finset.sum_congr rfl (fun j _ => (ind_qualR a j).symm)

/-- The maximum of a natural number and one may be taken before or after passing to the extended reals. -/
theorem max_natCast_one (n : ℕ) : max (((n : ℝ) : EReal)) 1 = (((max n 1 : ℕ) : ℝ) : EReal) := by
  rw [Nat.cast_max, coe_max, Nat.cast_one, EReal.coe_one]

/-! ## Assembly -/

/-- The feature losses of the two arrangements agree. -/
theorem featLossK_eq_featLossR : featLossK a x = featLossR a x := by
  unfold featLossK featLossR
  rw [featNum_eq, featDen_eq, max_natCast_one]

/-- With real attention the attention losses of the two arrangements agree. -/
theorem attnLossK_eq_attnLossR (ha : ∀ b t, ∃ v : ℝ, a b t = (v : EReal)) :
    attnLossK a = attnLossR a := by
  have h : ∀ b : Fin 32, Ideal.div (attK a b) (max (nrunsF a b) 1)
      = Ideal.div (attR a b) (((max (nruns a b) 1 : ℕ) : ℝ) : EReal) := fun b => by
    rw [attK_eq_attR a ha b, nrunsF, max_natCast_one]
  unfold attnLossK attnLossR
  rw [Finset.sum_congr rfl (fun b _ => h b)]

/-- With real inputs the two arrangements of the run-length consistency loss are the same number. -/
theorem lossK_eq_lossR (a : Fin 32 → Fin 2048 → EReal) (x : Fin 32 → Fin 2048 → Fin 512 → EReal)
    (ha : ∀ b t, ∃ v : ℝ, a b t = (v : EReal)) (hx : ∀ b t d, ∃ v : ℝ, x b t d = (v : EReal)) :
    lossK a x = lossR a x := by
  unfold lossK lossR
  rw [featLossK_eq_featLossR, attnLossK_eq_attnLossR a ha]

end Cert.Spec

end
-- ==== Proof.PreFinite.lean ====
/-
  Every entry of the two input arrays is a real number.

  The precondition says that the absolute value of every entry of either array is below plus infinity: it is the
  conjunction of two "all" reductions of elementwise comparisons against the binary value of plus infinity.  A
  conjunction of one-bit words that is one has both words one; an "all" reduction that is one has a one at every index;
  a comparison "below" that is one is the strict order; and an extended real whose maximum with its negation is below
  plus infinity is neither infinity, hence the coercion of a real.
-/
import proofs.«141693_j33234456937041_2_alg».proof.Pre_finite_inputs
import Idealize.ShloMosaic.Lib.ReduceAll
import Idealize.ShloMosaic.Lib.ValueIdx
import Idealize.ShloMosaic.Lib.IdealHost

namespace Cert.PreFinite

open Idealize.ShloMosaic Cert.Pre_finite_inputs

/-- The rank-zero shape has exactly one index. -/
instance : Subsingleton S_.Idx := ⟨fun a b => funext fun d => d.elim0⟩

/-- An extended real whose absolute value (the maximum of it and its negation) is below plus infinity is a real. -/
theorem real_of_abs_lt_top (y : EReal) (h : max y (-y) < ⊤) : ∃ v : ℝ, y = (v : EReal) := by
  induction y using EReal.rec with
  | bot => simp at h
  | coe v => exact ⟨v, rfl⟩
  | top => simp at h

/-- The binary value `0x7F800000` is plus infinity. -/
theorem ofBits_inf : Ideal.ofBits .f32 0x7F800000#32 = ⊤ := by simp [Ideal.ofBits, Ideal.ieee]

/-- An extended real whose absolute value compares "below" the binary plus infinity is a real. -/
theorem real_of_cmp (y : EReal)
    (e : Ideal.cmp .olt (max y (-y)) (Ideal.ofBits .f32 0x7F800000#32) = 1#1) :
    ∃ v : ℝ, y = (v : EReal) := by
  rw [ofBits_inf] at e
  apply real_of_abs_lt_top
  unfold Ideal.cmp at e
  by_contra hn
  simp [hn] at e

/-- The precondition makes every entry of both input arrays a real. -/
theorem finite_of_fn [Facts] (A0 : FVec Ideal S32x2048x1 .f32) (A1 : FVec Ideal S32x2048x512 .f32)
    (h : fn (F := Ideal) A0 A1 = fun _ => 1#1) :
    (∀ i, ∃ v : ℝ, A0 i = (v : EReal)) ∧ (∀ i, ∃ v : ℝ, A1 i = (v : EReal)) := by
  have h0 := congrFun h ValueIdx.ix0
  dsimp only [fn] at h0
  obtain ⟨h1, h2⟩ := IntOp.andi_eq_one.mp h0
  constructor
  · intro i
    have e := Host.reduce_andi_all _ _ _ _ _ h1 i
    rw [ValueIdx.cmpf_apply, ValueIdx.broadcastInDim_scalar_apply, ValueIdx.constant_apply] at e
    exact real_of_cmp (A0 i) e
  · intro i
    have e := Host.reduce_andi_all _ _ _ _ _ h2 i
    rw [ValueIdx.cmpf_apply, ValueIdx.broadcastInDim_scalar_apply, ValueIdx.constant_apply] at e
    exact real_of_cmp (A1 i) e

end Cert.PreFinite
-- ==== Proof.KHost.lean ====
/-
  The host lines before the kernel, read at an index: from the attention array they compute, per sequence and time step,
  the proposal mask, the mask shifted by one step, the run starts, the running count of starts (so the run number is that
  count less one), the representative mask, and the two columns of bucket words the kernel receives — the run number where
  the step belongs to the table, and a sentinel beyond every table row (1152) elsewhere — together with the number of runs
  per sequence as a float.
-/
import proofs.«141693_j33234456937041_2_alg».proof.Proof.Gen.KernelIdeal.Frame
import proofs.«141693_j33234456937041_2_alg».proof.Proof.RunStages
import proofs.«141693_j33234456937041_2_alg».proof.Proof.LibCumsum
import proofs.«141693_j33234456937041_2_alg».proof.Proof.LibRunWords
import proofs.«141693_j33234456937041_2_alg».proof.Proof.Spec
import Idealize.ShloMosaic.Lib.StableHlo.Run
import Idealize.ShloMosaic.PureOps.Reduce

set_option maxRecDepth 16384
set_option maxHeartbeats 1000000

noncomputable section

namespace Cert.KernelIdeal.KHost

open Idealize.ShloMosaic Idealize.ShloMosaic.TcCoe Idealize.SL.Sem Idealize.ShloMosaic.StableHlo Idealize.ShloMosaic.ValueIdx
open Cert.KernelIdeal Cert.KernelIdeal.Gen Cert.RunStages RunLength RunWords

variable (A0 : S32x2048x1.Idx → EReal)

/-- The attention value of sequence `b` at time step `t`. -/
def aOf : Fin 32 → Fin 2048 → EReal := fun b t => A0 (ix3 b t (0 : Fin 1))

/-! ## The operations, named -/

def hA : FVec Ideal S32x2048 .f32 := fun i => shapeCast S32x2048 A0 shapeCasts_S32x2048x1_S32x2048 i
def hP : IVec S32x2048 1 :=
  cmpf .ogt (hA A0) (broadcastInDim S32x2048 ![] bcast_S_S32x2048 (constant (F := Ideal) S_ .f32 0x3F000000#32))
def hZ : IVec S_ 1 := id (cmpi .ne (constantI S_ 32 0#32) (broadcastInDim S_ ![] bcast_S_S_ (constantI S_ 32 0#32)))
def hQ : IVec S32x2048 1 :=
  pad S32x2048 ![0, 1] ![0, 0] ![0, 0] (extractStridedSlice S32x2047 ![0, 0] (hP A0) slices_S32x2048_S32x2047_0_0) hZ
    pads_S32x2047_S32x2048_000_100 h_S_
def hS : IVec S32x2048 1 := andi (hP A0) (noti (hQ A0))
def hC : IVec S32x2048 32 :=
  Host.reduceWindow IntOp.addi ![1, 2048] ![1, 1] ![0, 2047] ![0, 0] (extui 32 (hS A0) natLt_1_32)
    (broadcastInDim S_ ![] bcast_S_S_ (constantI S_ 32 0#32)) reduceWindows_S32x2048_S32x2048_w1s1p0_0_w2048s1p2047_0 h_S_
def hRid : IVec S32x2048 32 := subi (hC A0) (broadcastInDim S32x2048 ![] bcast_S_S32x2048 (constantI S_ 32 1#32))
def hN : IVec S32 32 :=
  Host.reduce IntOp.addi (extui 32 (hS A0) natLt_1_32) (constantI S_ 32 0#32) reducesTo_S32x2048_S32_d1 h_S_
def hNf : FVec Ideal S32 .f32 := sitofp .f32 (hN A0)
def hR : IVec S32x2048 1 :=
  cmpf .ogt (hA A0) (broadcastInDim S32x2048 ![] bcast_S_S32x2048 (constant (F := Ideal) S_ .f32 0x3F333333#32))
def hM : IVec S32x2048 1 := andi (hR A0) (ori (hP A0) (hQ A0))
def hSent : IVec S32x2048 32 := broadcastInDim S32x2048 ![] bcast_S_S32x2048 (id (constantI S_ 32 1152#32))
def hColw : IVec S32x2048 32 := select (hP A0) (hRid A0) hSent
def hColwr : IVec S32x2048 32 := select (hM A0) (hRid A0) hSent
def hW20 : IVec S32x1x2048 32 := fun i => shapeCast S32x1x2048 (hColw A0) shapeCasts_S32x2048_S32x1x2048 i
def hW21 : IVec S32x1x2048 32 := fun i => shapeCast S32x1x2048 (hColwr A0) shapeCasts_S32x2048_S32x1x2048 i
def hW22 : FVec Ideal S32x1x2048 .f32 := fun i => shapeCast S32x1x2048 (hA A0) shapeCasts_S32x2048_S32x1x2048 i

/-! ## Each operation at an index -/

theorem hA_apply (b : Fin 32) (t : Fin 2048) : hA A0 (ix2 b t) = aOf A0 b t := by
  unfold hA aOf
  refine shapeCast_apply A0 _ _ _ ?_
  rw [Shape.rowMajor_val_three, Shape.rowMajor_val_two]
  show (b.val * 2048 + t.val) * 1 + 0 = b.val * 2048 + t.val
  omega

theorem hP_apply (b : Fin 32) (t : Fin 2048) : hP A0 (ix2 b t) = BitVec.ofBool (Spec.P (aOf A0) b t) := by
  unfold hP
  rw [gt_const_apply, hA_apply]
  rfl

theorem hZ_apply : hZ ix0 = 0#1 := by
  unfold hZ
  show IntOp.cmpi .ne (constantI S_ 32 0#32 ix0) (broadcastInDim S_ ![] bcast_S_S_ (constantI S_ 32 0#32) ix0) = _
  rw [broadcastInDim_apply ![] bcast_S_S_ _ ix0 ix0 fun a => a.elim0]
  rfl

theorem hQ_apply (b : Fin 32) (t : Fin 2048) : hQ A0 (ix2 b t) = BitVec.ofBool (Spec.Q (aOf A0) b t) := by
  unfold hQ
  rw [shift_apply]
  unfold Spec.Q prevFin
  by_cases h : t.val = 0
  · rw [dif_pos h, dif_pos h, hZ_apply]; rfl
  · rw [dif_neg h, dif_neg h, hP_apply]

theorem hS_apply (b : Fin 32) (t : Fin 2048) : hS A0 (ix2 b t) = BitVec.ofBool (startFin (Spec.P (aOf A0) b) t) := by
  unfold hS
  show (hP A0 (ix2 b t)) &&& ~~~(hQ A0 (ix2 b t)) = _
  rw [hP_apply, hQ_apply, startFin_eq]
  exact and_not_word _ _

theorem hS32_apply (b : Fin 32) (t : Fin 2048) :
    extui 32 (hS A0) natLt_1_32 (ix2 b t) = w1 (startFin (Spec.P (aOf A0) b) t) := by
  rw [extui_apply, hS_apply]
  rfl

theorem hC_apply (b : Fin 32) (t : Fin 2048) : hC A0 (ix2 b t) = BitVec.ofNat 32 (Spec.rank (aOf A0) b t) := by
  unfold hC
  refine (Cert.Lib.reduceWindow_cumsum_apply (B := 32) (T := 2048) _ _ ?_ _ _ b t).trans ?_
  · rw [broadcastInDim_apply ![] bcast_S_S_ _ ix0 ix0 fun a => a.elim0]; rfl
  · simp only [hS32_apply]
    exact csum_word (Spec.P (aOf A0) b) t

theorem hRid_apply (b : Fin 32) (t : Fin 2048) :
    hRid A0 (ix2 b t) = BitVec.ofNat 32 (Spec.rank (aOf A0) b t) - 1#32 := by
  unfold hRid
  show IntOp.subi (hC A0 (ix2 b t)) (broadcastInDim S32x2048 ![] bcast_S_S32x2048 (constantI S_ 32 1#32) (ix2 b t)) = _
  rw [hC_apply, bcast0_apply]
  rfl

theorem hN_apply (b : Fin 32) : hN A0 (ix1 b) = BitVec.ofNat 32 (Spec.nruns (aOf A0) b) := by
  unfold hN
  have hr : S32x2048.Reduces [1] S32 := by decide
  rw [Host.reduce_eq_fold_single IntOp.addi _ _ reducesTo_S32x2048_S32_d1 hr h_S_ (ix1 b)]
  refine (fold_add_eq_sum _ _ _).trans ?_
  show (0#32 : BitVec 32) + _ = _
  rw [BitVec.zero_add]
  refine Eq.trans (Finset.sum_congr rfl fun (t : Fin 2048) _ => ?_) (runs_word (Spec.P (aOf A0) b))
  show extui 32 (hS A0) natLt_1_32 (hr.lift (ix1 b) t) = _
  have e : hr.lift (ix1 b) t = ix2 b t := by
    funext ax
    apply Fin.ext
    match ax with
    | ⟨0, _⟩ => rfl
    | ⟨1, _⟩ => rfl
  rw [e, hS32_apply]

theorem hNf_apply (b : Fin 32) : hNf A0 (ix1 b) = Spec.nrunsF (aOf A0) b := by
  have h1024 : Spec.nruns (aOf A0) b ≤ 1024 := runs_le_1024 (Spec.P (aOf A0) b) (le_refl 2048)
  have hlt : Spec.nruns (aOf A0) b < 2 ^ 31 := lt_of_le_of_lt h1024 (by norm_num)
  have e : (BitVec.ofNat 32 (Spec.nruns (aOf A0) b)).toInt = ((Spec.nruns (aOf A0) b : ℕ) : ℤ) := toInt_ofNat_small _ hlt
  unfold hNf Spec.nrunsF
  rw [sitofp_apply, hN_apply]
  exact congrArg (fun z : ℤ => ((z : ℝ) : EReal)) e |>.trans (by rw [Int.cast_natCast])

theorem hM_apply (b : Fin 32) (t : Fin 2048) : hM A0 (ix2 b t) = BitVec.ofBool (Spec.M (aOf A0) b t) := by
  unfold hM hR
  show (cmpf .ogt (hA A0) _ (ix2 b t)) &&& ((hP A0 (ix2 b t)) ||| (hQ A0 (ix2 b t))) = _
  rw [gt_const_apply, hA_apply, hP_apply, hQ_apply]
  unfold Spec.M
  rw [← and_word, ← or_word]
  rfl

theorem hColw_apply (b : Fin 32) (t : Fin 2048) :
    hColw A0 (ix2 b t)
      = if Spec.P (aOf A0) b t = true then BitVec.ofNat 32 (Spec.rank (aOf A0) b t) - 1#32 else 1152#32 := by
  unfold hColw
  rw [select_apply, hP_apply, hRid_apply]
  unfold hSent
  rw [bcast0_apply]
  by_cases h : Spec.P (aOf A0) b t = true
  · rw [h, if_pos rfl]; exact select_one _ _
  · have h' : Spec.P (aOf A0) b t = false := by simpa using h
    rw [h', if_neg (by decide)]; exact select_zero _ _

theorem hColwr_apply (b : Fin 32) (t : Fin 2048) :
    hColwr A0 (ix2 b t)
      = if Spec.M (aOf A0) b t = true then BitVec.ofNat 32 (Spec.rank (aOf A0) b t) - 1#32 else 1152#32 := by
  unfold hColwr
  rw [select_apply, hM_apply, hRid_apply]
  unfold hSent
  rw [bcast0_apply]
  by_cases h : Spec.M (aOf A0) b t = true
  · rw [h, if_pos rfl]; exact select_one _ _
  · have h' : Spec.M (aOf A0) b t = false := by simpa using h
    rw [h', if_neg (by decide)]; exact select_zero _ _

/-- A `[32, 2048]` array cast to `[32, 1, 2048]` reads, at `(b, u, t)`, the operand at `(b, t)`. -/
theorem cast_b1t_apply {α : Type} (v : S32x2048.Idx → α) (b : Fin 32) (u : Fin 1) (t : Fin 2048) :
    shapeCast S32x1x2048 v shapeCasts_S32x2048_S32x1x2048 (ix3 b u t) = v (ix2 b t) := by
  refine shapeCast_apply v _ _ _ ?_
  rw [Shape.rowMajor_val_three, Shape.rowMajor_val_two]
  have hu : u.val = 0 := by omega
  show b.val * 2048 + t.val = (b.val * 1 + u.val) * 2048 + t.val
  rw [hu]; omega

theorem hW20_apply (b : Fin 32) (u : Fin 1) (t : Fin 2048) : hW20 A0 (ix3 b u t) = hColw A0 (ix2 b t) := cast_b1t_apply _ b u t
theorem hW21_apply (b : Fin 32) (u : Fin 1) (t : Fin 2048) : hW21 A0 (ix3 b u t) = hColwr A0 (ix2 b t) := cast_b1t_apply _ b u t
theorem hW22_apply (b : Fin 32) (u : Fin 1) (t : Fin 2048) : hW22 A0 (ix3 b u t) = aOf A0 b t :=
  (cast_b1t_apply _ b u t).trans (hA_apply A0 b t)

end Cert.KernelIdeal.KHost

end
-- ==== Proof.Assemble.lean ====
/-
  The certificate's claim, assembled.

  The claim has five parts: the three programs run and leave their arguments unchanged (the frames), the idealized
  kernel differs from the kernel only by sanctioned rewrites, and at the ideal values the idealized kernel and the
  reference end with equal results from equal arguments.  The last part is reduced here to two statements about
  the run-length consistency loss: the idealized kernel's run ends with the loss in its first arrangement, and the
  reference's result is the loss in its second arrangement; with real inputs (which the precondition gives) the two
  arrangements are the same number.
-/
import proofs.«141693_j33234456937041_2_alg».proof.Defs
import proofs.«141693_j33234456937041_2_alg».proof.Proof.KBodyIdeal
import proofs.«141693_j33234456937041_2_alg».proof.Proof.KBodyBits
import proofs.«141693_j33234456937041_2_alg».proof.Proof.RefRun
import proofs.«141693_j33234456937041_2_alg».proof.Proof.RefRead.Words
import proofs.«141693_j33234456937041_2_alg».proof.Proof.SpecEq
import proofs.«141693_j33234456937041_2_alg».proof.Proof.PreFinite
import proofs.«141693_j33234456937041_2_alg».proof.Proof.KHost
import proofs.«141693_j33234456937041_2_alg».proof.Proof.Gen.Kernel
import proofs.«141693_j33234456937041_2_alg».proof.Proof.Gen.KernelIdeal
import proofs.«141693_j33234456937041_2_alg».proof.Proof.Gen.ReferenceIdeal
import proofs.«141693_j33234456937041_2_alg».proof.Proof.Gen.Pre_finite_inputs

noncomputable section

namespace Cert.Assemble

open Idealize.ShloMosaic Idealize.SL.Sem

/-- The claim follows from the idealized kernel's run ending with the loss in its first arrangement and the
reference's result being the loss in its second arrangement. -/
theorem claim_of
    (krun : ∀ (m : (ℓ : Loc Cert.KernelIdeal.nD Cert.KernelIdeal.τ Cert.KernelIdeal.sig) → Buf (Elt Ideal) ℓ)
        (ρ : Dev Cert.KernelIdeal.nD → PrngReg),
        θ_run (Cert.KernelIdeal.defs (F := Ideal)) (onTc (τ := Cert.KernelIdeal.τ) (Cert.KernelIdeal.main (F := Ideal)))
          ⟨m, fun _ => 0, ρ⟩ (fun r => ∀ c : Dev Cert.KernelIdeal.nD,
          r.2.mem ((c.tc : Thread Cert.KernelIdeal.nD Cert.KernelIdeal.τ).loc Cert.KernelIdeal.main_v36)
              = (fun _ => Cert.Spec.lossK
                  (Cert.KernelIdeal.KHost.aOf (m ((c.tc : Thread _ _).loc Cert.KernelIdeal.main_arg0)))
                  (fun b t d => m ((c.tc : Thread _ _).loc Cert.KernelIdeal.main_arg1) (ValueIdx.ix3 b t d)))
          ∧ r.2.mem ((c.tc : Thread _ _).loc Cert.KernelIdeal.main_arg0)
              = m ((c.tc : Thread _ _).loc Cert.KernelIdeal.main_arg0)
          ∧ r.2.mem ((c.tc : Thread _ _).loc Cert.KernelIdeal.main_arg1)
              = m ((c.tc : Thread _ _).loc Cert.KernelIdeal.main_arg1)))
    (rread : ∀ (a0 : Cert.ReferenceIdeal.HandRead.Arg0) (a1 : Cert.ReferenceIdeal.HandRead.Arg1),
        Cert.ReferenceIdeal.HandRun.result (F := Ideal) a0 a1 ValueIdx.ix0
          = Cert.Spec.lossR (Cert.ReferenceIdeal.HandRead.att a0) (Cert.ReferenceIdeal.HandRead.feat a1)) :
    Cert.Claim := by
  refine ⟨Cert.Kernel.Gen.facts, Cert.KernelIdeal.Gen.facts, Cert.ReferenceIdeal.Gen.facts,
    Cert.Pre_finite_inputs.Gen.facts, ?_, ?_, ?_, ?_, ?_⟩
  · exact fun m ρ _ => Cert.Kernel.Body.frame (F := Bits) m ρ
  · exact fun m ρ _ => Cert.KernelIdeal.Body.frame (F := Ideal) m ρ
  · exact fun m ρ _ => (θ_run Cert.ReferenceIdeal.defs _ _).mono (fun _ h c => (h c).2)
      (Cert.ReferenceIdeal.HandRun.run (F := Ideal) m ρ)
  · exact ⟨IdealRules.truncf_extf.statement Cert.KernelIdeal.S1152x512 .f32 .bf16,
      IdealRules.truncf_extf.statement Cert.KernelIdeal.S1152x512 .f32 .bf16⟩
  · intro m ρ m' ρ' hpre hagree
    refine ⟨fun c => fun _ => Cert.Spec.lossK
        (Cert.KernelIdeal.KHost.aOf
          (m ((c.tc : Thread Cert.KernelIdeal.nD Cert.KernelIdeal.τ).loc Cert.KernelIdeal.main_arg0)))
        (fun b t d =>
          m ((c.tc : Thread Cert.KernelIdeal.nD Cert.KernelIdeal.τ).loc Cert.KernelIdeal.main_arg1)
            (ValueIdx.ix3 b t d)),
      krun m ρ, ?_⟩
    refine (θ_run Cert.ReferenceIdeal.defs _ _).mono (fun _ h c => ⟨(h c).1.trans ?_, (h c).2⟩)
      (Cert.ReferenceIdeal.HandRun.run (F := Ideal) m' ρ')
    rw [(hagree c).1, (hagree c).2]
    funext i
    have hi := ValueIdx.eq_ix0 i
    subst hi
    rw [rread]
    obtain ⟨ha, hx⟩ := Cert.PreFinite.finite_of_fn _ _ (hpre c)
    exact Eq.symm (Cert.Spec.lossK_eq_lossR _ _ (fun b t => ha (ValueIdx.ix3 b t (0 : Fin 1)))
      (fun b t d => hx (ValueIdx.ix3 b t d)))

end Cert.Assemble

end
-- ==== Proof.KHostV.lean ====
/-
  The arrays the kernel is launched with, as the host lines before it leave them: the two columns of bucket words, the
  attention values, and the float run counts, each the named chain of operations of the attention argument.
-/
import proofs.«141693_j33234456937041_2_alg».proof.Proof.KHost

set_option maxRecDepth 16384
set_option maxHeartbeats 2000000

noncomputable section

namespace Cert.KernelIdeal.KHost

open Idealize.ShloMosaic Idealize.ShloMosaic.TcCoe Idealize.SL.Sem Idealize.ShloMosaic.StableHlo Idealize.ShloMosaic.ValueIdx
open Cert.KernelIdeal Cert.KernelIdeal.Gen

variable (m : (ℓ : Loc nD τ sig) → Buf (Elt Ideal) ℓ)

-- the closing comparisons below are between identical applications of these; they are never to be opened
attribute [local irreducible] Host.reduceWindow Host.reduce pad extractStridedSlice shapeCast broadcastInDim cmpf select

theorem V_v20 (c : Dev nD) : Gen.V m c main_v20 = hW20 (m ((c : Thread nD τ).loc main_arg0)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8,
    List.flatten_cons, List.flatten_nil, List.append_nil, List.cons_append, List.nil_append]
  after_results_simp
  rfl

theorem V_v21 (c : Dev nD) : Gen.V m c main_v21 = hW21 (m ((c : Thread nD τ).loc main_arg0)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8,
    List.flatten_cons, List.flatten_nil, List.append_nil, List.cons_append, List.nil_append]
  after_results_simp
  rfl

theorem V_v22 (c : Dev nD) : Gen.V m c main_v22 = hW22 (m ((c : Thread nD τ).loc main_arg0)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8,
    List.flatten_cons, List.flatten_nil, List.append_nil, List.cons_append, List.nil_append]
  after_results_simp
  rfl

theorem V_v13 (c : Dev nD) : Gen.V m c main_v13 = hNf (m ((c : Thread nD τ).loc main_arg0)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8,
    List.flatten_cons, List.flatten_nil, List.append_nil, List.cons_append, List.nil_append]
  after_results_simp
  rfl

end Cert.KernelIdeal.KHost

end
-- ==== Proof.LibMatmulBlock.lean ====
/-
  One block of a matrix product, entry by entry.

  A product of an m×k array by a k×n array, contracted over the left operand's second axis and the right operand's
  first, and accumulated into the all-zero array, has at entry (a, b) the value ∑_c A[a, c] · B[c, b] over the
  extended reals. The contraction's index set has one axis of extent k, so the sum over it is re-indexed by that
  axis's coordinate.
-/
import Idealize.ShloMosaic.PureOps.Ideal
import Idealize.ShloMosaic.PureOps.Ideal.Laws
import Idealize.ShloMosaic.Lib.ValueIdx

noncomputable section

namespace Cert.LibMatmulBlock

open Idealize.ShloMosaic Idealize.ShloMosaic.ValueIdx

/-- The product of an m×k block by a k×n block accumulated into the zero splat, read at entry (a, b), is the sum over
    the contracted coordinate c of A[a, c] · B[c, b]. At the ideal values; `w` is the dimension numbers'
    well-formedness, which a program states. -/
theorem matmul_zero_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMatmulBlock

end
-- ==== Proof.KPay.lean ====
/-
  The chunk loop's arithmetic at the ideal values, read index by index.

  One trip of the kernel's loop sees a chunk of 512 time steps: the chunk's feature rows `x[t, d]`, two columns of
  bucket words (one word per time step) and the chunk's attention values `a[t]`.  Against the row iota it builds two
  0/1 matrices `W[r, t] = [r = word t]` and adds to six accumulators:
    * `W · x` (a matrix product into a zero accumulator), for each of the two word columns,
    * the row sums of each `W`,
    * the row sums of `W[r, t] · a[t]` and of `W[r, t] · (a[t] · a[t])`.
  Every lemma below says what one of those stored values is at an index, as a finite sum over the chunk.
-/
import proofs.«141693_j33234456937041_2_alg».proof.Proof.Gen.KernelIdeal.Skeleton
import proofs.«141693_j33234456937041_2_alg».proof.Proof.LibMatmulBlock
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KVal

open Idealize.ShloMosaic Idealize.ShloMosaic.ValueIdx Cert.KernelIdeal Cert.KernelIdeal.Gen

/-- The equality test of two words, widened to a 32-bit integer and read as a signed integer, is 1 or 0. -/
theorem eq_word_toReal (x y : BitVec 32) :
    (((((IntOp.cmpi .eq x y).setWidth 32).toInt : ℤ) : ℝ) : EReal) = if x = y then 1 else 0 := by
  by_cases h : x = y
  · subst h; simp [IntOp.cmpi]
  · have : (x == y) = false := by simpa using h
    simp [IntOp.cmpi, this, h]

/-- A `[1, 1, a]` array cast to `[a]` reads, at `t`, the operand at `(0, 0, t)`. -/
theorem shapeCast_11a_a_apply {α : Type} {a : ℕ} (x : (⟨3, ![1, 1, a]⟩ : Shape).Idx → α)
    (h : (⟨3, ![1, 1, a]⟩ : Shape).ShapeCasts ⟨1, ![a]⟩) (t : Fin a) :
    shapeCast ⟨1, ![a]⟩ x h (ix1 t) = x (ix3 (0 : Fin 1) (0 : Fin 1) t) :=
  shapeCast_apply x h _ _ (by
    rw [Shape.rowMajor_val_three, Shape.rowMajor_val_one]
    show (0 * 1 + 0) * a + t.val = t.val
    simp)

/-- The 0/1 matrix of the first word column: entry `(r, t)` is 1 exactly when the iota's word there is the chunk's
    word at time step `t`. -/
theorem pay5_apply (v24 : IVec S1152x512 32) (v81 : Vec Ideal S1x1x512 .i32) (r : Fin 1152) (t : Fin 512) :
    k0_pay5 (F := Ideal) v24 v81 (ix2 r t) = if v24 (ix2 r t) = v81 (ix3 (0 : Fin 1) (0 : Fin 1) t) then (1 : EReal) else 0 := by
  unfold k0_pay5
  rw [sitofp_apply, extui_apply]
  show (((((IntOp.cmpi .eq (v24 (ix2 r t)) _).setWidth 32).toInt : ℤ) : ℝ) : EReal) = _
  rw [broadcastTo_1b_ab_apply, shapeCast_a_1a_apply, shapeCast_11a_a_apply]
  exact eq_word_toReal _ _

/-- The 0/1 matrix of the second word column. -/
theorem pay6_apply (v24 : IVec S1152x512 32) (v84 : Vec Ideal S1x1x512 .i32) (r : Fin 1152) (t : Fin 512) :
    k0_pay6 (F := Ideal) v24 v84 (ix2 r t) = if v24 (ix2 r t) = v84 (ix3 (0 : Fin 1) (0 : Fin 1) t) then (1 : EReal) else 0 := by
  unfold k0_pay6
  rw [sitofp_apply, extui_apply]
  show (((((IntOp.cmpi .eq (v24 (ix2 r t)) _).setWidth 32).toInt : ℤ) : ℝ) : EReal) = _
  rw [broadcastTo_1b_ab_apply, shapeCast_a_1a_apply, shapeCast_11a_a_apply]
  exact eq_word_toReal _ _

/-- The chunk's feature rows as the matrix product's right factor: a change of float format is the identity at the
    ideal values, and the leading unit axis is dropped. -/
theorem pay7_apply (v78 : Vec Ideal S1x512x512 .f32) (t d : Fin 512) :
    k0_pay7 (F := Ideal) v78 (ix2 t d) = v78 (ix3 (0 : Fin 1) t d) := by
  unfold k0_pay7
  rw [truncf_apply]
  exact shapeCast_1ab_ab_apply v78 _ t d

/-- First accumulator after a trip: what it held plus the product of the first 0/1 matrix with the chunk's rows. -/
theorem pay8_apply (v24 : IVec S1152x512 32) (v78 : Vec Ideal S1x512x512 .f32) (v81 : Vec Ideal S1x1x512 .i32)
    (v104 : Vec Ideal S1152x512 .f32) (r : Fin 1152) (d : Fin 512) :
    k0_pay8 (F := Ideal) v24 v78 v81 v104 (ix2 r d)
      = v104 (ix2 r d) + ∑ t : Fin 512, k0_pay5 (F := Ideal) v24 v81 (ix2 r t) * v78 (ix3 (0 : Fin 1) t d) := by
  unfold k0_pay8
  rw [shapeCast_self, addf_apply]
  congr 1
  refine (Cert.LibMatmulBlock.matmul_zero_apply _ none _ _ r d).trans ?_
  refine Finset.sum_congr rfl fun t _ => ?_
  rw [truncf_apply, pay7_apply]

/-- Second accumulator after a trip. -/
theorem pay9_apply (v24 : IVec S1152x512 32) (v78 : Vec Ideal S1x512x512 .f32) (v84 : Vec Ideal S1x1x512 .i32)
    (v109 : Vec Ideal S1152x512 .f32) (r : Fin 1152) (d : Fin 512) :
    k0_pay9 (F := Ideal) v24 v78 v84 v109 (ix2 r d)
      = v109 (ix2 r d) + ∑ t : Fin 512, k0_pay6 (F := Ideal) v24 v84 (ix2 r t) * v78 (ix3 (0 : Fin 1) t d) := by
  unfold k0_pay9
  rw [shapeCast_self, addf_apply]
  congr 1
  refine (Cert.LibMatmulBlock.matmul_zero_apply _ none _ _ r d).trans ?_
  refine Finset.sum_congr rfl fun t _ => ?_
  rw [truncf_apply, pay7_apply]

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The lane sum of a `[1152, 512]` block, read at row `r`, is the sum of that row. -/
theorem rowsum_apply (src : FVec Ideal S1152x512 .f32) (h : S1152x512.Reduces [1] S1152) (hφ : FKind.Formats .f32)
    (hacc : (0x00000000#32 : BitVec 32) = FKind.add.neutral .f32 hφ) (r : Fin 1152) :
    multiReduction .add [1] S1152 src 0x00000000#32 h hφ hacc (ix1 r) = ∑ t : Fin 512, src (ix2 r t) := by
  refine (Ideal.multiReduction_add_single src 0x00000000#32 h hφ hacc (ix1 r)).trans ?_
  refine Finset.sum_congr rfl fun t _ => congrArg src ?_
  funext ax
  apply Fin.ext
  match ax with
  | ⟨0, _⟩ => rfl
  | ⟨1, _⟩ => rfl

/-- Third accumulator after a trip: what it held plus the row sums of the first 0/1 matrix. -/
theorem pay11_apply (v96 : FVec Ideal S1152x512 .f32) (v116 : Vec Ideal S1152x1 .f32) (r : Fin 1152) (u : Fin 1) :
    k0_pay11 (F := Ideal) v96 v116 (ix2 r u) = v116 (ix2 r u) + ∑ t : Fin 512, v96 (ix2 r t) := by
  unfold k0_pay11 k0_pay10
  rw [shapeCast_self, addf_apply]
  congr 1
  refine (shapeCast_a_a1_apply _ _ r u).trans ?_
  exact rowsum_apply _ _ _ _ r

/-- Fourth accumulator after a trip: what it held plus the row sums of the second 0/1 matrix. -/
theorem pay12_apply (v99 : FVec Ideal S1152x512 .f32) (v123 : Vec Ideal S1152x1 .f32) (r : Fin 1152) (u : Fin 1) :
    k0_pay12 (F := Ideal) v99 v123 (ix2 r u) = v123 (ix2 r u) + ∑ t : Fin 512, v99 (ix2 r t) := by
  unfold k0_pay12
  rw [shapeCast_self, addf_apply]
  congr 1
  refine (shapeCast_a_a1_apply _ _ r u).trans ?_
  exact rowsum_apply _ _ _ _ r

/-- Fifth accumulator after a trip: what it held plus the row sums of `W[r, t] · a[t]`. -/
theorem pay13_apply (v88 : FVec Ideal S512 .f32) (v96 : FVec Ideal S1152x512 .f32) (v130 : Vec Ideal S1152x1 .f32)
    (r : Fin 1152) (u : Fin 1) :
    k0_pay13 (F := Ideal) v88 v96 v130 (ix2 r u) = v130 (ix2 r u) + ∑ t : Fin 512, v96 (ix2 r t) * v88 (ix1 t) := by
  unfold k0_pay13 k0_pay10
  rw [shapeCast_self, addf_apply]
  congr 1
  refine (shapeCast_a_a1_apply _ _ r u).trans ?_
  refine (rowsum_apply _ _ _ _ r).trans ?_
  refine Finset.sum_congr rfl fun t _ => ?_
  rw [mulf_apply, broadcastTo_1b_ab_apply, shapeCast_a_1a_apply]

/-- Sixth accumulator after a trip: what it held plus the row sums of `W[r, t] · (a[t] · a[t])`. -/
theorem pay14_apply (v88 : FVec Ideal S512 .f32) (v96 : FVec Ideal S1152x512 .f32) (v140 : Vec Ideal S1152x1 .f32)
    (r : Fin 1152) (u : Fin 1) :
    k0_pay14 (F := Ideal) v88 v96 v140 (ix2 r u)
      = v140 (ix2 r u) + ∑ t : Fin 512, v96 (ix2 r t) * (v88 (ix1 t) * v88 (ix1 t)) := by
  unfold k0_pay14 k0_pay10
  rw [addf_apply]
  congr 1
  refine (shapeCast_a_a1_apply _ _ r u).trans ?_
  refine (rowsum_apply _ _ _ _ r).trans ?_
  refine Finset.sum_congr rfl fun t _ => ?_
  rw [mulf_apply, broadcastTo_1b_ab_apply, shapeCast_a_1a_apply, mulf_apply]

/-- The store of the sixth accumulator is a cast to the same shape. -/
theorem pay21_eq (v147 : FVec Ideal S1152x1 .f32) : k0_pay21 (F := Ideal) v147 = v147 := by
  unfold k0_pay21
  exact shapeCast_self _ _

/-- The six accumulators start at zero. -/
theorem pay15_apply (j : S1152x512.Idx) : k0_pay15 (F := Ideal) j = 0 := by
  unfold k0_pay15
  rw [shapeCast_self, broadcast_apply]
  exact Ideal.ofBits_zero_f32
theorem pay16_apply (j : S1152x512.Idx) : k0_pay16 (F := Ideal) j = 0 := by
  unfold k0_pay16
  rw [shapeCast_self, broadcast_apply]
  exact Ideal.ofBits_zero_f32
theorem pay17_apply (j : S1152x1.Idx) : k0_pay17 (F := Ideal) j = 0 := by
  unfold k0_pay17
  rw [shapeCast_self, broadcast_apply]
  exact Ideal.ofBits_zero_f32
theorem pay18_apply (j : S1152x1.Idx) : k0_pay18 (F := Ideal) j = 0 := by
  unfold k0_pay18
  rw [shapeCast_self, broadcast_apply]
  exact Ideal.ofBits_zero_f32
theorem pay19_apply (j : S1152x1.Idx) : k0_pay19 (F := Ideal) j = 0 := by
  unfold k0_pay19
  rw [shapeCast_self, broadcast_apply]
  exact Ideal.ofBits_zero_f32
theorem pay20_apply (j : S1152x1.Idx) : k0_pay20 (F := Ideal) j = 0 := by
  unfold k0_pay20
  rw [shapeCast_self, broadcast_apply]
  exact Ideal.ofBits_zero_f32

end Cert.KernelIdeal.KVal

end
-- ==== Proof.LibRowIndex.lean ====
/-
  Two index notions for a row gather followed by an accumulating row scatter.

  A list of E updates carries, per update e, one integer index (an [E, 1] array of words). Read as a
  GATHER index into an operand of N rows it is taken as a signed integer and clamped into [0, N - 1]:
  `gatherRow`. Read as a SCATTER index it is taken as a signed integer and NOT clamped: update e lands
  on row n exactly when that integer is n, and the updates landing on row n form the finite set
  `hits idx n` (an index outside [0, N) lands nowhere).
-/
import Idealize.ShloMosaic.Lib.ValueIdx

namespace Cert.Lib

open Idealize.ShloMosaic Idealize.ShloMosaic.ValueIdx

variable {N E w : Nat}

/-- The operand row an update row reads: its start index read as a signed integer and clamped into [0, N-1]. -/
def gatherRow (hN : 0 < N) (idx : IVec ⟨2, ![E, 1]⟩ w) (e : Fin E) : Fin N :=
  ⟨min (idx (ix2 e (0 : Fin 1))).toInt.toNat (N - 1), by omega⟩

/-- The update rows that land on operand row n: those whose scatter index, read signed and not clamped, is n. -/
def hits (idx : IVec ⟨2, ![E, 1]⟩ w) (n : Nat) : Finset (Fin E) :=
  Finset.univ.filter fun e => (idx (ix2 e (0 : Fin 1))).toInt = (n : Int)

end Cert.Lib
-- ==== Proof.LibBuckets.lean ====
/-
  Chunked accumulation and bucketed scatter sums.

  Two bookkeeping facts about sums over the 32 · 2048 positions (sequence, step).
    * An accumulator that starts at zero and adds, four times, the sum of one chunk of 512 steps holds in the end the
      sum over all 2048 steps.
    * Positions are flattened to `e = b · 2048 + t`.  Each position carries an index word: where a mask holds it is
      "sequence · 1025 + run number − 1", elsewhere it is the drop bucket 32800.  The positions whose word, read as a
      signed integer, equals a given bucket `j < 32800` are exactly the masked steps of sequence `j / 1025` whose run
      number is `j % 1025 + 1`; so a sum over those positions is a sum over the steps of that one sequence.
-/
import proofs.«141693_j33234456937041_2_alg».proof.Proof.Spec
import proofs.«141693_j33234456937041_2_alg».proof.Proof.LibRowIndex
import proofs.«141693_j33234456937041_2_alg».proof.Proof.LibRunWords
import proofs.«141693_j33234456937041_2_alg».proof.Proof.LibSumBlocks

namespace Cert.Buckets

open Idealize.ShloMosaic Idealize.ShloMosaic.ValueIdx Cert.Lib Cert.Spec

/-! ## Chunked accumulation -/

/-- An accumulator that starts at zero and at step `k` adds `B k` holds after `n` steps the sum of the
`B k`. -/
theorem acc_eq_sum_fin {M : Type*} [AddCommMonoid M] (acc : ℕ → M) (h0 : acc 0 = 0) :
    ∀ (n : ℕ) (B : Fin n → M), (∀ k : Fin n, acc (k.val + 1) = acc k.val + B k) → acc n = ∑ k, B k
  | 0, B, _ => by rw [h0, Finset.univ_eq_empty, Finset.sum_empty]
  | n + 1, B, hs => by
    rw [Fin.sum_univ_castSucc,
      ← acc_eq_sum_fin acc h0 n (fun k => B k.castSucc) (fun k => hs k.castSucc)]
    exact hs (Fin.last n)

/-- Four chunks of 512 steps, the chunk offset written `k * 512`. -/
theorem acc_four' {M : Type*} [AddCommMonoid M] (g : Fin 2048 → M) (acc : ℕ → M) (h0 : acc 0 = 0)
    (hs : ∀ (k : ℕ) (hk : k < 4),
      acc (k + 1) = acc k + ∑ u : Fin 512, g ⟨k * 512 + u.val, by omega⟩) :
    acc 4 = ∑ t : Fin 2048, g t := by
  have h1 : acc 4 = ∑ k : Fin 4, ∑ u : Fin 512,
      g ⟨k.val * 512 + u.val, by have := k.isLt; have := u.isLt; omega⟩ :=
    acc_eq_sum_fin acc h0 4
      (fun k : Fin 4 => ∑ u : Fin 512,
        g ⟨k.val * 512 + u.val, by have := k.isLt; have := u.isLt; omega⟩)
      (fun k => hs k.val k.isLt)
  rw [h1, sum_blocks₂_of_eq 4 512 (by norm_num) g]

/-- Four chunks of 512 steps, the chunk offset written `512 * k`. -/
theorem acc_four {M : Type*} [AddCommMonoid M] (g : Fin 2048 → M) (acc : ℕ → M) (h0 : acc 0 = 0)
    (hs : ∀ (k : ℕ) (hk : k < 4),
      acc (k + 1) = acc k + ∑ u : Fin 512, g ⟨512 * k + u.val, by omega⟩) :
    acc 4 = ∑ t : Fin 2048, g t := by
  refine acc_four' g acc h0 (fun k hk => ?_)
  rw [hs k hk]
  refine congrArg (fun s => acc k + s) (Finset.sum_congr rfl (fun u _ => congrArg g (Fin.ext ?_)))
  show 512 * k + u.val = k * 512 + u.val
  omega

/-! ## Bucketed scatter sums -/

section Buckets

variable (idx : IVec ⟨2, ![65536, 1]⟩ 32) (p : Fin 32 → Fin 2048 → Bool) (k : Fin 32 → Fin 2048 → ℕ)

/-- Position `(b, t)` lands on bucket `j` exactly when `b` is the sequence of `j`, the mask holds at
`(b, t)` and the run number there is the run of `j` plus one. -/
theorem hit_iff (hk : ∀ b t, k b t ≤ 1024) (hp : ∀ b t, p b t = true → 1 ≤ k b t)
    (hidx : ∀ (b : Fin 32) (t : Fin 2048),
      idx (ix2 (⟨b.val * 2048 + t.val, by have := b.isLt; have := t.isLt; omega⟩ : Fin 65536)
        (0 : Fin 1))
        = if p b t = true then BitVec.ofNat 32 b.val * 1025#32 + (BitVec.ofNat 32 (k b t) - 1#32)
          else 32800#32)
    (j : Fin 32800) (b : Fin 32) (t : Fin 2048) (h : b.val * 2048 + t.val < 65536) :
    (idx (ix2 (⟨b.val * 2048 + t.val, h⟩ : Fin 65536) (0 : Fin 1))).toInt = (j.val : ℤ)
      ↔ (b = seqOf j ∧ p b t = true ∧ k b t = runOf j + 1) := by
  rw [hidx b t,
    RunWords.bucket_iff b.val (k b t) j.val b.isLt (hk b t) j.isLt (p b t) (hp b t)]
  constructor
  · rintro ⟨hpt, hj⟩
    have h1 := hk b t
    have h2 := hp b t hpt
    refine ⟨Fin.ext ?_, hpt, ?_⟩
    · show b.val = j.val / 1025
      omega
    · show k b t = j.val % 1025 + 1
      omega
  · rintro ⟨hb, hpt, hkk⟩
    have hb' : b.val = j.val / 1025 := congrArg Fin.val hb
    have hk' : k b t = j.val % 1025 + 1 := hkk
    refine ⟨hpt, ?_⟩
    omega

/-- The sum over the positions that land on bucket `j` is the sum over the steps of the sequence of `j` at
which the mask holds and the run number is the run of `j` plus one. -/
theorem sum_hits_bucket {M : Type*} [AddCommMonoid M] (hk : ∀ b t, k b t ≤ 1024)
    (hp : ∀ b t, p b t = true → 1 ≤ k b t)
    (hidx : ∀ (b : Fin 32) (t : Fin 2048),
      idx (ix2 (⟨b.val * 2048 + t.val, by have := b.isLt; have := t.isLt; omega⟩ : Fin 65536)
        (0 : Fin 1))
        = if p b t = true then BitVec.ofNat 32 b.val * 1025#32 + (BitVec.ofNat 32 (k b t) - 1#32)
          else 32800#32)
    (j : Fin 32800) (f : Fin 65536 → M) :
    ∑ e ∈ Cert.Lib.hits idx j.val, f e
      = ∑ t : Fin 2048, if p (seqOf j) t = true ∧ k (seqOf j) t = runOf j + 1
          then f ⟨(seqOf j).val * 2048 + t.val,
            by have := (seqOf j).isLt; have := t.isLt; omega⟩
          else 0 := by
  unfold Cert.Lib.hits
  rw [Finset.sum_filter, sum_blocks₂_of_eq 32 2048 (by norm_num : 65536 = 32 * 2048),
    Finset.sum_eq_single (seqOf j)]
  · refine Finset.sum_congr rfl (fun t _ => ?_)
    have hi := hit_iff idx p k hk hp hidx j (seqOf j) t
      (by have := (seqOf j).isLt; have := t.isLt; omega)
    by_cases hc : p (seqOf j) t = true ∧ k (seqOf j) t = runOf j + 1
    · rw [if_pos hc]
      exact if_pos (hi.mpr ⟨rfl, hc.1, hc.2⟩)
    · rw [if_neg hc]
      exact if_neg (fun hh => hc (hi.mp hh).2)
  · intro b _ hb
    refine Finset.sum_eq_zero (fun t _ => ?_)
    exact if_neg (fun hh => hb ((hit_iff idx p k hk hp hidx j b t
      (by have := b.isLt; have := t.isLt; omega)).mp hh).1)
  · intro h
    exact absurd (Finset.mem_univ _) h

/-- The same for extended-real updates, the condition written as a zero/one factor. -/
theorem sum_hits_bucket_ind (hk : ∀ b t, k b t ≤ 1024) (hp : ∀ b t, p b t = true → 1 ≤ k b t)
    (hidx : ∀ (b : Fin 32) (t : Fin 2048),
      idx (ix2 (⟨b.val * 2048 + t.val, by have := b.isLt; have := t.isLt; omega⟩ : Fin 65536)
        (0 : Fin 1))
        = if p b t = true then BitVec.ofNat 32 b.val * 1025#32 + (BitVec.ofNat 32 (k b t) - 1#32)
          else 32800#32)
    (j : Fin 32800) (f : Fin 65536 → EReal) :
    ∑ e ∈ Cert.Lib.hits idx j.val, f e
      = ∑ t : Fin 2048, ind (p (seqOf j) t = true ∧ k (seqOf j) t = runOf j + 1)
          * f ⟨(seqOf j).val * 2048 + t.val,
            by have := (seqOf j).isLt; have := t.isLt; omega⟩ := by
  rw [sum_hits_bucket idx p k hk hp hidx j f]
  refine Finset.sum_congr rfl (fun t _ => ?_)
  unfold ind
  by_cases hc : p (seqOf j) t = true ∧ k (seqOf j) t = runOf j + 1
  · rw [if_pos hc, if_pos hc, one_mul]
  · rw [if_neg hc, if_neg hc, zero_mul]

end Buckets

end Cert.Buckets
-- ==== Proof.KAcc.lean ====
/-
  The chunk loop, summed up.

  Each of the six accumulators starts at zero and, trip after trip, adds the chunk's contribution: the sum over the chunk's
  512 time steps of a term of the time step.  Four chunks of 512 make the 2048 time steps, so after the fourth trip each
  accumulator holds the sum over all 2048 time steps of that term:
    * `W[r, t] · x[t, d]` for the two feature accumulators (`W` the 0/1 matrix of the respective word column),
    * `W[r, t]`, `W[r, t] · a[t]`, `W[r, t] · a[t]²` for the four column accumulators.
-/
import proofs.«141693_j33234456937041_2_alg».proof.Proof.KBodyIdeal.Values
import proofs.«141693_j33234456937041_2_alg».proof.Proof.KPay
import proofs.«141693_j33234456937041_2_alg».proof.Proof.LibBuckets

set_option maxRecDepth 16384

noncomputable section

namespace Cert.KernelIdeal.KVal

open Idealize.ShloMosaic Idealize.ShloMosaic.ValueIdx Cert.KernelIdeal Cert.KernelIdeal.Gen Cert.KernelIdeal.Body

variable (x0 : Vec Ideal S1x2048x512 .f32) (x1 x2 : Vec Ideal S1x1x2048 .i32) (x3 : Vec Ideal S1x1x2048 .f32)

/-- Time step `512 k + u` of the block, for chunk `k` and offset `u`. -/
abbrev stepOf (k : Fin k0_t1_loop.trips) (u : Fin 512) : Fin 2048 :=
  ⟨512 * k.val + u.val, by have := k.isLt; have := u.isLt; have h4 : k0_t1_loop.trips = 4 := trips_eq; omega⟩

/-- Chunk `k` of the feature block holds, at `(u, d)`, the block's row `512 k + u`. -/
theorem ld1_apply (k : Fin k0_t1_loop.trips) (u d : Fin 512) :
    View.ld x0 (rIn1 k) (ix3 (0 : Fin 1) u d) = x0 (ix3 (0 : Fin 1) (stepOf k u) d) := by
  show x0 ((rIn1 k).emb (ix3 (0 : Fin 1) u d)) = _
  refine congrArg x0 (funext fun a => Fin.ext ?_)
  match a with
  | ⟨0, _⟩ => show (k0_off1 k) 0 + 1 * 0 = 0; rw [k0_off1_eq]; rfl
  | ⟨1, _⟩ => show (k0_off1 k) 1 + 1 * u.val = 512 * k.val + u.val; rw [k0_off1_eq]; show 512 * k.val + 1 * u.val = _; omega
  | ⟨2, _⟩ => show (k0_off1 k) 2 + 1 * d.val = d.val; rw [k0_off1_eq]; show 0 + 1 * d.val = _; omega

/-- Chunk `k` of a per-step block holds, at `u`, the block's entry `512 k + u`. -/
theorem ld2_apply {e : EltTy} (v : Vec Ideal S1x1x2048 e) (k : Fin k0_t1_loop.trips) (u : Fin 512) :
    View.ld v (rIn2 k) (ix3 (0 : Fin 1) (0 : Fin 1) u) = v (ix3 (0 : Fin 1) (0 : Fin 1) (stepOf k u)) := by
  show v ((rIn2 k).emb (ix3 (0 : Fin 1) (0 : Fin 1) u)) = _
  refine congrArg v (funext fun a => Fin.ext ?_)
  match a with
  | ⟨0, _⟩ => show (k0_off2 k) 0 + 1 * 0 = 0; rw [k0_off2_eq]; rfl
  | ⟨1, _⟩ => show (k0_off2 k) 1 + 1 * 0 = 0; rw [k0_off2_eq]; rfl
  | ⟨2, _⟩ => show (k0_off2 k) 2 + 1 * u.val = 512 * k.val + u.val; rw [k0_off2_eq]; show 512 * k.val + 1 * u.val = _; omega

/-- The row-number grid holds the row's number. -/
theorem rowIota_apply (r : Fin 1152) (u : Fin 512) : rowIota (ix2 r u) = BitVec.ofNat 32 r.val :=
  iota_single_apply .tc S1152x512 32 (0 : Fin 2) _ (ix2 r u)

/-- The 0/1 weight of table row `r` at a time step whose word is `w`. -/
def wgt (r : Fin 1152) (w : BitVec 32) : EReal := if BitVec.ofNat 32 r.val = w then 1 else 0

theorem pay5_ld (k : Fin k0_t1_loop.trips) (r : Fin 1152) (u : Fin 512) :
    k0_pay5 (F := Ideal) rowIota (View.ld x1 (rIn2 k)) (ix2 r u) = wgt r (x1 (ix3 (0 : Fin 1) (0 : Fin 1) (stepOf k u))) := by
  rw [pay5_apply, rowIota_apply, ld2_apply]; rfl

theorem pay6_ld (k : Fin k0_t1_loop.trips) (r : Fin 1152) (u : Fin 512) :
    k0_pay6 (F := Ideal) rowIota (View.ld x2 (rIn2 k)) (ix2 r u) = wgt r (x2 (ix3 (0 : Fin 1) (0 : Fin 1) (stepOf k u))) := by
  rw [pay6_apply, rowIota_apply, ld2_apply]; rfl

theorem pay4_ld (k : Fin k0_t1_loop.trips) (u : Fin 512) :
    k0_pay4 (F := Ideal) (View.ld x3 (rIn2 k)) (ix1 u) = x3 (ix3 (0 : Fin 1) (0 : Fin 1) (stepOf k u)) := by
  unfold k0_pay4
  rw [shapeCast_11a_a_apply, ld2_apply]

/-- After the four trips the first feature accumulator holds the sum over all time steps. -/
theorem a8_four (r : Fin 1152) (d : Fin 512) :
    a8 x0 x1 4 (ix2 r d) = ∑ t : Fin 2048, wgt r (x1 (ix3 (0 : Fin 1) (0 : Fin 1) t)) * x0 (ix3 (0 : Fin 1) t d) := by
  refine Cert.Buckets.acc_four (fun t => wgt r (x1 (ix3 (0 : Fin 1) (0 : Fin 1) t)) * x0 (ix3 (0 : Fin 1) t d))
    (fun k => a8 x0 x1 k (ix2 r d)) ?_ ?_
  · show a8 x0 x1 0 (ix2 r d) = 0
    rw [a8]; exact pay15_apply _
  · intro k hk
    have hk' : k < k0_t1_loop.trips := by rw [trips_eq]; exact hk
    show a8 x0 x1 (k + 1) (ix2 r d) = _
    rw [a8, dif_pos hk', pay8_apply]
    congr 1
    refine Finset.sum_congr rfl fun u _ => ?_
    rw [pay5_ld, ld1_apply]

theorem a9_four (r : Fin 1152) (d : Fin 512) :
    a9 x0 x2 4 (ix2 r d) = ∑ t : Fin 2048, wgt r (x2 (ix3 (0 : Fin 1) (0 : Fin 1) t)) * x0 (ix3 (0 : Fin 1) t d) := by
  refine Cert.Buckets.acc_four (fun t => wgt r (x2 (ix3 (0 : Fin 1) (0 : Fin 1) t)) * x0 (ix3 (0 : Fin 1) t d))
    (fun k => a9 x0 x2 k (ix2 r d)) ?_ ?_
  · show a9 x0 x2 0 (ix2 r d) = 0
    rw [a9]; exact pay16_apply _
  · intro k hk
    have hk' : k < k0_t1_loop.trips := by rw [trips_eq]; exact hk
    show a9 x0 x2 (k + 1) (ix2 r d) = _
    rw [a9, dif_pos hk', pay9_apply]
    congr 1
    refine Finset.sum_congr rfl fun u _ => ?_
    rw [pay6_ld, ld1_apply]

theorem a10_four (r : Fin 1152) (u : Fin 1) :
    a10 x1 4 (ix2 r u) = ∑ t : Fin 2048, wgt r (x1 (ix3 (0 : Fin 1) (0 : Fin 1) t)) := by
  refine Cert.Buckets.acc_four (fun t => wgt r (x1 (ix3 (0 : Fin 1) (0 : Fin 1) t))) (fun k => a10 x1 k (ix2 r u)) ?_ ?_
  · show a10 x1 0 (ix2 r u) = 0
    rw [a10]; exact pay17_apply _
  · intro k hk
    have hk' : k < k0_t1_loop.trips := by rw [trips_eq]; exact hk
    show a10 x1 (k + 1) (ix2 r u) = _
    rw [a10, dif_pos hk', pay11_apply]
    congr 1
    refine Finset.sum_congr rfl fun v _ => ?_
    rw [pay5_ld]

theorem a11_four (r : Fin 1152) (u : Fin 1) :
    a11 x2 4 (ix2 r u) = ∑ t : Fin 2048, wgt r (x2 (ix3 (0 : Fin 1) (0 : Fin 1) t)) := by
  refine Cert.Buckets.acc_four (fun t => wgt r (x2 (ix3 (0 : Fin 1) (0 : Fin 1) t))) (fun k => a11 x2 k (ix2 r u)) ?_ ?_
  · show a11 x2 0 (ix2 r u) = 0
    rw [a11]; exact pay18_apply _
  · intro k hk
    have hk' : k < k0_t1_loop.trips := by rw [trips_eq]; exact hk
    show a11 x2 (k + 1) (ix2 r u) = _
    rw [a11, dif_pos hk', pay12_apply]
    congr 1
    refine Finset.sum_congr rfl fun v _ => ?_
    rw [pay6_ld]

theorem a12_four (r : Fin 1152) (u : Fin 1) :
    a12 x1 x3 4 (ix2 r u)
      = ∑ t : Fin 2048, wgt r (x1 (ix3 (0 : Fin 1) (0 : Fin 1) t)) * x3 (ix3 (0 : Fin 1) (0 : Fin 1) t) := by
  refine Cert.Buckets.acc_four (fun t => wgt r (x1 (ix3 (0 : Fin 1) (0 : Fin 1) t)) * x3 (ix3 (0 : Fin 1) (0 : Fin 1) t))
    (fun k => a12 x1 x3 k (ix2 r u)) ?_ ?_
  · show a12 x1 x3 0 (ix2 r u) = 0
    rw [a12]; exact pay19_apply _
  · intro k hk
    have hk' : k < k0_t1_loop.trips := by rw [trips_eq]; exact hk
    show a12 x1 x3 (k + 1) (ix2 r u) = _
    rw [a12, dif_pos hk', pay13_apply]
    congr 1
    refine Finset.sum_congr rfl fun v _ => ?_
    rw [pay5_ld, pay4_ld]

theorem a13_four (r : Fin 1152) (u : Fin 1) :
    a13 x1 x3 4 (ix2 r u)
      = ∑ t : Fin 2048, wgt r (x1 (ix3 (0 : Fin 1) (0 : Fin 1) t))
          * (x3 (ix3 (0 : Fin 1) (0 : Fin 1) t) * x3 (ix3 (0 : Fin 1) (0 : Fin 1) t)) := by
  refine Cert.Buckets.acc_four
    (fun t => wgt r (x1 (ix3 (0 : Fin 1) (0 : Fin 1) t)) * (x3 (ix3 (0 : Fin 1) (0 : Fin 1) t) * x3 (ix3 (0 : Fin 1) (0 : Fin 1) t)))
    (fun k => a13 x1 x3 k (ix2 r u)) ?_ ?_
  · show a13 x1 x3 0 (ix2 r u) = 0
    rw [a13]; exact pay20_apply _
  · intro k hk
    have hk' : k < k0_t1_loop.trips := by rw [trips_eq]; exact hk
    show a13 x1 x3 (k + 1) (ix2 r u) = _
    rw [a13, dif_pos hk', pay21_eq, pay14_apply]
    congr 1
    refine Finset.sum_congr rfl fun v _ => ?_
    rw [pay5_ld, pay4_ld]

end Cert.KernelIdeal.KVal

end
-- ==== Proof.LibBroadcastRowCol.lean ====
/-
  A column broadcast read at an index.

  An array with `a` rows and ONE column, broadcast to `a` rows and `b` columns, holds at entry (p, c) the operand's
  entry (p, 0): every column of the result is the operand's one column. This is the keepdims column form of a
  broadcast; the companion row form (one row broadcast over many, entry (p, c) is the operand's (0, c)) is the
  library's `broadcastTo_1b_ab_apply`. Both are instances of `broadcastTo_apply`: on an axis where the operand's
  extent is 1 the operand's coordinate is 0, elsewhere it is the result's coordinate.
-/
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KEpi.lean ====
/-
  What the kernel leaves in its three one-element output blocks, read off the six accumulators.

  After the chunk loop the body holds, per table row `r`: the count `cnt r`, the representatives' count `rcnt r`,
  the attention sum `asum r` and sum of squares `a2sum r`, and the two feature sums `fm r d`, `rm r d`.  It then forms
    * the row's mean squared difference of the two mean feature rows (each sum over its count, or over one for an empty
      row), averaged over the 512 features, times the 0/1 factor "both counts are positive", summed over the rows;
    * the sum over the rows of that 0/1 factor;
    * the row's clamped variance `max (a2sum / n - (asum / n)², 0)` times "the count is positive", summed over the rows.
-/
import proofs.«141693_j33234456937041_2_alg».proof.Proof.KPay
import proofs.«141693_j33234456937041_2_alg».proof.Proof.LibBroadcastRowCol
import Idealize.ShloMosaic.Lib.IdealHost

noncomputable section

namespace Cert.KernelIdeal.KVal

open Idealize.ShloMosaic Idealize.ShloMosaic.ValueIdx Cert.KernelIdeal Cert.KernelIdeal.Gen

/-- The test "greater than zero" of an extended real, widened to a 32-bit integer and read signed, is 1 or 0. -/
theorem pos_word_toReal (y : EReal) :
    (((((Ideal.cmp .ogt y 0).setWidth 32).toInt : ℤ) : ℝ) : EReal) = if 0 < y then 1 else 0 := by
  by_cases h : (0 : EReal) < y
  · simp [Ideal.cmp, h]
  · simp [Ideal.cmp, h]

/-- The sum over the rows of a `[1152, 1]` column, read at its one index. -/
theorem colsum_apply (src : FVec Ideal S1152x1 .f32) (h : S1152x1.Reduces [0] S1) (hφ : FKind.Formats .f32)
    (hacc : (0x00000000#32 : BitVec 32) = FKind.add.neutral .f32 hφ) (u : Fin 1) :
    multiReduction .add [0] S1 src 0x00000000#32 h hφ hacc (ix1 u) = ∑ r : Fin 1152, src (ix2 r (0 : Fin 1)) := by
  refine (Ideal.multiReduction_add_single src 0x00000000#32 h hφ hacc (ix1 u)).trans ?_
  refine Finset.sum_congr rfl fun r _ => congrArg src ?_
  funext ax
  apply Fin.ext
  match ax with
  | ⟨0, _⟩ => rfl
  | ⟨1, _⟩ => show u.val = 0; omega

/-- The divisor of a row: its count, or one when the row is empty. -/
theorem pay22_apply (v26 : Vec Ideal S1152x1 .f32) (r : Fin 1152) (u : Fin 1) :
    k0_pay22 (F := Ideal) v26 (ix2 r u) = max (v26 (ix2 r u)) 1 := by
  unfold k0_pay22
  rw [maximumf_apply, broadcast_apply]
  show max _ (Ideal.ofBits .f32 0x3F800000#32) = _
  rw [Ideal.ofBits_one_f32]

/-- "The count is positive" as one or zero. -/
theorem pay23_apply (v26 : Vec Ideal S1152x1 .f32) (r : Fin 1152) (u : Fin 1) :
    k0_pay23 (F := Ideal) v26 (ix2 r u) = if 0 < v26 (ix2 r u) then 1 else 0 := by
  unfold k0_pay23
  rw [sitofp_apply, extui_apply, cmpf_apply, broadcast_apply]
  show (((((Ideal.cmp .ogt (v26 (ix2 r u)) (Ideal.ofBits .f32 0x00000000#32)).setWidth 32).toInt : ℤ) : ℝ) : EReal) = _
  rw [Ideal.ofBits_zero_f32]
  exact pos_word_toReal _

/-- "Both counts are positive" as one or zero. -/
theorem pay24_apply (v26 v27 : Vec Ideal S1152x1 .f32) (r : Fin 1152) (u : Fin 1) :
    k0_pay24 (F := Ideal) v26 v27 (ix2 r u)
      = (if 0 < v26 (ix2 r u) then 1 else 0) * (if 0 < v27 (ix2 r u) then 1 else 0) := by
  unfold k0_pay24
  rw [mulf_apply, pay23_apply, sitofp_apply, extui_apply, cmpf_apply, broadcast_apply]
  congr 1
  show (((((Ideal.cmp .ogt (v27 (ix2 r u)) (Ideal.ofBits .f32 0x00000000#32)).setWidth 32).toInt : ℤ) : ℝ) : EReal) = _
  rw [Ideal.ofBits_zero_f32]
  exact pos_word_toReal _

/-- The difference of a row's two mean feature values at feature `d`. -/
def dmeanOf (cnt rcnt : Vec Ideal S1152x1 .f32) (fm rm : Vec Ideal S1152x512 .f32) (r : Fin 1152) (d : Fin 512) : EReal :=
  Ideal.div (fm (ix2 r d)) (max (cnt (ix2 r (0 : Fin 1))) 1) - Ideal.div (rm (ix2 r d)) (max (rcnt (ix2 r (0 : Fin 1))) 1)

/-- First output: the rows' mean squared differences, each times its 0/1 factor, summed. -/
theorem pay25_apply (v26 v27 : Vec Ideal S1152x1 .f32) (v34 v37 : Vec Ideal S1152x512 .f32) (u w : Fin 1) :
    k0_pay25 (F := Ideal) v26 v27 v34 v37 (ix2 u w)
      = ∑ r : Fin 1152, Ideal.div (∑ d : Fin 512, dmeanOf v26 v27 v34 v37 r d * dmeanOf v26 v27 v34 v37 r d)
            (Ideal.ofBits .f32 0x44000000#32)
          * ((if 0 < v26 (ix2 r (0 : Fin 1)) then 1 else 0) * (if 0 < v27 (ix2 r (0 : Fin 1)) then 1 else 0)) := by
  unfold k0_pay25
  refine (shapeCast_a_1a_apply _ _ u w).trans ?_
  refine (colsum_apply _ _ _ _ w).trans ?_
  refine Finset.sum_congr rfl fun r _ => ?_
  rw [mulf_apply, pay24_apply, divf_apply, broadcast_apply]
  congr 1
  congr 1
  refine (shapeCast_a_a1_apply _ _ r (0 : Fin 1)).trans ?_
  refine (rowsum_apply _ _ _ _ r).trans ?_
  refine Finset.sum_congr rfl fun d _ => ?_
  have e : ∀ d : Fin 512,
      subf (divf v34 (broadcastTo S1152x512 (k0_pay22 (F := Ideal) v26) broadcasts_S1152x1_S1152x512))
        (divf v37 (broadcastTo S1152x512
          (maximumf v27 (broadcast S1152x1 (Scalar.ofBits (F := Ideal) .f32 0x3F800000#32))) broadcasts_S1152x1_S1152x512))
        (ix2 r d) = dmeanOf v26 v27 v34 v37 r d := by
    intro d
    unfold dmeanOf
    rw [subf_apply, divf_apply, divf_apply, broadcastTo_a1_ab_apply, broadcastTo_a1_ab_apply, pay22_apply,
      maximumf_apply, broadcast_apply]
    show _ - Ideal.div _ (max _ (Ideal.ofBits .f32 0x3F800000#32)) = _
    rw [Ideal.ofBits_one_f32]
  rw [mulf_apply]
  exact congrArg₂ (· * ·) (e d) (e d)

/-- Second output: the number of rows whose two counts are both positive. -/
theorem pay26_apply (v26 v27 : Vec Ideal S1152x1 .f32) (u w : Fin 1) :
    k0_pay26 (F := Ideal) v26 v27 (ix2 u w)
      = ∑ r : Fin 1152, (if 0 < v26 (ix2 r (0 : Fin 1)) then 1 else 0) * (if 0 < v27 (ix2 r (0 : Fin 1)) then 1 else 0) := by
  unfold k0_pay26
  refine (shapeCast_a_1a_apply _ _ u w).trans ?_
  refine (colsum_apply _ _ _ _ w).trans ?_
  exact Finset.sum_congr rfl fun r _ => pay24_apply v26 v27 r 0

/-- Third output: the rows' clamped variances, each times "the count is positive", summed. -/
theorem pay27_apply (v26 v28 v29 : Vec Ideal S1152x1 .f32) (u : Fin 1) :
    k0_pay27 (F := Ideal) v26 v28 v29 (ix1 u)
      = ∑ r : Fin 1152,
          max (Ideal.div (v29 (ix2 r (0 : Fin 1))) (max (v26 (ix2 r (0 : Fin 1))) 1)
                - Ideal.div (v28 (ix2 r (0 : Fin 1))) (max (v26 (ix2 r (0 : Fin 1))) 1)
                  * Ideal.div (v28 (ix2 r (0 : Fin 1))) (max (v26 (ix2 r (0 : Fin 1))) 1)) 0
            * (if 0 < v26 (ix2 r (0 : Fin 1)) then 1 else 0) := by
  unfold k0_pay27
  refine (colsum_apply _ _ _ _ u).trans ?_
  refine Finset.sum_congr rfl fun r _ => ?_
  rw [mulf_apply, pay23_apply, maximumf_apply, broadcast_apply, subf_apply, mulf_apply, divf_apply, divf_apply, pay22_apply]
  show max _ (Ideal.ofBits .f32 0x00000000#32) * _ = _
  rw [Ideal.ofBits_zero_f32]

/-- The three stores add unit axes: each output block's one element is the value above. -/
theorem pay1_apply (v57 : FVec Ideal S1x1 .f32) (i : S1x1x1.Idx) : k0_pay1 (F := Ideal) v57 i = v57 (ix2 (0 : Fin 1) (0 : Fin 1)) := by
  unfold k0_pay1
  refine shapeCast_apply v57 _ i _ ?_
  rw [Shape.rowMajor_val_two, Shape.rowMajor_val_three]
  have h0 : (i 0).val < 1 := (i 0).isLt
  have h1 : (i 1).val < 1 := (i 1).isLt
  have h2 : (i 2).val < 1 := (i 2).isLt
  show 0 * 1 + 0 = ((i 0).val * 1 + (i 1).val) * 1 + (i 2).val
  omega
theorem pay2_apply (v59 : FVec Ideal S1x1 .f32) (i : S1x1x1.Idx) : k0_pay2 (F := Ideal) v59 i = v59 (ix2 (0 : Fin 1) (0 : Fin 1)) := by
  unfold k0_pay2
  refine shapeCast_apply v59 _ i _ ?_
  rw [Shape.rowMajor_val_two, Shape.rowMajor_val_three]
  have h0 : (i 0).val < 1 := (i 0).isLt
  have h1 : (i 1).val < 1 := (i 1).isLt
  have h2 : (i 2).val < 1 := (i 2).isLt
  show 0 * 1 + 0 = ((i 0).val * 1 + (i 1).val) * 1 + (i 2).val
  omega
theorem pay3_apply (v67 : FVec Ideal S1 .f32) (i : S1x1x1.Idx) : k0_pay3 (F := Ideal) v67 i = v67 (ix1 (0 : Fin 1)) := by
  unfold k0_pay3
  refine (shapeCast_apply _ _ i (ix2 (0 : Fin 1) (0 : Fin 1)) ?_).trans (shapeCast_a_1a_apply v67 _ 0 0)
  rw [Shape.rowMajor_val_two, Shape.rowMajor_val_three]
  have h0 : (i 0).val < 1 := (i 0).isLt
  have h1 : (i 1).val < 1 := (i 1).isLt
  have h2 : (i 2).val < 1 := (i 2).isLt
  show 0 * 1 + 0 = ((i 0).val * 1 + (i 1).val) * 1 + (i 2).val
  omega

end Cert.KernelIdeal.KVal

end
-- ==== Proof.KPoint.lean ====
/-
  One grid point, against the specification.

  At the point of sequence `b` the kernel's four input blocks hold the sequence's feature rows, its two columns of bucket
  words and its attention values.  A bucket word is the step's run number where the step belongs (to a run, or to a run's
  representatives) and the sentinel 1152 elsewhere; since run numbers stay below 1024 and the table has 1152 rows, "row
  `r`'s number equals the word" says exactly "the step belongs to run `r`".  So the six accumulated sums are the
  specification's six sums of run `r`, and the three outputs are its per-sequence numerator, count and attention term.
-/
import proofs.«141693_j33234456937041_2_alg».proof.Proof.KAcc
import proofs.«141693_j33234456937041_2_alg».proof.Proof.KEpi
import proofs.«141693_j33234456937041_2_alg».proof.Proof.Spec
import proofs.«141693_j33234456937041_2_alg».proof.Proof.LibRunWords

set_option maxRecDepth 16384

noncomputable section

namespace Cert.KernelIdeal.KVal

open Idealize.ShloMosaic Idealize.ShloMosaic.ValueIdx Cert.KernelIdeal Cert.KernelIdeal.Gen Cert.KernelIdeal.Body
open RunLength RunWords

variable (a : Fin 32 → Fin 2048 → EReal) (x : Fin 32 → Fin 2048 → Fin 512 → EReal) (b : Fin 32)
variable (x0 : Vec Ideal S1x2048x512 .f32) (x1 x2 : Vec Ideal S1x1x2048 .i32) (x3 : Vec Ideal S1x1x2048 .f32)

/-- The bucket word of a step: its run number where the mask holds, the sentinel elsewhere. -/
def colWord (p : Bool) (k : ℕ) : BitVec 32 := if p = true then BitVec.ofNat 32 k - 1#32 else 1152#32

theorem rank_le (t : Fin 2048) : Spec.rank a b t ≤ 1024 := csumFin_le_1024 (Spec.P a b) (le_refl 2048) t

theorem rank_pos_of_P (t : Fin 2048) (h : Spec.P a b t = true) : 1 ≤ Spec.rank a b t :=
  csumFin_pos (Spec.P a b) t (Or.inl h)

theorem rank_pos_of_M (t : Fin 2048) (h : Spec.M a b t = true) : 1 ≤ Spec.rank a b t := by
  unfold Spec.M at h
  rw [Bool.and_eq_true, Bool.or_eq_true] at h
  exact csumFin_pos (Spec.P a b) t h.2

/-- Row `r`'s weight at a step in a proposal's column: one exactly when the step belongs to run `r`. -/
theorem wgt_P (r : Fin 1152) (t : Fin 2048) :
    wgt r (colWord (Spec.P a b t) (Spec.rank a b t)) = Spec.ind (Spec.In a b r.val t) := by
  unfold wgt colWord Spec.ind Spec.In
  exact if_congr (onehot_iff r.val _ r.isLt (rank_le a b t) _ (rank_pos_of_P a b t)) rfl rfl

/-- The same in the representatives' column. -/
theorem wgt_M (r : Fin 1152) (t : Fin 2048) :
    wgt r (colWord (Spec.M a b t) (Spec.rank a b t)) = Spec.ind (Spec.InRep a b r.val t) := by
  unfold wgt colWord Spec.ind Spec.InRep
  exact if_congr (onehot_iff r.val _ r.isLt (rank_le a b t) _ (rank_pos_of_M a b t)) rfl rfl

section Point
variable (h0 : ∀ (t : Fin 2048) (d : Fin 512), x0 (ix3 (0 : Fin 1) t d) = x b t d)
variable (h1 : ∀ t : Fin 2048, x1 (ix3 (0 : Fin 1) (0 : Fin 1) t) = colWord (Spec.P a b t) (Spec.rank a b t))
variable (h2 : ∀ t : Fin 2048, x2 (ix3 (0 : Fin 1) (0 : Fin 1) t) = colWord (Spec.M a b t) (Spec.rank a b t))
variable (h3 : ∀ t : Fin 2048, x3 (ix3 (0 : Fin 1) (0 : Fin 1) t) = a b t)

include h1 in
theorem cnt_eq (r : Fin 1152) (u : Fin 1) : a10 x1 4 (ix2 r u) = Spec.cnt a b r.val := by
  rw [a10_four]; unfold Spec.cnt
  exact Finset.sum_congr rfl fun t _ => by rw [h1, wgt_P]

include h2 in
theorem rcnt_eq (r : Fin 1152) (u : Fin 1) : a11 x2 4 (ix2 r u) = Spec.rcnt a b r.val := by
  rw [a11_four]; unfold Spec.rcnt
  exact Finset.sum_congr rfl fun t _ => by rw [h2, wgt_M]

include h1 h3 in
theorem asum_eq (r : Fin 1152) (u : Fin 1) : a12 x1 x3 4 (ix2 r u) = Spec.asum a b r.val := by
  rw [a12_four]; unfold Spec.asum
  exact Finset.sum_congr rfl fun t _ => by rw [h1, h3, wgt_P]

include h1 h3 in
theorem a2sum_eq (r : Fin 1152) (u : Fin 1) : a13 x1 x3 4 (ix2 r u) = Spec.a2sum a b r.val := by
  rw [a13_four]; unfold Spec.a2sum
  exact Finset.sum_congr rfl fun t _ => by rw [h1, h3, wgt_P]

include h0 h1 in
theorem fm_eq (r : Fin 1152) (d : Fin 512) : a8 x0 x1 4 (ix2 r d) = Spec.fm a x b r.val d := by
  rw [a8_four]; unfold Spec.fm
  exact Finset.sum_congr rfl fun t _ => by rw [h1, h0, wgt_P]

include h0 h2 in
theorem rm_eq (r : Fin 1152) (d : Fin 512) : a9 x0 x2 4 (ix2 r d) = Spec.rm a x b r.val d := by
  rw [a9_four]; unfold Spec.rm
  exact Finset.sum_congr rfl fun t _ => by rw [h2, h0, wgt_M]

include h0 h1 h2 in
/-- The first output is the sequence's feature numerator. -/
theorem out4_eq_numK (i : S1x1x1.Idx) : out4 x0 x1 x2 x3 i = Spec.numK a x b := by
  unfold out4
  rw [pay1_apply, pay25_apply]
  unfold Spec.numK
  refine Finset.sum_congr rfl fun r _ => ?_
  have hd : ∀ d : Fin 512, dmeanOf (a10 x1 4) (a11 x2 4) (a8 x0 x1 4) (a9 x0 x2 4) r d = Spec.dmean a x b r.val d := by
    intro d
    unfold dmeanOf Spec.dmean Spec.scnt Spec.srcnt
    rw [cnt_eq a b x1 h1, rcnt_eq a b x2 h2, fm_eq a x b x0 x1 h0 h1, rm_eq a x b x0 x2 h0 h2]
  unfold Spec.mse Spec.qualK Spec.posI
  rw [cnt_eq a b x1 h1, rcnt_eq a b x2 h2]
  congr 2
  exact Finset.sum_congr rfl fun d _ => by rw [hd d]

include h1 h2 in
/-- The second output is the sequence's number of qualifying runs. -/
theorem out5_eq_denK (i : S1x1x1.Idx) : out5 x0 x1 x2 x3 i = Spec.denK a b := by
  unfold out5
  rw [pay2_apply, pay26_apply]
  unfold Spec.denK Spec.qualK Spec.posI
  exact Finset.sum_congr rfl fun r _ => by rw [cnt_eq a b x1 h1, rcnt_eq a b x2 h2]

include h1 h3 in
/-- The third output is the sequence's attention term. -/
theorem out6_eq_attK (i : S1x1x1.Idx) : out6 x0 x1 x2 x3 i = Spec.attK a b := by
  unfold out6
  rw [pay3_apply, pay27_apply]
  unfold Spec.attK Spec.varK Spec.mean Spec.scnt Spec.posI
  exact Finset.sum_congr rfl fun r _ => by
    rw [cnt_eq a b x1 h1, asum_eq a b x1 x3 h1 h3, a2sum_eq a b x1 x3 h1 h3]

end Point

end Cert.KernelIdeal.KVal

end
-- ==== Proof.KTail.lean ====
/-
  The host lines after the kernel: from the three `[32, 1, 1]` output arrays (per sequence: the feature numerator, the
  number of qualifying runs, the attention numerator) and the per-sequence number of runs as a float, the loss is
      1 · (Σ numerators / max (Σ qualifying, 1))  +  1 · ((Σ_b attention_b / max (runs_b, 1)) / 32).
-/
import proofs.«141693_j33234456937041_2_alg».proof.Proof.Gen.KernelIdeal.Frame
import Idealize.ShloMosaic.Lib.StableHlo.Run
import Idealize.ShloMosaic.Lib.IdealHost
import Idealize.ShloMosaic.Lib.ValueIdx
import Idealize.ShloMosaic.Lib.ValueLayout
import Idealize.ShloMosaic.PureOps.Ideal.Laws

set_option maxRecDepth 16384
set_option maxHeartbeats 1000000

noncomputable section

namespace Cert.KernelIdeal.KTail

open Idealize.ShloMosaic Idealize.ShloMosaic.TcCoe Idealize.SL.Sem Idealize.ShloMosaic.StableHlo Idealize.ShloMosaic.ValueIdx
open Cert.KernelIdeal Cert.KernelIdeal.Gen
open Idealize.ShloMosaic.Pipeline (Dat)

/-- The lines after the kernel as one function of the three output arrays and the float run counts. -/
def tail (o4 o5 o6 : FVec Ideal S32x1x1 .f32) (nf : FVec Ideal S32 .f32) : FVec Ideal S_ .f32 :=
  addf
    (mulf (constant (F := Ideal) S_ .f32 0x3F800000#32)
      (Host.divf (F := Ideal)
        (Host.reduceAdd (F := Ideal) o4 (constant (F := Ideal) S_ .f32 0x00000000#32) reducesTo_S32x1x1_S_d0_1_2 h_S_)
        (maximumf
          (Host.reduceAdd (F := Ideal) o5 (constant (F := Ideal) S_ .f32 0x00000000#32) reducesTo_S32x1x1_S_d0_1_2 h_S_)
          (constant (F := Ideal) S_ .f32 0x3F800000#32))))
    (mulf (constant (F := Ideal) S_ .f32 0x3F800000#32)
      (Host.divf (F := Ideal)
        (Host.reduceAdd (F := Ideal)
          (Host.divf (F := Ideal) (fun i => shapeCast S32 o6 shapeCasts_S32x1x1_S32 i)
            (maximumf nf (broadcastInDim S32 ![] bcast_S_S32 (constant (F := Ideal) S_ .f32 0x3F800000#32))))
          (constant (F := Ideal) S_ .f32 0x00000000#32) reducesTo_S32_S_d0 h_S_)
        (constant (F := Ideal) S_ .f32 0x42000000#32)))

variable (m : (ℓ : Loc nD τ sig) → Buf (Elt Ideal) ℓ)

/-- What the result buffer holds after the lines following the kernel: the tail of the three output arrays as the
    kernel left them and of the run counts computed before the kernel. -/
theorem afterTail_v36 (dats : (p : Fin 1) → (c : Dev nD) → Dat τ (Elt Ideal) Unit ℕ (UR sig nD τ) ℕ (cfgs p) c) (c : Dev nD) :
    Pipeline.afterTail₀ cfgs dats 0 (Gen.V0 m) [Gen.hostOps1] c main_v36
      = tail ((dats 0 c).arrAt 4 cfg0.N) ((dats 0 c).arrAt 5 cfg0.N) ((dats 0 c).arrAt 6 cfg0.N) (Gen.V m c main_v13) := by
  unfold Pipeline.afterTail₀
  show StableHlo.after Gen.hostOps1 _ (Proc.devRef .tc main_v36) = _
  simp only [Gen.hostOps1]
  after_results_simp
  have e4 := Pipeline.withArrays_arr spec0 launch0.win.arr_inj c (Gen.V0 m c) (fun w => (dats 0 c).arrAt w (cfgs 0).N) 4
  have e5 := Pipeline.withArrays_arr spec0 launch0.win.arr_inj c (Gen.V0 m c) (fun w => (dats 0 c).arrAt w (cfgs 0).N) 5
  have e6 := Pipeline.withArrays_arr spec0 launch0.win.arr_inj c (Gen.V0 m c) (fun w => (dats 0 c).arrAt w (cfgs 0).N) 6
  have e13 := Pipeline.withArrays_of_ne spec0 c (Gen.V0 m c) (fun w => (dats 0 c).arrAt w (cfgs 0).N) main_v13
    (by exact (by decide : ∀ w, Pipeline.arrRef spec0 w ≠ main_v13))
  have e4' : Pipeline.withArrays (cfgs 0).spec c (Gen.V0 m c) (fun w => (dats 0 c).arrAt w (cfgs 0).N) (Proc.devRef .tc main_v23_0)
      = (dats 0 c).arrAt 4 cfg0.N := e4
  have e5' : Pipeline.withArrays (cfgs 0).spec c (Gen.V0 m c) (fun w => (dats 0 c).arrAt w (cfgs 0).N) (Proc.devRef .tc main_v23_1)
      = (dats 0 c).arrAt 5 cfg0.N := e5
  have e6' : Pipeline.withArrays (cfgs 0).spec c (Gen.V0 m c) (fun w => (dats 0 c).arrAt w (cfgs 0).N) (Proc.devRef .tc main_v23_2)
      = (dats 0 c).arrAt 6 cfg0.N := e6
  have e13' : Pipeline.withArrays (cfgs 0).spec c (Gen.V0 m c) (fun w => (dats 0 c).arrAt w (cfgs 0).N) (Proc.devRef .tc main_v13)
      = Gen.V m c main_v13 := e13
  rw [e4', e5', e6', e13']
  rfl

/-- A sum over the indices of a `[32, 1, 1]` array is the sum over its first coordinate. -/
theorem sum_idx_b11 {M : Type*} [AddCommMonoid M] (f : S32x1x1.Idx → M) :
    ∑ i, f i = ∑ b : Fin 32, f (ix3 b (0 : Fin 1) (0 : Fin 1)) := by
  refine Fintype.sum_equiv ⟨fun i => i 0, fun b => ix3 b (0 : Fin 1) (0 : Fin 1), fun i => ?_, fun b => rfl⟩ _ _ fun i => ?_
  · funext a
    apply Fin.ext
    match a with
    | ⟨0, _⟩ => rfl
    | ⟨1, _⟩ => show (0 : ℕ) = (i 1).val; have h : (i 1).val < 1 := (i 1).isLt; omega
    | ⟨2, _⟩ => show (0 : ℕ) = (i 2).val; have h : (i 2).val < 1 := (i 2).isLt; omega
  · show f i = f (ix3 (i 0) (0 : Fin 1) (0 : Fin 1))
    congr 1
    funext a
    apply Fin.ext
    match a with
    | ⟨0, _⟩ => rfl
    | ⟨1, _⟩ => show (i 1).val = 0; have h : (i 1).val < 1 := (i 1).isLt; omega
    | ⟨2, _⟩ => show (i 2).val = 0; have h : (i 2).val < 1 := (i 2).isLt; omega

/-- A sum over the indices of a `[32]` array is the sum over its coordinate. -/
theorem sum_idx_b {M : Type*} [AddCommMonoid M] (f : S32.Idx → M) : ∑ i, f i = ∑ b : Fin 32, f (ix1 b) := by
  refine Fintype.sum_equiv ⟨fun i => i 0, fun b => ix1 b, fun i => (eq_ix1 i).symm, fun b => rfl⟩ _ _ fun i => ?_
  exact congrArg f (eq_ix1 i)

/-- The tail's one value: the two quotients, each times one, added. -/
theorem tail_apply (o4 o5 o6 : FVec Ideal S32x1x1 .f32) (nf : FVec Ideal S32 .f32) :
    tail o4 o5 o6 nf ix0
      = 1 * Ideal.div (∑ b : Fin 32, o4 (ix3 b (0 : Fin 1) (0 : Fin 1))) (max (∑ b : Fin 32, o5 (ix3 b (0 : Fin 1) (0 : Fin 1))) 1)
        + 1 * Ideal.div (∑ b : Fin 32, Ideal.div (o6 (ix3 b (0 : Fin 1) (0 : Fin 1))) (max (nf (ix1 b)) 1))
            (Ideal.ofBits .f32 0x42000000#32) := by
  unfold tail
  rw [addf_apply, mulf_apply, mulf_apply, constant_apply, Ideal.ofBits_one_f32]
  have hz : constant (F := Ideal) S_ .f32 0x00000000#32 (Shape.Idx.first h_S_) = 0 := by
    rw [constant_apply]; exact Ideal.ofBits_zero_f32
  have r4 : ∀ o : FVec Ideal S32x1x1 .f32,
      Host.reduceAdd (F := Ideal) o (constant (F := Ideal) S_ .f32 0x00000000#32) reducesTo_S32x1x1_S_d0_1_2 h_S_ ix0
        = ∑ b : Fin 32, o (ix3 b (0 : Fin 1) (0 : Fin 1)) := by
    intro o
    show Ideal.hostReduceAdd reducesTo_S32x1x1_S_d0_1_2 o _ ix0 = _
    rw [Ideal.hostReduceAdd_total _ (fun b => b.elim0), hz, zero_add, sum_idx_b11]
  have r1 : ∀ o : FVec Ideal S32 .f32,
      Host.reduceAdd (F := Ideal) o (constant (F := Ideal) S_ .f32 0x00000000#32) reducesTo_S32_S_d0 h_S_ ix0
        = ∑ b : Fin 32, o (ix1 b) := by
    intro o
    show Ideal.hostReduceAdd reducesTo_S32_S_d0 o _ ix0 = _
    rw [Ideal.hostReduceAdd_total _ (fun b => b.elim0), hz, zero_add, sum_idx_b]
  show 1 * Ideal.div _ (max _ _) + 1 * Ideal.div _ _ = _
  rw [r4, r4, r1, constant_apply, Ideal.ofBits_one_f32, constant_apply]
  congr 2
  congr 1
  refine Finset.sum_congr rfl fun b _ => ?_
  show Ideal.div (shapeCast S32 o6 shapeCasts_S32x1x1_S32 (ix1 b)) (max (nf (ix1 b)) _) = _
  congr 1
  · refine shapeCast_apply o6 _ _ _ ?_
    rw [Shape.rowMajor_val_three, Shape.rowMajor_val_one]
    show (b.val * 1 + 0) * 1 + 0 = b.val
    omega
  · congr 1
    refine (broadcastInDim_apply ![] _ _ (ix1 b) ix0 fun a => a.elim0).trans ?_
    rw [constant_apply, Ideal.ofBits_one_f32]

end Cert.KernelIdeal.KTail

end
-- ==== Proof.KRun.lean ====
/-
  The idealized kernel program's run, read back.

  Every execution ends; the result buffer then holds the host tail of the three output arrays and the float run counts.
  Output array `w` holds at `(b, 0, 0)` what the kernel body left at the point of sequence `b`; there the four input blocks
  are sequence `b`'s rows of the arrays the host lines before the kernel computed.  Put together, the result is the first
  arrangement of the specification's loss, of the two argument arrays.
-/
import proofs.«141693_j33234456937041_2_alg».proof.Proof.KBodyIdeal
import proofs.«141693_j33234456937041_2_alg».proof.Proof.KHostV
import proofs.«141693_j33234456937041_2_alg».proof.Proof.KPoint
import proofs.«141693_j33234456937041_2_alg».proof.Proof.KTail

set_option maxRecDepth 16384
set_option maxHeartbeats 1000000

noncomputable section

namespace Cert.KernelIdeal.KRun

open Idealize.ShloMosaic Idealize.ShloMosaic.TcCoe Idealize.SL.Sem Idealize.ShloMosaic.ValueIdx
open Cert.KernelIdeal Cert.KernelIdeal.Gen Cert.KernelIdeal.Body Cert.KernelIdeal.KVal
open Idealize.ShloMosaic.Pipeline (Dat)

variable (m : (ℓ : Loc nD τ sig) → Buf (Elt Ideal) ℓ) (ρ : Dev nD → PrngReg)

/-- The attention values and the feature rows, as the two argument arrays hold them on core `c`. -/
def aA (c : Dev nD) : Fin 32 → Fin 2048 → EReal := KHost.aOf (m ((c : Thread nD τ).loc main_arg0))
def xA (c : Dev nD) : Fin 32 → Fin 2048 → Fin 512 → EReal := fun b t d => m ((c : Thread nD τ).loc main_arg1) (ix3 b t d)

/-- The sequence a grid point works on. -/
def bOf (t : Fin cfg0.N) : Fin 32 := ⟨t.val, by have := t.isLt; have h : cfg0.N = 32 := N_0; omega⟩

/-- Every window's block index at point `t` is `(t, 0, 0)`: decided over the grid. -/
theorem idx_facts : ∀ t : Fin cfg0.N,
    win0_0.index t = ![t.val, 0, 0] ∧ win0_1.index t = ![t.val, 0, 0] ∧ win0_2.index t = ![t.val, 0, 0] ∧ win0_3.index t = ![t.val, 0, 0]
    ∧ win0_4.index t = ![t.val, 0, 0] ∧ win0_5.index t = ![t.val, 0, 0] ∧ win0_6.index t = ![t.val, 0, 0] :=
  (by decide +kernel : ∀ t : Fin grid0.N, _)

/-! ## The input blocks at a point -/

theorem iblk0_apply (c : Dev nD) (t : Fin cfg0.N) (u : Fin 2048) (d : Fin 512) :
    Gen.iblk m c 0 t (ix3 (0 : Fin 1) u d) = xA m c (bOf t) u d := by
  unfold Gen.iblk xA
  show Gen.V m c (Pipeline.arrRef spec0 0) (((cfg0.win 0).blk t).view.emb (ix3 (0 : Fin 1) u d)) = _
  rw [show Gen.V m c (Pipeline.arrRef spec0 0) = m ((c : Thread nD τ).loc main_arg1) from Gen.V_main_arg1 m c]
  refine congrArg _ (funext fun a => Fin.ext ?_)
  obtain ⟨e0, -⟩ := idx_facts t
  match a with
  | ⟨0, _⟩ => show win0_0.index t 0 * 1 + 1 * 0 = t.val; rw [e0]; show t.val * 1 + 1 * 0 = t.val; omega
  | ⟨1, _⟩ => show win0_0.index t 1 * 2048 + 1 * u.val = u.val; rw [e0]; show 0 * 2048 + 1 * u.val = u.val; omega
  | ⟨2, _⟩ => show win0_0.index t 2 * 512 + 1 * d.val = d.val; rw [e0]; show 0 * 512 + 1 * d.val = d.val; omega

theorem iblk1_apply (c : Dev nD) (t : Fin cfg0.N) (u : Fin 2048) :
    Gen.iblk m c 1 t (ix3 (0 : Fin 1) (0 : Fin 1) u) = colWord (Spec.P (aA m c) (bOf t) u) (Spec.rank (aA m c) (bOf t) u) := by
  unfold Gen.iblk
  show Gen.V m c (Pipeline.arrRef spec0 1) (((cfg0.win 1).blk t).view.emb (ix3 (0 : Fin 1) (0 : Fin 1) u)) = _
  rw [show Gen.V m c (Pipeline.arrRef spec0 1) = KHost.hW20 (m ((c : Thread nD τ).loc main_arg0)) from KHost.V_v20 m c]
  have e : ((cfg0.win 1).blk t).view.emb (ix3 (0 : Fin 1) (0 : Fin 1) u) = ix3 (bOf t) (0 : Fin 1) u := by
    funext a; apply Fin.ext
    obtain ⟨-, e1, -⟩ := idx_facts t
    match a with
    | ⟨0, _⟩ => show win0_1.index t 0 * 1 + 1 * 0 = t.val; rw [e1]; show t.val * 1 + 1 * 0 = t.val; omega
    | ⟨1, _⟩ => show win0_1.index t 1 * 1 + 1 * 0 = 0; rw [e1]; rfl
    | ⟨2, _⟩ => show win0_1.index t 2 * 2048 + 1 * u.val = u.val; rw [e1]; show 0 * 2048 + 1 * u.val = u.val; omega
  rw [e, KHost.hW20_apply, KHost.hColw_apply]
  rfl

theorem iblk2_apply (c : Dev nD) (t : Fin cfg0.N) (u : Fin 2048) :
    Gen.iblk m c 2 t (ix3 (0 : Fin 1) (0 : Fin 1) u) = colWord (Spec.M (aA m c) (bOf t) u) (Spec.rank (aA m c) (bOf t) u) := by
  unfold Gen.iblk
  show Gen.V m c (Pipeline.arrRef spec0 2) (((cfg0.win 2).blk t).view.emb (ix3 (0 : Fin 1) (0 : Fin 1) u)) = _
  rw [show Gen.V m c (Pipeline.arrRef spec0 2) = KHost.hW21 (m ((c : Thread nD τ).loc main_arg0)) from KHost.V_v21 m c]
  have e : ((cfg0.win 2).blk t).view.emb (ix3 (0 : Fin 1) (0 : Fin 1) u) = ix3 (bOf t) (0 : Fin 1) u := by
    funext a; apply Fin.ext
    obtain ⟨-, -, e2, -⟩ := idx_facts t
    match a with
    | ⟨0, _⟩ => show win0_2.index t 0 * 1 + 1 * 0 = t.val; rw [e2]; show t.val * 1 + 1 * 0 = t.val; omega
    | ⟨1, _⟩ => show win0_2.index t 1 * 1 + 1 * 0 = 0; rw [e2]; rfl
    | ⟨2, _⟩ => show win0_2.index t 2 * 2048 + 1 * u.val = u.val; rw [e2]; show 0 * 2048 + 1 * u.val = u.val; omega
  rw [e, KHost.hW21_apply, KHost.hColwr_apply]
  rfl

theorem iblk3_apply (c : Dev nD) (t : Fin cfg0.N) (u : Fin 2048) :
    Gen.iblk m c 3 t (ix3 (0 : Fin 1) (0 : Fin 1) u) = aA m c (bOf t) u := by
  unfold Gen.iblk
  show Gen.V m c (Pipeline.arrRef spec0 3) (((cfg0.win 3).blk t).view.emb (ix3 (0 : Fin 1) (0 : Fin 1) u)) = _
  rw [show Gen.V m c (Pipeline.arrRef spec0 3) = KHost.hW22 (m ((c : Thread nD τ).loc main_arg0)) from KHost.V_v22 m c]
  have e : ((cfg0.win 3).blk t).view.emb (ix3 (0 : Fin 1) (0 : Fin 1) u) = ix3 (bOf t) (0 : Fin 1) u := by
    funext a; apply Fin.ext
    obtain ⟨-, -, -, e3, -⟩ := idx_facts t
    match a with
    | ⟨0, _⟩ => show win0_3.index t 0 * 1 + 1 * 0 = t.val; rw [e3]; show t.val * 1 + 1 * 0 = t.val; omega
    | ⟨1, _⟩ => show win0_3.index t 1 * 1 + 1 * 0 = 0; rw [e3]; rfl
    | ⟨2, _⟩ => show win0_3.index t 2 * 2048 + 1 * u.val = u.val; rw [e3]; show 0 * 2048 + 1 * u.val = u.val; omega
  rw [e, KHost.hW22_apply]
  rfl

/-! ## What the body leaves at a point -/

theorem after4_apply (c : Dev nD) (t : Fin cfg0.N) (i : S1x1x1.Idx) :
    (dats m 0 c).after 4 t i = Spec.numK (aA m c) (xA m c) (bOf t) := by
  rw [dats_after4]
  exact out4_eq_numK (aA m c) (xA m c) (bOf t) _ _ _ _ (iblk0_apply m c t) (iblk1_apply m c t) (iblk2_apply m c t) i

theorem after5_apply (c : Dev nD) (t : Fin cfg0.N) (i : S1x1x1.Idx) :
    (dats m 0 c).after 5 t i = Spec.denK (aA m c) (bOf t) := by
  rw [dats_after5]
  exact out5_eq_denK (aA m c) (bOf t) _ _ _ _ (iblk1_apply m c t) (iblk2_apply m c t) i

theorem after6_apply (c : Dev nD) (t : Fin cfg0.N) (i : S1x1x1.Idx) :
    (dats m 0 c).after 6 t i = Spec.attK (aA m c) (bOf t) := by
  rw [dats_after6]
  exact out6_eq_attK (aA m c) (bOf t) _ _ _ _ (iblk1_apply m c t) (iblk3_apply m c t) i

end Cert.KernelIdeal.KRun

end
-- ==== Proof.KArr.lean ====
/-
  The three output arrays of the feature program after the run, entry by entry.

  Each output is a [32, 1, 1] array written through [1, 1, 1] blocks: point `t` of the 32-point grid
  owns block `(t, 0, 0)` and writes it back at every point.  If what the body leaves in the block at
  point `t` is one number `G t` (at the block's single place), then the blocks tile the array, the
  array ends holding `G b` at entry `(b, 0, 0)`: what point `t` writes back is block `t` of the
  whole-array function `i ↦ G (i 0)`, and entry `(b, 0, 0)` lies in the block of point `b`.
-/
import proofs.«141693_j33234456937041_2_alg».proof.Proof.KBodyIdeal
import Idealize.ShloMosaic.Lib.Pipeline.Value
import Idealize.ShloMosaic.Lib.ValueIdx

set_option maxRecDepth 16384
set_option maxHeartbeats 4000000

noncomputable section

namespace Cert.KernelIdeal.KArr

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- the block a grid point owns -/
def bOf (t : Fin cfg0.N) : Fin 32 := ⟨t.val, by have := t.isLt; have h : cfg0.N = 32 := N_0; omega⟩

/-! ## Output window 4 -/

/-- Window 4's block index at point `t` is `(t, 0, 0)`: decided over the grid. -/
theorem idx4 : ∀ t : Fin cfg0.N, win0_4.index t = ![t.val, 0, 0] :=
  (by decide +kernel : ∀ t : Fin grid0.N, win0_4.index t = ![t.val, 0, 0])

/-- WHAT POINT `t` WRITES BACK is block `t` of the array that holds `G b` at entry `(b, 0, 0)`. -/
theorem flushed4_eq (c : Dev nD) (G : Fin 32 → Elt F .f32)
    (h : ∀ (t : Fin cfg0.N) (i : S1x1x1.Idx), (dats m 0 c).after 4 t i = G (bOf t)) (t : Fin cfg0.N) :
    (dats m 0 c).flushed 4 t = ((cfg0.win 4).blk t).view.read (Elt F) (fun i : S32x1x1.Idx => G ⟨(i 0).val, (i 0).isLt⟩) := by
  funext j
  show (dats m 0 c).after 4 t ((cfg0.win 4).xinj (grid0.coords t) j) = G ⟨((((cfg0.win 4).blk t).view.emb j) 0).val, _⟩
  rw [h t]
  refine congrArg G (Fin.ext ?_)
  show t.val = win0_4.index t (0 : Fin 3) * 1 + 1 * (j 0).val
  have e0 : win0_4.index t (0 : Fin 3) = t.val := congrFun (idx4 t) 0
  have hj : (j 0).val < 1 := (j 0).isLt
  omega

/-- An entry of the array is in point `t`'s block iff each coordinate is in the block's range on its axis. -/
theorem mem_blk4 (t : Fin cfg0.N) (i : S32x1x1.Idx) :
    i ∈ ((cfg0.win 4).blk t).view.set ↔ ∀ a : Fin 3, win0_4.index t a * S1x1x1.size a ≤ (i a).val ∧ (i a).val < win0_4.index t a * S1x1x1.size a + S1x1x1.size a := by
  show i ∈ ((View.whole main_v23_0).slice (win0_4.rect t)).set ↔ _
  rw [View.set_slice_whole, Rect.mem_set_unit]
  exact Iff.rfl

/-- THE ARRAY after the run: `G b` at entry `(b, 0, 0)`. -/
theorem arr4_of (c : Dev nD) (G : Fin 32 → Elt F .f32)
    (h : ∀ (t : Fin cfg0.N) (i : S1x1x1.Idx), (dats m 0 c).after 4 t i = G (bOf t)) (b : Fin 32) :
    (dats m 0 c).arrAt 4 cfg0.N (ValueIdx.ix3 b (0 : Fin 1) (0 : Fin 1)) = G b := by
  have hb : b.val < cfg0.N := by have hN : cfg0.N = 32 := N_0; have := b.isLt; omega
  have hm : ValueIdx.ix3 b (0 : Fin 1) (0 : Fin 1) ∈ ((cfg0.win 4).blk ⟨b.val, hb⟩).view.set := by
    rw [mem_blk4]
    have e0 : win0_4.index ⟨b.val, hb⟩ (0 : Fin 3) = b.val := congrFun (idx4 ⟨b.val, hb⟩) 0
    have e1 : win0_4.index ⟨b.val, hb⟩ (1 : Fin 3) = 0 := congrFun (idx4 ⟨b.val, hb⟩) 1
    have e2 : win0_4.index ⟨b.val, hb⟩ (2 : Fin 3) = 0 := congrFun (idx4 ⟨b.val, hb⟩) 2
    intro a
    match a with
    | ⟨0, _⟩ => show win0_4.index ⟨b.val, hb⟩ (0 : Fin 3) * 1 ≤ b.val ∧ b.val < win0_4.index ⟨b.val, hb⟩ (0 : Fin 3) * 1 + 1; omega
    | ⟨1, _⟩ => show win0_4.index ⟨b.val, hb⟩ (1 : Fin 3) * 1 ≤ 0 ∧ 0 < win0_4.index ⟨b.val, hb⟩ (1 : Fin 3) * 1 + 1; omega
    | ⟨2, _⟩ => show win0_4.index ⟨b.val, hb⟩ (2 : Fin 3) * 1 ≤ 0 ∧ 0 < win0_4.index ⟨b.val, hb⟩ (2 : Fin 3) * 1 + 1; omega
  exact ((dats m 0 c).arrAt_apply_of_mem 4 (fun i : S32x1x1.Idx => G ⟨(i 0).val, (i 0).isLt⟩) (fun t _ => flushed4_eq m c G h t)
    cfg0.N ⟨b.val, hb⟩ (ValueIdx.ix3 b (0 : Fin 1) (0 : Fin 1)) hb (flush0_4 _) hm).trans (congrArg G (Fin.ext rfl))

/-! ## Output window 5 -/

/-- Window 5's block index at point `t` is `(t, 0, 0)`: decided over the grid. -/
theorem idx5 : ∀ t : Fin cfg0.N, win0_5.index t = ![t.val, 0, 0] :=
  (by decide +kernel : ∀ t : Fin grid0.N, win0_5.index t = ![t.val, 0, 0])

/-- WHAT POINT `t` WRITES BACK is block `t` of the array that holds `G b` at entry `(b, 0, 0)`. -/
theorem flushed5_eq (c : Dev nD) (G : Fin 32 → Elt F .f32)
    (h : ∀ (t : Fin cfg0.N) (i : S1x1x1.Idx), (dats m 0 c).after 5 t i = G (bOf t)) (t : Fin cfg0.N) :
    (dats m 0 c).flushed 5 t = ((cfg0.win 5).blk t).view.read (Elt F) (fun i : S32x1x1.Idx => G ⟨(i 0).val, (i 0).isLt⟩) := by
  funext j
  show (dats m 0 c).after 5 t ((cfg0.win 5).xinj (grid0.coords t) j) = G ⟨((((cfg0.win 5).blk t).view.emb j) 0).val, _⟩
  rw [h t]
  refine congrArg G (Fin.ext ?_)
  show t.val = win0_5.index t (0 : Fin 3) * 1 + 1 * (j 0).val
  have e0 : win0_5.index t (0 : Fin 3) = t.val := congrFun (idx5 t) 0
  have hj : (j 0).val < 1 := (j 0).isLt
  omega

/-- An entry of the array is in point `t`'s block iff each coordinate is in the block's range on its axis. -/
theorem mem_blk5 (t : Fin cfg0.N) (i : S32x1x1.Idx) :
    i ∈ ((cfg0.win 5).blk t).view.set ↔ ∀ a : Fin 3, win0_5.index t a * S1x1x1.size a ≤ (i a).val ∧ (i a).val < win0_5.index t a * S1x1x1.size a + S1x1x1.size a := by
  show i ∈ ((View.whole main_v23_1).slice (win0_5.rect t)).set ↔ _
  rw [View.set_slice_whole, Rect.mem_set_unit]
  exact Iff.rfl

/-- THE ARRAY after the run: `G b` at entry `(b, 0, 0)`. -/
theorem arr5_of (c : Dev nD) (G : Fin 32 → Elt F .f32)
    (h : ∀ (t : Fin cfg0.N) (i : S1x1x1.Idx), (dats m 0 c).after 5 t i = G (bOf t)) (b : Fin 32) :
    (dats m 0 c).arrAt 5 cfg0.N (ValueIdx.ix3 b (0 : Fin 1) (0 : Fin 1)) = G b := by
  have hb : b.val < cfg0.N := by have hN : cfg0.N = 32 := N_0; have := b.isLt; omega
  have hm : ValueIdx.ix3 b (0 : Fin 1) (0 : Fin 1) ∈ ((cfg0.win 5).blk ⟨b.val, hb⟩).view.set := by
    rw [mem_blk5]
    have e0 : win0_5.index ⟨b.val, hb⟩ (0 : Fin 3) = b.val := congrFun (idx5 ⟨b.val, hb⟩) 0
    have e1 : win0_5.index ⟨b.val, hb⟩ (1 : Fin 3) = 0 := congrFun (idx5 ⟨b.val, hb⟩) 1
    have e2 : win0_5.index ⟨b.val, hb⟩ (2 : Fin 3) = 0 := congrFun (idx5 ⟨b.val, hb⟩) 2
    intro a
    match a with
    | ⟨0, _⟩ => show win0_5.index ⟨b.val, hb⟩ (0 : Fin 3) * 1 ≤ b.val ∧ b.val < win0_5.index ⟨b.val, hb⟩ (0 : Fin 3) * 1 + 1; omega
    | ⟨1, _⟩ => show win0_5.index ⟨b.val, hb⟩ (1 : Fin 3) * 1 ≤ 0 ∧ 0 < win0_5.index ⟨b.val, hb⟩ (1 : Fin 3) * 1 + 1; omega
    | ⟨2, _⟩ => show win0_5.index ⟨b.val, hb⟩ (2 : Fin 3) * 1 ≤ 0 ∧ 0 < win0_5.index ⟨b.val, hb⟩ (2 : Fin 3) * 1 + 1; omega
  exact ((dats m 0 c).arrAt_apply_of_mem 5 (fun i : S32x1x1.Idx => G ⟨(i 0).val, (i 0).isLt⟩) (fun t _ => flushed5_eq m c G h t)
    cfg0.N ⟨b.val, hb⟩ (ValueIdx.ix3 b (0 : Fin 1) (0 : Fin 1)) hb (flush0_5 _) hm).trans (congrArg G (Fin.ext rfl))

/-! ## Output window 6 -/

/-- Window 6's block index at point `t` is `(t, 0, 0)`: decided over the grid. -/
theorem idx6 : ∀ t : Fin cfg0.N, win0_6.index t = ![t.val, 0, 0] :=
  (by decide +kernel : ∀ t : Fin grid0.N, win0_6.index t = ![t.val, 0, 0])

/-- WHAT POINT `t` WRITES BACK is block `t` of the array that holds `G b` at entry `(b, 0, 0)`. -/
theorem flushed6_eq (c : Dev nD) (G : Fin 32 → Elt F .f32)
    (h : ∀ (t : Fin cfg0.N) (i : S1x1x1.Idx), (dats m 0 c).after 6 t i = G (bOf t)) (t : Fin cfg0.N) :
    (dats m 0 c).flushed 6 t = ((cfg0.win 6).blk t).view.read (Elt F) (fun i : S32x1x1.Idx => G ⟨(i 0).val, (i 0).isLt⟩) := by
  funext j
  show (dats m 0 c).after 6 t ((cfg0.win 6).xinj (grid0.coords t) j) = G ⟨((((cfg0.win 6).blk t).view.emb j) 0).val, _⟩
  rw [h t]
  refine congrArg G (Fin.ext ?_)
  show t.val = win0_6.index t (0 : Fin 3) * 1 + 1 * (j 0).val
  have e0 : win0_6.index t (0 : Fin 3) = t.val := congrFun (idx6 t) 0
  have hj : (j 0).val < 1 := (j 0).isLt
  omega

/-- An entry of the array is in point `t`'s block iff each coordinate is in the block's range on its axis. -/
theorem mem_blk6 (t : Fin cfg0.N) (i : S32x1x1.Idx) :
    i ∈ ((cfg0.win 6).blk t).view.set ↔ ∀ a : Fin 3, win0_6.index t a * S1x1x1.size a ≤ (i a).val ∧ (i a).val < win0_6.index t a * S1x1x1.size a + S1x1x1.size a := by
  show i ∈ ((View.whole main_v23_2).slice (win0_6.rect t)).set ↔ _
  rw [View.set_slice_whole, Rect.mem_set_unit]
  exact Iff.rfl

/-- THE ARRAY after the run: `G b` at entry `(b, 0, 0)`. -/
theorem arr6_of (c : Dev nD) (G : Fin 32 → Elt F .f32)
    (h : ∀ (t : Fin cfg0.N) (i : S1x1x1.Idx), (dats m 0 c).after 6 t i = G (bOf t)) (b : Fin 32) :
    (dats m 0 c).arrAt 6 cfg0.N (ValueIdx.ix3 b (0 : Fin 1) (0 : Fin 1)) = G b := by
  have hb : b.val < cfg0.N := by have hN : cfg0.N = 32 := N_0; have := b.isLt; omega
  have hm : ValueIdx.ix3 b (0 : Fin 1) (0 : Fin 1) ∈ ((cfg0.win 6).blk ⟨b.val, hb⟩).view.set := by
    rw [mem_blk6]
    have e0 : win0_6.index ⟨b.val, hb⟩ (0 : Fin 3) = b.val := congrFun (idx6 ⟨b.val, hb⟩) 0
    have e1 : win0_6.index ⟨b.val, hb⟩ (1 : Fin 3) = 0 := congrFun (idx6 ⟨b.val, hb⟩) 1
    have e2 : win0_6.index ⟨b.val, hb⟩ (2 : Fin 3) = 0 := congrFun (idx6 ⟨b.val, hb⟩) 2
    intro a
    match a with
    | ⟨0, _⟩ => show win0_6.index ⟨b.val, hb⟩ (0 : Fin 3) * 1 ≤ b.val ∧ b.val < win0_6.index ⟨b.val, hb⟩ (0 : Fin 3) * 1 + 1; omega
    | ⟨1, _⟩ => show win0_6.index ⟨b.val, hb⟩ (1 : Fin 3) * 1 ≤ 0 ∧ 0 < win0_6.index ⟨b.val, hb⟩ (1 : Fin 3) * 1 + 1; omega
    | ⟨2, _⟩ => show win0_6.index ⟨b.val, hb⟩ (2 : Fin 3) * 1 ≤ 0 ∧ 0 < win0_6.index ⟨b.val, hb⟩ (2 : Fin 3) * 1 + 1; omega
  exact ((dats m 0 c).arrAt_apply_of_mem 6 (fun i : S32x1x1.Idx => G ⟨(i 0).val, (i 0).isLt⟩) (fun t _ => flushed6_eq m c G h t)
    cfg0.N ⟨b.val, hb⟩ (ValueIdx.ix3 b (0 : Fin 1) (0 : Fin 1)) hb (flush0_6 _) hm).trans (congrArg G (Fin.ext rfl))

end Cert.KernelIdeal.KArr
end
-- ==== Proof.KRunFinal.lean ====
/-
  The idealized kernel program's run, read back (the arrays and the result).
-/
import proofs.«141693_j33234456937041_2_alg».proof.Proof.KRun
import proofs.«141693_j33234456937041_2_alg».proof.Proof.KArr

set_option maxRecDepth 16384
set_option maxHeartbeats 1000000

noncomputable section

namespace Cert.KernelIdeal.KRun

open Idealize.ShloMosaic Idealize.ShloMosaic.TcCoe Idealize.SL.Sem Idealize.ShloMosaic.ValueIdx
open Cert.KernelIdeal Cert.KernelIdeal.Gen Cert.KernelIdeal.Body Cert.KernelIdeal.KVal
open Idealize.ShloMosaic.Pipeline (Dat)

variable (m : (ℓ : Loc nD τ sig) → Buf (Elt Ideal) ℓ) (ρ : Dev nD → PrngReg)

/-! ## The three output arrays after the run -/

theorem arr4 (c : Dev nD) (b : Fin 32) :
    (dats m 0 c).arrAt 4 cfg0.N (ix3 b (0 : Fin 1) (0 : Fin 1)) = Spec.numK (aA m c) (xA m c) b :=
  KArr.arr4_of m c (fun b => Spec.numK (aA m c) (xA m c) b) (fun t i => after4_apply m c t i) b

theorem arr5 (c : Dev nD) (b : Fin 32) :
    (dats m 0 c).arrAt 5 cfg0.N (ix3 b (0 : Fin 1) (0 : Fin 1)) = Spec.denK (aA m c) b :=
  KArr.arr5_of m c (fun b => Spec.denK (aA m c) b) (fun t i => after5_apply m c t i) b

theorem arr6 (c : Dev nD) (b : Fin 32) :
    (dats m 0 c).arrAt 6 cfg0.N (ix3 b (0 : Fin 1) (0 : Fin 1)) = Spec.attK (aA m c) b :=
  KArr.arr6_of m c (fun b => Spec.attK (aA m c) b) (fun t i => after6_apply m c t i) b

/-! ## The run -/

/-- Every weakly fair execution of the idealized kernel program ends with the result buffer at the first arrangement of
    the loss of its two argument arrays, and the arguments unchanged. -/
theorem run :
    θ_run (defs (F := Ideal)) (onTc (τ := τ) (main (F := Ideal))) ⟨m, fun _ => 0, ρ⟩ (fun r => ∀ c : Dev nD,
      r.2.mem ((c.tc : Thread nD τ).loc main_v36)
          = (fun _ => Spec.lossK (KHost.aOf (m ((c.tc : Thread nD τ).loc main_arg0)))
              (fun b t d => m ((c.tc : Thread nD τ).loc main_arg1) (ix3 b t d)))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨?_, ?_, ?_⟩) (Body.run_main (F := Ideal) m ρ)
  · have h36 := (h c).2 main_v36 (Pipeline.mem_restRefs_of main_v36 (by decide) (by decide))
    rw [h36, KTail.afterTail_v36]
    funext i
    rw [eq_ix0 i, KTail.tail_apply]
    have s4 : (∑ b : Fin 32, ((dats m 0 c).arrAt 4 cfg0.N : FVec Ideal S32x1x1 .f32) (ix3 b (0 : Fin 1) (0 : Fin 1)) : EReal)
        = ∑ b : Fin 32, Spec.numK (aA m c) (xA m c) b := Finset.sum_congr rfl fun b _ => arr4 m c b
    have s5 : (∑ b : Fin 32, ((dats m 0 c).arrAt 5 cfg0.N : FVec Ideal S32x1x1 .f32) (ix3 b (0 : Fin 1) (0 : Fin 1)) : EReal)
        = ∑ b : Fin 32, Spec.denK (aA m c) b := Finset.sum_congr rfl fun b _ => arr5 m c b
    have s6 : (∑ b : Fin 32, Ideal.div (((dats m 0 c).arrAt 6 cfg0.N : FVec Ideal S32x1x1 .f32) (ix3 b (0 : Fin 1) (0 : Fin 1)))
          (max ((Gen.V m c main_v13 : FVec Ideal S32 .f32) (ix1 b)) 1) : EReal)
        = ∑ b : Fin 32, Ideal.div (Spec.attK (aA m c) b) (max (Spec.nrunsF (aA m c) b) 1) :=
      Finset.sum_congr rfl fun b _ => by
        rw [arr6 m c b, KHost.V_v13 m c, KHost.hNf_apply]
        rfl
    rw [s4, s5, s6]
    rfl
  · exact ((h c).2 main_arg0 (Pipeline.mem_restRefs_of main_arg0 (by decide) (by decide))).trans (Gen.W_main_arg0 m (dats m) c)
  · exact ((h c).1 0).trans (((dats m 0 c).arrAt_in 0 rfl _).trans ((dats_A m c 0).trans (Gen.V_main_arg1 m c)))

end Cert.KernelIdeal.KRun

end
-- ==== Proof.LibRowGatherScatter.lean ====
/-
  A row gather and an accumulating scatter, read at one index.

  An operand has N rows (of C columns, or of one scalar each); a list of E updates carries one integer index per
  update, an [E, 1] array of words of width w. Everything here is generic in the extents N, C, E and in w.

    • GATHER of rows: result element (e, k) is the operand's element (gatherRow e, k), where gatherRow e is update
      e's index read as a signed integer and clamped into [0, N - 1] (`gather_rows_apply`).
    • ACCUMULATING SCATTER of rows, at the ideal float instance (exact sums on the extended reals): result element
      (n, k) is the operand's element plus the sum of the updates' elements (e, k) over the updates e in
      `hits idx n`, those whose index read signed — and not clamped — is n (`scatterAdd_rows_apply`); an update
      whose index is outside [0, N) lands nowhere.
    • The same scatter with scalar updates into a vector of N entries (`scatterAdd_vec_apply`).

  The route for the scatter: an update lands on operand index i exactly when start plus window coordinate equals
  i's coordinate on every axis; for these dimension numbers the start is the update's index on the row axis and 0
  on the column axis, the window coordinate 0 on the row axis and the update's column on the column axis; the sum
  over the updates landing on (n, k) is then re-indexed along e ↦ (e, k).
-/
import Idealize.ShloMosaic.Lib.ValueIdx
import Idealize.ShloMosaic.PureOps.Ideal
import Idealize.ShloMosaic.PureOps.Contract
import proofs.«141693_j33234456937041_2_alg».proof.Proof.LibRowIndex

noncomputable section

namespace Cert.Lib

open Idealize.ShloMosaic Idealize.ShloMosaic.ValueIdx
open scoped BigOperators

variable {N C E w : Nat}

/-- Update row e lands on operand row n exactly when its scatter index, read signed, is n. -/
private theorem mem_hits (idx : IVec ⟨2, ![E, 1]⟩ w) (n : Nat) (e : Fin E) :
    e ∈ hits idx n ↔ (idx (ix2 e (0 : Fin 1))).toInt = (n : Int) := by
  unfold hits
  exact Finset.mem_filter.trans (and_iff_right (Finset.mem_univ e))

/-- An update lands on operand index i exactly when, on every axis, start plus window coordinate is i's coordinate. -/
private theorem resultIdx?_eq_some_iff {s si u : Shape} (d : ScatterDims s si u) (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro hi a
      have hi' := Option.some.inj hi
      have := congrArg (fun f => (f a).val) hi'
      simp only at this
      have h0 := (h a).1
      omega
    · intro hi
      congr 1
      funext a
      refine Fin.ext ?_
      have := hi a
      simp only
      omega
  · rename_i h
    constructor
    · intro hi; exact absurd hi (by simp)
    · intro hi
      exfalso
      apply h
      intro a
      have := hi a
      have := (i a).isLt
      omega

section Rows
variable (uw : ScatterDims.WF ⟨2, ![N, C]⟩ ⟨2, ![E, 1]⟩ ⟨2, ![E, C]⟩ [1] [0] [0] 1)

/-- The literal dimension numbers of a row scatter. -/
private abbrev rowsDims : ScatterDims ⟨2, ![N, C]⟩ ⟨2, ![E, 1]⟩ ⟨2, ![E, C]⟩ := ⟨[1], [0], [0], 1, uw⟩

/-- The scatter index update (e, k') reads is the index array's entry (e, 0). -/
private theorem rows_siIdx (j : (⟨2, ![E, C]⟩ : Shape).Idx) :
    (rowsDims uw).siIdx j ⟨List.idxOf (0 : Fin 2) (rowsDims uw).scatterDimsToOperandDims,
      List.idxOf_lt_length_iff.2 (List.mem_singleton.mpr rfl)⟩ = ix2 (j 0) (0 : Fin 1) := by
  funext b; refine Fin.ext ?_
  match b with
  | ⟨0, _⟩ => rfl
  | ⟨1, _⟩ => rfl

/-- On the row axis the window starts at update row e's index, read signed. -/
private theorem rows_start0 (j : (⟨2, ![E, C]⟩ : Shape).Idx) (idx : IVec ⟨2, ![E, 1]⟩ w) :
    (rowsDims uw).start j idx 0 = (idx (ix2 (j 0) (0 : Fin 1))).toInt := by
  unfold ScatterDims.start
  rw [dif_pos (show (0 : Fin 2) ∈ (rowsDims uw).scatterDimsToOperandDims from List.mem_singleton.mpr rfl)]
  rw [rows_siIdx]
  rfl

/-- On the column axis the window starts at 0. -/
private theorem rows_start1 (j : (⟨2, ![E, C]⟩ : Shape).Idx) (idx : IVec ⟨2, ![E, 1]⟩ w) :
    (rowsDims uw).start j idx 1 = 0 := by
  unfold ScatterDims.start
  rw [dif_neg (show (1 : Fin 2) ∉ ([0] : List (Fin 2)) by decide)]

/-- The row axis is inserted: its window coordinate is 0. -/
private theorem rows_window0 (j : (⟨2, ![E, C]⟩ : Shape).Idx) : (rowsDims uw).window j 0 = 0 := by
  unfold ScatterDims.window
  rw [dif_neg (by simp [ScatterDims.sKept, Shape.kept])]

/-- On the column axis the window coordinate is the update's column. -/
private theorem rows_window1 (j : (⟨2, ![E, C]⟩ : Shape).Idx) : (rowsDims uw).window j 1 = (j 1).val := by
  unfold ScatterDims.window
  rw [dif_pos (by simp [ScatterDims.sKept, Shape.kept])]
  rfl

end Rows

section Rows
variable (uw : ScatterDims.WF ⟨2, ![N, C]⟩ ⟨2, ![E, 1]⟩ ⟨2, ![E, C]⟩ [1] [0] [0] 1)

/-- For a row scatter, update (e, k') lands on (n, k) exactly when e's index, read signed, is n and k' = k. -/
private theorem rows_resultIdx?_iff (j : (⟨2, ![E, C]⟩ : Shape).Idx) (idx : IVec ⟨2, ![E, 1]⟩ w) (n : Fin N) (k : Fin C) :
    (rowsDims uw).resultIdx? j idx = some (ix2 n k) ↔
      (idx (ix2 (j 0) (0 : Fin 1))).toInt = (n.val : Int) ∧ j 1 = k := by
  rw [resultIdx?_eq_some_iff]
  constructor
  · intro h
    have h0 : (rowsDims uw).start j idx 0 + ((rowsDims uw).window j 0 : Int) = (n.val : Int) := h 0
    have h1 : (rowsDims uw).start j idx 1 + ((rowsDims uw).window j 1 : Int) = (k.val : Int) := h 1
    rw [rows_start0, rows_window0] at h0
    rw [rows_start1, rows_window1] at h1
    refine ⟨?_, Fin.ext ?_⟩
    · omega
    · omega
  · rintro ⟨h0, h1⟩ a
    match a with
    | ⟨0, _⟩ =>
      show (rowsDims uw).start j idx 0 + ((rowsDims uw).window j 0 : Int) = (n.val : Int)
      rw [rows_start0, rows_window0]
      omega
    | ⟨1, _⟩ =>
      show (rowsDims uw).start j idx 1 + ((rowsDims uw).window j 1 : Int) = (k.val : Int)
      rw [rows_start1, rows_window1, h1]
      omega

end Rows

/-- AN ACCUMULATING ROW SCATTER READ AT (n, k): the operand's element plus the sum, over the update rows whose index read
    signed is n, of the update's element in column k. -/
theorem scatterAdd_rows_apply {φ : FTy} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (x : FVec Ideal ⟨2, ![N, C]⟩ φ) (idx : IVec ⟨2, ![E, 1]⟩ w)
    (upd : FVec Ideal ⟨2, ![E, C]⟩ φ) (n : Fin N) (k : Fin C) :
    Host.scatterAdd (F := Ideal) d x idx upd (ix2 n k) = x (ix2 n k) + ∑ e ∈ hits idx n.val, upd (ix2 e k) := by
  obtain ⟨uwd, iwd, sd, iv, wf⟩ := d
  dsimp only at h1 h2 h3 h4
  subst h1 h2 h3 h4
  show Ideal.hostScatterAdd (rowsDims wf) x idx upd (ix2 n k) = _
  unfold Ideal.hostScatterAdd
  congr 1
  have key : ∀ j : (⟨2, ![E, C]⟩ : Shape).Idx, (rowsDims wf).resultIdx? j idx = some (ix2 n k) → ix2 (j 0) k = j := by
    intro j hj
    have := ((rows_resultIdx?_iff wf j idx n k).1 hj).2
    rw [← this]; exact (eq_ix2 j).symm
  refine Finset.sum_nbij' (fun j => j 0) (fun e => ix2 e k) ?_ ?_ ?_ ?_ ?_
  · intro j hj
    have := (rows_resultIdx?_iff wf j idx n k).1 (Finset.mem_filter.1 hj).2
    exact (mem_hits idx n.val (j 0)).2 this.1
  · intro e he
    exact Finset.mem_filter.2 ⟨Finset.mem_univ _,
      (rows_resultIdx?_iff wf (ix2 e k) idx n k).2 ⟨(mem_hits idx n.val e).1 he, rfl⟩⟩
  · intro j hj
    exact key j (Finset.mem_filter.1 hj).2
  · intro e _; rfl
  · intro j hj
    exact congrArg upd (key j (Finset.mem_filter.1 hj).2).symm

section Vec
variable (uw : ScatterDims.WF ⟨1, ![N]⟩ ⟨2, ![E, 1]⟩ ⟨1, ![E]⟩ [] [0] [0] 1)

/-- The literal dimension numbers of a scatter of scalars into a vector. -/
private abbrev vecDims : ScatterDims ⟨1, ![N]⟩ ⟨2, ![E, 1]⟩ ⟨1, ![E]⟩ := ⟨[], [0], [0], 1, uw⟩

/-- The scatter index update e reads is the index array's entry (e, 0). -/
private theorem vec_siIdx (j : (⟨1, ![E]⟩ : Shape).Idx) :
    (vecDims uw).siIdx j ⟨List.idxOf (0 : Fin 1) (vecDims uw).scatterDimsToOperandDims,
      List.idxOf_lt_length_iff.2 (List.mem_singleton.mpr rfl)⟩ = ix2 (j 0) (0 : Fin 1) := by
  funext b; refine Fin.ext ?_
  match b with
  | ⟨0, _⟩ => rfl
  | ⟨1, _⟩ => rfl

/-- On the one operand axis the window starts at update e's index, read signed. -/
private theorem vec_start0 (j : (⟨1, ![E]⟩ : Shape).Idx) (idx : IVec ⟨2, ![E, 1]⟩ w) :
    (vecDims uw).start j idx 0 = (idx (ix2 (j 0) (0 : Fin 1))).toInt := by
  unfold ScatterDims.start
  rw [dif_pos (show (0 : Fin 1) ∈ (vecDims uw).scatterDimsToOperandDims from List.mem_singleton.mpr rfl)]
  rw [vec_siIdx]
  rfl

/-- The one operand axis is inserted: its window coordinate is 0. -/
private theorem vec_window0 (j : (⟨1, ![E]⟩ : Shape).Idx) : (vecDims uw).window j 0 = 0 := by
  unfold ScatterDims.window
  rw [dif_neg (by simp [ScatterDims.sKept, Shape.kept])]

/-- For a scatter of scalars into a vector, update e lands on n exactly when e's index, read signed, is n. -/
private theorem vec_resultIdx?_iff (j : (⟨1, ![E]⟩ : Shape).Idx) (idx : IVec ⟨2, ![E, 1]⟩ w) (n : Fin N) :
    (vecDims uw).resultIdx? j idx = some (ix1 n) ↔ (idx (ix2 (j 0) (0 : Fin 1))).toInt = (n.val : Int) := by
  rw [resultIdx?_eq_some_iff]
  constructor
  · intro h
    have h0 : (vecDims uw).start j idx 0 + ((vecDims uw).window j 0 : Int) = (n.val : Int) := h 0
    rw [vec_start0, vec_window0] at h0
    omega
  · intro h0 a
    match a with
    | ⟨0, _⟩ =>
      show (vecDims uw).start j idx 0 + ((vecDims uw).window j 0 : Int) = (n.val : Int)
      rw [vec_start0, vec_window0]
      omega

end Vec

/-- AN ACCUMULATING SCATTER OF SCALARS INTO A VECTOR READ AT n: the operand's element plus the sum of the updates whose
    index read signed is n. -/
theorem scatterAdd_vec_apply {φ : FTy} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (x : FVec Ideal ⟨1, ![N]⟩ φ) (idx : IVec ⟨2, ![E, 1]⟩ w)
    (upd : FVec Ideal ⟨1, ![E]⟩ φ) (n : Fin N) :
    Host.scatterAdd (F := Ideal) d x idx upd (ix1 n) = x (ix1 n) + ∑ e ∈ hits idx n.val, upd (ix1 e) := by
  obtain ⟨uwd, iwd, sd, iv, wf⟩ := d
  dsimp only at h1 h2 h3 h4
  subst h1 h2 h3 h4
  show Ideal.hostScatterAdd (vecDims wf) x idx upd (ix1 n) = _
  unfold Ideal.hostScatterAdd
  congr 1
  refine Finset.sum_nbij' (fun j => j 0) (fun e => ix1 e) ?_ ?_ ?_ ?_ ?_
  · intro j hj
    have := (vec_resultIdx?_iff wf j idx n).1 (Finset.mem_filter.1 hj).2
    exact (mem_hits idx n.val (j 0)).2 this
  · intro e he
    exact Finset.mem_filter.2 ⟨Finset.mem_univ _, (vec_resultIdx?_iff wf (ix1 e) idx n).2 ((mem_hits idx n.val e).1 he)⟩
  · intro j _
    exact (eq_ix1 j).symm
  · intro e _; rfl
  · intro j _
    exact congrArg upd (eq_ix1 j)

section Gather
variable {α : Type}

section Dims
variable (ss : Fin 2 → Nat)
  (gw : GatherDims.WF ⟨2, ![N, C]⟩ ⟨2, ![E, 1]⟩ ⟨2, ![E, C]⟩ [1] [0] [] [0] [] 1 ss)

/-- The literal dimension numbers of a row gather, at any slice sizes. -/
private abbrev gRowsDims : GatherDims ⟨2, ![N, C]⟩ ⟨2, ![E, 1]⟩ ⟨2, ![E, C]⟩ := ⟨[1], [0], [], [], [0], 1, ss, gw⟩

/-- The start index result row e reads is the index array's entry (e, 0). -/
private theorem gRows_siIdx (j : (⟨2, ![E, C]⟩ : Shape).Idx) :
    (gRowsDims ss gw).siIdx j ⟨List.idxOf (0 : Fin 2) (gRowsDims ss gw).startIndexMap,
      List.idxOf_lt_length_iff.2 (List.mem_singleton.mpr rfl)⟩ = ix2 (j 0) (0 : Fin 1) := by
  funext b; refine Fin.ext ?_
  match b with
  | ⟨0, _⟩ => rfl
  | ⟨1, _⟩ => rfl

include gw in
/-- On the row axis the slice has one row. -/
private theorem gRows_slice0 : ss 0 = 1 :=
  (gRowsDims ss gw).slice_collapsed 0 (List.mem_singleton.mpr rfl)

/-- On the row axis the operand coordinate is the start index, read signed and clamped into [0, N - 1]. -/
private theorem gRows_coord0 (j : (⟨2, ![E, C]⟩ : Shape).Idx) (idx : IVec ⟨2, ![E, 1]⟩ w) :
    (gRowsDims ss gw).start j idx 0 + (gRowsDims ss gw).batchCoord j 0 + (gRowsDims ss gw).offCoord j 0
      = min (idx (ix2 (j 0) (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (gRowsDims ss gw).startIndexMap from List.mem_singleton.mpr rfl)]
  rw [gRows_siIdx]
  show min _ (N - ss 0) = _
  rw [gRows_slice0 ss gw]
  rfl

/-- On the column axis the operand coordinate is the result's column. -/
private theorem gRows_coord1 (j : (⟨2, ![E, C]⟩ : Shape).Idx) (idx : IVec ⟨2, ![E, 1]⟩ w) :
    (gRowsDims ss gw).start j idx 1 + (gRowsDims ss gw).batchCoord j 1 + (gRowsDims ss gw).offCoord j 1
      = (j 1).val := by
  rw [GatherDims.batchCoord_eq_zero _ _ _ List.not_mem_nil]
  unfold GatherDims.start
  rw [dif_neg (show (1 : Fin 2) ∉ ([0] : List (Fin 2)) by decide)]
  unfold GatherDims.offCoord
  rw [dif_pos (by simp [GatherDims.sKept, Shape.kept])]
  simp only [Nat.add_zero, Nat.zero_add]
  rfl

end Dims

/-- A ROW GATHER READ AT (e, k): the operand's element in column k of the row that update row e's start index, read
    signed and clamped into [0, N - 1], names. -/
theorem gather_rows_apply (hN : 0 < N) (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (x : (⟨2, ![N, C]⟩ : Shape).Idx → α) (idx : IVec ⟨2, ![E, 1]⟩ w) (e : Fin E) (k : Fin C) :
    Host.gather d x idx (ix2 e k) = x (ix2 (gatherRow hN idx e) k) := by
  obtain ⟨od, cd, ob, sb, sm, iv, ss, wf⟩ := d
  dsimp only at h1 h2 h3 h4 h5 h6
  subst h1 h2 h3 h4 h5 h6
  show x ((gRowsDims ss wf).operandIdx (ix2 e k) idx) = _
  congr 1
  funext a
  refine Fin.ext ?_
  match a with
  | ⟨0, _⟩ => exact gRows_coord0 ss wf (ix2 e k) idx
  | ⟨1, _⟩ => exact gRows_coord1 ss wf (ix2 e k) idx

end Gather

end Cert.Lib

end
-- ==== Proof.LibVecGather.lean ====
/-
  A gather of scalars out of a vector, read at an index.

  What `x[idx]` of a flat array x : [N] at a list of E integer indices lowers to: a gather whose start indices are an
  [E, 1] array of words, the operand's one axis collapsed, slice size 1. Result entry e is x at the row the start index
  names once read as a signed integer and clamped into [0, N - 1] (`gatherRow`).
-/
import Idealize.ShloMosaic.Lib.ValueIdx
import Idealize.ShloMosaic.PureOps.Ideal
import proofs.«141693_j33234456937041_2_alg».proof.Proof.LibRowIndex

noncomputable section

namespace Cert.Lib

open Idealize.ShloMosaic Idealize.ShloMosaic.ValueIdx

variable {N E w : Nat} {α : Type}

section Dims
variable (ss : Fin 1 → Nat)
  (gw : GatherDims.WF ⟨1, ![N]⟩ ⟨2, ![E, 1]⟩ ⟨1, ![E]⟩ [] [0] [] [0] [] 1 ss)

/-- The literal dimension numbers of a gather of scalars, at any slice size. -/
private abbrev gVecDims : GatherDims ⟨1, ![N]⟩ ⟨2, ![E, 1]⟩ ⟨1, ![E]⟩ := ⟨[], [0], [], [], [0], 1, ss, gw⟩

/-- The start index result entry e reads is the index array's entry (e, 0). -/
private theorem gVec_siIdx (j : (⟨1, ![E]⟩ : Shape).Idx) :
    (gVecDims ss gw).siIdx j ⟨List.idxOf (0 : Fin 1) (gVecDims ss gw).startIndexMap,
      List.idxOf_lt_length_iff.2 (List.mem_singleton.mpr rfl)⟩ = ix2 (j 0) (0 : Fin 1) := by
  funext b; refine Fin.ext ?_
  match b with
  | ⟨0, _⟩ => rfl
  | ⟨1, _⟩ => rfl

include gw in
/-- The slice has one entry. -/
private theorem gVec_slice0 : ss 0 = 1 :=
  (gVecDims ss gw).slice_collapsed 0 (List.mem_singleton.mpr rfl)

/-- The operand coordinate is the start index, read signed and clamped into [0, N - 1]. -/
private theorem gVec_coord0 (j : (⟨1, ![E]⟩ : Shape).Idx) (idx : IVec ⟨2, ![E, 1]⟩ w) :
    (gVecDims ss gw).start j idx 0 + (gVecDims ss gw).batchCoord j 0 + (gVecDims ss gw).offCoord j 0
      = min (idx (ix2 (j 0) (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gVecDims ss gw).startIndexMap from List.mem_singleton.mpr rfl)]
  rw [gVec_siIdx]
  show min _ (N - ss 0) = _
  rw [gVec_slice0 ss gw]
  rfl

end Dims

/-- A GATHER OF SCALARS READ AT e: the operand's entry at the row that e's start index, read signed and clamped into
    [0, N - 1], names. -/
theorem gather_vec_apply (hN : 0 < N) (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (x : (⟨1, ![N]⟩ : Shape).Idx → α) (idx : IVec ⟨2, ![E, 1]⟩ w) (e : Fin E) :
    Host.gather d x idx (ix1 e) = x (ix1 (gatherRow hN idx e)) := by
  obtain ⟨od, cd, ob, sb, sm, iv, ss, wf⟩ := d
  dsimp only at h1 h2 h3 h4 h5 h6
  subst h1 h2 h3 h4 h5 h6
  show x ((gVecDims ss wf).operandIdx (ix1 e) idx) = _
  congr 1
  funext a
  refine Fin.ext ?_
  match a with
  | ⟨0, _⟩ => exact gVec_coord0 ss wf (ix1 e) idx

end Cert.Lib

end
-- ==== Proof.RefRead.Attn.lean ====
/-
  The attention half of the reference read at the ideal values: the per-run counts, means and variances that the
  scatters and the gather compute, the validity mask, and the averaged loss, as the specification's second arrangement.
-/
import proofs.«141693_j33234456937041_2_alg».proof.Proof.RefRead.Words
import proofs.«141693_j33234456937041_2_alg».proof.Proof.LibRowGatherScatter
import proofs.«141693_j33234456937041_2_alg».proof.Proof.LibVecGather
import proofs.«141693_j33234456937041_2_alg».proof.Proof.LibSumBlocks

noncomputable section

namespace Cert.ReferenceIdeal.HandRead.Attn

open Cert.ReferenceIdeal Cert.ReferenceIdeal.Gen Cert.ReferenceIdeal.HandRun Cert.ReferenceIdeal.HandRead
open Idealize.ShloMosaic Idealize.ShloMosaic.ValueIdx
open RunLength RunWords
open scoped BigOperators

/-! ## The table's rows -/

/-- A step's bucket word, read signed, is row `j` exactly when the step is of sequence `j / 1025`, its mask holds and its
    run number is `j % 1025 + 1`. -/
theorem bucket_hit_iff (p : Bool) (b : Fin 32) (k : ℕ) (hk : k ≤ 1024) (hp : p = true → 1 ≤ k) (j : Fin 32800) :
    (bucketWord p b.val k).toInt = (j.val : ℤ) ↔ (b = Spec.seqOf j ∧ p = true ∧ k = Spec.runOf j + 1) := by
  unfold bucketWord
  rw [bucket_iff b.val k j.val b.isLt hk j.isLt p hp]
  unfold Spec.seqOf Spec.runOf
  have hb := b.isLt
  have hj := j.isLt
  constructor
  · rintro ⟨h1, h2⟩
    have h3 := hp h1
    refine ⟨Fin.ext ?_, h1, ?_⟩
    · show b.val = j.val / 1025
      omega
    · omega
  · rintro ⟨h1, h2, h3⟩
    refine ⟨h2, ?_⟩
    have h4 : b.val = j.val / 1025 := congrArg Fin.val h1
    omega

/-- The scatter of per-step values into the zero vector, read at a row of the first 32800. -/
theorem scatter_bucket (x : FVec Ideal S32801 .f32) (hx : ∀ i, x i = 0) (idx : IVec S65536x1 32) (upd : FVec Ideal S65536 .f32)
    (p : Fin 32 → Fin 2048 → Bool) (k : Fin 32 → Fin 2048 → ℕ) (hk : ∀ b t, k b t ≤ 1024)
    (hp : ∀ b t, p b t = true → 1 ≤ k b t)
    (hidx : ∀ b t, idx (ix2 (flat b t) (0 : Fin 1)) = bucketWord (p b t) b.val (k b t)) (j : Fin 32800) :
    extractStridedSlice S32800 ![0] (Host.scatterAdd (F := Ideal) scatter_S32801_S65536x1_S65536_n_0_0_1 x idx upd)
        slices_S32801_S32800_0 (ix1 j)
      = ∑ t : Fin 2048, if p (Spec.seqOf j) t = true ∧ k (Spec.seqOf j) t = Spec.runOf j + 1
          then upd (ix1 (flat (Spec.seqOf j) t)) else 0 := by
  have hj : j.val < 32801 := by have := j.isLt; omega
  rw [extractStridedSlice_apply ![0] _ slices_S32801_S32800_0 (ix1 j) (ix1 (⟨j.val, hj⟩ : Fin 32801)) (fun a => by
    match a with
    | ⟨0, _⟩ => show j.val = 0 + j.val; omega)]
  rw [Cert.Lib.scatterAdd_vec_apply scatter_S32801_S65536x1_S65536_n_0_0_1 rfl rfl rfl rfl x idx upd ⟨j.val, hj⟩, hx, zero_add]
  unfold Cert.Lib.hits
  rw [Finset.sum_filter, Cert.Lib.sum_blocks₂_of_eq 32 2048 (by norm_num)]
  rw [Finset.sum_eq_single (Spec.seqOf j)]
  · refine Finset.sum_congr rfl fun t _ => ?_
    show (if (idx (ix2 (flat (Spec.seqOf j) t) (0 : Fin 1))).toInt = (j.val : ℤ) then upd (ix1 (flat (Spec.seqOf j) t)) else 0) = _
    rw [hidx]
    by_cases h : p (Spec.seqOf j) t = true ∧ k (Spec.seqOf j) t = Spec.runOf j + 1
    · rw [if_pos h, if_pos ((bucket_hit_iff _ _ _ (hk _ _) (hp _ _) j).mpr ⟨rfl, h.1, h.2⟩)]
    · rw [if_neg h, if_neg (fun hh => h ((bucket_hit_iff _ _ _ (hk _ _) (hp _ _) j).mp hh).2)]
  · intro b _ hb
    refine Finset.sum_eq_zero fun t _ => ?_
    show (if (idx (ix2 (flat b t) (0 : Fin 1))).toInt = (j.val : ℤ) then upd (ix1 (flat b t)) else 0) = 0
    rw [hidx]
    exact if_neg (fun hh => hb ((bucket_hit_iff _ _ _ (hk _ _) (hp _ _) j).mp hh).1)
  · intro h
    exact absurd (Finset.mem_univ _) h

/-- A gather from the table at an index word that is the word of a row number reads that row. -/
theorem gather_row {α : Type} (x : S32800.Idx → α) (idx : IVec S65536x1 32) (e : Fin 65536) (m : ℕ) (hm : m ≤ 32799)
    (hidx : idx (ix2 e (0 : Fin 1)) = BitVec.ofNat 32 m) :
    Host.gather gather_S32800_S65536x1_S65536_n_0_n_n_0_1_1 x idx (ix1 e) = x (ix1 (⟨m, by omega⟩ : Fin 32800)) := by
  rw [Cert.Lib.gather_vec_apply (by norm_num : 0 < 32800) gather_S32800_S65536x1_S65536_n_0_n_n_0_1_1 rfl rfl rfl rfl rfl rfl x idx e]
  refine congrArg x (congrArg ix1 (Fin.ext ?_))
  unfold Cert.Lib.gatherRow
  show min (idx (ix2 e (0 : Fin 1))).toInt.toNat (32800 - 1) = m
  rw [hidx]
  exact gather_value m hm

/-- One or zero as a float from a one-bit word. -/
theorem uitofp_ofBool (p : Bool) :
    (FloatOps.uitofp (F := Ideal) .f32 (BitVec.ofBool p) : EReal) = if p = true then 1 else 0 := by
  cases p
  · show (((0 : ℕ) : ℝ) : EReal) = 0
    simp
  · show (((1 : ℕ) : ℝ) : EReal) = 1
    simp

/-! ## Indicators -/

open Cert.Spec in
/-- The indicator of a run's steps, spelt out. -/
theorem attn_ind_In_eq (a : Fin 32 → Fin 2048 → EReal) (b : Fin 32) (r : ℕ) (t : Fin 2048) :
    ind (In a b r t) = if P a b t = true ∧ rank a b t = r + 1 then 1 else 0 := by
  unfold ind
  exact if_congr Iff.rfl rfl rfl

open Cert.Spec in
/-- A masked value is the indicator times the value. -/
theorem ite_In (a : Fin 32 → Fin 2048 → EReal) (b : Fin 32) (r : ℕ) (t : Fin 2048) (g : EReal) :
    (if P a b t = true ∧ rank a b t = r + 1 then g else 0) = ind (In a b r t) * g := by
  rw [attn_ind_In_eq]
  by_cases h : P a b t = true ∧ rank a b t = r + 1
  · rw [if_pos h, if_pos h, one_mul]
  · rw [if_neg h, if_neg h, zero_mul]

open Cert.Spec in
/-- Inside a run the proposal indicator is one. -/
theorem ind_In_mul_ind_P (a : Fin 32 → Fin 2048 → EReal) (b : Fin 32) (r : ℕ) (t : Fin 2048) (g : EReal) :
    ind (In a b r t) * (ind (P a b t = true) * g) = ind (In a b r t) * g := by
  rw [attn_ind_In_eq]
  unfold ind
  by_cases h : P a b t = true ∧ rank a b t = r + 1
  · rw [if_pos h, if_pos h.1, one_mul]
  · rw [if_neg h, zero_mul, zero_mul]

/-- The sequence of row `b · 1025 + r`. -/
theorem seqOf_mk (b : Fin 32) (r : ℕ) (hr : r < 1025) (h : b.val * 1025 + r < 32800) :
    Spec.seqOf ⟨b.val * 1025 + r, h⟩ = b := by
  unfold Spec.seqOf
  exact Fin.ext (by show (b.val * 1025 + r) / 1025 = b.val; omega)

/-- The run of row `b · 1025 + r`. -/
theorem runOf_mk (b : Fin 32) (r : ℕ) (hr : r < 1025) (h : b.val * 1025 + r < 32800) :
    Spec.runOf ⟨b.val * 1025 + r, h⟩ = r := by
  unfold Spec.runOf
  show (b.val * 1025 + r) % 1025 = r
  omega

variable (a0 : Arg0) (a1 : Arg1)

/-! ## The per-step values -/

theorem v19_apply (b : Fin 32) (t : Fin 2048) :
    res_v19 (F := Ideal) a0 a1 (ix2 b t) = Spec.ind (Spec.P (att a0) b t = true) := by
  unfold res_v19
  show FloatOps.uitofp (F := Ideal) .f32 (res_v2 a0 a1 (ix2 b t)) = _
  rw [v2_apply, uitofp_ofBool]
  rfl

theorem v20_apply (b : Fin 32) (t : Fin 2048) :
    res_v20 (F := Ideal) a0 a1 (ix1 (flat b t)) = Spec.ind (Spec.P (att a0) b t = true) := by
  unfold res_v20
  rw [flatten_apply, v19_apply]

theorem v21_apply (b : Fin 32) (t : Fin 2048) : res_v21 (F := Ideal) a0 a1 (ix1 (flat b t)) = att a0 b t := by
  unfold res_v21
  rw [flatten_apply, v0_apply]

/-- A vector as one column reads, at `(e, 0)`, its entry `e`. -/
theorem column_apply {α : Type} (v : S65536.Idx → α) (e : Fin 65536) :
    broadcastInDim S65536x1 ![0] bcast_S65536_S65536x1_0 v (ix2 e (0 : Fin 1)) = v (ix1 e) :=
  broadcastInDim_apply ![0] bcast_S65536_S65536x1_0 v (ix2 e (0 : Fin 1)) (ix1 e) fun a => by
    match a with
    | ⟨0, _⟩ => rfl

theorem v23_apply (b : Fin 32) (t : Fin 2048) :
    res_v23 (F := Ideal) a0 a1 (ix2 (flat b t) (0 : Fin 1))
      = bucketWord (Spec.P (att a0) b t) b.val (Spec.rank (att a0) b t) := by
  unfold res_v23
  rw [column_apply, v18_apply]

/-- The table starts at zero. -/
theorem v22_apply (i : S32801.Idx) : res_v22 (F := Ideal) a0 a1 i = 0 := by
  unfold res_v22 res_cst_3
  rw [broadcastInDim_scalar_apply]
  exact Ideal.ofBits_zero_f32

/-! ## Counts, sums and means per row -/

theorem v25_apply (j : Fin 32800) :
    res_v25 (F := Ideal) a0 a1 (ix1 j) = Spec.cnt (att a0) (Spec.seqOf j) (Spec.runOf j) := by
  unfold res_v25 res_v24
  rw [scatter_bucket (res_v22 a0 a1) (v22_apply a0 a1) (res_v23 a0 a1) (res_v20 a0 a1) (Spec.P (att a0)) (Spec.rank (att a0))
    (rank_le _) (rank_pos_of_P _) (v23_apply a0 a1) j]
  unfold Spec.cnt
  refine Finset.sum_congr rfl fun t _ => ?_
  rw [ite_In, v20_apply]
  have := ind_In_mul_ind_P (att a0) (Spec.seqOf j) (Spec.runOf j) t 1
  rw [mul_one, mul_one] at this
  exact this

theorem v26_apply (i : S32800.Idx) : res_v26 (F := Ideal) a0 a1 i = 1 := by
  unfold res_v26 res_cst_4
  rw [broadcastInDim_scalar_apply]
  exact Ideal.ofBits_one_f32

theorem v27_apply (j : Fin 32800) :
    res_v27 (F := Ideal) a0 a1 (ix1 j) = Spec.scnt (att a0) (Spec.seqOf j) (Spec.runOf j) := by
  unfold res_v27
  rw [maximumf_apply, v25_apply, v26_apply]
  rfl

theorem v28_apply (b : Fin 32) (t : Fin 2048) :
    res_v28 (F := Ideal) a0 a1 (ix1 (flat b t)) = att a0 b t * Spec.ind (Spec.P (att a0) b t = true) := by
  unfold res_v28
  rw [mulf_apply, v21_apply, v20_apply]

theorem v32_apply (j : Fin 32800) :
    res_v32 (F := Ideal) a0 a1 (ix1 j) = Spec.asum (att a0) (Spec.seqOf j) (Spec.runOf j) := by
  unfold res_v32 res_v31
  rw [scatter_bucket (res_v29 a0 a1) (v22_apply a0 a1) (res_v30 a0 a1) (res_v28 a0 a1) (Spec.P (att a0)) (Spec.rank (att a0))
    (rank_le _) (rank_pos_of_P _) (v23_apply a0 a1) j]
  unfold Spec.asum
  refine Finset.sum_congr rfl fun t _ => ?_
  rw [ite_In, v28_apply, mul_comm (att a0 (Spec.seqOf j) t), ind_In_mul_ind_P]

theorem v33_apply (j : Fin 32800) :
    res_v33 (F := Ideal) a0 a1 (ix1 j) = Spec.mean (att a0) (Spec.seqOf j) (Spec.runOf j) := by
  unfold res_v33
  rw [hostDivf_apply, v32_apply, v27_apply]
  rfl

/-! ## The gathered mean -/

/-- The gather's index word from a bucket word: clipped into `[0, 32799]`, a negative one wrapped by the table's length. -/
def attn_gidx (w : BitVec 32) : BitVec 32 :=
  let lo : BitVec 32 := if w.slt 0#32 then 0#32 else w
  let c : BitVec 32 := if (32799#32).slt lo then 32799#32 else lo
  if c.slt 0#32 then c + 32800#32 else c

/-- The row a step's gather reads: its own bucket where it is in a proposal, the last row elsewhere. -/
def attn_row (p : Bool) (b k : ℕ) : ℕ := if p = true then b * 1025 + k - 1 else 32799

theorem attn_gidx_bucket (p : Bool) (b k : ℕ) (hb : b < 32) (hk : k ≤ 1024) (hp : p = true → 1 ≤ k) :
    attn_gidx (bucketWord p b k) = BitVec.ofNat 32 (attn_row p b k) := by
  cases p with
  | false =>
    unfold bucketWord attn_row
    rw [if_neg Bool.false_ne_true, if_neg Bool.false_ne_true]
    decide
  | true =>
    unfold bucketWord attn_row
    rw [if_pos rfl, if_pos rfl]
    exact gather_word b k hb hk (hp rfl) _ _ _ _ rfl (Or.inl rfl) (Or.inr rfl) rfl

theorem attn_row_le (p : Bool) (b k : ℕ) (hb : b < 32) (hk : k ≤ 1024) : attn_row p b k ≤ 32799 := by
  unfold attn_row
  split <;> omega

/-- A scalar broadcast to the flat length reads the scalar everywhere. -/
theorem attn_bcast_flat {α : Type} (z : S_.Idx → α) (i : S65536.Idx) :
    broadcastInDim S65536 ![] bcast_S_S65536 z i = z ix0 :=
  broadcastInDim_scalar_apply _ z i

theorem v34_apply (e : Fin 65536) :
    res_v34 (F := Ideal) a0 a1 (ix1 e)
      = (let lo : BitVec 32 := if (res_v18 a0 a1 (ix1 e)).slt 0#32 then 0#32 else res_v18 a0 a1 (ix1 e)
         if (32799#32).slt lo then 32799#32 else lo) := by
  unfold res_v34 res_call3_v4 res_call3_v3 res_c_7 res_call3_v2 res_call3_v1 res_call3_v0 res_c_6
  show IntOp.minsi (broadcastInDim S65536 ![] bcast_S_S65536 (id (constantI S_ 32 32799#32)) (ix1 e))
      (IntOp.maxsi (broadcastInDim S65536 ![] bcast_S_S65536 (id (constantI S_ 32 0#32)) (ix1 e)) (res_v18 a0 a1 (ix1 e))) = _
  rw [attn_bcast_flat, attn_bcast_flat]
  rfl

theorem v39_apply (e : Fin 65536) :
    res_v39 (F := Ideal) a0 a1 (ix1 e) = attn_gidx (res_v18 a0 a1 (ix1 e)) := by
  unfold res_v39 res_v38 res_v37 res_c_9 res_v36 res_v35 res_c_8
  show Scalar.select (IntOp.cmpi .slt (res_v34 a0 a1 (ix1 e)) (broadcastInDim S65536 ![] bcast_S_S65536 (constantI S_ 32 0#32) (ix1 e)))
      (IntOp.addi (res_v34 a0 a1 (ix1 e)) (broadcastInDim S65536 ![] bcast_S_S65536 (constantI S_ 32 32800#32) (ix1 e)))
      (res_v34 a0 a1 (ix1 e)) = _
  rw [attn_bcast_flat, attn_bcast_flat, v34_apply]
  show Scalar.select (BitVec.ofBool _) _ _ = _
  rw [select_ofBool]
  rfl

theorem v40_apply (b : Fin 32) (t : Fin 2048) :
    res_v40 (F := Ideal) a0 a1 (ix2 (flat b t) (0 : Fin 1))
      = BitVec.ofNat 32 (attn_row (Spec.P (att a0) b t) b.val (Spec.rank (att a0) b t)) := by
  unfold res_v40
  rw [column_apply, v39_apply, v18_apply, attn_gidx_bucket _ _ _ b.isLt (rank_le _ _ _) (rank_pos_of_P _ _ _)]

/-- The mean gathered at a step. -/
theorem v41_apply (b : Fin 32) (t : Fin 2048) :
    res_v41 (F := Ideal) a0 a1 (ix1 (flat b t))
      = res_v33 a0 a1 (ix1 (⟨attn_row (Spec.P (att a0) b t) b.val (Spec.rank (att a0) b t),
          by have := attn_row_le (Spec.P (att a0) b t) b.val (Spec.rank (att a0) b t) b.isLt (rank_le _ _ _); omega⟩ : Fin 32800)) := by
  unfold res_v41
  exact gather_row (res_v33 a0 a1) (res_v40 a0 a1) (flat b t) _
    (attn_row_le _ _ _ b.isLt (rank_le _ _ _)) (v40_apply a0 a1 b t)

/-- At a step in a proposal the gathered mean is its run's. -/
theorem v41_apply_of_P (b : Fin 32) (t : Fin 2048) (h : Spec.P (att a0) b t = true) :
    res_v41 (F := Ideal) a0 a1 (ix1 (flat b t)) = Spec.mean (att a0) b (Spec.rank (att a0) b t - 1) := by
  rw [v41_apply, v33_apply]
  have h1 := rank_pos_of_P (att a0) b t h
  have h2 := rank_le (att a0) b t
  have hrow : attn_row (Spec.P (att a0) b t) b.val (Spec.rank (att a0) b t) = b.val * 1025 + (Spec.rank (att a0) b t - 1) := by
    unfold attn_row
    rw [if_pos h]
    omega
  have hs : Spec.seqOf (⟨attn_row (Spec.P (att a0) b t) b.val (Spec.rank (att a0) b t),
      by have := attn_row_le (Spec.P (att a0) b t) b.val (Spec.rank (att a0) b t) b.isLt (rank_le _ _ _); omega⟩ : Fin 32800) = b := by
    unfold Spec.seqOf
    refine Fin.ext ?_
    show attn_row _ _ _ / 1025 = b.val
    rw [hrow]
    omega
  have hr : Spec.runOf (⟨attn_row (Spec.P (att a0) b t) b.val (Spec.rank (att a0) b t),
      by have := attn_row_le (Spec.P (att a0) b t) b.val (Spec.rank (att a0) b t) b.isLt (rank_le _ _ _); omega⟩ : Fin 32800)
      = Spec.rank (att a0) b t - 1 := by
    unfold Spec.runOf
    show attn_row _ _ _ % 1025 = _
    rw [hrow]
    omega
  rw [hs, hr]

/-- The squared deviation at a step, masked. -/
theorem v44_apply (b : Fin 32) (t : Fin 2048) :
    res_v44 (F := Ideal) a0 a1 (ix1 (flat b t))
      = Spec.ind (Spec.P (att a0) b t = true)
          * ((att a0 b t - Spec.mean (att a0) b (Spec.rank (att a0) b t - 1))
            * (att a0 b t - Spec.mean (att a0) b (Spec.rank (att a0) b t - 1))) := by
  unfold res_v44 res_v43 res_v42
  rw [mulf_apply, mulf_apply, subf_apply, v20_apply, v21_apply]
  by_cases h : Spec.P (att a0) b t = true
  · rw [v41_apply_of_P a0 a1 b t h]
  · unfold Spec.ind
    rw [if_neg h, zero_mul, zero_mul]

theorem v48_apply (j : Fin 32800) :
    res_v48 (F := Ideal) a0 a1 (ix1 j)
      = ∑ t : Fin 2048, Spec.ind (Spec.In (att a0) (Spec.seqOf j) (Spec.runOf j) t)
          * ((att a0 (Spec.seqOf j) t - Spec.mean (att a0) (Spec.seqOf j) (Spec.runOf j))
            * (att a0 (Spec.seqOf j) t - Spec.mean (att a0) (Spec.seqOf j) (Spec.runOf j))) := by
  unfold res_v48 res_v47
  rw [scatter_bucket (res_v45 a0 a1) (v22_apply a0 a1) (res_v46 a0 a1) (res_v44 a0 a1) (Spec.P (att a0)) (Spec.rank (att a0))
    (rank_le _) (rank_pos_of_P _) (v23_apply a0 a1) j]
  refine Finset.sum_congr rfl fun t _ => ?_
  by_cases h : Spec.P (att a0) (Spec.seqOf j) t = true ∧ Spec.rank (att a0) (Spec.seqOf j) t = Spec.runOf j + 1
  · rw [if_pos h, attn_ind_In_eq, if_pos h, one_mul, v44_apply]
    unfold Spec.ind
    rw [if_pos h.1, one_mul, h.2, Nat.add_sub_cancel]
  · rw [if_neg h, attn_ind_In_eq, if_neg h, zero_mul]

theorem v49_apply (j : Fin 32800) :
    res_v49 (F := Ideal) a0 a1 (ix1 j) = Spec.varR (att a0) (Spec.seqOf j) (Spec.runOf j) := by
  unfold res_v49
  rw [hostDivf_apply, v48_apply, v27_apply]
  rfl

/-! ## Validity, the row sums and the average -/

/-- A sum over a rank-one index set is the sum over its coordinate. -/
theorem attn_sum_idx1 {M : Type*} [AddCommMonoid M] {n : ℕ} (f : (⟨1, ![n]⟩ : Shape).Idx → M) :
    ∑ i, f i = ∑ a : Fin n, f (ix1 a) := by
  let e : (⟨1, ![n]⟩ : Shape).Idx ≃ Fin n := ⟨fun i => i 0, fun a => ix1 a, fun i => (eq_ix1 i).symm, fun _ => rfl⟩
  rw [← Equiv.sum_comp e.symm f]
  rfl

theorem attn_nruns_le (a : Fin 32 → Fin 2048 → EReal) (b : Fin 32) : Spec.nruns a b ≤ 1024 :=
  runs_le_1024 _ (by norm_num)

theorem v55_apply (b : Fin 32) (r : Fin 1025) : res_v55 (F := Ideal) a0 a1 (ix2 b r) = BitVec.ofNat 32 r.val := by
  unfold res_v55 res_v53 res_v52
  rw [broadcastInDim_apply ![0, 1] bcast_S1x1025_S32x1025_0_1 _ (ix2 b r) (ix2 (0 : Fin 1) r) (fun a => by
    match a with
    | ⟨0, _⟩ => rfl
    | ⟨1, _⟩ => rfl)]
  rw [broadcastInDim_apply ![1] bcast_S1025_S1x1025_1 _ (ix2 (0 : Fin 1) r) (ix1 r) (fun a => by
    match a with
    | ⟨0, _⟩ => rfl)]
  rfl

theorem v56_apply (b : Fin 32) (r : Fin 1025) :
    res_v56 (F := Ideal) a0 a1 (ix2 b r) = BitVec.ofNat 32 (Spec.nruns (att a0) b) := by
  unfold res_v56 res_v54
  rw [broadcastInDim_apply ![0, 1] bcast_S32x1_S32x1025_0_1 _ (ix2 b r) (ix2 b (0 : Fin 1)) (fun a => by
    match a with
    | ⟨0, _⟩ => rfl
    | ⟨1, _⟩ => rfl)]
  rw [broadcastInDim_apply ![0] bcast_S32_S32x1_0 _ (ix2 b (0 : Fin 1)) (ix1 b) (fun a => by
    match a with
    | ⟨0, _⟩ => rfl)]
  exact v51_apply a0 a1 b

theorem v57_apply (b : Fin 32) (r : Fin 1025) :
    res_v57 (F := Ideal) a0 a1 (ix2 b r) = BitVec.ofBool (decide (r.val < Spec.nruns (att a0) b)) := by
  unfold res_v57
  show IntOp.cmpi .slt (res_v55 a0 a1 (ix2 b r)) (res_v56 a0 a1 (ix2 b r)) = _
  rw [v55_apply, v56_apply]
  show BitVec.ofBool ((BitVec.ofNat 32 r.val).slt (BitVec.ofNat 32 (Spec.nruns (att a0) b))) = _
  rw [slt_ofNat _ _ (by have := r.isLt; omega) (by have := attn_nruns_le (att a0) b; omega)]

theorem v58_apply (b : Fin 32) (r : Fin 1025) :
    res_v58 (F := Ideal) a0 a1 (ix2 b r) = Spec.varR (att a0) b r.val := by
  unfold res_v58
  have hlt : b.val * 1025 + r.val < 32800 := by have := b.isLt; have := r.isLt; omega
  rw [shapeCast_apply (res_v49 a0 a1) shapeCasts_S32800_S32x1025 (ix2 b r) (ix1 (⟨b.val * 1025 + r.val, hlt⟩ : Fin 32800)) (by
    rw [Shape.rowMajor_val_one, Shape.rowMajor_val_two]
    rfl)]
  rw [v49_apply, seqOf_mk b r.val r.isLt hlt, runOf_mk b r.val r.isLt hlt]

theorem v60_apply (b : Fin 32) (r : Fin 1025) :
    res_v60 (F := Ideal) a0 a1 (ix2 b r) = Spec.varR (att a0) b r.val * Spec.ind (Spec.validR (att a0) b r.val) := by
  unfold res_v60 res_v59
  rw [mulf_apply, v58_apply]
  show _ * FloatOps.uitofp (F := Ideal) .f32 (res_v57 a0 a1 (ix2 b r)) = _
  rw [v57_apply, uitofp_ofBool]
  refine congrArg (Spec.varR (att a0) b r.val * ·) ?_
  unfold Spec.ind
  exact if_congr (decide_eq_true_iff (p := r.val < Spec.nruns (att a0) b)) rfl rfl

/-- The variances of a sequence's real runs, summed. -/
theorem v61_apply (b : Fin 32) : res_v61 (F := Ideal) a0 a1 (ix1 b) = Spec.attR (att a0) b := by
  unfold res_v61 res_cst_12
  have hr : S32x1025.Reduces [1] S32 := by decide
  rw [hostReduceAdd_apply, Ideal.hostReduceAdd_single reducesTo_S32x1025_S32_d1 hr, constant_apply, Ideal.ofBits_zero_f32, zero_add]
  unfold Spec.attR
  refine Finset.sum_congr rfl fun r _ => ?_
  have hl : hr.lift (ix1 b) r = ix2 b r := by
    funext c
    match c with
    | ⟨0, _⟩ => exact Fin.ext (by rw [hr.lift_val]; rfl)
    | ⟨1, _⟩ => exact Fin.ext (by rw [hr.lift_val]; rfl)
  rw [hl]
  exact v60_apply a0 a1 b r

/-- The number of runs, at least one, as a float. -/
theorem v64_apply (b : Fin 32) :
    res_v64 (F := Ideal) a0 a1 (ix1 b) = (((max (Spec.nruns (att a0) b) 1 : ℕ) : ℝ) : EReal) := by
  have hn := attn_nruns_le (att a0) b
  have h63 : res_v63 (F := Ideal) a0 a1 (ix1 b) = BitVec.ofNat 32 (max (Spec.nruns (att a0) b) 1) := by
    unfold res_v63 res_v62 res_c_13
    show IntOp.maxsi (res_v51 a0 a1 (ix1 b)) (broadcastInDim S32 ![] bcast_S_S32 (constantI S_ 32 1#32) (ix1 b)) = _
    rw [broadcastInDim_scalar_apply, v51_apply]
    exact maxsi_one _ (by omega)
  unfold res_v64
  rw [sitofp_apply, h63]
  show (((BitVec.ofNat 32 (max (Spec.nruns (att a0) b) 1)).toInt : ℝ) : EReal) = _
  rw [toInt_ofNat_small _ (by omega), Int.cast_natCast]

theorem v65_apply (b : Fin 32) :
    res_v65 (F := Ideal) a0 a1 (ix1 b)
      = Ideal.div (Spec.attR (att a0) b) (((max (Spec.nruns (att a0) b) 1 : ℕ) : ℝ) : EReal) := by
  unfold res_v65
  rw [hostDivf_apply, v61_apply, v64_apply]

/-- The attention half of the loss. -/
theorem v67_apply : res_v67 (F := Ideal) a0 a1 ix0 = Spec.attnLossR (att a0) := by
  unfold res_v67 res_v66 res_cst_15 res_cst_14
  rw [hostDivf_apply, hostReduceAdd_apply, Ideal.hostReduceAdd_total reducesTo_S32_S_d0 (fun b => b.elim0), constant_apply,
    constant_apply, Ideal.ofBits_zero_f32, zero_add, attn_sum_idx1]
  have hs : ∑ b : Fin 32, res_v65 (F := Ideal) a0 a1 (ix1 b)
      = ∑ b : Fin 32, Ideal.div (Spec.attR (att a0) b) (((max (Spec.nruns (att a0) b) 1 : ℕ) : ℝ) : EReal) :=
    Finset.sum_congr rfl fun b _ => v65_apply a0 a1 b
  rw [hs]
  rfl

/-! ## The result from the two halves -/

/-- The result is one times the feature half plus one times the attention half. -/
theorem result_of_feat (hfeat : res_v119 (F := Ideal) a0 a1 ix0 = Spec.featLossR (att a0) (feat a1)) :
    HandRun.result (F := Ideal) a0 a1 ix0 = Spec.lossR (att a0) (feat a1) := by
  unfold HandRun.result res_v122 res_v121 res_v120 res_cst_29 res_cst_28
  rw [addf_apply, mulf_apply, mulf_apply, constant_apply, Ideal.ofBits_one_f32, hfeat, v67_apply]
  rfl

end Cert.ReferenceIdeal.HandRead.Attn

end
-- ==== Proof.RefRead.FeatTail.lean ====
/-
  The end of the feature half of the reference read at the ideal values: from each run's representatives' count and
  mean squared feature distance to the averaged loss over the qualifying runs.
-/
import proofs.«141693_j33234456937041_2_alg».proof.Proof.RefRead.Attn

noncomputable section

namespace Cert.ReferenceIdeal.HandRead.FeatTail

open Cert.ReferenceIdeal Cert.ReferenceIdeal.Gen Cert.ReferenceIdeal.HandRun Cert.ReferenceIdeal.HandRead
open Cert.ReferenceIdeal.HandRead.Attn
open Idealize.ShloMosaic Idealize.ShloMosaic.ValueIdx
open RunLength RunWords
open scoped BigOperators

variable (a0 : Arg0) (a1 : Arg1)

/-- The run of a row is below 1025. -/
theorem runOf_lt (j : Fin 32800) : Spec.runOf j < 1025 := by
  unfold Spec.runOf
  omega

/-- The validity mask laid out along the long table. -/
theorem v103_apply (j : Fin 32800) :
    res_v103 (F := Ideal) a0 a1 (ix1 j) = BitVec.ofBool (decide (Spec.validR (att a0) (Spec.seqOf j) (Spec.runOf j))) := by
  unfold res_v103
  rw [shapeCast_apply (res_v57 a0 a1) shapeCasts_S32x1025_S32800 (ix1 j) (ix2 (Spec.seqOf j) (⟨Spec.runOf j, runOf_lt j⟩ : Fin 1025)) (by
    rw [Shape.rowMajor_val_one, Shape.rowMajor_val_two]
    show j.val / 1025 * 1025 + j.val % 1025 = j.val
    omega)]
  rw [Attn.v57_apply]
  exact congrArg BitVec.ofBool (decide_eq_decide.mpr Iff.rfl)

/-- A run has a representative. -/
theorem v105_apply (h90 : ∀ j : Fin 32800, res_v90 (F := Ideal) a0 a1 (ix1 j) = Spec.rcnt (att a0) (Spec.seqOf j) (Spec.runOf j))
    (j : Fin 32800) :
    res_v105 (F := Ideal) a0 a1 (ix1 j) = BitVec.ofBool (decide ((0 : EReal) < Spec.rcnt (att a0) (Spec.seqOf j) (Spec.runOf j))) := by
  unfold res_v105 res_v104 res_cst_22
  rw [cmpf_apply, broadcastInDim_scalar_apply, constant_apply, Ideal.ofBits_zero_f32, h90]
  generalize Spec.rcnt (att a0) (Spec.seqOf j) (Spec.runOf j) = y
  rfl

/-- A run qualifies when it is real and has a representative. -/
theorem v106_apply (h90 : ∀ j : Fin 32800, res_v90 (F := Ideal) a0 a1 (ix1 j) = Spec.rcnt (att a0) (Spec.seqOf j) (Spec.runOf j))
    (j : Fin 32800) : res_v106 (F := Ideal) a0 a1 (ix1 j) = BitVec.ofBool (decide (Spec.qualR (att a0) j)) := by
  unfold res_v106
  show (res_v103 a0 a1 (ix1 j)) &&& (res_v105 a0 a1 (ix1 j)) = _
  rw [v103_apply, v105_apply a0 a1 h90 j, and_word, ← Bool.decide_and]
  exact congrArg BitVec.ofBool (decide_eq_decide.mpr Iff.rfl)

/-- The qualifying runs, counted in a word. -/
theorem v113_apply (h90 : ∀ j : Fin 32800, res_v90 (F := Ideal) a0 a1 (ix1 j) = Spec.rcnt (att a0) (Spec.seqOf j) (Spec.runOf j)) :
    res_v113 (F := Ideal) a0 a1 ix0 = BitVec.ofNat 32 (Spec.nqual (att a0)) := by
  unfold res_v113 res_c_25 res_v112
  rw [Host.reduce_eq_fold IntOp.addi _ _ reducesTo_S32800_S_d0 h_S_ ix0,
    Finset.filter_true_of_mem (fun i _ => funext fun b => b.elim0)]
  refine (fold_add_eq_sum _ _ _).trans ?_
  show (0#32 : BitVec 32) + _ = _
  rw [BitVec.zero_add, attn_sum_idx1]
  have hs : ∑ j : Fin 32800, extui 32 (res_v106 (F := Ideal) a0 a1) natLt_1_32 (ix1 j)
      = ∑ j : Fin 32800, w1 (decide (Spec.qualR (att a0) j)) :=
    Finset.sum_congr rfl fun j _ => by
      show (res_v106 a0 a1 (ix1 j)).setWidth 32 = _
      rw [v106_apply a0 a1 h90 j]
      rfl
  rw [hs, count_word]
  unfold Spec.nqual
  refine congrArg (BitVec.ofNat 32) (Finset.sum_congr rfl fun j _ => ?_)
  exact if_congr (decide_eq_true_iff (p := Spec.qualR (att a0) j)) rfl rfl

theorem nqual_le (a : Fin 32 → Fin 2048 → EReal) : Spec.nqual a ≤ 32800 := by
  have h := count_le_card (fun j : Fin 32800 => decide (Spec.qualR a j))
  rw [Fintype.card_fin] at h
  unfold Spec.nqual
  refine le_trans (le_of_eq (Finset.sum_congr rfl fun j _ => ?_)) h
  exact (if_congr (decide_eq_true_iff (p := Spec.qualR a j)) rfl rfl).symm

/-- The number of qualifying runs, at least one, as a float. -/
theorem v118_apply (h90 : ∀ j : Fin 32800, res_v90 (F := Ideal) a0 a1 (ix1 j) = Spec.rcnt (att a0) (Spec.seqOf j) (Spec.runOf j)) :
    res_v118 (F := Ideal) a0 a1 ix0 = (((max (Spec.nqual (att a0)) 1 : ℕ) : ℝ) : EReal) := by
  have hn := nqual_le (att a0)
  have h117 : res_v117 (F := Ideal) a0 a1 ix0 = BitVec.ofNat 32 (max (Spec.nqual (att a0)) 1) := by
    unfold res_v117 res_c_27
    show IntOp.maxsi (res_v113 a0 a1 ix0) (constantI S_ 32 1#32 ix0) = _
    rw [v113_apply a0 a1 h90]
    exact maxsi_one _ (by omega)
  unfold res_v118
  rw [sitofp_apply, h117]
  show (((BitVec.ofNat 32 (max (Spec.nqual (att a0)) 1)).toInt : ℝ) : EReal) = _
  rw [toInt_ofNat_small _ (by omega), Int.cast_natCast]

/-- The feature half of the loss, from each run's representatives' count and mean squared feature distance. -/
theorem v119_of (h90 : ∀ j : Fin 32800, res_v90 (F := Ideal) a0 a1 (ix1 j) = Spec.rcnt (att a0) (Spec.seqOf j) (Spec.runOf j))
    (h111 : ∀ j : Fin 32800, res_v111 (F := Ideal) a0 a1 (ix1 j) = Spec.mse (att a0) (feat a1) (Spec.seqOf j) (Spec.runOf j)) :
    res_v119 (F := Ideal) a0 a1 ix0 = Spec.featLossR (att a0) (feat a1) := by
  unfold res_v119 res_v116 res_cst_26
  rw [hostDivf_apply, hostReduceAdd_apply, Ideal.hostReduceAdd_total reducesTo_S32800_S_d0 (fun b => b.elim0), constant_apply,
    Ideal.ofBits_zero_f32, zero_add, attn_sum_idx1, v118_apply a0 a1 h90]
  have hs : ∑ j : Fin 32800, res_v115 (F := Ideal) a0 a1 (ix1 j)
      = ∑ j : Fin 32800, Spec.mse (att a0) (feat a1) (Spec.seqOf j) (Spec.runOf j) * Spec.ind (Spec.qualR (att a0) j) :=
    Finset.sum_congr rfl fun j _ => by
      unfold res_v115 res_v114
      rw [mulf_apply, h111]
      refine congrArg (Spec.mse (att a0) (feat a1) (Spec.seqOf j) (Spec.runOf j) * ·) ?_
      show FloatOps.uitofp (F := Ideal) .f32 (res_v106 a0 a1 (ix1 j)) = _
      rw [v106_apply a0 a1 h90 j, uitofp_ofBool]
      unfold Spec.ind
      exact if_congr (decide_eq_true_iff (p := Spec.qualR (att a0) j)) rfl rfl
  rw [hs]
  rfl

end Cert.ReferenceIdeal.HandRead.FeatTail

end
-- ==== Proof.RefRead.Cnt.lean ====
/-
  The reference's run counts, read at an index at the ideal values.

  The proposal mask as a float (one inside a proposal, zero outside) is scattered, position by position, into the
  bucket "sequence · 1025 + run number − 1" of a table of 32801 rows whose last row collects the positions outside
  every proposal.  Row `j < 32800` of the result is therefore the number of steps of run `j % 1025` of sequence
  `j / 1025`, and its maximum with one is the divisor the specification uses.
-/
import proofs.«141693_j33234456937041_2_alg».proof.Proof.RefRead.Words
import proofs.«141693_j33234456937041_2_alg».proof.Proof.LibBuckets
import proofs.«141693_j33234456937041_2_alg».proof.Proof.LibRowGatherScatter
import proofs.«141693_j33234456937041_2_alg».proof.Proof.SpecEq

noncomputable section

namespace Cert.ReferenceIdeal.HandRead

open Cert.ReferenceIdeal Cert.ReferenceIdeal.Gen Cert.ReferenceIdeal.HandRun Idealize.ShloMosaic Idealize.ShloMosaic.ValueIdx
open RunLength RunWords Cert.Lib

variable (a0 : Arg0) (a1 : Arg1)

/-- A one-bit word read unsigned, as an extended real, is one or zero. -/
theorem cnt_toNat_ofBool (p : Bool) : (((BitVec.ofBool p).toNat : ℝ) : EReal) = Spec.ind (p = true) := by
  cases p
  · rw [Spec.ind_false (by decide)]; simp
  · rw [Spec.ind_true rfl]; simp

/-! ## Layout reads at any size -/

/-- A vector broadcast to a column reads, at row `e`, its entry `e`. -/
theorem cnt_bcast_col {α : Type} {n : ℕ} (h : (⟨1, ![n]⟩ : Shape).BroadcastsInDim ⟨2, ![n, 1]⟩ ![0])
    (v : (⟨1, ![n]⟩ : Shape).Idx → α) (e : Fin n) :
    broadcastInDim ⟨2, ![n, 1]⟩ ![0] h v (ix2 e (0 : Fin 1)) = v (ix1 e) := by
  refine broadcastInDim_apply ![0] h v (ix2 e (0 : Fin 1)) (ix1 e) (fun a => ?_)
  match a with
  | ⟨0, _⟩ =>
    show e.val = if n = 1 then 0 else e.val
    have := e.isLt
    split <;> omega

/-- A column broadcast along rows reads, at `(e, d)`, the column's entry `e`. -/
theorem cnt_bcast_row {α : Type} {n c : ℕ}
    (h : (⟨2, ![n, 1]⟩ : Shape).BroadcastsInDim ⟨2, ![n, c]⟩ ![0, 1])
    (v : (⟨2, ![n, 1]⟩ : Shape).Idx → α) (e : Fin n) (d : Fin c) :
    broadcastInDim ⟨2, ![n, c]⟩ ![0, 1] h v (ix2 e d) = v (ix2 e (0 : Fin 1)) := by
  refine broadcastInDim_apply ![0, 1] h v (ix2 e d) (ix2 e (0 : Fin 1)) (fun a => ?_)
  match a with
  | ⟨0, _⟩ =>
    show e.val = if n = 1 then 0 else e.val
    have := e.isLt
    split <;> omega
  | ⟨1, _⟩ =>
    show (0 : ℕ) = if (1 : ℕ) = 1 then 0 else d.val
    rfl

/-- The leading rows of a vector. -/
theorem cnt_slice_vec {α : Type} {m n : ℕ} (h : (⟨1, ![m]⟩ : Shape).Slices ![0] ⟨1, ![n]⟩)
    (v : (⟨1, ![m]⟩ : Shape).Idx → α) (j : Fin n) (hj : j.val < m) :
    extractStridedSlice ⟨1, ![n]⟩ ![0] v h (ix1 j) = v (ix1 (⟨j.val, hj⟩ : Fin m)) := by
  refine extractStridedSlice_apply ![0] v h (ix1 j) (ix1 (⟨j.val, hj⟩ : Fin m)) (fun a => ?_)
  match a with
  | ⟨0, _⟩ =>
    show j.val = 0 + j.val
    omega

/-- The leading rows of a two-axis array. -/
theorem cnt_slice_rows {α : Type} {m n c : ℕ} (h : (⟨2, ![m, c]⟩ : Shape).Slices ![0, 0] ⟨2, ![n, c]⟩)
    (v : (⟨2, ![m, c]⟩ : Shape).Idx → α) (j : Fin n) (d : Fin c) (hj : j.val < m) :
    extractStridedSlice ⟨2, ![n, c]⟩ ![0, 0] v h (ix2 j d) = v (ix2 (⟨j.val, hj⟩ : Fin m) d) := by
  refine extractStridedSlice_apply ![0, 0] v h (ix2 j d) (ix2 (⟨j.val, hj⟩ : Fin m) d) (fun a => ?_)
  match a with
  | ⟨0, _⟩ =>
    show j.val = 0 + j.val
    omega
  | ⟨1, _⟩ =>
    show d.val = 0 + d.val
    omega

/-! ## The count table -/

/-- The proposal mask as a float. -/
theorem v19_apply (b : Fin 32) (t : Fin 2048) :
    res_v19 (F := Ideal) a0 a1 (ix2 b t) = Spec.ind (Spec.P (att a0) b t = true) := by
  unfold res_v19
  show (((res_v2 a0 a1 (ix2 b t)).toNat : ℝ) : EReal) = _
  rw [v2_apply, cnt_toNat_ofBool]

/-- The proposal mask as a float, flattened. -/
theorem v20_apply (b : Fin 32) (t : Fin 2048) :
    res_v20 (F := Ideal) a0 a1 (ix1 (flat b t)) = Spec.ind (Spec.P (att a0) b t = true) := by
  unfold res_v20
  rw [flatten_apply, v19_apply]

/-- The attention, flattened. -/
theorem v21_apply (b : Fin 32) (t : Fin 2048) :
    res_v21 (F := Ideal) a0 a1 (ix1 (flat b t)) = att a0 b t := by
  unfold res_v21
  rw [flatten_apply, v0_apply]

/-- The table the counts are scattered into starts at zero. -/
theorem v22_apply (n : Fin 32801) : res_v22 (F := Ideal) a0 a1 (ix1 n) = 0 := by
  unfold res_v22 res_cst_3
  rw [broadcastInDim_scalar_apply, constant_apply, Ideal.ofBits_zero_f32]

/-- The bucket words as a column. -/
theorem v23_apply (e : Fin 65536) :
    res_v23 (F := Ideal) a0 a1 (ix2 e (0 : Fin 1)) = res_v18 a0 a1 (ix1 e) := by
  unfold res_v23
  exact cnt_bcast_col bcast_S65536_S65536x1_0 (res_v18 a0 a1) e

/-- The bucket word of position `(b, t)`, as the scatter reads it. -/
theorem cnt_v23_flat (b : Fin 32) (t : Fin 2048) :
    res_v23 (F := Ideal) a0 a1 (ix2 (flat b t) (0 : Fin 1))
      = if Spec.P (att a0) b t = true
          then BitVec.ofNat 32 b.val * 1025#32 + (BitVec.ofNat 32 (Spec.rank (att a0) b t) - 1#32)
          else 32800#32 := by
  rw [v23_apply]
  exact v18_apply a0 a1 b t

/-- A row of the scattered table is the sum of the mask over the positions that land on it. -/
theorem v24_apply (n : Fin 32801) :
    res_v24 (F := Ideal) a0 a1 (ix1 n)
      = ∑ e ∈ hits (res_v23 (F := Ideal) a0 a1) n.val, res_v20 (F := Ideal) a0 a1 (ix1 e) := by
  unfold res_v24
  rw [scatterAdd_vec_apply _ rfl rfl rfl rfl, v22_apply, zero_add]

/-- Dropping the last row of the table. -/
theorem cnt_v25_slice (j : Fin 32800) :
    res_v25 (F := Ideal) a0 a1 (ix1 j) = res_v24 a0 a1 (ix1 (⟨j.val, by omega⟩ : Fin 32801)) := by
  unfold res_v25
  exact cnt_slice_vec slices_S32801_S32800_0 (res_v24 a0 a1) j (by omega)

/-- Row `j` of the count table is the count of run `j % 1025` of sequence `j / 1025`. -/
theorem v25_apply (j : Fin 32800) :
    res_v25 (F := Ideal) a0 a1 (ix1 j) = Spec.cnt (att a0) (Spec.seqOf j) (Spec.runOf j) := by
  rw [cnt_v25_slice, v24_apply]
  have hs := Cert.Buckets.sum_hits_bucket_ind (res_v23 (F := Ideal) a0 a1) (Spec.P (att a0))
    (Spec.rank (att a0)) (rank_le (att a0)) (rank_pos_of_P (att a0)) (cnt_v23_flat a0 a1) j
    (fun e => res_v20 (F := Ideal) a0 a1 (ix1 e))
  refine hs.trans ?_
  unfold Spec.cnt
  refine Finset.sum_congr rfl (fun t _ => ?_)
  show _ * res_v20 (F := Ideal) a0 a1 (ix1 (flat (Spec.seqOf j) t)) = _
  rw [v20_apply]
  by_cases h : Spec.In (att a0) (Spec.seqOf j) (Spec.runOf j) t
  · have h1 : Spec.ind (Spec.P (att a0) (Spec.seqOf j) t = true
        ∧ Spec.rank (att a0) (Spec.seqOf j) t = Spec.runOf j + 1) = 1 := Spec.ind_true h
    rw [h1, Spec.ind_true h.1, Spec.ind_true h, one_mul]
  · have h1 : Spec.ind (Spec.P (att a0) (Spec.seqOf j) t = true
        ∧ Spec.rank (att a0) (Spec.seqOf j) t = Spec.runOf j + 1) = 0 := Spec.ind_false h
    rw [h1, Spec.ind_false h, zero_mul]

/-- The constant one, broadcast. -/
theorem v26_apply (j : Fin 32800) : res_v26 (F := Ideal) a0 a1 (ix1 j) = 1 := by
  unfold res_v26 res_cst_4
  rw [broadcastInDim_scalar_apply, constant_apply, Ideal.ofBits_one_f32]

/-- The divisor of a row: its count, or one for an empty row. -/
theorem v27_apply (j : Fin 32800) :
    res_v27 (F := Ideal) a0 a1 (ix1 j) = Spec.scnt (att a0) (Spec.seqOf j) (Spec.runOf j) := by
  unfold res_v27
  rw [maximumf_apply, v25_apply, v26_apply]
  rfl

end Cert.ReferenceIdeal.HandRead

end
-- ==== Proof.LibEdgeSum.lean ====
/-
  Scaling a sum of extended reals by a nonnegative real, and a sum over a list that is two lists end to end.

  On the extended reals multiplication does not distribute over addition in general (∞ − ∞), but a factor that is a
  nonnegative real does. That is all a degree-normalised neighbourhood sum needs: with d the (real, nonnegative) scaling
  of the receiving node,
      d · ( (0 + Σ_e h_e · d_e) + h_n · d )  =  0 + ( Σ_e h_e · (d_e · d)  +  h_n · (d · d) ),
  whatever extended reals the features h are.
-/
import Mathlib.Data.EReal.Inv
import Mathlib.Algebra.BigOperators.Fin

namespace Cert.Lib

open scoped BigOperators

/-- A nonnegative real factor distributes over a finite sum of extended reals. -/
theorem coe_mul_sum {ι : Type*} (r : ℝ) (hr : 0 ≤ r) (s : Finset ι) (a : ι → EReal) :
    (r : EReal) * ∑ e ∈ s, a e = ∑ e ∈ s, (r : EReal) * a e := by
  classical
  induction s using Finset.induction_on with
  | empty => simp
  | insert x s hx ih =>
    rw [Finset.sum_insert hx, Finset.sum_insert hx,
      EReal.left_distrib_of_nonneg_of_ne_top (EReal.coe_nonneg.mpr hr) (EReal.coe_ne_top r), ih]

/-- The normalised neighbourhood sum, scaled on the outside by the receiving node's factor or edge by edge by the
    product of the two ends' factors: one value. -/
theorem scale_neighbourhood {ι : Type*} (r : ℝ) (hr : 0 ≤ r) (s : Finset ι) (h d : ι → EReal) (hn : EReal) :
    (r : EReal) * ((0 + ∑ e ∈ s, h e * d e) + hn * (r : EReal))
      = 0 + (∑ e ∈ s, h e * (d e * (r : EReal)) + hn * ((r : EReal) * (r : EReal))) := by
  rw [zero_add, zero_add,
    EReal.left_distrib_of_nonneg_of_ne_top (EReal.coe_nonneg.mpr hr) (EReal.coe_ne_top r), coe_mul_sum r hr]
  congr 1
  · exact Finset.sum_congr rfl fun e _ => by rw [mul_comm (r : EReal), mul_assoc]
  · rw [mul_comm (r : EReal), mul_assoc]

/-- A sum over the positions of a list of a + b entries selected by a predicate, when on the last b entries the
    predicate picks exactly position `n`: the selected part of the first a entries, plus the entry at a + n. -/
theorem sum_filter_append {M : Type*} [AddCommMonoid M] {a b : ℕ} (p : Fin (a + b) → Prop) [DecidablePred p]
    (f : Fin (a + b) → M) (n : Fin b) (hp : ∀ i : Fin b, p (Fin.natAdd a i) ↔ i = n) :
    ∑ e ∈ Finset.univ.filter p, f e
      = ∑ e ∈ Finset.univ.filter (fun e : Fin a => p (Fin.castAdd b e)), f (Fin.castAdd b e) + f (Fin.natAdd a n) := by
  classical
  rw [Finset.sum_filter, Fin.sum_univ_add, Finset.sum_filter]
  congr 1
  rw [Finset.sum_congr rfl (fun i _ => by rw [if_congr (hp i) rfl rfl] : ∀ i ∈ Finset.univ,
    (if p (Fin.natAdd a i) then f (Fin.natAdd a i) else 0) = if i = n then f (Fin.natAdd a i) else 0)]
  rw [Finset.sum_ite_eq' Finset.univ n]
  simp

/-- The same over a list of c = a + b entries whose first a and last b positions are named by two embeddings. -/
theorem sum_filter_split {M : Type*} [AddCommMonoid M] {a b c : ℕ} (hc : a + b = c) (p : Fin c → Prop) [DecidablePred p]
    (f : Fin c → M) (n : Fin b) (L : Fin a → Fin c) (R : Fin b → Fin c) (hL : ∀ e, (L e).val = e.val)
    (hR : ∀ i, (R i).val = a + i.val) (hp : ∀ i : Fin b, p (R i) ↔ i = n) :
    ∑ e ∈ Finset.univ.filter p, f e = ∑ e ∈ Finset.univ.filter (fun e : Fin a => p (L e)), f (L e) + f (R n) := by
  subst hc
  obtain rfl : L = Fin.castAdd b := funext fun e => Fin.ext (hL e)
  obtain rfl : R = Fin.natAdd a := funext fun i => Fin.ext (hR i)
  exact sum_filter_append p f n hp

/-- A sum of ones over a finite set is its size. -/
theorem sum_one {ι : Type*} (s : Finset ι) : ∑ _e ∈ s, (1 : EReal) = ((s.card : ℝ) : EReal) := by
  classical
  induction s using Finset.induction_on with
  | empty => simp
  | insert x s hx ih =>
    rw [Finset.sum_insert hx, Finset.card_insert_of_notMem hx, ih, Nat.cast_succ, EReal.coe_add, EReal.coe_one, add_comm]

end Cert.Lib
-- ==== Proof.RefRead.Feat.lean ====
/-
  The feature half of the reference's loss, read at an index at the ideal values.

  Per run (row `j` of a table of 32800 rows: run `j % 1025` of sequence `j / 1025`) the reference scatters the
  masked feature rows into the run's bucket, once with the proposal mask and once with the representatives' mask,
  divides each by its count (or by one for an empty row), takes the mean over the 512 features of the squared
  difference, keeps the rows that are runs with a representative, adds them up and divides by their number (or by
  one).  Each buffer of that chain is read here as the corresponding quantity of the specification.
-/
import proofs.«141693_j33234456937041_2_alg».proof.Proof.RefRead.Cnt
import proofs.«141693_j33234456937041_2_alg».proof.Proof.LibEdgeSum
import Idealize.ShloMosaic.PureOps.Ideal.Laws

noncomputable section

namespace Cert.ReferenceIdeal.HandRead

open Cert.ReferenceIdeal Cert.ReferenceIdeal.Gen Cert.ReferenceIdeal.HandRun Idealize.ShloMosaic Idealize.ShloMosaic.ValueIdx
open RunLength RunWords Cert.Lib

variable (a0 : Arg0) (a1 : Arg1)

/-! ## The masked feature rows and their bucket sums -/

/-- The representatives' mask as a float. -/
theorem v74_apply (b : Fin 32) (t : Fin 2048) :
    res_v74 (F := Ideal) a0 a1 (ix2 b t) = Spec.ind (Spec.M (att a0) b t = true) := by
  unfold res_v74
  show (((res_v71 a0 a1 (ix2 b t)).toNat : ℝ) : EReal) = _
  rw [v71_apply, cnt_toNat_ofBool]

/-- The representatives' mask as a float, flattened. -/
theorem v75_apply (b : Fin 32) (t : Fin 2048) :
    res_v75 (F := Ideal) a0 a1 (ix1 (flat b t)) = Spec.ind (Spec.M (att a0) b t = true) := by
  unfold res_v75
  rw [flatten_apply, v74_apply]

/-- The feature array with its two leading axes flattened. -/
theorem v76_apply (b : Fin 32) (t : Fin 2048) (d : Fin 512) :
    res_v76 (F := Ideal) a0 a1 (ix2 (flat b t) d) = feat a1 b t d := by
  unfold res_v76
  refine shapeCast_apply a1 _ (ix2 (flat b t) d) (ix3 b t d) ?_
  rw [Shape.rowMajor_val_three, Shape.rowMajor_val_two]
  rfl

/-- The proposal mask as a column. -/
theorem v77_apply (e : Fin 65536) :
    res_v77 (F := Ideal) a0 a1 (ix2 e (0 : Fin 1)) = res_v20 a0 a1 (ix1 e) := by
  unfold res_v77
  exact cnt_bcast_col bcast_S65536_S65536x1_0 (res_v20 a0 a1) e

/-- The proposal mask along every feature. -/
theorem v78_apply (e : Fin 65536) (d : Fin 512) :
    res_v78 (F := Ideal) a0 a1 (ix2 e d) = res_v20 a0 a1 (ix1 e) := by
  unfold res_v78
  rw [cnt_bcast_row bcast_S65536x1_S65536x512_0_1 (res_v77 a0 a1) e d, v77_apply]

/-- The feature rows masked by the proposal mask. -/
theorem v79_apply (b : Fin 32) (t : Fin 2048) (d : Fin 512) :
    res_v79 (F := Ideal) a0 a1 (ix2 (flat b t) d)
      = feat a1 b t d * Spec.ind (Spec.P (att a0) b t = true) := by
  unfold res_v79
  rw [mulf_apply, v76_apply, v78_apply, v20_apply]

/-- The table the feature rows are scattered into starts at zero. -/
theorem v80_apply (n : Fin 32801) (d : Fin 512) : res_v80 (F := Ideal) a0 a1 (ix2 n d) = 0 := by
  unfold res_v80 res_cst_18
  rw [broadcastInDim_scalar_apply, constant_apply, Ideal.ofBits_zero_f32]

/-- The bucket word of position `(b, t)`, as the feature scatter reads it. -/
theorem v81_apply (b : Fin 32) (t : Fin 2048) :
    res_v81 (F := Ideal) a0 a1 (ix2 (flat b t) (0 : Fin 1))
      = if Spec.P (att a0) b t = true
          then BitVec.ofNat 32 b.val * 1025#32 + (BitVec.ofNat 32 (Spec.rank (att a0) b t) - 1#32)
          else 32800#32 :=
  cnt_v23_flat a0 a1 b t

/-- A row of the scattered feature table is the sum of the masked feature rows that land on it. -/
theorem v82_apply (n : Fin 32801) (d : Fin 512) :
    res_v82 (F := Ideal) a0 a1 (ix2 n d)
      = ∑ e ∈ hits (res_v81 (F := Ideal) a0 a1) n.val, res_v79 (F := Ideal) a0 a1 (ix2 e d) := by
  unfold res_v82
  rw [scatterAdd_rows_apply _ rfl rfl rfl rfl, v80_apply, zero_add]

/-- A zero/one factor that is implied by membership in the run may be dropped. -/
theorem feat_ind_absorb {q p : Prop} [Decidable q] [Decidable p] (hqp : q → p) (y : EReal) :
    Spec.ind q * (y * Spec.ind p) = Spec.ind q * y := by
  by_cases hq : q
  · rw [Spec.ind_true (hqp hq), mul_one]
  · rw [Spec.ind_false hq, zero_mul, zero_mul]

/-- Row `j` of the feature table is the run's feature sum. -/
theorem v83_apply (j : Fin 32800) (d : Fin 512) :
    res_v83 (F := Ideal) a0 a1 (ix2 j d)
      = Spec.fm (att a0) (feat a1) (Spec.seqOf j) (Spec.runOf j) d := by
  unfold res_v83
  rw [cnt_slice_rows slices_S32801x512_S32800x512_0_0 (res_v82 a0 a1) j d (by omega), v82_apply]
  have hs := Cert.Buckets.sum_hits_bucket_ind (res_v81 (F := Ideal) a0 a1) (Spec.P (att a0))
    (Spec.rank (att a0)) (rank_le (att a0)) (rank_pos_of_P (att a0)) (v81_apply a0 a1) j
    (fun e => res_v79 (F := Ideal) a0 a1 (ix2 e d))
  refine hs.trans ?_
  unfold Spec.fm
  refine Finset.sum_congr rfl (fun t _ => ?_)
  show _ * res_v79 (F := Ideal) a0 a1 (ix2 (flat (Spec.seqOf j) t) d) = _
  rw [v79_apply]
  exact feat_ind_absorb (fun h => h.1) _

/-- The divisor of a row as a column. -/
theorem v84_apply (j : Fin 32800) :
    res_v84 (F := Ideal) a0 a1 (ix2 j (0 : Fin 1))
      = Spec.scnt (att a0) (Spec.seqOf j) (Spec.runOf j) := by
  unfold res_v84
  rw [cnt_bcast_col bcast_S32800_S32800x1_0 (res_v27 a0 a1) j, v27_apply]

/-- The divisor of a row along every feature. -/
theorem v85_apply (j : Fin 32800) (d : Fin 512) :
    res_v85 (F := Ideal) a0 a1 (ix2 j d) = Spec.scnt (att a0) (Spec.seqOf j) (Spec.runOf j) := by
  unfold res_v85
  rw [cnt_bcast_row bcast_S32800x1_S32800x512_0_1 (res_v84 a0 a1) j d, v84_apply]

/-- The run's mean feature row. -/
theorem v86_apply (j : Fin 32800) (d : Fin 512) :
    res_v86 (F := Ideal) a0 a1 (ix2 j d)
      = Ideal.div (Spec.fm (att a0) (feat a1) (Spec.seqOf j) (Spec.runOf j) d)
          (Spec.scnt (att a0) (Spec.seqOf j) (Spec.runOf j)) := by
  unfold res_v86
  rw [hostDivf_apply, v83_apply, v85_apply]

/-! ## The representatives' count and feature sums -/

/-- The table the representatives' counts are scattered into starts at zero. -/
theorem v87_apply (n : Fin 32801) : res_v87 (F := Ideal) a0 a1 (ix1 n) = 0 := by
  unfold res_v87 res_cst_19
  rw [broadcastInDim_scalar_apply, constant_apply, Ideal.ofBits_zero_f32]

/-- The representatives' bucket word of position `(b, t)`, as the scatter reads it. -/
theorem v88_apply (b : Fin 32) (t : Fin 2048) :
    res_v88 (F := Ideal) a0 a1 (ix2 (flat b t) (0 : Fin 1))
      = if Spec.M (att a0) b t = true
          then BitVec.ofNat 32 b.val * 1025#32 + (BitVec.ofNat 32 (Spec.rank (att a0) b t) - 1#32)
          else 32800#32 := by
  unfold res_v88
  rw [cnt_bcast_col bcast_S65536_S65536x1_0 (res_v73 a0 a1) (flat b t)]
  exact v73_apply a0 a1 b t

/-- A row of the scattered table is the sum of the representatives' mask over the positions that land on it. -/
theorem v89_apply (n : Fin 32801) :
    res_v89 (F := Ideal) a0 a1 (ix1 n)
      = ∑ e ∈ hits (res_v88 (F := Ideal) a0 a1) n.val, res_v75 (F := Ideal) a0 a1 (ix1 e) := by
  unfold res_v89
  rw [scatterAdd_vec_apply _ rfl rfl rfl rfl, v87_apply, zero_add]

/-- A zero/one factor that is implied by membership in the run may be dropped. -/
theorem feat_ind_absorb' {q p : Prop} [Decidable q] [Decidable p] (hqp : q → p) :
    Spec.ind q * Spec.ind p = Spec.ind q := by
  by_cases hq : q
  · rw [Spec.ind_true (hqp hq), mul_one]
  · rw [Spec.ind_false hq, zero_mul]

/-- Row `j` of the table is the number of representatives of the run. -/
theorem v90_apply (j : Fin 32800) :
    res_v90 (F := Ideal) a0 a1 (ix1 j) = Spec.rcnt (att a0) (Spec.seqOf j) (Spec.runOf j) := by
  unfold res_v90
  rw [cnt_slice_vec slices_S32801_S32800_0 (res_v89 a0 a1) j (by omega), v89_apply]
  have hs := Cert.Buckets.sum_hits_bucket_ind (res_v88 (F := Ideal) a0 a1) (Spec.M (att a0))
    (Spec.rank (att a0)) (rank_le (att a0)) (rank_pos_of_M (att a0)) (v88_apply a0 a1) j
    (fun e => res_v75 (F := Ideal) a0 a1 (ix1 e))
  refine hs.trans ?_
  unfold Spec.rcnt
  refine Finset.sum_congr rfl (fun t _ => ?_)
  show _ * res_v75 (F := Ideal) a0 a1 (ix1 (flat (Spec.seqOf j) t)) = _
  rw [v75_apply]
  exact feat_ind_absorb' (fun h => h.1)

/-- The representatives' mask as a column. -/
theorem v91_apply (e : Fin 65536) :
    res_v91 (F := Ideal) a0 a1 (ix2 e (0 : Fin 1)) = res_v75 a0 a1 (ix1 e) := by
  unfold res_v91
  exact cnt_bcast_col bcast_S65536_S65536x1_0 (res_v75 a0 a1) e

/-- The representatives' mask along every feature. -/
theorem v92_apply (e : Fin 65536) (d : Fin 512) :
    res_v92 (F := Ideal) a0 a1 (ix2 e d) = res_v75 a0 a1 (ix1 e) := by
  unfold res_v92
  rw [cnt_bcast_row bcast_S65536x1_S65536x512_0_1 (res_v91 a0 a1) e d, v91_apply]

/-- The feature rows masked by the representatives' mask. -/
theorem v93_apply (b : Fin 32) (t : Fin 2048) (d : Fin 512) :
    res_v93 (F := Ideal) a0 a1 (ix2 (flat b t) d)
      = feat a1 b t d * Spec.ind (Spec.M (att a0) b t = true) := by
  unfold res_v93
  rw [mulf_apply, v76_apply, v92_apply, v75_apply]

/-- The table the representatives' feature rows are scattered into starts at zero. -/
theorem v94_apply (n : Fin 32801) (d : Fin 512) : res_v94 (F := Ideal) a0 a1 (ix2 n d) = 0 := by
  unfold res_v94 res_cst_20
  rw [broadcastInDim_scalar_apply, constant_apply, Ideal.ofBits_zero_f32]

/-- The representatives' bucket word of position `(b, t)`, as the feature scatter reads it. -/
theorem v95_apply (b : Fin 32) (t : Fin 2048) :
    res_v95 (F := Ideal) a0 a1 (ix2 (flat b t) (0 : Fin 1))
      = if Spec.M (att a0) b t = true
          then BitVec.ofNat 32 b.val * 1025#32 + (BitVec.ofNat 32 (Spec.rank (att a0) b t) - 1#32)
          else 32800#32 :=
  v88_apply a0 a1 b t

/-- A row of the scattered table is the sum of the representatives' feature rows that land on it. -/
theorem v96_apply (n : Fin 32801) (d : Fin 512) :
    res_v96 (F := Ideal) a0 a1 (ix2 n d)
      = ∑ e ∈ hits (res_v95 (F := Ideal) a0 a1) n.val, res_v93 (F := Ideal) a0 a1 (ix2 e d) := by
  unfold res_v96
  rw [scatterAdd_rows_apply _ rfl rfl rfl rfl, v94_apply, zero_add]

/-- Row `j` of the table is the run's representatives' feature sum. -/
theorem v97_apply (j : Fin 32800) (d : Fin 512) :
    res_v97 (F := Ideal) a0 a1 (ix2 j d)
      = Spec.rm (att a0) (feat a1) (Spec.seqOf j) (Spec.runOf j) d := by
  unfold res_v97
  rw [cnt_slice_rows slices_S32801x512_S32800x512_0_0 (res_v96 a0 a1) j d (by omega), v96_apply]
  have hs := Cert.Buckets.sum_hits_bucket_ind (res_v95 (F := Ideal) a0 a1) (Spec.M (att a0))
    (Spec.rank (att a0)) (rank_le (att a0)) (rank_pos_of_M (att a0)) (v95_apply a0 a1) j
    (fun e => res_v93 (F := Ideal) a0 a1 (ix2 e d))
  refine hs.trans ?_
  unfold Spec.rm
  refine Finset.sum_congr rfl (fun t _ => ?_)
  show _ * res_v93 (F := Ideal) a0 a1 (ix2 (flat (Spec.seqOf j) t) d) = _
  rw [v93_apply]
  exact feat_ind_absorb (fun h => h.1) _

/-- The constant one, broadcast. -/
theorem v98_apply (j : Fin 32800) : res_v98 (F := Ideal) a0 a1 (ix1 j) = 1 := by
  unfold res_v98 res_cst_21
  rw [broadcastInDim_scalar_apply, constant_apply, Ideal.ofBits_one_f32]

/-- The representatives' divisor of a row: their count, or one if there are none. -/
theorem v99_apply (j : Fin 32800) :
    res_v99 (F := Ideal) a0 a1 (ix1 j) = Spec.srcnt (att a0) (Spec.seqOf j) (Spec.runOf j) := by
  unfold res_v99
  rw [maximumf_apply, v90_apply, v98_apply]
  rfl

/-- The representatives' divisor as a column. -/
theorem v100_apply (j : Fin 32800) :
    res_v100 (F := Ideal) a0 a1 (ix2 j (0 : Fin 1))
      = Spec.srcnt (att a0) (Spec.seqOf j) (Spec.runOf j) := by
  unfold res_v100
  rw [cnt_bcast_col bcast_S32800_S32800x1_0 (res_v99 a0 a1) j, v99_apply]

/-- The representatives' divisor along every feature. -/
theorem v101_apply (j : Fin 32800) (d : Fin 512) :
    res_v101 (F := Ideal) a0 a1 (ix2 j d) = Spec.srcnt (att a0) (Spec.seqOf j) (Spec.runOf j) := by
  unfold res_v101
  rw [cnt_bcast_row bcast_S32800x1_S32800x512_0_1 (res_v100 a0 a1) j d, v100_apply]

/-- The representatives' mean feature row. -/
theorem v102_apply (j : Fin 32800) (d : Fin 512) :
    res_v102 (F := Ideal) a0 a1 (ix2 j d)
      = Ideal.div (Spec.rm (att a0) (feat a1) (Spec.seqOf j) (Spec.runOf j) d)
          (Spec.srcnt (att a0) (Spec.seqOf j) (Spec.runOf j)) := by
  unfold res_v102
  rw [hostDivf_apply, v97_apply, v101_apply]

/-! ## The mean squared difference -/

/-- The difference of the two mean feature rows. -/
theorem v107_apply (j : Fin 32800) (d : Fin 512) :
    res_v107 (F := Ideal) a0 a1 (ix2 j d)
      = Spec.dmean (att a0) (feat a1) (Spec.seqOf j) (Spec.runOf j) d := by
  unfold res_v107
  rw [subf_apply, v86_apply, v102_apply]
  rfl

/-- Its square. -/
theorem v108_apply (j : Fin 32800) (d : Fin 512) :
    res_v108 (F := Ideal) a0 a1 (ix2 j d)
      = Spec.dmean (att a0) (feat a1) (Spec.seqOf j) (Spec.runOf j) d
        * Spec.dmean (att a0) (feat a1) (Spec.seqOf j) (Spec.runOf j) d := by
  unfold res_v108
  rw [mulf_apply, v107_apply]

/-- The sum over the 512 features of the squared difference. -/
theorem v109_apply (j : Fin 32800) :
    res_v109 (F := Ideal) a0 a1 (ix1 j)
      = ∑ d : Fin 512, Spec.dmean (att a0) (feat a1) (Spec.seqOf j) (Spec.runOf j) d
          * Spec.dmean (att a0) (feat a1) (Spec.seqOf j) (Spec.runOf j) d := by
  unfold res_v109 res_cst_23
  have hr : S32800x512.Reduces [1] S32800 := by decide
  rw [hostReduceAdd_apply,
    Ideal.hostReduceAdd_single reducesTo_S32800x512_S32800_d1 hr _ _ (ix1 j), constant_apply,
    Ideal.ofBits_zero_f32, zero_add]
  refine Finset.sum_congr rfl (fun d _ => ?_)
  have hl : hr.lift (ix1 j) d = ix2 j d := by
    funext c
    match c with
    | ⟨0, _⟩ => exact Fin.ext (by rw [hr.lift_val]; rfl)
    | ⟨1, _⟩ => exact Fin.ext (by rw [hr.lift_val]; rfl)
  rw [hl]
  exact v108_apply a0 a1 j d

/-- The constant 512, broadcast, left as the binary value the program spells. -/
theorem v110_apply (j : Fin 32800) :
    res_v110 (F := Ideal) a0 a1 (ix1 j) = Ideal.ofBits .f32 0x44000000#32 := by
  unfold res_v110 res_cst_24
  rw [broadcastInDim_scalar_apply, constant_apply]

/-- The mean over the 512 features of the squared difference of the two mean feature rows. -/
theorem v111_apply (j : Fin 32800) :
    res_v111 (F := Ideal) a0 a1 (ix1 j)
      = Spec.mse (att a0) (feat a1) (Spec.seqOf j) (Spec.runOf j) := by
  unfold res_v111
  rw [hostDivf_apply, v109_apply, v110_apply]
  rfl

end Cert.ReferenceIdeal.HandRead

end
-- ==== Proof.RefRead.lean ====
/-
  The reference's result at the ideal values is the run-length consistency loss in its second arrangement: one times the
  feature half plus one times the attention half, each read stage by stage from the two argument arrays.
-/
import proofs.«141693_j33234456937041_2_alg».proof.Proof.RefRead.FeatTail
import proofs.«141693_j33234456937041_2_alg».proof.Proof.RefRead.Feat

noncomputable section

namespace Cert.ReferenceIdeal.HandRead

open Cert.ReferenceIdeal Cert.ReferenceIdeal.HandRun Idealize.ShloMosaic Idealize.ShloMosaic.ValueIdx

/-- The reference's result, read at the ideal values, is the loss of the specification's second arrangement over the
    attention values `att a0` and the feature rows `feat a1`. -/
theorem result_eq_lossR (a0 : Arg0) (a1 : Arg1) :
    HandRun.result (F := Ideal) a0 a1 ix0 = Cert.Spec.lossR (att a0) (feat a1) :=
  Attn.result_of_feat a0 a1 (FeatTail.v119_of a0 a1 (v90_apply a0 a1) (v111_apply a0 a1))

end Cert.ReferenceIdeal.HandRead

end
-- ==== Proof.lean ====
/-
  The certificate of the run-length consistency loss kernel against its reference.

  The kernel program: host lines compute, from the attention array, the run-length bookkeeping (proposal mask, run
  starts, their running count) and two columns of bucket words; one kernel per sequence accumulates, over four chunks of
  512 time steps, six sums per table row by comparing the row number with the step's word, and reduces them to three
  numbers; host lines combine the 32 sequences' numbers into the loss.  The reference computes the same bookkeeping,
  scatters every time step into one long table of 32 · 1025 rows, and reduces that.

  * The three frames: the two kernel programs' by running the kernel body (the chunk loop by its invariant) under the
    launch theorem for a region between host lines; the reference's by running its 170 host operations in order.
  * `preserves`: the idealization drops two roundings of an exact 0/1 matrix through bf16; each is the identity at the
    ideal values.
  * `algebraic`: the kernel program's result is the first arrangement of the specification's loss (1152 rows per
    sequence, a real run recognised by a positive count, the variance as mean of squares minus squared mean clamped at
    zero); the reference's is the second (one long table, a real run recognised by its number, the two-pass variance, an
    integer count of qualifying runs); the two are equal when every input is a real, which the precondition says.
-/
import proofs.«141693_j33234456937041_2_alg».proof.Defs
import proofs.«141693_j33234456937041_2_alg».proof.Proof.Assemble
import proofs.«141693_j33234456937041_2_alg».proof.Proof.KRunFinal
import proofs.«141693_j33234456937041_2_alg».proof.Proof.RefRead

noncomputable section

namespace Cert.Proof

theorem claim : Cert.Claim :=
  Cert.Assemble.claim_of (fun m ρ => Cert.KernelIdeal.KRun.run m ρ) Cert.ReferenceIdeal.HandRead.result_eq_lossR

end Cert.Proof

end
